-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1280 : Shape := ⟨2, ![50000, 1280]⟩
abbrev S2x800000 : Shape := ⟨2, ![2, 800000]⟩
abbrev S50000 : Shape := ⟨1, ![50000]⟩
abbrev S64x1280 : Shape := ⟨2, ![64, 1280]⟩
abbrev S1280x256 : Shape := ⟨2, ![1280, 256]⟩
abbrev S256 : Shape := ⟨1, ![256]⟩
abbrev S256x256 : Shape := ⟨2, ![256, 256]⟩
abbrev S256x2752 : Shape := ⟨2, ![256, 2752]⟩
abbrev S2752 : Shape := ⟨1, ![2752]⟩
abbrev S_ : Shape := ⟨0, ![]⟩

class Facts : Prop where
  bcast_S_S50000x1280 : S_.BroadcastsInDim S50000x1280 (![] : Fin 0 → Fin S50000x1280.rank)
  reducesTo_S50000x1280_S_d0_1 : S50000x1280.ReducesTo [0, 1] S_
  h_S_ : 0 < S_.numel
  bcast_S_S64x1280 : S_.BroadcastsInDim S64x1280 (![] : Fin 0 → Fin S64x1280.rank)
  reducesTo_S64x1280_S_d0_1 : S64x1280.ReducesTo [0, 1] S_
  bcast_S_S1280x256 : S_.BroadcastsInDim S1280x256 (![] : Fin 0 → Fin S1280x256.rank)
  reducesTo_S1280x256_S_d0_1 : S1280x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2752 : S_.BroadcastsInDim S256x2752 (![] : Fin 0 → Fin S256x2752.rank)
  reducesTo_S256x2752_S_d0_1 : S256x2752.ReducesTo [0, 1] S_
  bcast_S_S2752 : S_.BroadcastsInDim S2752 (![] : Fin 0 → Fin S2752.rank)
  reducesTo_S2752_S_d0 : S2752.ReducesTo [0] S_

variable [Facts]

def fn_part5 {F : FTy → Type} [FloatOps F] (main_v83 : IVec S_ 1) (main_v84 : FVec F S2752 .f32) (main_cst_32 : FVec F S_ .f32) : IVec S_ 1 :=
  let main_v85 : FVec F S2752 .f32 := broadcastInDim S2752 ![] bcast_S_S2752 main_cst_32
  let main_v86 : IVec S2752 1 := cmpf .olt main_v84 main_v85
  let main_c_33 : IVec S_ 1 := constantI S_ 1 1#1
  let main_v87 : IVec S_ 1 := (fun x v => Host.reduce IntOp.andi x v reducesTo_S2752_S_d0 h_S_) main_v86 main_c_33
  let main_v88 : IVec S_ 1 := andi main_v83 main_v87
  main_v88

def fn_part4 {F : FTy → Type} [FloatOps F] (main_arg16 : FVec F S1280x256 .f32) (main_arg17 : FVec F S256 .f32) (main_arg18 : FVec F S256x2752 .f32) (main_arg19 : FVec F S2752 .f32) (main_v63 : IVec S_ 1) (main_v67 : IVec S_ 1) : IVec S_ 1 :=
  let main_v68 : IVec S_ 1 := andi main_v63 main_v67
  let main_v69 : FVec F S1280x256 .f32 := Host.absf main_arg16
  let main_cst_26 : FVec F S_ .f32 := constant S_ .f32 0x7F800000#32
  let main_v70 : FVec F S1280x256 .f32 := broadcastInDim S1280x256 ![] bcast_S_S1280x256 main_cst_26
  let main_v71 : IVec S1280x256 1 := cmpf .olt main_v69 main_v70
  let main_c_27 : IVec S_ 1 := constantI S_ 1 1#1
  let main_v72 : IVec S_ 1 := (fun x v => Host.reduce IntOp.andi x v reducesTo_S1280x256_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x2752 .f32 := Host.absf main_arg18
  let main_cst_30 : FVec F S_ .f32 := constant S_ .f32 0x7F800000#32
  let main_v80 : FVec F S256x2752 .f32 := broadcastInDim S256x2752 ![] bcast_S_S256x2752 main_cst_30
  let main_v81 : IVec S256x2752 1 := cmpf .olt main_v79 main_v80
  let main_c_31 : IVec S_ 1 := constantI S_ 1 1#1
  let main_v82 : IVec S_ 1 := (fun x v => Host.reduce IntOp.andi x v reducesTo_S256x2752_S_d0_1 h_S_) main_v81 main_c_31
  let main_v83 : IVec S_ 1 := andi main_v78 main_v82
  let main_v84 : FVec F S2752 .f32 := Host.absf main_arg19
  let main_cst_32 : FVec F S_ .f32 := constant S_ .f32 0x7F800000#32
  fn_part5 (F := F) main_v83 main_v84 main_cst_32

def fn_part3 {F : FTy → Type} [FloatOps F] (main_arg13 : FVec F S256 .f32) (main_arg14 : FVec F S256 .f32) (main_arg15 : FVec F S256 .f32) (main_arg16 : FVec F S1280x256 .f32) (main_arg17 : FVec F S256 .f32) (main_arg18 : FVec F S256x2752 .f32) (main_arg19 : FVec F S2752 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_v63 main_v67

def fn_part2 {F : FTy → Type} [FloatOps F] (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S1280x256 .f32) (main_arg17 : FVec F S256 .f32) (main_arg18 : FVec F S256x2752 .f32) (main_arg19 : FVec F S2752 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_arg19 main_v48 main_v49 main_v50

def fn_part1 {F : FTy → Type} [FloatOps F] (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S1280x256 .f32) (main_arg17 : FVec F S256 .f32) (main_arg18 : FVec F S256x2752 .f32) (main_arg19 : FVec F S2752 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x1280 .f32) (main_arg1 : IVec S2x800000 32) (main_arg2 : IVec S50000 32) (main_arg3 : FVec F S64x1280 .f32) (main_arg4 : FVec F S1280x256 .f32) (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S1280x256 .f32) (main_arg17 : FVec F S256 .f32) (main_arg18 : FVec F S256x2752 .f32) (main_arg19 : FVec F S2752 .f32) : IVec S_ 1 :=
  let main_v0 : FVec F S50000x1280 .f32 := Host.absf main_arg0
  let main_cst : FVec F S_ .f32 := constant S_ .f32 0x7F800000#32
  let main_v1 : FVec F S50000x1280 .f32 := broadcastInDim S50000x1280 ![] bcast_S_S50000x1280 main_cst
  let main_v2 : IVec S50000x1280 1 := cmpf .olt main_v0 main_v1
  let main_c : IVec S_ 1 := constantI S_ 1 1#1
  let main_v3 : IVec S_ 1 := (fun x v => Host.reduce IntOp.andi x v reducesTo_S50000x1280_S_d0_1 h_S_) main_v2 main_c
  let main_v4 : FVec F S64x1280 .f32 := Host.absf main_arg3
  let main_cst_0 : FVec F S_ .f32 := constant S_ .f32 0x7F800000#32
  let main_v5 : FVec F S64x1280 .f32 := broadcastInDim S64x1280 ![] bcast_S_S64x1280 main_cst_0
  let main_v6 : IVec S64x1280 1 := cmpf .olt main_v4 main_v5
  let main_c_1 : IVec S_ 1 := constantI S_ 1 1#1
  let main_v7 : IVec S_ 1 := (fun x v => Host.reduce IntOp.andi x v reducesTo_S64x1280_S_d0_1 h_S_) main_v6 main_c_1
  let main_v8 : IVec S_ 1 := andi main_v3 main_v7
  let main_v9 : FVec F S1280x256 .f32 := Host.absf main_arg4
  let main_cst_2 : FVec F S_ .f32 := constant S_ .f32 0x7F800000#32
  let main_v10 : FVec F S1280x256 .f32 := broadcastInDim S1280x256 ![] bcast_S_S1280x256 main_cst_2
  let main_v11 : IVec S1280x256 1 := cmpf .olt main_v9 main_v10
  let main_c_3 : IVec S_ 1 := constantI S_ 1 1#1
  let main_v12 : IVec S_ 1 := (fun x v => Host.reduce IntOp.andi x v reducesTo_S1280x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x1280 : Shape := ⟨2, ![50000, 1280]⟩
abbrev S2x800000 : Shape := ⟨2, ![2, 800000]⟩
abbrev S50000 : Shape := ⟨1, ![50000]⟩
abbrev S64x1280 : Shape := ⟨2, ![64, 1280]⟩
abbrev S1280x256 : Shape := ⟨2, ![1280, 256]⟩
abbrev S256 : Shape := ⟨1, ![256]⟩
abbrev S256x256 : Shape := ⟨2, ![256, 256]⟩
abbrev S256x2752 : Shape := ⟨2, ![256, 2752]⟩
abbrev S2752 : Shape := ⟨1, ![2752]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x256 : Shape := ⟨2, ![50000, 256]⟩
abbrev S2000x1280 : Shape := ⟨2, ![2000, 1280]⟩
abbrev S2000x1 : Shape := ⟨2, ![2000, 1]⟩
abbrev S2000x256 : Shape := ⟨2, ![2000, 256]⟩
abbrev S800000x256 : Shape := ⟨2, ![800000, 256]⟩
abbrev S1x256 : Shape := ⟨2, ![1, 256]⟩
abbrev S50x1x256 : Shape := ⟨3, ![50, 1, 256]⟩
abbrev S1000x256 : Shape := ⟨2, ![1000, 256]⟩
abbrev S1x1x256 : Shape := ⟨3, ![1, 1, 256]⟩
abbrev S1000x1 : Shape := ⟨2, ![1000, 1]⟩
abbrev S64x256 : Shape := ⟨2, ![64, 256]⟩
abbrev S64 : Shape := ⟨1, ![64]⟩
abbrev S64x1 : Shape := ⟨2, ![64, 1]⟩
abbrev S1x2752 : Shape := ⟨2, ![1, 2752]⟩
abbrev S64x2752 : Shape := ⟨2, ![64, 2752]⟩

abbrev nBuf : Space → Nat
  | .hbm => 196
  | .vmem => 71
  | .smem => 0
  | _ => 0

abbrev hbmTy0_0 (i : Nat) : BufTy := match i % 128 with
  | 0 => ⟨S50000x1280, .f32⟩
  | 1 => ⟨S2x800000, .i32⟩
  | 2 => ⟨S50000, .i32⟩
  | 3 => ⟨S64x1280, .f32⟩
  | 4 => ⟨S1280x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S1280x256, .f32⟩
  | 17 => ⟨S256, .f32⟩
  | 18 => ⟨S256x2752, .f32⟩
  | 19 => ⟨S2752, .f32⟩
  | 20 => ⟨S1x800000, .i32⟩
  | 21 => ⟨S800000, .i32⟩
  | 22 => ⟨S1x800000, .i32⟩
  | 23 => ⟨S800000, .i32⟩
  | 24 => ⟨S_, .f32⟩
  | 25 => ⟨S800000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S50000, .f32⟩
  | 32 => ⟨S50000, .f32⟩
  | 33 => ⟨S50000, .f32⟩
  | 34 => ⟨S50000x1, .f32⟩
  | 35 => ⟨S50000x256, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x256, .f32⟩
  | 45 => ⟨S_, .f32⟩
  | 46 => ⟨S50000x256, .f32⟩
  | 47 => ⟨S800000x1, .i32⟩
  | 48 => ⟨S50000x256, .f32⟩
  | 49 => ⟨S50000x1, .f32⟩
  | 50 => ⟨S50000x256, .f32⟩
  | 51 => ⟨S50000x256, .f32⟩
  | 52 => ⟨S50000x256, .f32⟩
  | 53 => ⟨S1x256, .f32⟩
  | 54 => ⟨S50x1x256, .f32⟩
  | 55 => ⟨S50x1x256, .f32⟩
  | 56 => ⟨S_, .f32⟩
  | 57 => ⟨S1x256, .f32⟩
  | 58 => ⟨S_, .f32⟩
  | 59 => ⟨S1x256, .f32⟩
  | 60 => ⟨S_, .f32⟩
  | 61 => ⟨S1x256, .f32⟩
  | 62 => ⟨S1x256, .f32⟩
  | 63 => ⟨S_, .f32⟩
  | 64 => ⟨S1x256, .f32⟩
  | 65 => ⟨S1x256, .f32⟩
  | 66 => ⟨S1x256, .f32⟩
  | 67 => ⟨S1x256, .f32⟩
  | 68 => ⟨S_, .f32⟩
  | 69 => ⟨S1x256, .f32⟩
  | 70 => ⟨S1x256, .f32⟩
  | 71 => ⟨S1x256, .f32⟩
  | 72 => ⟨S1x256, .f32⟩
  | 73 => ⟨S_, .f32⟩
  | 74 => ⟨S1x256, .f32⟩
  | 75 => ⟨S1x256, .f32⟩
  | 76 => ⟨S1x256, .f32⟩
  | 77 => ⟨S1x256, .f32⟩
  | 78 => ⟨S1x256, .f32⟩
  | 79 => ⟨S1x256, .f32⟩
  | 80 => ⟨S50000x256, .f32⟩
  | 81 => ⟨S50000x1, .f32⟩
  | 82 => ⟨S50000x256, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x256, .f32⟩
  | 92 => ⟨S_, .f32⟩
  | 93 => ⟨S50000x256, .f32⟩
  | 94 => ⟨S800000x1, .i32⟩
  | 95 => ⟨S50000x256, .f32⟩
  | 96 => ⟨S50000x1, .f32⟩
  | 97 => ⟨S50000x256, .f32⟩
  | 98 => ⟨S50000x256, .f32⟩
  | 99 => ⟨S50000x256, .f32⟩
  | 100 => ⟨S1x256, .f32⟩
  | 101 => ⟨S50x1x256, .f32⟩
  | 102 => ⟨S50x1x256, .f32⟩
  | 103 => ⟨S_, .f32⟩
  | 104 => ⟨S1x256, .f32⟩
  | 105 => ⟨S_, .f32⟩
  | 106 => ⟨S1x256, .f32⟩
  | 107 => ⟨S_, .f32⟩
  | 108 => ⟨S1x256, .f32⟩
  | 109 => ⟨S1x256, .f32⟩
  | 110 => ⟨S_, .f32⟩
  | 111 => ⟨S1x256, .f32⟩
  | 112 => ⟨S1x256, .f32⟩
  | 113 => ⟨S1x256, .f32⟩
  | 114 => ⟨S1x256, .f32⟩
  | 115 => ⟨S_, .f32⟩
  | 116 => ⟨S1x256, .f32⟩
  | 117 => ⟨S1x256, .f32⟩
  | 118 => ⟨S1x256, .f32⟩
  | 119 => ⟨S1x256, .f32⟩
  | 120 => ⟨S_, .f32⟩
  | 121 => ⟨S1x256, .f32⟩
  | 122 => ⟨S1x256, .f32⟩
  | 123 => ⟨S1x256, .f32⟩
  | 124 => ⟨S1x256, .f32⟩
  | 125 => ⟨S1x256, .f32⟩
  | 126 => ⟨S1x256, .f32⟩
  | 127 => ⟨S50000x256, .f32⟩
  | _ => ⟨S50000x1280, .f32⟩

abbrev hbmTy0_1 (i : Nat) : BufTy := match i % 128 with
  | 0 => ⟨S50000x1, .f32⟩
  | 1 => ⟨S50000x256, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x256, .f32⟩
  | 11 => ⟨S_, .f32⟩
  | 12 => ⟨S50000x256, .f32⟩
  | 13 => ⟨S800000x1, .i32⟩
  | 14 => ⟨S50000x256, .f32⟩
  | 15 => ⟨S50000x1, .f32⟩
  | 16 => ⟨S50000x256, .f32⟩
  | 17 => ⟨S50000x256, .f32⟩
  | 18 => ⟨S50000x256, .f32⟩
  | 19 => ⟨S1x256, .f32⟩
  | 20 => ⟨S50x1x256, .f32⟩
  | 21 => ⟨S50x1x256, .f32⟩
  | 22 => ⟨S_, .f32⟩
  | 23 => ⟨S1x256, .f32⟩
  | 24 => ⟨S_, .f32⟩
  | 25 => ⟨S1x256, .f32⟩
  | 26 => ⟨S_, .f32⟩
  | 27 => ⟨S1x256, .f32⟩
  | 28 => ⟨S1x256, .f32⟩
  | 29 => ⟨S_, .f32⟩
  | 30 => ⟨S1x256, .f32⟩
  | 31 => ⟨S1x256, .f32⟩
  | 32 => ⟨S1x256, .f32⟩
  | 33 => ⟨S1x256, .f32⟩
  | 34 => ⟨S_, .f32⟩
  | 35 => ⟨S1x256, .f32⟩
  | 36 => ⟨S1x256, .f32⟩
  | 37 => ⟨S1x256, .f32⟩
  | 38 => ⟨S1x256, .f32⟩
  | 39 => ⟨S_, .f32⟩
  | 40 => ⟨S1x256, .f32⟩
  | 41 => ⟨S1x256, .f32⟩
  | 42 => ⟨S1x256, .f32⟩
  | 43 => ⟨S1x256, .f32⟩
  | 44 => ⟨S1x256, .f32⟩
  | 45 => ⟨S1x256, .f32⟩
  | 46 => ⟨S50000x256, .f32⟩
  | 47 => ⟨S_, .f32⟩
  | 48 => ⟨S64x256, .f32⟩
  | 49 => ⟨S50000x1, .i32⟩
  | 50 => ⟨S64x256, .f32⟩
  | 51 => ⟨S_, .f32⟩
  | 52 => ⟨S50000, .f32⟩
  | 53 => ⟨S_, .f32⟩
  | 54 => ⟨S64, .f32⟩
  | 55 => ⟨S50000x1, .i32⟩
  | 56 => ⟨S64, .f32⟩
  | 57 => ⟨S_, .f32⟩
  | 58 => ⟨S64, .f32⟩
  | 59 => ⟨S64, .f32⟩
  | 60 => ⟨S64x1, .f32⟩
  | 61 => ⟨S64x256, .f32⟩
  | 62 => ⟨S64x256, .f32⟩
  | 63 => ⟨S1x256, .f32⟩
  | 64 => ⟨S64x256, .f32⟩
  | 65 => ⟨S64x256, .f32⟩
  | 66 => ⟨S1x2752, .f32⟩
  | 67 => ⟨S64x2752, .f32⟩
  | _ => ⟨S50000x1280, .f32⟩

abbrev hbmTy (i : Nat) : BufTy := match i / 128 with
  | 0 => hbmTy0_0 i
  | 1 => hbmTy0_1 i
  | _ => ⟨S50000x1280, .f32⟩

abbrev bufTy : (tb : Table) → Fin (tcTables nBuf tb) → BufTy
  | .hbm, ⟨i, _⟩ => hbmTy i
  | .local _ .vmem, ⟨0, _⟩ => ⟨S2000x1280, .f32⟩
  | .local _ .vmem, ⟨1, _⟩ => ⟨S2000x1280, .f32⟩
  | .local _ .vmem, ⟨2, _⟩ => ⟨S1280x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S1000x256, .f32⟩
  | .local _ .vmem, ⟨8, _⟩ => ⟨S1000x256, .f32⟩
  | .local _ .vmem, ⟨9, _⟩ => ⟨S1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1000x256, .f32⟩
  | .local _ .vmem, ⟨15, _⟩ => ⟨S1000x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1000x256, .f32⟩
  | .local _ .vmem, ⟨20, _⟩ => ⟨S1000x256, .f32⟩
  | .local _ .vmem, ⟨21, _⟩ => ⟨S1000x256, .f32⟩
  | .local _ .vmem, ⟨22, _⟩ => ⟨S1000x256, .f32⟩
  | .local _ .vmem, ⟨23, _⟩ => ⟨S256x256, .f32⟩
  | .local _ .vmem, ⟨24, _⟩ => ⟨S1000x1, .f32⟩
  | .local _ .vmem, ⟨25, _⟩ => ⟨S1000x1, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S1000x256, .f32⟩
  | .local _ .vmem, ⟨30, _⟩ => ⟨S1x256, .f32⟩
  | .local _ .vmem, ⟨31, _⟩ => ⟨S1x1x256, .f32⟩
  | .local _ .vmem, ⟨32, _⟩ => ⟨S1x1x256, .f32⟩
  | .local _ .vmem, ⟨33, _⟩ => ⟨S1x1x256, .f32⟩
  | .local _ .vmem, ⟨34, _⟩ => ⟨S1x1x256, .f32⟩
  | .local _ .vmem, ⟨35, _⟩ => ⟨S1000x256, .f32⟩
  | .local _ .vmem, ⟨36, _⟩ => ⟨S1000x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S1000x256, .f32⟩
  | .local _ .vmem, ⟨41, _⟩ => ⟨S1000x256, .f32⟩
  | .local _ .vmem, ⟨42, _⟩ => ⟨S1000x256, .f32⟩
  | .local _ .vmem, ⟨43, _⟩ => ⟨S1000x256, .f32⟩
  | .local _ .vmem, ⟨44, _⟩ => ⟨S256x256, .f32⟩
  | .local _ .vmem, ⟨45, _⟩ => ⟨S1000x1, .f32⟩
  | .local _ .vmem, ⟨46, _⟩ => ⟨S1000x1, .f32⟩
  | .local _ .vmem, ⟨47, _⟩ => ⟨S1000x256, .f32⟩
  | .local _ .vmem, ⟨48, _⟩ => ⟨S1000x256, .f32⟩
  | .local _ .vmem, ⟨49, _⟩ => ⟨S1000x256, .f32⟩
  | .local _ .vmem, ⟨50, _⟩ => ⟨S1000x256, .f32⟩
  | .local _ .vmem, ⟨51, _⟩ => ⟨S1x256, .f32⟩
  | .local _ .vmem, ⟨52, _⟩ => ⟨S1x1x256, .f32⟩
  | .local _ .vmem, ⟨53, _⟩ => ⟨S1x1x256, .f32⟩
  | .local _ .vmem, ⟨54, _⟩ => ⟨S1x1x256, .f32⟩
  | .local _ .vmem, ⟨55, _⟩ => ⟨S1x1x256, .f32⟩
  | .local _ .vmem, ⟨56, _⟩ => ⟨S1000x256, .f32⟩
  | .local _ .vmem, ⟨57, _⟩ => ⟨S1000x256, .f32⟩
  | .local _ .vmem, ⟨58, _⟩ => ⟨S1x256, .f32⟩
  | .local _ .vmem, ⟨59, _⟩ => ⟨S1x256, .f32⟩
  | .local _ .vmem, ⟨60, _⟩ => ⟨S1x256, .f32⟩
  | .local _ .vmem, ⟨61, _⟩ => ⟨S1000x256, .f32⟩
  | .local _ .vmem, ⟨62, _⟩ => ⟨S1000x256, .f32⟩
  | .local _ .vmem, ⟨63, _⟩ => ⟨S64x1280, .f32⟩
  | .local _ .vmem, ⟨64, _⟩ => ⟨S1280x256, .f32⟩
  | .local _ .vmem, ⟨65, _⟩ => ⟨S1x256, .f32⟩
  | .local _ .vmem, ⟨66, _⟩ => ⟨S64x256, .f32⟩
  | .local _ .vmem, ⟨67, _⟩ => ⟨S64x256, .f32⟩
  | .local _ .vmem, ⟨68, _⟩ => ⟨S256x2752, .f32⟩
  | .local _ .vmem, ⟨69, _⟩ => ⟨S1x2752, .f32⟩
  | .local _ .vmem, ⟨70, _⟩ => ⟨S64x2752, .f32⟩
  | _, _ => ⟨S50000x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_3 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28_0 : Ref sig .tc := ⟨.hbm, 54, rfl⟩
abbrev main_v28_1 : Ref sig .tc := ⟨.hbm, 55, rfl⟩
abbrev main_cst_4 : Ref sig .tc := ⟨.hbm, 56, rfl⟩
abbrev main_v29 : Ref sig .tc := ⟨.hbm, 57, rfl⟩
abbrev main_cst_5 : Ref sig .tc := ⟨.hbm, 58, rfl⟩
abbrev main_v30 : Ref sig .tc := ⟨.hbm, 59, rfl⟩
abbrev main_cst_6 : Ref sig .tc := ⟨.hbm, 60, rfl⟩
abbrev main_v31 : Ref sig .tc := ⟨.hbm, 61, rfl⟩
abbrev main_v32 : Ref sig .tc := ⟨.hbm, 62, rfl⟩
abbrev main_cst_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_10 : Ref sig .tc := ⟨.hbm, 83, rfl⟩
abbrev main_v50 : Ref sig .tc := ⟨.hbm, 84, rfl⟩
abbrev main_v51 : Ref sig .tc := ⟨.hbm, 85, rfl⟩
abbrev main_c_11 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65_0 : Ref sig .tc := ⟨.hbm, 101, rfl⟩
abbrev main_v65_1 : Ref sig .tc := ⟨.hbm, 102, rfl⟩
abbrev main_cst_13 : Ref sig .tc := ⟨.hbm, 103, rfl⟩
abbrev main_v66 : Ref sig .tc := ⟨.hbm, 104, rfl⟩
abbrev main_cst_14 : Ref sig .tc := ⟨.hbm, 105, rfl⟩
abbrev main_v67 : Ref sig .tc := ⟨.hbm, 106, rfl⟩
abbrev main_cst_15 : Ref sig .tc := ⟨.hbm, 107, rfl⟩
abbrev main_v68 : Ref sig .tc := ⟨.hbm, 108, rfl⟩
abbrev main_v69 : Ref sig .tc := ⟨.hbm, 109, rfl⟩
abbrev main_cst_16 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_17 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_18 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_c_19 : Ref sig .tc := ⟨.hbm, 130, rfl⟩
abbrev main_v87 : Ref sig .tc := ⟨.hbm, 131, rfl⟩
abbrev main_v88 : Ref sig .tc := ⟨.hbm, 132, rfl⟩
abbrev main_c_20 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_21 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102_0 : Ref sig .tc := ⟨.hbm, 148, rfl⟩
abbrev main_v102_1 : Ref sig .tc := ⟨.hbm, 149, rfl⟩
abbrev main_cst_22 : Ref sig .tc := ⟨.hbm, 150, rfl⟩
abbrev main_v103 : Ref sig .tc := ⟨.hbm, 151, rfl⟩
abbrev main_cst_23 : Ref sig .tc := ⟨.hbm, 152, rfl⟩
abbrev main_v104 : Ref sig .tc := ⟨.hbm, 153, rfl⟩
abbrev main_cst_24 : Ref sig .tc := ⟨.hbm, 154, rfl⟩
abbrev main_v105 : Ref sig .tc := ⟨.hbm, 155, rfl⟩
abbrev main_v106 : Ref sig .tc := ⟨.hbm, 156, rfl⟩
abbrev main_cst_25 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_26 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_27 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_28 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_cst_29 : Ref sig .tc := ⟨.hbm, 179, rfl⟩
abbrev main_v125 : Ref sig .tc := ⟨.hbm, 180, rfl⟩
abbrev main_cst_30 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_cst_31 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg2_1 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg4_0 : Ref sig .tc := ⟨.vmem, 61, rfl⟩
abbrev cc8_stg4_1 : Ref sig .tc := ⟨.vmem, 62, rfl⟩
abbrev cc9_stg0_0 : Ref sig .tc := ⟨.vmem, 63, rfl⟩
abbrev cc9_stg1_0 : Ref sig .tc := ⟨.vmem, 64, rfl⟩
abbrev cc9_stg2_0 : Ref sig .tc := ⟨.vmem, 65, rfl⟩
abbrev cc9_stg3_0 : Ref sig .tc := ⟨.vmem, 66, rfl⟩
abbrev cc10_stg0_0 : Ref sig .tc := ⟨.vmem, 67, rfl⟩
abbrev cc10_stg1_0 : Ref sig .tc := ⟨.vmem, 68, rfl⟩
abbrev cc10_stg2_0 : Ref sig .tc := ⟨.vmem, 69, rfl⟩
abbrev cc10_stg3_0 : Ref sig .tc := ⟨.vmem, 70, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem2_0 : DmaSem sig := 52
abbrev cc7_sem2_1 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem3_0 : DmaSem sig := 60
abbrev cc8_sem4_0 : DmaSem sig := 61
abbrev cc8_sem4_1 : DmaSem sig := 62
abbrev cc9_sem0_0 : DmaSem sig := 63
abbrev cc9_sem1_0 : DmaSem sig := 64
abbrev cc9_sem2_0 : DmaSem sig := 65
abbrev cc9_sem3_0 : DmaSem sig := 66
abbrev cc10_sem0_0 : DmaSem sig := 67
abbrev cc10_sem1_0 : DmaSem sig := 68
abbrev cc10_sem2_0 : DmaSem sig := 69
abbrev cc10_sem3_0 : DmaSem sig := 70

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x1x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1x1x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1x1x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S1000x256 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S64x1280 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S1280x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S64x256 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S256x2752 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x2752 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x2752 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x1280_S2000x1280_0_0 : ∀ a, (![0, 0] : Fin 2 → Nat) a + S2000x1280.size a ≤ S2000x1280.size a
  h_S2000x1280 : 0 < S2000x1280.numel
  bitsLt_bf16_f32 : FTy.bits .bf16 < FTy.bits .f32
  inb_S1280x256_S1280x256_0_0 : ∀ a, (![0, 0] : Fin 2 → Nat) a + S1280x256.size a ≤ S1280x256.size a
  h_S1280x256 : 0 < S1280x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  reduces_S1000x256_S256 : S1000x256.Reduces [0] S256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  reducesTo_S50x1x256_S1x256_d0 : S50x1x256.ReducesTo [0] S1x256
  h_S_ : 0 < S_.numel
  bcast_S_S1x256 : S_.BroadcastsInDim S1x256 (![] : Fin 0 → Fin S1x256.rank)
  inb_S256x256_S256x256_0_0 : ∀ a, (![0, 0] : Fin 2 → Nat) a + S256x256.size a ≤ S256x256.size a
  h_S256x256 : 0 < S256x256.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  inb_S64x1280_S64x1280_0_0 : ∀ a, (![0, 0] : Fin 2 → Nat) a + S64x1280.size a ≤ S64x1280.size a
  h_S64x1280 : 0 < S64x1280.numel
  broadcasts_S1x256_S64x256 : S1x256.Broadcasts S64x256
  inb_S64x256_S64x256_0_0 : ∀ a, (![0, 0] : Fin 2 → Nat) a + S64x256.size a ≤ S64x256.size a
  h_S64x256 : 0 < S64x256.numel
  shapeCasts_S2752_S1x2752 : S2752.ShapeCasts S1x2752
  shapeCasts_S64x256_S64x256 : S64x256.ShapeCasts S64x256
  inb_S256x2752_S256x2752_0_0 : ∀ a, (![0, 0] : Fin 2 → Nat) a + S256x2752.size a ≤ S256x2752.size a
  h_S256x2752 : 0 < S256x2752.numel
  inb_S1x2752_S1x2752_0_0 : ∀ a, (![0, 0] : Fin 2 → Nat) a + S1x2752.size a ≤ S1x2752.size a
  h_S1x2752 : 0 < S1x2752.numel
  shapeCasts_S1x2752_S1x2752 : S1x2752.ShapeCasts S1x2752
  broadcasts_S1x2752_S64x2752 : S1x2752.Broadcasts S64x2752
  inb_S64x2752_S64x2752_0_0 : ∀ a, (![0, 0] : Fin 2 → Nat) a + S64x2752.size a ≤ S64x2752.size a
  h_S64x2752 : 0 < S64x2752.numel
  scatter_S50000_S800000x1_S800000_n_0_0_1_wf : ScatterDims.WF S50000 S800000x1 S800000 [] [0] [0] 1
  dot_S2000x1280_S1280x256_S2000x256_1_0_0_1_n_n_wf : DotDims.WF S2000x1280 S1280x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x256_S256x256_S1000x256_1_0_0_1_n_n_wf : DotDims.WF S1000x256 S256x256 S1000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x1280_S1280x256_S64x256_1_0_0_1_n_n_wf : DotDims.WF S64x1280 S1280x256 S64x256 [1] [0] [0] [1] [] []
  dot_S64x256_S256x2752_S64x2752_1_0_0_1_n_n_wf : DotDims.WF S64x256 S256x2752 S64x2752 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1280.size a ≤ S50000x1280.size a
  hwx0_0 : ∀ i : grid0.Coords, EltTy.bits .f32 = 32 ∨ (Rect.block (s := S50000x1280) S2000x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x256.size a ≤ S1280x256.size a
  hwx0_1 : ∀ i : grid0.Coords, EltTy.bits .f32 = 32 ∨ (Rect.block (s := S1280x256) S1280x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S50x1x256.size a
  hwx1_2 : ∀ i : grid1.Coords, EltTy.bits .f32 = 32 ∨ (Rect.block (s := S50x1x256) S1x1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256.size a ≤ S50x1x256.size a
  hwx1_3 : ∀ i : grid1.Coords, EltTy.bits .f32 = 32 ∨ (Rect.block (s := S50x1x256) S1x1x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x256.size a ≤ S50000x256.size a
  hwx2_4 : ∀ i : grid2.Coords, EltTy.bits .f32 = 32 ∨ (Rect.block (s := S50000x256) S1000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S50000x256.size a
  hwx3_0 : ∀ i : grid3.Coords, EltTy.bits .f32 = 32 ∨ (Rect.block (s := S50000x256) S1000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S50000x1.size a
  hwx3_2 : ∀ i : grid3.Coords, EltTy.bits .f32 = 32 ∨ (Rect.block (s := S50000x1) S1000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x256.size a ≤ S50000x256.size a
  hwx3_3 : ∀ i : grid3.Coords, EltTy.bits .f32 = 32 ∨ (Rect.block (s := S50000x256) S1000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S50000x256.size a
  hwx4_0 : ∀ i : grid4.Coords, EltTy.bits .f32 = 32 ∨ (Rect.block (s := S50000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x256.size a ≤ S50x1x256.size a
  hwx4_2 : ∀ i : grid4.Coords, EltTy.bits .f32 = 32 ∨ (Rect.block (s := S50x1x256) S1x1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1x256.size a ≤ S50x1x256.size a
  hwx4_3 : ∀ i : grid4.Coords, EltTy.bits .f32 = 32 ∨ (Rect.block (s := S50x1x256) S1x1x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S50000x256.size a
  hwx5_0 : ∀ i : grid5.Coords, EltTy.bits .f32 = 32 ∨ (Rect.block (s := S50000x256) S1000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x256.size a ≤ S50000x256.size a
  hwx5_4 : ∀ i : grid5.Coords, EltTy.bits .f32 = 32 ∨ (Rect.block (s := S50000x256) S1000x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x256.size a ≤ S50000x256.size a
  hwx6_0 : ∀ i : grid6.Coords, EltTy.bits .f32 = 32 ∨ (Rect.block (s := S50000x256) S1000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x1.size a ≤ S50000x1.size a
  hwx6_2 : ∀ i : grid6.Coords, EltTy.bits .f32 = 32 ∨ (Rect.block (s := S50000x1) S1000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x256.size a ≤ S50000x256.size a
  hwx6_3 : ∀ i : grid6.Coords, EltTy.bits .f32 = 32 ∨ (Rect.block (s := S50000x256) S1000x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x256.size a ≤ S50000x256.size a
  hwx7_0 : ∀ i : grid7.Coords, EltTy.bits .f32 = 32 ∨ (Rect.block (s := S50000x256) S1000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x1x256.size a ≤ S50x1x256.size a
  hwx7_2 : ∀ i : grid7.Coords, EltTy.bits .f32 = 32 ∨ (Rect.block (s := S50x1x256) S1x1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x1x256.size a ≤ S50x1x256.size a
  hwx7_3 : ∀ i : grid7.Coords, EltTy.bits .f32 = 32 ∨ (Rect.block (s := S50x1x256) S1x1x256.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x256.size a ≤ S50000x256.size a
  hwx8_0 : ∀ i : grid8.Coords, EltTy.bits .f32 = 32 ∨ (Rect.block (s := S50000x256) S1000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x256.size a ≤ S1x256.size a
  hwx8_1 : ∀ i : grid8.Coords, EltTy.bits .f32 = 32 ∨ (Rect.block (s := S1x256) S1x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1000x256.size a ≤ S50000x256.size a
  hwx8_4 : ∀ i : grid8.Coords, EltTy.bits .f32 = 32 ∨ (Rect.block (s := S50000x256) S1000x256.size (cc8_transform_4 i) (hinb8_4 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S64x1280.size a ≤ S64x1280.size a
  hwx9_0 : ∀ i : grid9.Coords, EltTy.bits .f32 = 32 ∨ (Rect.block (s := S64x1280) S64x1280.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1280x256.size a ≤ S1280x256.size a
  hwx9_1 : ∀ i : grid9.Coords, EltTy.bits .f32 = 32 ∨ (Rect.block (s := S1280x256) S1280x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S64x256.size a ≤ S64x256.size a
  hwx9_3 : ∀ i : grid9.Coords, EltTy.bits .f32 = 32 ∨ (Rect.block (s := S64x256) S64x256.size (cc9_transform_3 i) (hinb9_3 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S64x256.size a ≤ S64x256.size a
  hwx10_0 : ∀ i : grid10.Coords, EltTy.bits .f32 = 32 ∨ (Rect.block (s := S64x256) S64x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S256x2752.size a ≤ S256x2752.size a
  hwx10_1 : ∀ i : grid10.Coords, EltTy.bits .f32 = 32 ∨ (Rect.block (s := S256x2752) S256x2752.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x2752.size a ≤ S1x2752.size a
  hwx10_2 : ∀ i : grid10.Coords, EltTy.bits .f32 = 32 ∨ (Rect.block (s := S1x2752) S1x2752.size (cc10_transform_2 i) (hinb10_2 i)).WholeWords (EltTy.packing .f32)
  hstage10_3 : ∀ j, (stage10_3 j).IsWhole
  nbuf10_3 : grid10.bufCount reads10_3 false = 1
  hreads10_3 : ∀ i i' : grid10.Coords, (∀ a, reads10_3 a = true → i a = i' a) → cc10_transform_3 i = cc10_transform_3 i'
  hinb10_3 : ∀ (i : grid10.Coords) a, (cc10_transform_3 i a + 1) * S64x2752.size a ≤ S64x2752.size a
  hwx10_3 : ∀ i : grid10.Coords, EltTy.bits .f32 = 32 ∨ (Rect.block (s := S64x2752) S64x2752.size (cc10_transform_3 i) (hinb10_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x1280_S1280x256_S2000x256_1_0_0_1_n_n : DotDims S2000x1280 S1280x256 S2000x256 where
  lhsContracting := [1]
  rhsContracting := [0]
  lhsNonContracting := [0]
  rhsNonContracting := [1]
  lhsBatch := []
  rhsBatch := []
  wf := dot_S2000x1280_S1280x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x1280_S1280x256_S64x256_1_0_0_1_n_n : DotDims S64x1280 S1280x256 S64x256 where
  lhsContracting := [1]
  rhsContracting := [0]
  lhsNonContracting := [0]
  rhsNonContracting := [1]
  lhsBatch := []
  rhsBatch := []
  wf := dot_S64x1280_S1280x256_S64x256_1_0_0_1_n_n_wf
def dot_S64x256_S256x2752_S64x2752_1_0_0_1_n_n : DotDims S64x256 S256x2752 S64x2752 where
  lhsContracting := [1]
  rhsContracting := [0]
  lhsNonContracting := [0]
  rhsNonContracting := [1]
  lhsBatch := []
  rhsBatch := []
  wf := dot_S64x256_S256x2752_S64x2752_1_0_0_1_n_n_wf

abbrev win0_0 : Pipeline.Window sig grid0 :=
  Pipeline.Window.ofSpec (Memref.whole main_arg0) S2000x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1280x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28_0) S1x1x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28_1) S1x1x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v47) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v63) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65_0) S1x1x256.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v65_1) S1x1x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v63) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S1000x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v84) S1000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v85) S1000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v86) S1000x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v100) S1000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v102_0) S1x1x256.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v102_1) S1x1x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v100) S1000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v101) S1x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v118) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v120) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v121) S1000x256.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_arg3) S64x1280.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_arg16) S1280x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v134) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v135) S64x256.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v136) S64x256.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_arg18) S256x2752.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v137) S1x2752.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v138) S64x2752.size cc10_transform_3 reads10_3 true false 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S50000x1280 : Shape := ⟨2, ![50000, 1280]⟩
abbrev S2x800000 : Shape := ⟨2, ![2, 800000]⟩
abbrev S50000 : Shape := ⟨1, ![50000]⟩
abbrev S64x1280 : Shape := ⟨2, ![64, 1280]⟩
abbrev S1280x256 : Shape := ⟨2, ![1280, 256]⟩
abbrev S256 : Shape := ⟨1, ![256]⟩
abbrev S256x256 : Shape := ⟨2, ![256, 256]⟩
abbrev S256x2752 : Shape := ⟨2, ![256, 2752]⟩
abbrev S2752 : Shape := ⟨1, ![2752]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S64x256 : Shape := ⟨2, ![64, 256]⟩
abbrev S64 : Shape := ⟨1, ![64]⟩
abbrev S64x1 : Shape := ⟨2, ![64, 1]⟩
abbrev S64x2752 : Shape := ⟨2, ![64, 2752]⟩
abbrev S1x2752 : Shape := ⟨2, ![1, 2752]⟩

abbrev nBuf : Space → Nat
  | .hbm => 357
  | .vmem => 0
  | .smem => 0
  | _ => 0

abbrev hbmTy0_0 (i : Nat) : BufTy := match i % 128 with
  | 0 => ⟨S50000x1280, .f32⟩
  | 1 => ⟨S2x800000, .i32⟩
  | 2 => ⟨S50000, .i32⟩
  | 3 => ⟨S64x1280, .f32⟩
  | 4 => ⟨S1280x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S1280x256, .f32⟩
  | 17 => ⟨S256, .f32⟩
  | 18 => ⟨S256x2752, .f32⟩
  | 19 => ⟨S2752, .f32⟩
  | 20 => ⟨S1x800000, .i32⟩
  | 21 => ⟨S800000, .i32⟩
  | 22 => ⟨S1x800000, .i32⟩
  | 23 => ⟨S800000, .i32⟩
  | 24 => ⟨S50000x256, .f32⟩
  | 25 => ⟨S_, .f32⟩
  | 26 => ⟨S800000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S50000, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x256, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000, .f32⟩
  | 62 => ⟨S800000, .f32⟩
  | 63 => ⟨S800000x1, .f32⟩
  | 64 => ⟨S800000x256, .f32⟩
  | 65 => ⟨S800000x256, .f32⟩
  | 66 => ⟨S_, .f32⟩
  | 67 => ⟨S50000x256, .f32⟩
  | 68 => ⟨S800000x1, .i32⟩
  | 69 => ⟨S50000x256, .f32⟩
  | 70 => ⟨S50000, .f32⟩
  | 71 => ⟨S50000x1, .f32⟩
  | 72 => ⟨S50000x256, .f32⟩
  | 73 => ⟨S50000x256, .f32⟩
  | 74 => ⟨S50000x256, .f32⟩
  | 75 => ⟨S1x256, .f32⟩
  | 76 => ⟨S50000x256, .f32⟩
  | 77 => ⟨S50000x256, .f32⟩
  | 78 => ⟨S_, .f32⟩
  | 79 => ⟨S50000x256, .f32⟩
  | 80 => ⟨S50000x256, .f32⟩
  | 81 => ⟨S_, .f32⟩
  | 82 => ⟨S256, .f32⟩
  | 83 => ⟨S_, .f32⟩
  | 84 => ⟨S256, .f32⟩
  | 85 => ⟨S256, .f32⟩
  | 86 => ⟨S_, .i32⟩
  | 87 => ⟨S_, .f32⟩
  | 88 => ⟨S256, .f32⟩
  | 89 => ⟨S1x256, .f32⟩
  | 90 => ⟨S_, .f32⟩
  | 91 => ⟨S1x256, .f32⟩
  | 92 => ⟨S1x256, .f32⟩
  | 93 => ⟨S50000x256, .f32⟩
  | 94 => ⟨S50000x256, .f32⟩
  | 95 => ⟨S50000x256, .f32⟩
  | 96 => ⟨S_, .f32⟩
  | 97 => ⟨S_, .f32⟩
  | 98 => ⟨S_, .f32⟩
  | 99 => ⟨S_, .f32⟩
  | 100 => ⟨S256, .f32⟩
  | 101 => ⟨S256, .f32⟩
  | 102 => ⟨S256, .f32⟩
  | 103 => ⟨S_, .f32⟩
  | 104 => ⟨S_, .i1⟩
  | 105 => ⟨S_, .f32⟩
  | 106 => ⟨S_, .f32⟩
  | 107 => ⟨S256, .f32⟩
  | 108 => ⟨S256, .f32⟩
  | 109 => ⟨S1x256, .f32⟩
  | 110 => ⟨S50000x256, .f32⟩
  | 111 => ⟨S50000x256, .f32⟩
  | 112 => ⟨S_, .f32⟩
  | 113 => ⟨S256, .f32⟩
  | 114 => ⟨S256, .f32⟩
  | 115 => ⟨S256, .f32⟩
  | 116 => ⟨S1x256, .f32⟩
  | 117 => ⟨S50000x256, .f32⟩
  | 118 => ⟨S50000x256, .f32⟩
  | 119 => ⟨S1x256, .f32⟩
  | 120 => ⟨S50000x256, .f32⟩
  | 121 => ⟨S50000x256, .f32⟩
  | 122 => ⟨S1x256, .f32⟩
  | 123 => ⟨S50000x256, .f32⟩
  | 124 => ⟨S50000x256, .f32⟩
  | 125 => ⟨S50000x256, .f32⟩
  | 126 => ⟨S_, .f32⟩
  | 127 => ⟨S800000, .f32⟩
  | _ => ⟨S50000x1280, .f32⟩

abbrev hbmTy0_1 (i : Nat) : BufTy := match i % 128 with
  | 0 => ⟨S_, .f32⟩
  | 1 => ⟨S50000, .f32⟩
  | 2 => ⟨S800000x1, .i32⟩
  | 3 => ⟨S50000, .f32⟩
  | 4 => ⟨S_, .f32⟩
  | 5 => ⟨S50000, .f32⟩
  | 6 => ⟨S50000, .f32⟩
  | 7 => ⟨S50000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x256, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S800000, .f32⟩
  | 36 => ⟨S800000x1, .f32⟩
  | 37 => ⟨S800000x256, .f32⟩
  | 38 => ⟨S800000x256, .f32⟩
  | 39 => ⟨S_, .f32⟩
  | 40 => ⟨S50000x256, .f32⟩
  | 41 => ⟨S800000x1, .i32⟩
  | 42 => ⟨S50000x256, .f32⟩
  | 43 => ⟨S50000, .f32⟩
  | 44 => ⟨S50000x1, .f32⟩
  | 45 => ⟨S50000x256, .f32⟩
  | 46 => ⟨S50000x256, .f32⟩
  | 47 => ⟨S50000x256, .f32⟩
  | 48 => ⟨S1x256, .f32⟩
  | 49 => ⟨S50000x256, .f32⟩
  | 50 => ⟨S50000x256, .f32⟩
  | 51 => ⟨S_, .f32⟩
  | 52 => ⟨S50000x256, .f32⟩
  | 53 => ⟨S50000x256, .f32⟩
  | 54 => ⟨S_, .f32⟩
  | 55 => ⟨S256, .f32⟩
  | 56 => ⟨S_, .f32⟩
  | 57 => ⟨S256, .f32⟩
  | 58 => ⟨S256, .f32⟩
  | 59 => ⟨S_, .i32⟩
  | 60 => ⟨S_, .f32⟩
  | 61 => ⟨S256, .f32⟩
  | 62 => ⟨S1x256, .f32⟩
  | 63 => ⟨S_, .f32⟩
  | 64 => ⟨S1x256, .f32⟩
  | 65 => ⟨S1x256, .f32⟩
  | 66 => ⟨S50000x256, .f32⟩
  | 67 => ⟨S50000x256, .f32⟩
  | 68 => ⟨S50000x256, .f32⟩
  | 69 => ⟨S_, .f32⟩
  | 70 => ⟨S_, .f32⟩
  | 71 => ⟨S_, .f32⟩
  | 72 => ⟨S_, .f32⟩
  | 73 => ⟨S256, .f32⟩
  | 74 => ⟨S256, .f32⟩
  | 75 => ⟨S256, .f32⟩
  | 76 => ⟨S_, .f32⟩
  | 77 => ⟨S_, .i1⟩
  | 78 => ⟨S_, .f32⟩
  | 79 => ⟨S_, .f32⟩
  | 80 => ⟨S256, .f32⟩
  | 81 => ⟨S256, .f32⟩
  | 82 => ⟨S1x256, .f32⟩
  | 83 => ⟨S50000x256, .f32⟩
  | 84 => ⟨S50000x256, .f32⟩
  | 85 => ⟨S_, .f32⟩
  | 86 => ⟨S256, .f32⟩
  | 87 => ⟨S256, .f32⟩
  | 88 => ⟨S256, .f32⟩
  | 89 => ⟨S1x256, .f32⟩
  | 90 => ⟨S50000x256, .f32⟩
  | 91 => ⟨S50000x256, .f32⟩
  | 92 => ⟨S1x256, .f32⟩
  | 93 => ⟨S50000x256, .f32⟩
  | 94 => ⟨S50000x256, .f32⟩
  | 95 => ⟨S1x256, .f32⟩
  | 96 => ⟨S50000x256, .f32⟩
  | 97 => ⟨S50000x256, .f32⟩
  | 98 => ⟨S50000x256, .f32⟩
  | 99 => ⟨S_, .f32⟩
  | 100 => ⟨S800000, .f32⟩
  | 101 => ⟨S_, .f32⟩
  | 102 => ⟨S50000, .f32⟩
  | 103 => ⟨S800000x1, .i32⟩
  | 104 => ⟨S50000, .f32⟩
  | 105 => ⟨S_, .f32⟩
  | 106 => ⟨S50000, .f32⟩
  | 107 => ⟨S50000, .f32⟩
  | 108 => ⟨S50000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x256, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S_, .i32⟩
  | _ => ⟨S50000x1280, .f32⟩

abbrev hbmTy0_2 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000, .f32⟩
  | 8 => ⟨S800000, .f32⟩
  | 9 => ⟨S800000x1, .f32⟩
  | 10 => ⟨S800000x256, .f32⟩
  | 11 => ⟨S800000x256, .f32⟩
  | 12 => ⟨S_, .f32⟩
  | 13 => ⟨S50000x256, .f32⟩
  | 14 => ⟨S800000x1, .i32⟩
  | 15 => ⟨S50000x256, .f32⟩
  | 16 => ⟨S50000, .f32⟩
  | 17 => ⟨S50000x1, .f32⟩
  | 18 => ⟨S50000x256, .f32⟩
  | 19 => ⟨S50000x256, .f32⟩
  | 20 => ⟨S50000x256, .f32⟩
  | 21 => ⟨S1x256, .f32⟩
  | 22 => ⟨S50000x256, .f32⟩
  | 23 => ⟨S50000x256, .f32⟩
  | 24 => ⟨S_, .f32⟩
  | 25 => ⟨S256, .f32⟩
  | 26 => ⟨S_, .f32⟩
  | 27 => ⟨S256, .f32⟩
  | 28 => ⟨S256, .f32⟩
  | 29 => ⟨S_, .i32⟩
  | 30 => ⟨S_, .f32⟩
  | 31 => ⟨S256, .f32⟩
  | 32 => ⟨S1x256, .f32⟩
  | 33 => ⟨S_, .f32⟩
  | 34 => ⟨S1x256, .f32⟩
  | 35 => ⟨S1x256, .f32⟩
  | 36 => ⟨S50000x256, .f32⟩
  | 37 => ⟨S50000x256, .f32⟩
  | 38 => ⟨S50000x256, .f32⟩
  | 39 => ⟨S_, .f32⟩
  | 40 => ⟨S_, .f32⟩
  | 41 => ⟨S_, .f32⟩
  | 42 => ⟨S_, .f32⟩
  | 43 => ⟨S256, .f32⟩
  | 44 => ⟨S256, .f32⟩
  | 45 => ⟨S256, .f32⟩
  | 46 => ⟨S_, .f32⟩
  | 47 => ⟨S_, .i1⟩
  | 48 => ⟨S_, .f32⟩
  | 49 => ⟨S_, .f32⟩
  | 50 => ⟨S256, .f32⟩
  | 51 => ⟨S256, .f32⟩
  | 52 => ⟨S1x256, .f32⟩
  | 53 => ⟨S50000x256, .f32⟩
  | 54 => ⟨S50000x256, .f32⟩
  | 55 => ⟨S_, .f32⟩
  | 56 => ⟨S256, .f32⟩
  | 57 => ⟨S256, .f32⟩
  | 58 => ⟨S256, .f32⟩
  | 59 => ⟨S1x256, .f32⟩
  | 60 => ⟨S50000x256, .f32⟩
  | 61 => ⟨S50000x256, .f32⟩
  | 62 => ⟨S1x256, .f32⟩
  | 63 => ⟨S50000x256, .f32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S64x256, .f32⟩
  | 70 => ⟨S50000x1, .i32⟩
  | 71 => ⟨S64x256, .f32⟩
  | 72 => ⟨S_, .f32⟩
  | 73 => ⟨S50000, .f32⟩
  | 74 => ⟨S_, .f32⟩
  | 75 => ⟨S64, .f32⟩
  | 76 => ⟨S50000x1, .i32⟩
  | 77 => ⟨S64, .f32⟩
  | 78 => ⟨S_, .f32⟩
  | 79 => ⟨S64, .f32⟩
  | 80 => ⟨S64, .f32⟩
  | 81 => ⟨S64x1, .f32⟩
  | 82 => ⟨S64x256, .f32⟩
  | 83 => ⟨S64x256, .f32⟩
  | 84 => ⟨S64x256, .f32⟩
  | 85 => ⟨S1x256, .f32⟩
  | 86 => ⟨S64x256, .f32⟩
  | 87 => ⟨S64x256, .f32⟩
  | 88 => ⟨S64x256, .f32⟩
  | 89 => ⟨S64x2752, .f32⟩
  | 90 => ⟨S1x2752, .f32⟩
  | 91 => ⟨S64x2752, .f32⟩
  | 92 => ⟨S64x2752, .f32⟩
  | 93 => ⟨S64x2752, .f32⟩
  | 94 => ⟨S64x2752, .f32⟩
  | 95 => ⟨S_, .f32⟩
  | 96 => ⟨S64x2752, .f32⟩
  | 97 => ⟨S64x2752, .f32⟩
  | 98 => ⟨S_, .f32⟩
  | 99 => ⟨S64x2752, .f32⟩
  | 100 => ⟨S64x2752, .f32⟩
  | _ => ⟨S50000x1280, .f32⟩

abbrev hbmTy (i : Nat) : BufTy := match i / 128 with
  | 0 => hbmTy0_0 i
  | 1 => hbmTy0_1 i
  | 2 => hbmTy0_2 i
  | _ => ⟨S50000x1280, .f32⟩

abbrev bufTy : (tb : Table) → Fin (tcTables nBuf tb) → BufTy
  | .hbm, ⟨i, _⟩ => hbmTy i
  | _, _ => ⟨S50000x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_3 : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call0_cst : Ref sig .tc := ⟨.hbm, 78, rfl⟩
abbrev main_call0_v0 : Ref sig .tc := ⟨.hbm, 79, rfl⟩
abbrev main_v48 : Ref sig .tc := ⟨.hbm, 80, rfl⟩
abbrev main_cst_8 : Ref sig .tc := ⟨.hbm, 81, rfl⟩
abbrev main_v49 : Ref sig .tc := ⟨.hbm, 82, rfl⟩
abbrev main_cst_9 : Ref sig .tc := ⟨.hbm, 83, rfl⟩
abbrev main_v50 : Ref sig .tc := ⟨.hbm, 84, rfl⟩
abbrev main_v51 : Ref sig .tc := ⟨.hbm, 85, rfl⟩
abbrev main_c_10 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_cst_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_cst_1 : Ref sig .tc := ⟨.hbm, 97, rfl⟩
abbrev main_call1_v8 : Ref sig .tc := ⟨.hbm, 98, rfl⟩
abbrev main_call1_cst_2 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_cst_3 : Ref sig .tc := ⟨.hbm, 103, rfl⟩
abbrev main_call1_v12 : Ref sig .tc := ⟨.hbm, 104, rfl⟩
abbrev main_call1_cst_4 : Ref sig .tc := ⟨.hbm, 105, rfl⟩
abbrev main_call1_call0_v0 : Ref sig .tc := ⟨.hbm, 106, rfl⟩
abbrev main_call1_call0_v1 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst_11 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_cst_12 : Ref sig .tc := ⟨.hbm, 126, rfl⟩
abbrev main_v69 : Ref sig .tc := ⟨.hbm, 127, rfl⟩
abbrev main_cst_13 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_cst_14 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_c_15 : Ref sig .tc := ⟨.hbm, 136, rfl⟩
abbrev main_v76 : Ref sig .tc := ⟨.hbm, 137, rfl⟩
abbrev main_v77 : Ref sig .tc := ⟨.hbm, 138, rfl⟩
abbrev main_c_16 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_c_17 : Ref sig .tc := ⟨.hbm, 145, rfl⟩
abbrev main_v83 : Ref sig .tc := ⟨.hbm, 146, rfl⟩
abbrev main_v84 : Ref sig .tc := ⟨.hbm, 147, rfl⟩
abbrev main_c_18 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_c_19 : Ref sig .tc := ⟨.hbm, 154, rfl⟩
abbrev main_v90 : Ref sig .tc := ⟨.hbm, 155, rfl⟩
abbrev main_v91 : Ref sig .tc := ⟨.hbm, 156, rfl⟩
abbrev main_c_20 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_21 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_call2_cst : Ref sig .tc := ⟨.hbm, 179, rfl⟩
abbrev main_call2_v0 : Ref sig .tc := ⟨.hbm, 180, rfl⟩
abbrev main_v112 : Ref sig .tc := ⟨.hbm, 181, rfl⟩
abbrev main_cst_22 : Ref sig .tc := ⟨.hbm, 182, rfl⟩
abbrev main_v113 : Ref sig .tc := ⟨.hbm, 183, rfl⟩
abbrev main_cst_23 : Ref sig .tc := ⟨.hbm, 184, rfl⟩
abbrev main_v114 : Ref sig .tc := ⟨.hbm, 185, rfl⟩
abbrev main_v115 : Ref sig .tc := ⟨.hbm, 186, rfl⟩
abbrev main_c_24 : Ref sig .tc := ⟨.hbm, 187, rfl⟩
abbrev main_call3_cst : Ref sig .tc := ⟨.hbm, 188, rfl⟩
abbrev main_call3_v0 : Ref sig .tc := ⟨.hbm, 189, rfl⟩
abbrev main_call3_v1 : Ref sig .tc := ⟨.hbm, 190, rfl⟩
abbrev main_call3_cst_0 : Ref sig .tc := ⟨.hbm, 191, rfl⟩
abbrev main_call3_v2 : Ref sig .tc := ⟨.hbm, 192, rfl⟩
abbrev main_call3_v3 : Ref sig .tc := ⟨.hbm, 193, rfl⟩
abbrev main_call3_v4 : Ref sig .tc := ⟨.hbm, 194, rfl⟩
abbrev main_call3_v5 : Ref sig .tc := ⟨.hbm, 195, rfl⟩
abbrev main_call3_v6 : Ref sig .tc := ⟨.hbm, 196, rfl⟩
abbrev main_call3_v7 : Ref sig .tc := ⟨.hbm, 197, rfl⟩
abbrev main_call3_cst_1 : Ref sig .tc := ⟨.hbm, 198, rfl⟩
abbrev main_call3_v8 : Ref sig .tc := ⟨.hbm, 199, rfl⟩
abbrev main_call3_cst_2 : Ref sig .tc := ⟨.hbm, 200, rfl⟩
abbrev main_call3_v9 : Ref sig .tc := ⟨.hbm, 201, rfl⟩
abbrev main_call3_v10 : Ref sig .tc := ⟨.hbm, 202, rfl⟩
abbrev main_call3_v11 : Ref sig .tc := ⟨.hbm, 203, rfl⟩
abbrev main_call3_cst_3 : Ref sig .tc := ⟨.hbm, 204, rfl⟩
abbrev main_call3_v12 : Ref sig .tc := ⟨.hbm, 205, rfl⟩
abbrev main_call3_cst_4 : Ref sig .tc := ⟨.hbm, 206, rfl⟩
abbrev main_call3_call0_v0 : Ref sig .tc := ⟨.hbm, 207, rfl⟩
abbrev main_call3_call0_v1 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_cst_25 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_cst_26 : Ref sig .tc := ⟨.hbm, 227, rfl⟩
abbrev main_v133 : Ref sig .tc := ⟨.hbm, 228, rfl⟩
abbrev main_cst_27 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_cst_28 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_c_29 : Ref sig .tc := ⟨.hbm, 237, rfl⟩
abbrev main_v140 : Ref sig .tc := ⟨.hbm, 238, rfl⟩
abbrev main_v141 : Ref sig .tc := ⟨.hbm, 239, rfl⟩
abbrev main_c_30 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_c_31 : Ref sig .tc := ⟨.hbm, 246, rfl⟩
abbrev main_v147 : Ref sig .tc := ⟨.hbm, 247, rfl⟩
abbrev main_v148 : Ref sig .tc := ⟨.hbm, 248, rfl⟩
abbrev main_c_32 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_c_33 : Ref sig .tc := ⟨.hbm, 255, rfl⟩
abbrev main_v154 : Ref sig .tc := ⟨.hbm, 256, rfl⟩
abbrev main_v155 : Ref sig .tc := ⟨.hbm, 257, rfl⟩
abbrev main_c_34 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_cst_35 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_cst_36 : Ref sig .tc := ⟨.hbm, 280, rfl⟩
abbrev main_v176 : Ref sig .tc := ⟨.hbm, 281, rfl⟩
abbrev main_cst_37 : Ref sig .tc := ⟨.hbm, 282, rfl⟩
abbrev main_v177 : Ref sig .tc := ⟨.hbm, 283, rfl⟩
abbrev main_v178 : Ref sig .tc := ⟨.hbm, 284, rfl⟩
abbrev main_c_38 : Ref sig .tc := ⟨.hbm, 285, rfl⟩
abbrev main_call4_cst : Ref sig .tc := ⟨.hbm, 286, rfl⟩
abbrev main_call4_v0 : Ref sig .tc := ⟨.hbm, 287, rfl⟩
abbrev main_call4_v1 : Ref sig .tc := ⟨.hbm, 288, rfl⟩
abbrev main_call4_cst_0 : Ref sig .tc := ⟨.hbm, 289, rfl⟩
abbrev main_call4_v2 : Ref sig .tc := ⟨.hbm, 290, rfl⟩
abbrev main_call4_v3 : Ref sig .tc := ⟨.hbm, 291, rfl⟩
abbrev main_call4_v4 : Ref sig .tc := ⟨.hbm, 292, rfl⟩
abbrev main_call4_v5 : Ref sig .tc := ⟨.hbm, 293, rfl⟩
abbrev main_call4_v6 : Ref sig .tc := ⟨.hbm, 294, rfl⟩
abbrev main_call4_v7 : Ref sig .tc := ⟨.hbm, 295, rfl⟩
abbrev main_call4_cst_1 : Ref sig .tc := ⟨.hbm, 296, rfl⟩
abbrev main_call4_v8 : Ref sig .tc := ⟨.hbm, 297, rfl⟩
abbrev main_call4_cst_2 : Ref sig .tc := ⟨.hbm, 298, rfl⟩
abbrev main_call4_v9 : Ref sig .tc := ⟨.hbm, 299, rfl⟩
abbrev main_call4_v10 : Ref sig .tc := ⟨.hbm, 300, rfl⟩
abbrev main_call4_v11 : Ref sig .tc := ⟨.hbm, 301, rfl⟩
abbrev main_call4_cst_3 : Ref sig .tc := ⟨.hbm, 302, rfl⟩
abbrev main_call4_v12 : Ref sig .tc := ⟨.hbm, 303, rfl⟩
abbrev main_call4_cst_4 : Ref sig .tc := ⟨.hbm, 304, rfl⟩
abbrev main_call4_call0_v0 : Ref sig .tc := ⟨.hbm, 305, rfl⟩
abbrev main_call4_call0_v1 : Ref sig .tc := ⟨.hbm, 306, rfl⟩
abbrev main_v179 : Ref sig .tc := ⟨.hbm, 307, rfl⟩
abbrev main_v180 : Ref sig .tc := ⟨.hbm, 308, rfl⟩
abbrev main_v181 : Ref sig .tc := ⟨.hbm, 309, rfl⟩
abbrev main_v182 : Ref sig .tc := ⟨.hbm, 310, rfl⟩
abbrev main_cst_39 : Ref sig .tc := ⟨.hbm, 311, rfl⟩
abbrev main_v183 : Ref sig .tc := ⟨.hbm, 312, rfl⟩
abbrev main_v184 : Ref sig .tc := ⟨.hbm, 313, rfl⟩
abbrev main_v185 : Ref sig .tc := ⟨.hbm, 314, rfl⟩
abbrev main_v186 : Ref sig .tc := ⟨.hbm, 315, rfl⟩
abbrev main_v187 : Ref sig .tc := ⟨.hbm, 316, rfl⟩
abbrev main_v188 : Ref sig .tc := ⟨.hbm, 317, rfl⟩
abbrev main_v189 : Ref sig .tc := ⟨.hbm, 318, rfl⟩
abbrev main_v190 : Ref sig .tc := ⟨.hbm, 319, rfl⟩
abbrev main_v191 : Ref sig .tc := ⟨.hbm, 320, rfl⟩
abbrev main_v192 : Ref sig .tc := ⟨.hbm, 321, rfl⟩
abbrev main_v193 : Ref sig .tc := ⟨.hbm, 322, rfl⟩
abbrev main_v194 : Ref sig .tc := ⟨.hbm, 323, rfl⟩
abbrev main_cst_40 : Ref sig .tc := ⟨.hbm, 324, rfl⟩
abbrev main_v195 : Ref sig .tc := ⟨.hbm, 325, rfl⟩
abbrev main_v196 : Ref sig .tc := ⟨.hbm, 326, rfl⟩
abbrev main_v197 : Ref sig .tc := ⟨.hbm, 327, rfl⟩
abbrev main_cst_41 : Ref sig .tc := ⟨.hbm, 328, rfl⟩
abbrev main_v198 : Ref sig .tc := ⟨.hbm, 329, rfl⟩
abbrev main_cst_42 : Ref sig .tc := ⟨.hbm, 330, rfl⟩
abbrev main_v199 : Ref sig .tc := ⟨.hbm, 331, rfl⟩
abbrev main_v200 : Ref sig .tc := ⟨.hbm, 332, rfl⟩
abbrev main_v201 : Ref sig .tc := ⟨.hbm, 333, rfl⟩
abbrev main_cst_43 : Ref sig .tc := ⟨.hbm, 334, rfl⟩
abbrev main_v202 : Ref sig .tc := ⟨.hbm, 335, rfl⟩
abbrev main_v203 : Ref sig .tc := ⟨.hbm, 336, rfl⟩
abbrev main_v204 : Ref sig .tc := ⟨.hbm, 337, rfl⟩
abbrev main_v205 : Ref sig .tc := ⟨.hbm, 338, rfl⟩
abbrev main_v206 : Ref sig .tc := ⟨.hbm, 339, rfl⟩
abbrev main_v207 : Ref sig .tc := ⟨.hbm, 340, rfl⟩
abbrev main_v208 : Ref sig .tc := ⟨.hbm, 341, rfl⟩
abbrev main_v209 : Ref sig .tc := ⟨.hbm, 342, rfl⟩
abbrev main_v210 : Ref sig .tc := ⟨.hbm, 343, rfl⟩
abbrev main_v211 : Ref sig .tc := ⟨.hbm, 344, rfl⟩
abbrev main_v212 : Ref sig .tc := ⟨.hbm, 345, rfl⟩
abbrev main_v213 : Ref sig .tc := ⟨.hbm, 346, rfl⟩
abbrev main_v214 : Ref sig .tc := ⟨.hbm, 347, rfl⟩
abbrev main_v215 : Ref sig .tc := ⟨.hbm, 348, rfl⟩
abbrev main_v216 : Ref sig .tc := ⟨.hbm, 349, rfl⟩
abbrev main_v217 : Ref sig .tc := ⟨.hbm, 350, rfl⟩
abbrev main_cst_44 : Ref sig .tc := ⟨.hbm, 351, rfl⟩
abbrev main_v218 : Ref sig .tc := ⟨.hbm, 352, rfl⟩
abbrev main_v219 : Ref sig .tc := ⟨.hbm, 353, rfl⟩
abbrev main_cst_45 : Ref sig .tc := ⟨.hbm, 354, rfl⟩
abbrev main_v220 : Ref sig .tc := ⟨.hbm, 355, rfl⟩
abbrev main_v221 : Ref sig .tc := ⟨.hbm, 356, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  bcast_S2752_S1x2752_1 : S2752.BroadcastsInDim S1x2752 (![1] : Fin 1 → Fin S1x2752.rank)
  bcast_S1x2752_S64x2752_0_1 : S1x2752.BroadcastsInDim S64x2752 (![0, 1] : Fin 2 → Fin S64x2752.rank)
  bcast_S_S64x2752 : S_.BroadcastsInDim S64x2752 (![] : Fin 0 → Fin S64x2752.rank)
  dot_S50000x1280_S1280x256_S50000x256_1_0_0_1_n_n_wf : DotDims.WF S50000x1280 S1280x256 S50000x256 [1] [0] [0] [1] [] []
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  gather_S50000_S800000x1_S800000_n_0_n_n_0_1_1_wf : GatherDims.WF S50000 S800000x1 S800000 [] [0] [] [0] [] 1 ![1]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x1280_S1280x256_S64x256_1_0_0_1_n_n_wf : DotDims.WF S64x1280 S1280x256 S64x256 [1] [0] [0] [1] [] []
  dot_S64x256_S256x2752_S64x2752_1_0_0_1_n_n_wf : DotDims.WF S64x256 S256x2752 S64x2752 [1] [0] [0] [1] [] []

variable [Facts₀]

def dot_S50000x1280_S1280x256_S50000x256_1_0_0_1_n_n : DotDims S50000x1280 S1280x256 S50000x256 where
  lhsContracting := [1]
  rhsContracting := [0]
  lhsNonContracting := [0]
  rhsNonContracting := [1]
  lhsBatch := []
  rhsBatch := []
  wf := dot_S50000x1280_S1280x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x1280_S1280x256_S64x256_1_0_0_1_n_n : DotDims S64x1280 S1280x256 S64x256 where
  lhsContracting := [1]
  rhsContracting := [0]
  lhsNonContracting := [0]
  rhsNonContracting := [1]
  lhsBatch := []
  rhsBatch := []
  wf := dot_S64x1280_S1280x256_S64x256_1_0_0_1_n_n_wf
def dot_S64x256_S256x2752_S64x2752_1_0_0_1_n_n : DotDims S64x256 S256x2752 S64x2752 where
  lhsContracting := [1]
  rhsContracting := [0]
  lhsNonContracting := [0]
  rhsNonContracting := [1]
  lhsBatch := []
  rhsBatch := []
  wf := dot_S64x256_S256x2752_S64x2752_1_0_0_1_n_n_wf

class Facts : Prop extends Facts₀ where

variable [Facts]
-- ==== Proof.RefRunOps.lean ====
/-
  The reference's host operations as lists, one list per stretch of the computation (cut again where the printed
  program cuts its windows): the calls to the outlined functions are written out at the call's own buffers, each
  line the outlined function's line at those buffers.  Later modules read each list's result as a function of the
  buffers it reads, and show that the printed program is these lists run one after the other.
-/
import proofs.«155788_j3092376453711_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 0, 4 operations: the two rows of the edge table, each as a vector: the sources and the destinations. -/
abbrev opsS0_w0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

/-- Window 0, 1 operation: the input features times the first weight matrix. -/
abbrev opsD1_w0 : List (HloOp τ sig (Elt F)) :=
  [ binary main_arg0 main_arg4 main_v4 ((fun l r => Host.dotGeneral dot_S50000x1280_S1280x256_S50000x256_1_0_0_1_n_n none l r) : (⟨S50000x1280, .f32⟩ : BufTy).Contents (Elt F) → (⟨S1280x256, .f32⟩ : BufTy).Contents (Elt F) → (⟨S50000x256, .f32⟩ : BufTy).Contents (Elt F)) ]

/-- Window 0, 53 operations: the first normalized aggregation over the edges, with its bias. -/
abbrev opsC1_w0 : List (HloOp τ sig (Elt F)) :=
  [ nullary main_cst (constant S_ .f32 0x3F800000#32),
    unary main_cst main_v5 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v6 (broadcastInDim S50000 ![] bcast_S_S50000 : (⟨S_, .f32⟩ : BufTy).Contents (Elt F) → (⟨S50000, .f32⟩ : BufTy).Contents (Elt F)),
    unary main_v3 main_v7 (broadcastInDim S800000x1 ![0] bcast_S800000_S800000x1_0 : (⟨S800000, .i32⟩ : BufTy).Contents (Elt F) → (⟨S800000x1, .i32⟩ : BufTy).Contents (Elt F)),
    ternary main_v6 main_v7 main_v5 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v9 (broadcastInDim S50000 ![] bcast_S_S50000 : (⟨S_, .f32⟩ : BufTy).Contents (Elt F) → (⟨S50000, .f32⟩ : BufTy).Contents (Elt F)),
    binary main_v8 main_v9 main_v10 (addf : (⟨S50000, .f32⟩ : BufTy).Contents (Elt F) → (⟨S50000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v4 main_v17 main_v18 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_c_3 (constantI S_ 32 0#32),
    unary main_c_3 main_v19 (broadcastInDim S800000 ![] bcast_S_S800000 : (⟨S_, .i32⟩ : BufTy).Contents (Elt F) → (⟨S800000, .i32⟩ : BufTy).Contents (Elt F)),
    binary main_v1 main_v19 main_v20 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v21 (broadcastInDim S800000 ![] bcast_S_S800000 : (⟨S_, .i32⟩ : BufTy).Contents (Elt F) → (⟨S800000, .i32⟩ : BufTy).Contents (Elt F)),
    binary main_v1 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v11 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v26 (broadcastInDim S800000 ![] bcast_S_S800000 : (⟨S_, .i32⟩ : BufTy).Contents (Elt F) → (⟨S800000, .i32⟩ : BufTy).Contents (Elt F)),
    binary main_v3 main_v26 main_v27 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v28 (broadcastInDim S800000 ![] bcast_S_S800000 : (⟨S_, .i32⟩ : BufTy).Contents (Elt F) → (⟨S800000, .i32⟩ : BufTy).Contents (Elt F)),
    binary main_v3 main_v28 main_v29 (addi : (⟨S800000, .i32⟩ : BufTy).Contents (Elt F) → (⟨S800000, .i32⟩ : BufTy).Contents (Elt F) → (⟨S800000, .i32⟩ : BufTy).Contents (Elt F)),
    ternary main_v27 main_v29 main_v3 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v30 main_v31 (broadcastInDim S800000x1 ![0] bcast_S800000_S800000x1_0 : (⟨S800000, .i32⟩ : BufTy).Contents (Elt F) → (⟨S800000x1, .i32⟩ : BufTy).Contents (Elt F)),
    binary main_v11 main_v31 main_v32 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v25 main_v32 main_v33 (mulf : (⟨S800000, .f32⟩ : BufTy).Contents (Elt F) → (⟨S800000, .f32⟩ : BufTy).Contents (Elt F) → (⟨S800000, .f32⟩ : BufTy).Contents (Elt F)),
    unary main_v33 main_v34 (broadcastInDim S800000x1 ![0] bcast_S800000_S800000x1_0 : (⟨S800000, .f32⟩ : BufTy).Contents (Elt F) → (⟨S800000x1, .f32⟩ : BufTy).Contents (Elt F)),
    unary main_v34 main_v35 (broadcastInDim S800000x256 ![0, 1] bcast_S800000x1_S800000x256_0_1 : (⟨S800000x1, .f32⟩ : BufTy).Contents (Elt F) → (⟨S800000x256, .f32⟩ : BufTy).Contents (Elt F)),
    binary main_v18 main_v35 main_v36 (mulf : (⟨S800000x256, .f32⟩ : BufTy).Contents (Elt F) → (⟨S800000x256, .f32⟩ : BufTy).Contents (Elt F) → (⟨S800000x256, .f32⟩ : BufTy).Contents (Elt F)),
    nullary main_cst_7 (constant S_ .f32 0x00000000#32),
    unary main_cst_7 main_v37 (broadcastInDim S50000x256 ![] bcast_S_S50000x256 : (⟨S_, .f32⟩ : BufTy).Contents (Elt F) → (⟨S50000x256, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v11 main_v11 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x256 ![0, 1] bcast_S50000x1_S50000x256_0_1 : (⟨S50000x1, .f32⟩ : BufTy).Contents (Elt F) → (⟨S50000x256, .f32⟩ : BufTy).Contents (Elt F)),
    binary main_v4 main_v42 main_v43 (mulf : (⟨S50000x256, .f32⟩ : BufTy).Contents (Elt F) → (⟨S50000x256, .f32⟩ : BufTy).Contents (Elt F) → (⟨S50000x256, .f32⟩ : BufTy).Contents (Elt F)),
    binary main_v39 main_v43 main_v44 (addf : (⟨S50000x256, .f32⟩ : BufTy).Contents (Elt F) → (⟨S50000x256, .f32⟩ : BufTy).Contents (Elt F) → (⟨S50000x256, .f32⟩ : BufTy).Contents (Elt F)),
    unary main_arg5 main_v45 (broadcastInDim S1x256 ![1] bcast_S256_S1x256_1 : (⟨S256, .f32⟩ : BufTy).Contents (Elt F) → (⟨S1x256, .f32⟩ : BufTy).Contents (Elt F)),
    unary main_v45 main_v46 (broadcastInDim S50000x256 ![0, 1] bcast_S1x256_S50000x256_0_1 : (⟨S1x256, .f32⟩ : BufTy).Contents (Elt F) → (⟨S50000x256, .f32⟩ : BufTy).Contents (Elt F)),
    binary main_v44 main_v46 main_v47 (addf : (⟨S50000x256, .f32⟩ : BufTy).Contents (Elt F) → (⟨S50000x256, .f32⟩ : BufTy).Contents (Elt F) → (⟨S50000x256, .f32⟩ : BufTy).Contents (Elt F)) ]

/-- Window 0, 3 operations: the maximum with zero. -/
abbrev opsR1_w0 : List (HloOp τ sig (Elt F)) :=
  [ TRef.nullary main_call0.cst (constant S_ .f32 0x00000000#32),
    TRef.unary main_call0.cst main_call0.v0 (broadcastInDim S50000x256 ![] bcast_S_S50000x256),
    TRef.binary (.of main_v47) main_call0.v0 main_call0.v1 maximumf ]

/-- Window 0, 1 operation: the first column-wise standardization, scaled and shifted. -/
abbrev opsB1_w0 : List (HloOp τ sig (Elt F)) :=
  [ nullary main_cst_8 (constant S_ .f32 0x00000000#32) ]

/-- Window 1, 43 operations: the first column-wise standardization, scaled and shifted. -/
abbrev opsB1_w1 : List (HloOp τ sig (Elt F)) :=
  [ binary main_v48 main_cst_8 main_v49 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_9 (constant S_ .f32 0x47435000#32),
    unary main_cst_9 main_v50 (broadcastInDim S256 ![] bcast_S_S256 : (⟨S_, .f32⟩ : BufTy).Contents (Elt F) → (⟨S256, .f32⟩ : BufTy).Contents (Elt F)),
    binary main_v49 main_v50 main_v51 (Host.divf : (⟨S256, .f32⟩ : BufTy).Contents (Elt F) → (⟨S256, .f32⟩ : BufTy).Contents (Elt F) → (⟨S256, .f32⟩ : BufTy).Contents (Elt F)),
    nullary main_c_10 (constantI S_ 32 0#32),
    TRef.nullary main_call1.cst (constant S_ .f32 0x00000000#32),
    TRef.binary (.of main_v48) main_call1.cst main_call1.v0 (fun x v => Host.reduceAdd x v reducesTo_S50000x256_S256_d0 h_S_),
    TRef.unary main_call1.v0 main_call1.v1 (broadcastInDim S1x256 ![1] bcast_S256_S1x256_1),
    TRef.nullary main_call1.cst_0 (constant S_ .f32 0x47435000#32),
    TRef.unary main_call1.cst_0 main_call1.v2 (broadcastInDim S1x256 ![] bcast_S_S1x256),
    TRef.binary main_call1.v1 main_call1.v2 main_call1.v3 Host.divf,
    TRef.unary main_call1.v3 main_call1.v4 (broadcastInDim S50000x256 ![0, 1] bcast_S1x256_S50000x256_0_1),
    TRef.binary (.of main_v48) main_call1.v4 main_call1.v5 subf,
    TRef.binary main_call1.v5 main_call1.v5 main_call1.v6 mulf,
    TRef.unary (.of main_c_10) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x256_S256_d0 h_S_),
    TRef.unary main_call1.v8 main_call1.v10 (broadcastInDim S256 ![] bcast_S_S256),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S256 ![] bcast_S_S256),
    TRef.ternary main_call1.v12 main_call1.v11 main_call1.call0.v1 main_call1.call0.v2 (fun p a b => select (broadcastInDim S256 ![] bcast_S_S256 p) a b),
    unary main_v51 main_v53 (broadcastInDim S1x256 ![1] bcast_S256_S1x256_1 : (⟨S256, .f32⟩ : BufTy).Contents (Elt F) → (⟨S1x256, .f32⟩ : BufTy).Contents (Elt F)),
    unary main_v53 main_v54 (broadcastInDim S50000x256 ![0, 1] bcast_S1x256_S50000x256_0_1 : (⟨S1x256, .f32⟩ : BufTy).Contents (Elt F) → (⟨S50000x256, .f32⟩ : BufTy).Contents (Elt F)),
    binary main_v48 main_v54 main_v55 (subf : (⟨S50000x256, .f32⟩ : BufTy).Contents (Elt F) → (⟨S50000x256, .f32⟩ : BufTy).Contents (Elt F) → (⟨S50000x256, .f32⟩ : BufTy).Contents (Elt F)),
    nullary main_cst_11 (constant S_ .f32 0x3727C5AC#32),
    unary main_cst_11 main_v56 (broadcastInDim S256 ![] bcast_S_S256 : (⟨S_, .f32⟩ : BufTy).Contents (Elt F) → (⟨S256, .f32⟩ : BufTy).Contents (Elt F)),
    binary main_v52 main_v56 main_v57 (addf : (⟨S256, .f32⟩ : BufTy).Contents (Elt F) → (⟨S256, .f32⟩ : BufTy).Contents (Elt F) → (⟨S256, .f32⟩ : BufTy).Contents (Elt F)),
    unary main_v57 main_v58 (Host.rsqrt : (⟨S256, .f32⟩ : BufTy).Contents (Elt F) → (⟨S256, .f32⟩ : BufTy).Contents (Elt F)),
    unary main_v58 main_v59 (broadcastInDim S1x256 ![1] bcast_S256_S1x256_1 : (⟨S256, .f32⟩ : BufTy).Contents (Elt F) → (⟨S1x256, .f32⟩ : BufTy).Contents (Elt F)),
    unary main_v59 main_v60 (broadcastInDim S50000x256 ![0, 1] bcast_S1x256_S50000x256_0_1 : (⟨S1x256, .f32⟩ : BufTy).Contents (Elt F) → (⟨S50000x256, .f32⟩ : BufTy).Contents (Elt F)),
    binary main_v55 main_v60 main_v61 (mulf : (⟨S50000x256, .f32⟩ : BufTy).Contents (Elt F) → (⟨S50000x256, .f32⟩ : BufTy).Contents (Elt F) → (⟨S50000x256, .f32⟩ : BufTy).Contents (Elt F)),
    unary main_arg10 main_v62 (broadcastInDim S1x256 ![1] bcast_S256_S1x256_1 : (⟨S256, .f32⟩ : BufTy).Contents (Elt F) → (⟨S1x256, .f32⟩ : BufTy).Contents (Elt F)),
    unary main_v62 main_v63 (broadcastInDim S50000x256 ![0, 1] bcast_S1x256_S50000x256_0_1 : (⟨S1x256, .f32⟩ : BufTy).Contents (Elt F) → (⟨S50000x256, .f32⟩ : BufTy).Contents (Elt F)),
    binary main_v61 main_v63 main_v64 (mulf : (⟨S50000x256, .f32⟩ : BufTy).Contents (Elt F) → (⟨S50000x256, .f32⟩ : BufTy).Contents (Elt F) → (⟨S50000x256, .f32⟩ : BufTy).Contents (Elt F)),
    unary main_arg11 main_v65 (broadcastInDim S1x256 ![1] bcast_S256_S1x256_1 : (⟨S256, .f32⟩ : BufTy).Contents (Elt F) → (⟨S1x256, .f32⟩ : BufTy).Contents (Elt F)),
    unary main_v65 main_v66 (broadcastInDim S50000x256 ![0, 1] bcast_S1x256_S50000x256_0_1 : (⟨S1x256, .f32⟩ : BufTy).Contents (Elt F) → (⟨S50000x256, .f32⟩ : BufTy).Contents (Elt F)),
    binary main_v64 main_v66 main_v67 (addf : (⟨S50000x256, .f32⟩ : BufTy).Contents (Elt F) → (⟨S50000x256, .f32⟩ : BufTy).Contents (Elt F) → (⟨S50000x256, .f32⟩ : BufTy).Contents (Elt F)) ]

/-- Window 1, 1 operation: the times-weights product of the second layer. -/
abbrev opsD2_w1 : List (HloOp τ sig (Elt F)) :=
  [ binary main_v67 main_arg6 main_v68 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Window 1, 37 operations: the second normalized aggregation. -/
abbrev opsC2_w1 : List (HloOp τ sig (Elt F)) :=
  [ nullary main_cst_12 (constant S_ .f32 0x3F800000#32),
    unary main_cst_12 main_v69 (broadcastInDim S800000 ![] bcast_S_S800000 : (⟨S_, .f32⟩ : BufTy).Contents (Elt F) → (⟨S800000, .f32⟩ : BufTy).Contents (Elt F)),
    nullary main_cst_13 (constant S_ .f32 0x00000000#32),
    unary main_cst_13 main_v70 (broadcastInDim S50000 ![] bcast_S_S50000 : (⟨S_, .f32⟩ : BufTy).Contents (Elt F) → (⟨S50000, .f32⟩ : BufTy).Contents (Elt F)),
    unary main_v3 main_v71 (broadcastInDim S800000x1 ![0] bcast_S800000_S800000x1_0 : (⟨S800000, .i32⟩ : BufTy).Contents (Elt F) → (⟨S800000x1, .i32⟩ : BufTy).Contents (Elt F)),
    ternary main_v70 main_v71 main_v69 main_v72 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_14 (constant S_ .f32 0x3F800000#32),
    unary main_cst_14 main_v73 (broadcastInDim S50000 ![] bcast_S_S50000 : (⟨S_, .f32⟩ : BufTy).Contents (Elt F) → (⟨S50000, .f32⟩ : BufTy).Contents (Elt F)),
    binary main_v72 main_v73 main_v74 (addf : (⟨S50000, .f32⟩ : BufTy).Contents (Elt F) → (⟨S50000, .f32⟩ : BufTy).Contents (Elt F) → (⟨S50000, .f32⟩ : BufTy).Contents (Elt F)),
    unary main_v74 main_v75 (Host.rsqrt : (⟨S50000, .f32⟩ : BufTy).Contents (Elt F) → (⟨S50000, .f32⟩ : BufTy).Contents (Elt F)),
    nullary main_c_15 (constantI S_ 32 0#32),
    unary main_c_15 main_v76 (broadcastInDim S800000 ![] bcast_S_S800000 : (⟨S_, .i32⟩ : BufTy).Contents (Elt F) → (⟨S800000, .i32⟩ : BufTy).Contents (Elt F)),
    binary main_v1 main_v76 main_v77 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v78 (broadcastInDim S800000 ![] bcast_S_S800000 : (⟨S_, .i32⟩ : BufTy).Contents (Elt F) → (⟨S800000, .i32⟩ : BufTy).Contents (Elt F)),
    binary main_v1 main_v78 main_v79 (addi : (⟨S800000, .i32⟩ : BufTy).Contents (Elt F) → (⟨S800000, .i32⟩ : BufTy).Contents (Elt F) → (⟨S800000, .i32⟩ : BufTy).Contents (Elt F)),
    ternary main_v77 main_v79 main_v1 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v80 main_v81 (broadcastInDim S800000x1 ![0] bcast_S800000_S800000x1_0 : (⟨S800000, .i32⟩ : BufTy).Contents (Elt F) → (⟨S800000x1, .i32⟩ : BufTy).Contents (Elt F)),
    binary main_v68 main_v81 main_v82 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_c_17 (constantI S_ 32 0#32),
    unary main_c_17 main_v83 (broadcastInDim S800000 ![] bcast_S_S800000 : (⟨S_, .i32⟩ : BufTy).Contents (Elt F) → (⟨S800000, .i32⟩ : BufTy).Contents (Elt F)),
    binary main_v1 main_v83 main_v84 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v85 (broadcastInDim S800000 ![] bcast_S_S800000 : (⟨S_, .i32⟩ : BufTy).Contents (Elt F) → (⟨S800000, .i32⟩ : BufTy).Contents (Elt F)),
    binary main_v1 main_v85 main_v86 (addi : (⟨S800000, .i32⟩ : BufTy).Contents (Elt F) → (⟨S800000, .i32⟩ : BufTy).Contents (Elt F) → (⟨S800000, .i32⟩ : BufTy).Contents (Elt F)),
    ternary main_v84 main_v86 main_v1 main_v87 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v87 main_v88 (broadcastInDim S800000x1 ![0] bcast_S800000_S800000x1_0 : (⟨S800000, .i32⟩ : BufTy).Contents (Elt F) → (⟨S800000x1, .i32⟩ : BufTy).Contents (Elt F)),
    binary main_v75 main_v88 main_v89 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_19 (constantI S_ 32 0#32),
    unary main_c_19 main_v90 (broadcastInDim S800000 ![] bcast_S_S800000 : (⟨S_, .i32⟩ : BufTy).Contents (Elt F) → (⟨S800000, .i32⟩ : BufTy).Contents (Elt F)),
    binary main_v3 main_v90 main_v91 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v92 (broadcastInDim S800000 ![] bcast_S_S800000 : (⟨S_, .i32⟩ : BufTy).Contents (Elt F) → (⟨S800000, .i32⟩ : BufTy).Contents (Elt F)),
    binary main_v3 main_v92 main_v93 (addi : (⟨S800000, .i32⟩ : BufTy).Contents (Elt F) → (⟨S800000, .i32⟩ : BufTy).Contents (Elt F) → (⟨S800000, .i32⟩ : BufTy).Contents (Elt F)),
    ternary main_v91 main_v93 main_v3 main_v94 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v94 main_v95 (broadcastInDim S800000x1 ![0] bcast_S800000_S800000x1_0 : (⟨S800000, .i32⟩ : BufTy).Contents (Elt F) → (⟨S800000x1, .i32⟩ : BufTy).Contents (Elt F)),
    binary main_v75 main_v95 main_v96 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) ]

/-- Window 2, 16 operations: the second normalized aggregation. -/
abbrev opsC2_w2 : List (HloOp τ sig (Elt F)) :=
  [ binary main_v89 main_v96 main_v97 (mulf : (⟨S800000, .f32⟩ : BufTy).Contents (Elt F) → (⟨S800000, .f32⟩ : BufTy).Contents (Elt F) → (⟨S800000, .f32⟩ : BufTy).Contents (Elt F)),
    unary main_v97 main_v98 (broadcastInDim S800000x1 ![0] bcast_S800000_S800000x1_0 : (⟨S800000, .f32⟩ : BufTy).Contents (Elt F) → (⟨S800000x1, .f32⟩ : BufTy).Contents (Elt F)),
    unary main_v98 main_v99 (broadcastInDim S800000x256 ![0, 1] bcast_S800000x1_S800000x256_0_1 : (⟨S800000x1, .f32⟩ : BufTy).Contents (Elt F) → (⟨S800000x256, .f32⟩ : BufTy).Contents (Elt F)),
    binary main_v82 main_v99 main_v100 (mulf : (⟨S800000x256, .f32⟩ : BufTy).Contents (Elt F) → (⟨S800000x256, .f32⟩ : BufTy).Contents (Elt F) → (⟨S800000x256, .f32⟩ : BufTy).Contents (Elt F)),
    nullary main_cst_21 (constant S_ .f32 0x00000000#32),
    unary main_cst_21 main_v101 (broadcastInDim S50000x256 ![] bcast_S_S50000x256 : (⟨S_, .f32⟩ : BufTy).Contents (Elt F) → (⟨S50000x256, .f32⟩ : BufTy).Contents (Elt F)),
    unary main_v3 main_v102 (broadcastInDim S800000x1 ![0] bcast_S800000_S800000x1_0 : (⟨S800000, .i32⟩ : BufTy).Contents (Elt F) → (⟨S800000x1, .i32⟩ : BufTy).Contents (Elt F)),
    ternary main_v101 main_v102 main_v100 main_v103 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v75 main_v75 main_v104 (mulf : (⟨S50000, .f32⟩ : BufTy).Contents (Elt F) → (⟨S50000, .f32⟩ : BufTy).Contents (Elt F) → (⟨S50000, .f32⟩ : BufTy).Contents (Elt F)),
    unary main_v104 main_v105 (broadcastInDim S50000x1 ![0] bcast_S50000_S50000x1_0 : (⟨S50000, .f32⟩ : BufTy).Contents (Elt F) → (⟨S50000x1, .f32⟩ : BufTy).Contents (Elt F)),
    unary main_v105 main_v106 (broadcastInDim S50000x256 ![0, 1] bcast_S50000x1_S50000x256_0_1 : (⟨S50000x1, .f32⟩ : BufTy).Contents (Elt F) → (⟨S50000x256, .f32⟩ : BufTy).Contents (Elt F)),
    binary main_v68 main_v106 main_v107 (mulf : (⟨S50000x256, .f32⟩ : BufTy).Contents (Elt F) → (⟨S50000x256, .f32⟩ : BufTy).Contents (Elt F) → (⟨S50000x256, .f32⟩ : BufTy).Contents (Elt F)),
    binary main_v103 main_v107 main_v108 (addf : (⟨S50000x256, .f32⟩ : BufTy).Contents (Elt F) → (⟨S50000x256, .f32⟩ : BufTy).Contents (Elt F) → (⟨S50000x256, .f32⟩ : BufTy).Contents (Elt F)),
    unary main_arg7 main_v109 (broadcastInDim S1x256 ![1] bcast_S256_S1x256_1 : (⟨S256, .f32⟩ : BufTy).Contents (Elt F) → (⟨S1x256, .f32⟩ : BufTy).Contents (Elt F)),
    unary main_v109 main_v110 (broadcastInDim S50000x256 ![0, 1] bcast_S1x256_S50000x256_0_1 : (⟨S1x256, .f32⟩ : BufTy).Contents (Elt F) → (⟨S50000x256, .f32⟩ : BufTy).Contents (Elt F)),
    binary main_v108 main_v110 main_v111 (addf : (⟨S50000x256, .f32⟩ : BufTy).Contents (Elt F) → (⟨S50000x256, .f32⟩ : BufTy).Contents (Elt F) → (⟨S50000x256, .f32⟩ : BufTy).Contents (Elt F)) ]

/-- Window 2, 3 operations: the maximum with zero, second layer. -/
abbrev opsR2_w2 : List (HloOp τ sig (Elt F)) :=
  [ TRef.nullary main_call2.cst (constant S_ .f32 0x00000000#32),
    TRef.unary main_call2.cst main_call2.v0 (broadcastInDim S50000x256 ![] bcast_S_S50000x256),
    TRef.binary (.of main_v111) main_call2.v0 main_call2.v1 maximumf ]

/-- Window 2, 44 operations: the second column-wise standardization. -/
abbrev opsB2_w2 : List (HloOp τ sig (Elt F)) :=
  [ nullary main_cst_22 (constant S_ .f32 0x00000000#32),
    binary main_v112 main_cst_22 main_v113 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_23 (constant S_ .f32 0x47435000#32),
    unary main_cst_23 main_v114 (broadcastInDim S256 ![] bcast_S_S256 : (⟨S_, .f32⟩ : BufTy).Contents (Elt F) → (⟨S256, .f32⟩ : BufTy).Contents (Elt F)),
    binary main_v113 main_v114 main_v115 (Host.divf : (⟨S256, .f32⟩ : BufTy).Contents (Elt F) → (⟨S256, .f32⟩ : BufTy).Contents (Elt F) → (⟨S256, .f32⟩ : BufTy).Contents (Elt F)),
    nullary main_c_24 (constantI S_ 32 0#32),
    TRef.nullary main_call3.cst (constant S_ .f32 0x00000000#32),
    TRef.binary (.of main_v112) main_call3.cst main_call3.v0 (fun x v => Host.reduceAdd x v reducesTo_S50000x256_S256_d0 h_S_),
    TRef.unary main_call3.v0 main_call3.v1 (broadcastInDim S1x256 ![1] bcast_S256_S1x256_1),
    TRef.nullary main_call3.cst_0 (constant S_ .f32 0x47435000#32),
    TRef.unary main_call3.cst_0 main_call3.v2 (broadcastInDim S1x256 ![] bcast_S_S1x256),
    TRef.binary main_call3.v1 main_call3.v2 main_call3.v3 Host.divf,
    TRef.unary main_call3.v3 main_call3.v4 (broadcastInDim S50000x256 ![0, 1] bcast_S1x256_S50000x256_0_1),
    TRef.binary (.of main_v112) main_call3.v4 main_call3.v5 subf,
    TRef.binary main_call3.v5 main_call3.v5 main_call3.v6 mulf,
    TRef.unary (.of main_c_24) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x256_S256_d0 h_S_),
    TRef.unary main_call3.v8 main_call3.v10 (broadcastInDim S256 ![] bcast_S_S256),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S256 ![] bcast_S_S256),
    TRef.ternary main_call3.v12 main_call3.v11 main_call3.call0.v1 main_call3.call0.v2 (fun p a b => select (broadcastInDim S256 ![] bcast_S_S256 p) a b),
    unary main_v115 main_v117 (broadcastInDim S1x256 ![1] bcast_S256_S1x256_1 : (⟨S256, .f32⟩ : BufTy).Contents (Elt F) → (⟨S1x256, .f32⟩ : BufTy).Contents (Elt F)),
    unary main_v117 main_v118 (broadcastInDim S50000x256 ![0, 1] bcast_S1x256_S50000x256_0_1 : (⟨S1x256, .f32⟩ : BufTy).Contents (Elt F) → (⟨S50000x256, .f32⟩ : BufTy).Contents (Elt F)),
    binary main_v112 main_v118 main_v119 (subf : (⟨S50000x256, .f32⟩ : BufTy).Contents (Elt F) → (⟨S50000x256, .f32⟩ : BufTy).Contents (Elt F) → (⟨S50000x256, .f32⟩ : BufTy).Contents (Elt F)),
    nullary main_cst_25 (constant S_ .f32 0x3727C5AC#32),
    unary main_cst_25 main_v120 (broadcastInDim S256 ![] bcast_S_S256 : (⟨S_, .f32⟩ : BufTy).Contents (Elt F) → (⟨S256, .f32⟩ : BufTy).Contents (Elt F)),
    binary main_v116 main_v120 main_v121 (addf : (⟨S256, .f32⟩ : BufTy).Contents (Elt F) → (⟨S256, .f32⟩ : BufTy).Contents (Elt F) → (⟨S256, .f32⟩ : BufTy).Contents (Elt F)),
    unary main_v121 main_v122 (Host.rsqrt : (⟨S256, .f32⟩ : BufTy).Contents (Elt F) → (⟨S256, .f32⟩ : BufTy).Contents (Elt F)),
    unary main_v122 main_v123 (broadcastInDim S1x256 ![1] bcast_S256_S1x256_1 : (⟨S256, .f32⟩ : BufTy).Contents (Elt F) → (⟨S1x256, .f32⟩ : BufTy).Contents (Elt F)),
    unary main_v123 main_v124 (broadcastInDim S50000x256 ![0, 1] bcast_S1x256_S50000x256_0_1 : (⟨S1x256, .f32⟩ : BufTy).Contents (Elt F) → (⟨S50000x256, .f32⟩ : BufTy).Contents (Elt F)),
    binary main_v119 main_v124 main_v125 (mulf : (⟨S50000x256, .f32⟩ : BufTy).Contents (Elt F) → (⟨S50000x256, .f32⟩ : BufTy).Contents (Elt F) → (⟨S50000x256, .f32⟩ : BufTy).Contents (Elt F)),
    unary main_arg12 main_v126 (broadcastInDim S1x256 ![1] bcast_S256_S1x256_1 : (⟨S256, .f32⟩ : BufTy).Contents (Elt F) → (⟨S1x256, .f32⟩ : BufTy).Contents (Elt F)),
    unary main_v126 main_v127 (broadcastInDim S50000x256 ![0, 1] bcast_S1x256_S50000x256_0_1 : (⟨S1x256, .f32⟩ : BufTy).Contents (Elt F) → (⟨S50000x256, .f32⟩ : BufTy).Contents (Elt F)),
    binary main_v125 main_v127 main_v128 (mulf : (⟨S50000x256, .f32⟩ : BufTy).Contents (Elt F) → (⟨S50000x256, .f32⟩ : BufTy).Contents (Elt F) → (⟨S50000x256, .f32⟩ : BufTy).Contents (Elt F)),
    unary main_arg13 main_v129 (broadcastInDim S1x256 ![1] bcast_S256_S1x256_1 : (⟨S256, .f32⟩ : BufTy).Contents (Elt F) → (⟨S1x256, .f32⟩ : BufTy).Contents (Elt F)),
    unary main_v129 main_v130 (broadcastInDim S50000x256 ![0, 1] bcast_S1x256_S50000x256_0_1 : (⟨S1x256, .f32⟩ : BufTy).Contents (Elt F) → (⟨S50000x256, .f32⟩ : BufTy).Contents (Elt F)),
    binary main_v128 main_v130 main_v131 (addf : (⟨S50000x256, .f32⟩ : BufTy).Contents (Elt F) → (⟨S50000x256, .f32⟩ : BufTy).Contents (Elt F) → (⟨S50000x256, .f32⟩ : BufTy).Contents (Elt F)) ]

/-- Window 2, 1 operation: the times-weights product of the third layer. -/
abbrev opsD3_w2 : List (HloOp τ sig (Elt F)) :=
  [ binary main_v131 main_arg8 main_v132 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Window 2, 19 operations: the third normalized aggregation. -/
abbrev opsC3_w2 : List (HloOp τ sig (Elt F)) :=
  [ nullary main_cst_26 (constant S_ .f32 0x3F800000#32),
    unary main_cst_26 main_v133 (broadcastInDim S800000 ![] bcast_S_S800000 : (⟨S_, .f32⟩ : BufTy).Contents (Elt F) → (⟨S800000, .f32⟩ : BufTy).Contents (Elt F)),
    nullary main_cst_27 (constant S_ .f32 0x00000000#32),
    unary main_cst_27 main_v134 (broadcastInDim S50000 ![] bcast_S_S50000 : (⟨S_, .f32⟩ : BufTy).Contents (Elt F) → (⟨S50000, .f32⟩ : BufTy).Contents (Elt F)),
    unary main_v3 main_v135 (broadcastInDim S800000x1 ![0] bcast_S800000_S800000x1_0 : (⟨S800000, .i32⟩ : BufTy).Contents (Elt F) → (⟨S800000x1, .i32⟩ : BufTy).Contents (Elt F)),
    ternary main_v134 main_v135 main_v133 main_v136 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_28 (constant S_ .f32 0x3F800000#32),
    unary main_cst_28 main_v137 (broadcastInDim S50000 ![] bcast_S_S50000 : (⟨S_, .f32⟩ : BufTy).Contents (Elt F) → (⟨S50000, .f32⟩ : BufTy).Contents (Elt F)),
    binary main_v136 main_v137 main_v138 (addf : (⟨S50000, .f32⟩ : BufTy).Contents (Elt F) → (⟨S50000, .f32⟩ : BufTy).Contents (Elt F) → (⟨S50000, .f32⟩ : BufTy).Contents (Elt F)),
    unary main_v138 main_v139 (Host.rsqrt : (⟨S50000, .f32⟩ : BufTy).Contents (Elt F) → (⟨S50000, .f32⟩ : BufTy).Contents (Elt F)),
    nullary main_c_29 (constantI S_ 32 0#32),
    unary main_c_29 main_v140 (broadcastInDim S800000 ![] bcast_S_S800000 : (⟨S_, .i32⟩ : BufTy).Contents (Elt F) → (⟨S800000, .i32⟩ : BufTy).Contents (Elt F)),
    binary main_v1 main_v140 main_v141 (cmpi .slt : (⟨S800000, .i32⟩ : BufTy).Contents (Elt F) → (⟨S800000, .i32⟩ : BufTy).Contents (Elt F) → (⟨S800000, .i1⟩ : BufTy).Contents (Elt F)),
    nullary main_c_30 (constantI S_ 32 50000#32),
    unary main_c_30 main_v142 (broadcastInDim S800000 ![] bcast_S_S800000 : (⟨S_, .i32⟩ : BufTy).Contents (Elt F) → (⟨S800000, .i32⟩ : BufTy).Contents (Elt F)),
    binary main_v1 main_v142 main_v143 (addi : (⟨S800000, .i32⟩ : BufTy).Contents (Elt F) → (⟨S800000, .i32⟩ : BufTy).Contents (Elt F) → (⟨S800000, .i32⟩ : BufTy).Contents (Elt F)),
    ternary main_v141 main_v143 main_v1 main_v144 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v144 main_v145 (broadcastInDim S800000x1 ![0] bcast_S800000_S800000x1_0 : (⟨S800000, .i32⟩ : BufTy).Contents (Elt F) → (⟨S800000x1, .i32⟩ : BufTy).Contents (Elt F)),
    binary main_v132 main_v145 main_v146 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)) ]

/-- Window 3, 34 operations: the third normalized aggregation. -/
abbrev opsC3_w3 : List (HloOp τ sig (Elt F)) :=
  [ nullary main_c_31 (constantI S_ 32 0#32),
    unary main_c_31 main_v147 (broadcastInDim S800000 ![] bcast_S_S800000 : (⟨S_, .i32⟩ : BufTy).Contents (Elt F) → (⟨S800000, .i32⟩ : BufTy).Contents (Elt F)),
    binary main_v1 main_v147 main_v148 (cmpi .slt : (⟨S800000, .i32⟩ : BufTy).Contents (Elt F) → (⟨S800000, .i32⟩ : BufTy).Contents (Elt F) → (⟨S800000, .i1⟩ : BufTy).Contents (Elt F)),
    nullary main_c_32 (constantI S_ 32 50000#32),
    unary main_c_32 main_v149 (broadcastInDim S800000 ![] bcast_S_S800000 : (⟨S_, .i32⟩ : BufTy).Contents (Elt F) → (⟨S800000, .i32⟩ : BufTy).Contents (Elt F)),
    binary main_v1 main_v149 main_v150 (addi : (⟨S800000, .i32⟩ : BufTy).Contents (Elt F) → (⟨S800000, .i32⟩ : BufTy).Contents (Elt F) → (⟨S800000, .i32⟩ : BufTy).Contents (Elt F)),
    ternary main_v148 main_v150 main_v1 main_v151 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v151 main_v152 (broadcastInDim S800000x1 ![0] bcast_S800000_S800000x1_0 : (⟨S800000, .i32⟩ : BufTy).Contents (Elt F) → (⟨S800000x1, .i32⟩ : BufTy).Contents (Elt F)),
    binary main_v139 main_v152 main_v153 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_33 (constantI S_ 32 0#32),
    unary main_c_33 main_v154 (broadcastInDim S800000 ![] bcast_S_S800000 : (⟨S_, .i32⟩ : BufTy).Contents (Elt F) → (⟨S800000, .i32⟩ : BufTy).Contents (Elt F)),
    binary main_v3 main_v154 main_v155 (cmpi .slt : (⟨S800000, .i32⟩ : BufTy).Contents (Elt F) → (⟨S800000, .i32⟩ : BufTy).Contents (Elt F) → (⟨S800000, .i1⟩ : BufTy).Contents (Elt F)),
    nullary main_c_34 (constantI S_ 32 50000#32),
    unary main_c_34 main_v156 (broadcastInDim S800000 ![] bcast_S_S800000 : (⟨S_, .i32⟩ : BufTy).Contents (Elt F) → (⟨S800000, .i32⟩ : BufTy).Contents (Elt F)),
    binary main_v3 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_v3 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v139 main_v159 main_v160 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v153 main_v160 main_v161 (mulf : (⟨S800000, .f32⟩ : BufTy).Contents (Elt F) → (⟨S800000, .f32⟩ : BufTy).Contents (Elt F) → (⟨S800000, .f32⟩ : BufTy).Contents (Elt F)),
    unary main_v161 main_v162 (broadcastInDim S800000x1 ![0] bcast_S800000_S800000x1_0 : (⟨S800000, .f32⟩ : BufTy).Contents (Elt F) → (⟨S800000x1, .f32⟩ : BufTy).Contents (Elt F)),
    unary main_v162 main_v163 (broadcastInDim S800000x256 ![0, 1] bcast_S800000x1_S800000x256_0_1 : (⟨S800000x1, .f32⟩ : BufTy).Contents (Elt F) → (⟨S800000x256, .f32⟩ : BufTy).Contents (Elt F)),
    binary main_v146 main_v163 main_v164 (mulf : (⟨S800000x256, .f32⟩ : BufTy).Contents (Elt F) → (⟨S800000x256, .f32⟩ : BufTy).Contents (Elt F) → (⟨S800000x256, .f32⟩ : BufTy).Contents (Elt F)),
    nullary main_cst_35 (constant S_ .f32 0x00000000#32),
    unary main_cst_35 main_v165 (broadcastInDim S50000x256 ![] bcast_S_S50000x256 : (⟨S_, .f32⟩ : BufTy).Contents (Elt F) → (⟨S50000x256, .f32⟩ : BufTy).Contents (Elt F)),
    unary main_v3 main_v166 (broadcastInDim S800000x1 ![0] bcast_S800000_S800000x1_0 : (⟨S800000, .i32⟩ : BufTy).Contents (Elt F) → (⟨S800000x1, .i32⟩ : BufTy).Contents (Elt F)),
    ternary main_v165 main_v166 main_v164 main_v167 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v139 main_v139 main_v168 (mulf : (⟨S50000, .f32⟩ : BufTy).Contents (Elt F) → (⟨S50000, .f32⟩ : BufTy).Contents (Elt F) → (⟨S50000, .f32⟩ : BufTy).Contents (Elt F)),
    unary main_v168 main_v169 (broadcastInDim S50000x1 ![0] bcast_S50000_S50000x1_0 : (⟨S50000, .f32⟩ : BufTy).Contents (Elt F) → (⟨S50000x1, .f32⟩ : BufTy).Contents (Elt F)),
    unary main_v169 main_v170 (broadcastInDim S50000x256 ![0, 1] bcast_S50000x1_S50000x256_0_1 : (⟨S50000x1, .f32⟩ : BufTy).Contents (Elt F) → (⟨S50000x256, .f32⟩ : BufTy).Contents (Elt F)),
    binary main_v132 main_v170 main_v171 (mulf : (⟨S50000x256, .f32⟩ : BufTy).Contents (Elt F) → (⟨S50000x256, .f32⟩ : BufTy).Contents (Elt F) → (⟨S50000x256, .f32⟩ : BufTy).Contents (Elt F)),
    binary main_v167 main_v171 main_v172 (addf : (⟨S50000x256, .f32⟩ : BufTy).Contents (Elt F) → (⟨S50000x256, .f32⟩ : BufTy).Contents (Elt F) → (⟨S50000x256, .f32⟩ : BufTy).Contents (Elt F)),
    unary main_arg9 main_v173 (broadcastInDim S1x256 ![1] bcast_S256_S1x256_1 : (⟨S256, .f32⟩ : BufTy).Contents (Elt F) → (⟨S1x256, .f32⟩ : BufTy).Contents (Elt F)),
    unary main_v173 main_v174 (broadcastInDim S50000x256 ![0, 1] bcast_S1x256_S50000x256_0_1 : (⟨S1x256, .f32⟩ : BufTy).Contents (Elt F) → (⟨S50000x256, .f32⟩ : BufTy).Contents (Elt F)),
    binary main_v172 main_v174 main_v175 (addf : (⟨S50000x256, .f32⟩ : BufTy).Contents (Elt F) → (⟨S50000x256, .f32⟩ : BufTy).Contents (Elt F) → (⟨S50000x256, .f32⟩ : BufTy).Contents (Elt F)) ]

/-- Window 3, 44 operations: the third column-wise standardization. -/
abbrev opsB3_w3 : List (HloOp τ sig (Elt F)) :=
  [ nullary main_cst_36 (constant S_ .f32 0x00000000#32),
    binary main_v175 main_cst_36 main_v176 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_37 (constant S_ .f32 0x47435000#32),
    unary main_cst_37 main_v177 (broadcastInDim S256 ![] bcast_S_S256 : (⟨S_, .f32⟩ : BufTy).Contents (Elt F) → (⟨S256, .f32⟩ : BufTy).Contents (Elt F)),
    binary main_v176 main_v177 main_v178 (Host.divf : (⟨S256, .f32⟩ : BufTy).Contents (Elt F) → (⟨S256, .f32⟩ : BufTy).Contents (Elt F) → (⟨S256, .f32⟩ : BufTy).Contents (Elt F)),
    nullary main_c_38 (constantI S_ 32 0#32),
    TRef.nullary main_call4.cst (constant S_ .f32 0x00000000#32),
    TRef.binary (.of main_v175) main_call4.cst main_call4.v0 (fun x v => Host.reduceAdd x v reducesTo_S50000x256_S256_d0 h_S_),
    TRef.unary main_call4.v0 main_call4.v1 (broadcastInDim S1x256 ![1] bcast_S256_S1x256_1),
    TRef.nullary main_call4.cst_0 (constant S_ .f32 0x47435000#32),
    TRef.unary main_call4.cst_0 main_call4.v2 (broadcastInDim S1x256 ![] bcast_S_S1x256),
    TRef.binary main_call4.v1 main_call4.v2 main_call4.v3 Host.divf,
    TRef.unary main_call4.v3 main_call4.v4 (broadcastInDim S50000x256 ![0, 1] bcast_S1x256_S50000x256_0_1),
    TRef.binary (.of main_v175) main_call4.v4 main_call4.v5 subf,
    TRef.binary main_call4.v5 main_call4.v5 main_call4.v6 mulf,
    TRef.unary (.of main_c_38) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x256_S256_d0 h_S_),
    TRef.unary main_call4.v8 main_call4.v10 (broadcastInDim S256 ![] bcast_S_S256),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S256 ![] bcast_S_S256),
    TRef.ternary main_call4.v12 main_call4.v11 main_call4.call0.v1 main_call4.call0.v2 (fun p a b => select (broadcastInDim S256 ![] bcast_S_S256 p) a b),
    unary main_v178 main_v180 (broadcastInDim S1x256 ![1] bcast_S256_S1x256_1 : (⟨S256, .f32⟩ : BufTy).Contents (Elt F) → (⟨S1x256, .f32⟩ : BufTy).Contents (Elt F)),
    unary main_v180 main_v181 (broadcastInDim S50000x256 ![0, 1] bcast_S1x256_S50000x256_0_1 : (⟨S1x256, .f32⟩ : BufTy).Contents (Elt F) → (⟨S50000x256, .f32⟩ : BufTy).Contents (Elt F)),
    binary main_v175 main_v181 main_v182 (subf : (⟨S50000x256, .f32⟩ : BufTy).Contents (Elt F) → (⟨S50000x256, .f32⟩ : BufTy).Contents (Elt F) → (⟨S50000x256, .f32⟩ : BufTy).Contents (Elt F)),
    nullary main_cst_39 (constant S_ .f32 0x3727C5AC#32),
    unary main_cst_39 main_v183 (broadcastInDim S256 ![] bcast_S_S256 : (⟨S_, .f32⟩ : BufTy).Contents (Elt F) → (⟨S256, .f32⟩ : BufTy).Contents (Elt F)),
    binary main_v179 main_v183 main_v184 (addf : (⟨S256, .f32⟩ : BufTy).Contents (Elt F) → (⟨S256, .f32⟩ : BufTy).Contents (Elt F) → (⟨S256, .f32⟩ : BufTy).Contents (Elt F)),
    unary main_v184 main_v185 (Host.rsqrt : (⟨S256, .f32⟩ : BufTy).Contents (Elt F) → (⟨S256, .f32⟩ : BufTy).Contents (Elt F)),
    unary main_v185 main_v186 (broadcastInDim S1x256 ![1] bcast_S256_S1x256_1 : (⟨S256, .f32⟩ : BufTy).Contents (Elt F) → (⟨S1x256, .f32⟩ : BufTy).Contents (Elt F)),
    unary main_v186 main_v187 (broadcastInDim S50000x256 ![0, 1] bcast_S1x256_S50000x256_0_1 : (⟨S1x256, .f32⟩ : BufTy).Contents (Elt F) → (⟨S50000x256, .f32⟩ : BufTy).Contents (Elt F)),
    binary main_v182 main_v187 main_v188 (mulf : (⟨S50000x256, .f32⟩ : BufTy).Contents (Elt F) → (⟨S50000x256, .f32⟩ : BufTy).Contents (Elt F) → (⟨S50000x256, .f32⟩ : BufTy).Contents (Elt F)),
    unary main_arg14 main_v189 (broadcastInDim S1x256 ![1] bcast_S256_S1x256_1 : (⟨S256, .f32⟩ : BufTy).Contents (Elt F) → (⟨S1x256, .f32⟩ : BufTy).Contents (Elt F)),
    unary main_v189 main_v190 (broadcastInDim S50000x256 ![0, 1] bcast_S1x256_S50000x256_0_1 : (⟨S1x256, .f32⟩ : BufTy).Contents (Elt F) → (⟨S50000x256, .f32⟩ : BufTy).Contents (Elt F)),
    binary main_v188 main_v190 main_v191 (mulf : (⟨S50000x256, .f32⟩ : BufTy).Contents (Elt F) → (⟨S50000x256, .f32⟩ : BufTy).Contents (Elt F) → (⟨S50000x256, .f32⟩ : BufTy).Contents (Elt F)),
    unary main_arg15 main_v192 (broadcastInDim S1x256 ![1] bcast_S256_S1x256_1 : (⟨S256, .f32⟩ : BufTy).Contents (Elt F) → (⟨S1x256, .f32⟩ : BufTy).Contents (Elt F)),
    unary main_v192 main_v193 (broadcastInDim S50000x256 ![0, 1] bcast_S1x256_S50000x256_0_1 : (⟨S1x256, .f32⟩ : BufTy).Contents (Elt F) → (⟨S50000x256, .f32⟩ : BufTy).Contents (Elt F)),
    binary main_v191 main_v193 main_v194 (addf : (⟨S50000x256, .f32⟩ : BufTy).Contents (Elt F) → (⟨S50000x256, .f32⟩ : BufTy).Contents (Elt F) → (⟨S50000x256, .f32⟩ : BufTy).Contents (Elt F)) ]

/-- Window 3, 3 operations: the per-group mean, the two dense layers and the logistic function. -/
abbrev opsT_w3 : List (HloOp τ sig (Elt F)) :=
  [ nullary main_cst_40 (constant S_ .f32 0x00000000#32),
    unary main_cst_40 main_v195 (broadcastInDim S64x256 ![] bcast_S_S64x256 : (⟨S_, .f32⟩ : BufTy).Contents (Elt F) → (⟨S64x256, .f32⟩ : BufTy).Contents (Elt F)),
    unary main_arg2 main_v196 (broadcastInDim S50000x1 ![0] bcast_S50000_S50000x1_0 : (⟨S50000, .i32⟩ : BufTy).Contents (Elt F) → (⟨S50000x1, .i32⟩ : BufTy).Contents (Elt F)) ]

/-- Window 4, 30 operations: the per-group mean, the two dense layers and the logistic function. -/
abbrev opsT_w4 : List (HloOp τ sig (Elt F)) :=
  [ ternary main_v195 main_v196 main_v194 main_v197 ((fun x i u => Host.scatterAdd scatter_S64x256_S50000x1_S50000x256_1_0_0_1 x i u) : (⟨S64x256, .f32⟩ : BufTy).Contents (Elt F) → (⟨S50000x1, .i32⟩ : BufTy).Contents (Elt F) → (⟨S50000x256, .f32⟩ : BufTy).Contents (Elt F) → (⟨S64x256, .f32⟩ : BufTy).Contents (Elt F)),
    nullary main_cst_41 (constant S_ .f32 0x3F800000#32),
    unary main_cst_41 main_v198 (broadcastInDim S50000 ![] bcast_S_S50000 : (⟨S_, .f32⟩ : BufTy).Contents (Elt F) → (⟨S50000, .f32⟩ : BufTy).Contents (Elt F)),
    nullary main_cst_42 (constant S_ .f32 0x00000000#32),
    unary main_cst_42 main_v199 (broadcastInDim S64 ![] bcast_S_S64 : (⟨S_, .f32⟩ : BufTy).Contents (Elt F) → (⟨S64, .f32⟩ : BufTy).Contents (Elt F)),
    unary main_arg2 main_v200 (broadcastInDim S50000x1 ![0] bcast_S50000_S50000x1_0 : (⟨S50000, .i32⟩ : BufTy).Contents (Elt F) → (⟨S50000x1, .i32⟩ : BufTy).Contents (Elt F)),
    ternary main_v199 main_v200 main_v198 main_v201 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    nullary main_cst_43 (constant S_ .f32 0x3F800000#32),
    unary main_cst_43 main_v202 (broadcastInDim S64 ![] bcast_S_S64 : (⟨S_, .f32⟩ : BufTy).Contents (Elt F) → (⟨S64, .f32⟩ : BufTy).Contents (Elt F)),
    binary main_v201 main_v202 main_v203 (maximumf : (⟨S64, .f32⟩ : BufTy).Contents (Elt F) → (⟨S64, .f32⟩ : BufTy).Contents (Elt F) → (⟨S64, .f32⟩ : BufTy).Contents (Elt F)),
    unary main_v203 main_v204 (broadcastInDim S64x1 ![0] bcast_S64_S64x1_0 : (⟨S64, .f32⟩ : BufTy).Contents (Elt F) → (⟨S64x1, .f32⟩ : BufTy).Contents (Elt F)),
    unary main_v204 main_v205 (broadcastInDim S64x256 ![0, 1] bcast_S64x1_S64x256_0_1 : (⟨S64x1, .f32⟩ : BufTy).Contents (Elt F) → (⟨S64x256, .f32⟩ : BufTy).Contents (Elt F)),
    binary main_v197 main_v205 main_v206 (Host.divf : (⟨S64x256, .f32⟩ : BufTy).Contents (Elt F) → (⟨S64x256, .f32⟩ : BufTy).Contents (Elt F) → (⟨S64x256, .f32⟩ : BufTy).Contents (Elt F)),
    binary main_arg3 main_arg16 main_v207 ((fun l r => Host.dotGeneral dot_S64x1280_S1280x256_S64x256_1_0_0_1_n_n none l r) : (⟨S64x1280, .f32⟩ : BufTy).Contents (Elt F) → (⟨S1280x256, .f32⟩ : BufTy).Contents (Elt F) → (⟨S64x256, .f32⟩ : BufTy).Contents (Elt F)),
    unary main_arg17 main_v208 (broadcastInDim S1x256 ![1] bcast_S256_S1x256_1 : (⟨S256, .f32⟩ : BufTy).Contents (Elt F) → (⟨S1x256, .f32⟩ : BufTy).Contents (Elt F)),
    unary main_v208 main_v209 (broadcastInDim S64x256 ![0, 1] bcast_S1x256_S64x256_0_1 : (⟨S1x256, .f32⟩ : BufTy).Contents (Elt F) → (⟨S64x256, .f32⟩ : BufTy).Contents (Elt F)),
    binary main_v207 main_v209 main_v210 (addf : (⟨S64x256, .f32⟩ : BufTy).Contents (Elt F) → (⟨S64x256, .f32⟩ : BufTy).Contents (Elt F) → (⟨S64x256, .f32⟩ : BufTy).Contents (Elt F)),
    binary main_v206 main_v210 main_v211 (addf : (⟨S64x256, .f32⟩ : BufTy).Contents (Elt F) → (⟨S64x256, .f32⟩ : BufTy).Contents (Elt F) → (⟨S64x256, .f32⟩ : BufTy).Contents (Elt F)),
    binary main_v211 main_arg18 main_v212 ((fun l r => Host.dotGeneral dot_S64x256_S256x2752_S64x2752_1_0_0_1_n_n none l r) : (⟨S64x256, .f32⟩ : BufTy).Contents (Elt F) → (⟨S256x2752, .f32⟩ : BufTy).Contents (Elt F) → (⟨S64x2752, .f32⟩ : BufTy).Contents (Elt F)),
    unary main_arg19 main_v213 (broadcastInDim S1x2752 ![1] bcast_S2752_S1x2752_1 : (⟨S2752, .f32⟩ : BufTy).Contents (Elt F) → (⟨S1x2752, .f32⟩ : BufTy).Contents (Elt F)),
    unary main_v213 main_v214 (broadcastInDim S64x2752 ![0, 1] bcast_S1x2752_S64x2752_0_1 : (⟨S1x2752, .f32⟩ : BufTy).Contents (Elt F) → (⟨S64x2752, .f32⟩ : BufTy).Contents (Elt F)),
    binary main_v212 main_v214 main_v215 (addf : (⟨S64x2752, .f32⟩ : BufTy).Contents (Elt F) → (⟨S64x2752, .f32⟩ : BufTy).Contents (Elt F) → (⟨S64x2752, .f32⟩ : BufTy).Contents (Elt F)),
    unary main_v215 main_v216 (Host.negf : (⟨S64x2752, .f32⟩ : BufTy).Contents (Elt F) → (⟨S64x2752, .f32⟩ : BufTy).Contents (Elt F)),
    unary main_v216 main_v217 (Host.exp : (⟨S64x2752, .f32⟩ : BufTy).Contents (Elt F) → (⟨S64x2752, .f32⟩ : BufTy).Contents (Elt F)),
    nullary main_cst_44 (constant S_ .f32 0x3F800000#32),
    unary main_cst_44 main_v218 (broadcastInDim S64x2752 ![] bcast_S_S64x2752 : (⟨S_, .f32⟩ : BufTy).Contents (Elt F) → (⟨S64x2752, .f32⟩ : BufTy).Contents (Elt F)),
    binary main_v218 main_v217 main_v219 (addf : (⟨S64x2752, .f32⟩ : BufTy).Contents (Elt F) → (⟨S64x2752, .f32⟩ : BufTy).Contents (Elt F) → (⟨S64x2752, .f32⟩ : BufTy).Contents (Elt F)),
    nullary main_cst_45 (constant S_ .f32 0x3F800000#32),
    unary main_cst_45 main_v220 (broadcastInDim S64x2752 ![] bcast_S_S64x2752 : (⟨S_, .f32⟩ : BufTy).Contents (Elt F) → (⟨S64x2752, .f32⟩ : BufTy).Contents (Elt F)),
    binary main_v220 main_v219 main_v221 (Host.divf : (⟨S64x2752, .f32⟩ : BufTy).Contents (Elt F) → (⟨S64x2752, .f32⟩ : BufTy).Contents (Elt F) → (⟨S64x2752, .f32⟩ : BufTy).Contents (Elt F)) ]

end Cert.ReferenceIdeal.HandRun

end
-- ==== Proof.RefRunMain.lean ====
/-
  The printed program is the lists of operations run one after the other: each of its five windows is the sequence
  of its stretches' lists (the outlined functions' bodies unfolded at their calls, sequencing reassociated), and the
  program is the five windows in order.  Hence its run: every weakly fair execution terminates with each buffer at
  the fold of all the operations over the contents at launch.
-/
import proofs.«155788_j3092376453711_2_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 0 of the printed program, as its stretches' lists in order. -/
abbrev win0 : List (HloOp τ sig (Elt F)) := opsS0_w0 ++ opsD1_w0 ++ opsC1_w0 ++ opsR1_w0 ++ opsB1_w0

-- sixty binds re-associated: the rewriting under the chain recurses once per statement
set_option maxRecDepth 2048 in
set_option maxHeartbeats 1000000 in
/-- Window 0 is that straight line: the outlined functions unfolded at their calls and the records at their fields,
    both sides are one chain of steps once sequencing is reassociated. -/
theorem part0_eq (c : Dev nD) : main_part0 (F := F) c = seq win0 := by
  simp only [main_part0, fn_relu.body, fn_var.body, fn_where.body, win0, opsS0_w0, opsD1_w0, opsC1_w0, opsR1_w0, opsB1_w0,
    List.cons_append, List.nil_append, seq, bind_assoc, pure_bind]
  rfl

/-- Window 1 of the printed program, as its stretches' lists in order. -/
abbrev win1 : List (HloOp τ sig (Elt F)) := opsB1_w1 ++ opsD2_w1 ++ opsC2_w1

-- sixty binds re-associated: the rewriting under the chain recurses once per statement
set_option maxRecDepth 2048 in
set_option maxHeartbeats 1000000 in
/-- Window 1 is that straight line: the outlined functions unfolded at their calls and the records at their fields,
    both sides are one chain of steps once sequencing is reassociated. -/
theorem part1_eq (c : Dev nD) : main_part1 (F := F) c = seq win1 := by
  simp only [main_part1, fn_relu.body, fn_var.body, fn_where.body, win1, opsB1_w1, opsD2_w1, opsC2_w1,
    List.cons_append, List.nil_append, seq, bind_assoc, pure_bind]
  rfl

/-- Window 2 of the printed program, as its stretches' lists in order. -/
abbrev win2 : List (HloOp τ sig (Elt F)) := opsC2_w2 ++ opsR2_w2 ++ opsB2_w2 ++ opsD3_w2 ++ opsC3_w2

-- sixty binds re-associated: the rewriting under the chain recurses once per statement
set_option maxRecDepth 2048 in
set_option maxHeartbeats 1000000 in
/-- Window 2 is that straight line: the outlined functions unfolded at their calls and the records at their fields,
    both sides are one chain of steps once sequencing is reassociated. -/
theorem part2_eq (c : Dev nD) : main_part2 (F := F) c = seq win2 := by
  simp only [main_part2, fn_relu.body, fn_var.body, fn_where.body, win2, opsC2_w2, opsR2_w2, opsB2_w2, opsD3_w2, opsC3_w2,
    List.cons_append, List.nil_append, seq, bind_assoc, pure_bind]
  rfl

/-- Window 3 of the printed program, as its stretches' lists in order. -/
abbrev win3 : List (HloOp τ sig (Elt F)) := opsC3_w3 ++ opsB3_w3 ++ opsT_w3

-- sixty binds re-associated: the rewriting under the chain recurses once per statement
set_option maxRecDepth 2048 in
set_option maxHeartbeats 1000000 in
/-- Window 3 is that straight line: the outlined functions unfolded at their calls and the records at their fields,
    both sides are one chain of steps once sequencing is reassociated. -/
theorem part3_eq (c : Dev nD) : main_part3 (F := F) c = seq win3 := by
  simp only [main_part3, fn_relu.body, fn_var.body, fn_where.body, win3, opsC3_w3, opsB3_w3, opsT_w3,
    List.cons_append, List.nil_append, seq, bind_assoc, pure_bind]
  rfl

/-- Window 4 of the printed program, as its stretches' lists in order. -/
abbrev win4 : List (HloOp τ sig (Elt F)) := opsT_w4

-- sixty binds re-associated: the rewriting under the chain recurses once per statement
set_option maxRecDepth 2048 in
set_option maxHeartbeats 1000000 in
/-- Window 4 is that straight line: the outlined functions unfolded at their calls and the records at their fields,
    both sides are one chain of steps once sequencing is reassociated. -/
theorem part4_eq (c : Dev nD) : main_part4 (F := F) c = seq win4 := by
  simp only [main_part4, win4, opsT_w4, seq, bind_assoc, pure_bind]

/-- All the operations of the program, in order. -/
abbrev ops : List (HloOp τ sig (Elt F)) := win0 ++ win1 ++ win2 ++ win3 ++ win4

/-- The program is its operations run in order. -/
theorem main_eq (c : Dev nD) : main (F := F) c = seq ops := by
  simp only [main, ops, part0_eq, part1_eq, part2_eq, part3_eq, part4_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem opsS0_w0_sub : (opsS0_w0 : (List (HloOp τ sig (Elt F)))).Forall fun op => op.bufs ⊆ tcRefs τ sig :=
  ⟨unary_bufs_sub .., reshape_bufs_sub .., unary_bufs_sub .., reshape_bufs_sub ..⟩
theorem opsS0_w0_fresh : (opsS0_w0 : (List (HloOp τ sig (Elt F)))).Forall fun op => op.fresh = ∅ :=
  ⟨rfl, rfl, rfl, rfl⟩

theorem opsD1_w0_sub : (opsD1_w0 : (List (HloOp τ sig (Elt F)))).Forall fun op => op.bufs ⊆ tcRefs τ sig :=
  binary_bufs_sub ..
theorem opsD1_w0_fresh : (opsD1_w0 : (List (HloOp τ sig (Elt F)))).Forall fun op => op.fresh = ∅ :=
  rfl

theorem opsC1_w0_sub : (opsC1_w0 : (List (HloOp τ sig (Elt F)))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩
theorem opsC1_w0_fresh : (opsC1_w0 : (List (HloOp τ sig (Elt F)))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsR1_w0_sub : (opsR1_w0 : (List (HloOp τ sig (Elt F)))).Forall fun op => op.bufs ⊆ tcRefs τ sig :=
  ⟨nullary_bufs_sub .., unary_bufs_sub .., binary_bufs_sub ..⟩
theorem opsR1_w0_fresh : (opsR1_w0 : (List (HloOp τ sig (Elt F)))).Forall fun op => op.fresh = ∅ :=
  ⟨rfl, rfl, rfl⟩

theorem opsB1_w0_sub : (opsB1_w0 : (List (HloOp τ sig (Elt F)))).Forall fun op => op.bufs ⊆ tcRefs τ sig :=
  nullary_bufs_sub ..
theorem opsB1_w0_fresh : (opsB1_w0 : (List (HloOp τ sig (Elt F)))).Forall fun op => op.fresh = ∅ :=
  rfl

theorem opsB1_w1_sub : (opsB1_w1 : (List (HloOp τ sig (Elt F)))).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsB1_w1_fresh : (opsB1_w1 : (List (HloOp τ sig (Elt F)))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsD2_w1_sub : (opsD2_w1 : (List (HloOp τ sig (Elt F)))).Forall fun op => op.bufs ⊆ tcRefs τ sig :=
  binary_bufs_sub ..
theorem opsD2_w1_fresh : (opsD2_w1 : (List (HloOp τ sig (Elt F)))).Forall fun op => op.fresh = ∅ :=
  rfl

theorem opsC2_w1_sub : (opsC2_w1 : (List (HloOp τ sig (Elt F)))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsC2_w1_fresh : (opsC2_w1 : (List (HloOp τ sig (Elt F)))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsC2_w2_sub : (opsC2_w2 : (List (HloOp τ sig (Elt F)))).Forall fun op => op.bufs ⊆ tcRefs τ sig :=
  ⟨binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩
theorem opsC2_w2_fresh : (opsC2_w2 : (List (HloOp τ sig (Elt F)))).Forall fun op => op.fresh = ∅ :=
  ⟨rfl, rfl, rfl, rfl, rfl, rfl, rfl, rfl, rfl, rfl, rfl, rfl, rfl, rfl, rfl, rfl⟩

theorem opsR2_w2_sub : (opsR2_w2 : (List (HloOp τ sig (Elt F)))).Forall fun op => op.bufs ⊆ tcRefs τ sig :=
  ⟨nullary_bufs_sub .., unary_bufs_sub .., binary_bufs_sub ..⟩
theorem opsR2_w2_fresh : (opsR2_w2 : (List (HloOp τ sig (Elt F)))).Forall fun op => op.fresh = ∅ :=
  ⟨rfl, rfl, rfl⟩

theorem opsB2_w2_sub : (opsB2_w2 : (List (HloOp τ sig (Elt F)))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsB2_w2_fresh : (opsB2_w2 : (List (HloOp τ sig (Elt F)))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsD3_w2_sub : (opsD3_w2 : (List (HloOp τ sig (Elt F)))).Forall fun op => op.bufs ⊆ tcRefs τ sig :=
  binary_bufs_sub ..
theorem opsD3_w2_fresh : (opsD3_w2 : (List (HloOp τ sig (Elt F)))).Forall fun op => op.fresh = ∅ :=
  rfl

theorem opsC3_w2_sub : (opsC3_w2 : (List (HloOp τ sig (Elt F)))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩
theorem opsC3_w2_fresh : (opsC3_w2 : (List (HloOp τ sig (Elt F)))).Forall fun op => op.fresh = ∅ :=
  ⟨rfl, rfl, rfl, rfl, rfl, rfl, rfl, rfl, rfl, rfl, rfl, rfl, rfl, rfl, rfl, rfl, rfl, rfl, rfl⟩

theorem opsC3_w3_sub : (opsC3_w3 : (List (HloOp τ sig (Elt F)))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩
theorem opsC3_w3_fresh : (opsC3_w3 : (List (HloOp τ sig (Elt F)))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB3_w3_sub : (opsB3_w3 : (List (HloOp τ sig (Elt F)))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsB3_w3_fresh : (opsB3_w3 : (List (HloOp τ sig (Elt F)))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsT_w3_sub : (opsT_w3 : (List (HloOp τ sig (Elt F)))).Forall fun op => op.bufs ⊆ tcRefs τ sig :=
  ⟨nullary_bufs_sub .., unary_bufs_sub .., unary_bufs_sub ..⟩
theorem opsT_w3_fresh : (opsT_w3 : (List (HloOp τ sig (Elt F)))).Forall fun op => op.fresh = ∅ :=
  ⟨rfl, rfl, rfl⟩

theorem opsT_w4_sub : (opsT_w4 : (List (HloOp τ sig (Elt F)))).Forall fun op => op.bufs ⊆ tcRefs τ sig :=
  ⟨ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem opsT_w4_fresh : (opsT_w4 : (List (HloOp τ sig (Elt F)))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation touches TensorCore buffers only. -/
theorem ops_sub : (ops : (List (HloOp τ sig (Elt F)))).Forall fun op => op.bufs ⊆ tcRefs τ sig :=
  List.forall_append.mpr ⟨List.forall_append.mpr ⟨List.forall_append.mpr ⟨List.forall_append.mpr ⟨List.forall_append.mpr ⟨List.forall_append.mpr ⟨List.forall_append.mpr ⟨List.forall_append.mpr ⟨opsS0_w0_sub, opsD1_w0_sub⟩, opsC1_w0_sub⟩, opsR1_w0_sub⟩, opsB1_w0_sub⟩,
    List.forall_append.mpr ⟨List.forall_append.mpr ⟨opsB1_w1_sub, opsD2_w1_sub⟩, opsC2_w1_sub⟩⟩,
    List.forall_append.mpr ⟨List.forall_append.mpr ⟨List.forall_append.mpr ⟨List.forall_append.mpr ⟨opsC2_w2_sub, opsR2_w2_sub⟩, opsB2_w2_sub⟩, opsD3_w2_sub⟩, opsC3_w2_sub⟩⟩,
    List.forall_append.mpr ⟨List.forall_append.mpr ⟨opsC3_w3_sub, opsB3_w3_sub⟩, opsT_w3_sub⟩⟩,
    opsT_w4_sub⟩

/-- No operation allocates: each determines the buffers it writes. -/
theorem ops_fresh : (ops : (List (HloOp τ sig (Elt F)))).Forall fun op => op.fresh = ∅ :=
  List.forall_append.mpr ⟨List.forall_append.mpr ⟨List.forall_append.mpr ⟨List.forall_append.mpr ⟨List.forall_append.mpr ⟨List.forall_append.mpr ⟨List.forall_append.mpr ⟨List.forall_append.mpr ⟨opsS0_w0_fresh, opsD1_w0_fresh⟩, opsC1_w0_fresh⟩, opsR1_w0_fresh⟩, opsB1_w0_fresh⟩,
    List.forall_append.mpr ⟨List.forall_append.mpr ⟨opsB1_w1_fresh, opsD2_w1_fresh⟩, opsC2_w1_fresh⟩⟩,
    List.forall_append.mpr ⟨List.forall_append.mpr ⟨List.forall_append.mpr ⟨List.forall_append.mpr ⟨opsC2_w2_fresh, opsR2_w2_fresh⟩, opsB2_w2_fresh⟩, opsD3_w2_fresh⟩, opsC3_w2_fresh⟩⟩,
    List.forall_append.mpr ⟨List.forall_append.mpr ⟨opsC3_w3_fresh, opsB3_w3_fresh⟩, opsT_w3_fresh⟩⟩,
    opsT_w4_fresh⟩

/-- On every device, for any float values, from any memory with zero counters: every weakly fair execution of the program
    terminates, and every final state has each TensorCore buffer at the operations' fold over the contents at launch. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.HandRun

end
-- ==== Proof.RefRunFns.lean ====
/-
  The reference's result as a function of its twenty argument arrays, at the extended reals, built from named
  pieces, each the printed operations of one stretch composed in order:

    src, dst       the two rows of the edge table as vectors
    dot1280/dot256 a matrix product
    wrap           an index vector with its negative entries raised by the number of rows
    dinv            the inverse square root of one plus the number of edges arriving at each row
    edgeW          per edge, the product of dinv at its two ends
    conv           rows gathered at the sources, scaled by edgeW, summed into the destinations, plus the row itself
                   scaled by dinv squared, plus a bias row
    relu           the maximum with zero
    colMean/colVar the mean of each column, and the mean squared deviation from it
    bn             each column less its mean, times the inverse square root of its variance plus a small constant,
                   scaled and shifted column by column
    pool, logits   the mean of the rows of each group; two dense layers over it
    tail           the logistic function of logits
    out            the whole composition.
-/
import proofs.«155788_j3092376453711_2_alg».proof.Proof.Gen.ReferenceIdeal
import Idealize.ShloMosaic.PureOps.Ideal

noncomputable section

namespace Cert.ReferenceIdeal.HandRun

open Cert.ReferenceIdeal Cert.ReferenceIdeal.Gen Idealize.ShloMosaic Idealize.ShloMosaic.TcCoe Idealize.SL.Sem Idealize.ShloMosaic.StableHlo

/-- The sources of the edges: row 0 of the edge table. -/
def src (a1 : IVec S2x800000 32) : IVec S800000 32 :=
  shapeCast S800000 (extractStridedSlice S1x800000 ![0, 0] a1 slices_S2x800000_S1x800000_0_0) shapeCasts_S1x800000_S800000

/-- The destinations of the edges: row 1 of the edge table. -/
def dst (a1 : IVec S2x800000 32) : IVec S800000 32 :=
  shapeCast S800000 (extractStridedSlice S1x800000 ![1, 0] a1 slices_S2x800000_S1x800000_1_0) shapeCasts_S1x800000_S800000

/-- The input features times the first weight matrix. -/
def dot1280 (x : FVec Ideal S50000x1280 .f32) (w : FVec Ideal S1280x256 .f32) : FVec Ideal S50000x256 .f32 :=
  Host.dotGeneral (F := Ideal) dot_S50000x1280_S1280x256_S50000x256_1_0_0_1_n_n none x w

/-- A layer's input times its weight matrix. -/
def dot256 (x : FVec Ideal S50000x256 .f32) (w : FVec Ideal S256x256 .f32) : FVec Ideal S50000x256 .f32 :=
  Host.dotGeneral (F := Ideal) dot_S50000x256_S256x256_S50000x256_1_0_0_1_n_n none x w

/-- An index vector with each negative entry raised by the number of rows. -/
def wrap (s : IVec S800000 32) : IVec S800000 32 :=
  select (cmpi .slt s (broadcastInDim S800000 ![] bcast_S_S800000 (constantI S_ 32 0#32))) (addi s (broadcastInDim S800000 ![] bcast_S_S800000 (constantI S_ 32 50000#32))) s

/-- An index vector as a one-column table. -/
def asCol (s : IVec S800000 32) : IVec S800000x1 32 :=
  broadcastInDim S800000x1 ![0] bcast_S800000_S800000x1_0 s

/-- Per row, the inverse square root of one plus the number of edges whose destination it is. -/
def dinv (d : IVec S800000 32) : FVec Ideal S50000 .f32 :=
  Host.rsqrt (F := Ideal) (addf (F := Ideal) (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 d) (broadcastInDim S800000 ![] bcast_S_S800000 (constant (F := Ideal) S_ .f32 0x3F800000#32))) (broadcastInDim S50000 ![] bcast_S_S50000 (constant (F := Ideal) S_ .f32 0x3F800000#32)))

/-- Per edge, the product of dinv at its source and at its destination. -/
def edgeW (s d : IVec S800000 32) : FVec Ideal S800000 .f32 :=
  mulf (F := Ideal) (Host.gather gather_S50000_S800000x1_S800000_n_0_n_n_0_1_1 (dinv d) (asCol (wrap s))) (Host.gather gather_S50000_S800000x1_S800000_n_0_n_n_0_1_1 (dinv d) (asCol (wrap d)))

/-- One aggregation: the rows of h at the sources, each scaled by its edge's weight, summed into the destinations;
    plus h with each row scaled by the square of its dinv; plus the bias row. -/
def conv (h : FVec Ideal S50000x256 .f32) (s d : IVec S800000 32) (b : FVec Ideal S256 .f32) : FVec Ideal S50000x256 .f32 :=
  addf (F := Ideal) (addf (F := Ideal) (Host.scatterAdd (F := Ideal) scatter_S50000x256_S800000x1_S800000x256_1_0_0_1 (broadcastInDim S50000x256 ![] bcast_S_S50000x256 (constant (F := Ideal) S_ .f32 0x00000000#32)) (asCol d) (mulf (F := Ideal) (Host.gather gather_S50000x256_S800000x1_S800000x256_1_0_n_n_0_1_1256 h (asCol (wrap s))) (broadcastInDim S800000x256 ![0, 1] bcast_S800000x1_S800000x256_0_1 (broadcastInDim S800000x1 ![0] bcast_S800000_S800000x1_0 (edgeW s d))))) (mulf (F := Ideal) h (broadcastInDim S50000x256 ![0, 1] bcast_S50000x1_S50000x256_0_1 (broadcastInDim S50000x1 ![0] bcast_S50000_S50000x1_0 (mulf (F := Ideal) (dinv d) (dinv d)))))) (broadcastInDim S50000x256 ![0, 1] bcast_S1x256_S50000x256_0_1 (broadcastInDim S1x256 ![1] bcast_S256_S1x256_1 b))

/-- The maximum with zero. -/
def relu (h : FVec Ideal S50000x256 .f32) : FVec Ideal S50000x256 .f32 :=
  maximumf (F := Ideal) h (broadcastInDim S50000x256 ![] bcast_S_S50000x256 (constant (F := Ideal) S_ .f32 0x00000000#32))

/-- The mean of each column. -/
def colMean (r : FVec Ideal S50000x256 .f32) : FVec Ideal S256 .f32 :=
  Host.divf (F := Ideal) (Host.reduceAdd (F := Ideal) r (constant (F := Ideal) S_ .f32 0x00000000#32) reducesTo_S50000x256_S256_d0 h_S_) (broadcastInDim S256 ![] bcast_S_S256 (constant (F := Ideal) S_ .f32 0x47435000#32))

/-- The mean squared deviation of each column from its mean (the divisor is the number of rows less zero; were it not
    positive the result would be the not-a-number constant). -/
def colVar (r : FVec Ideal S50000x256 .f32) : FVec Ideal S256 .f32 :=
  select (broadcastInDim S256 ![] bcast_S_S256 (cmpf (F := Ideal) .ogt (subf (F := Ideal) (constant (F := Ideal) S_ .f32 0x47435000#32) (sitofp (F := Ideal) .f32 (constantI S_ 32 0#32))) (constant (F := Ideal) S_ .f32 0x00000000#32))) (Host.divf (F := Ideal) (Host.reduceAdd (F := Ideal) (mulf (F := Ideal) (subf (F := Ideal) r (broadcastInDim S50000x256 ![0, 1] bcast_S1x256_S50000x256_0_1 (Host.divf (F := Ideal) (broadcastInDim S1x256 ![1] bcast_S256_S1x256_1 (Host.reduceAdd (F := Ideal) r (constant (F := Ideal) S_ .f32 0x00000000#32) reducesTo_S50000x256_S256_d0 h_S_)) (broadcastInDim S1x256 ![] bcast_S_S1x256 (constant (F := Ideal) S_ .f32 0x47435000#32))))) (subf (F := Ideal) r (broadcastInDim S50000x256 ![0, 1] bcast_S1x256_S50000x256_0_1 (Host.divf (F := Ideal) (broadcastInDim S1x256 ![1] bcast_S256_S1x256_1 (Host.reduceAdd (F := Ideal) r (constant (F := Ideal) S_ .f32 0x00000000#32) reducesTo_S50000x256_S256_d0 h_S_)) (broadcastInDim S1x256 ![] bcast_S_S1x256 (constant (F := Ideal) S_ .f32 0x47435000#32)))))) (constant (F := Ideal) S_ .f32 0x00000000#32) reducesTo_S50000x256_S256_d0 h_S_) (broadcastInDim S256 ![] bcast_S_S256 (subf (F := Ideal) (constant (F := Ideal) S_ .f32 0x47435000#32) (sitofp (F := Ideal) .f32 (constantI S_ 32 0#32))))) (broadcastInDim S256 ![] bcast_S_S256 ((constant (F := Ideal) S_ .f32 0x7FC00000#32)))

/-- Each column less its mean, times the inverse square root of its variance plus a small constant, then scaled by g
    and shifted by be, column by column. -/
def bn (r : FVec Ideal S50000x256 .f32) (g be : FVec Ideal S256 .f32) : FVec Ideal S50000x256 .f32 :=
  addf (F := Ideal) (mulf (F := Ideal) (mulf (F := Ideal) (subf (F := Ideal) r (broadcastInDim S50000x256 ![0, 1] bcast_S1x256_S50000x256_0_1 (broadcastInDim S1x256 ![1] bcast_S256_S1x256_1 (colMean r)))) (broadcastInDim S50000x256 ![0, 1] bcast_S1x256_S50000x256_0_1 (broadcastInDim S1x256 ![1] bcast_S256_S1x256_1 (Host.rsqrt (F := Ideal) (addf (F := Ideal) (colVar r) (broadcastInDim S256 ![] bcast_S_S256 (constant (F := Ideal) S_ .f32 0x3727C5AC#32))))))) (broadcastInDim S50000x256 ![0, 1] bcast_S1x256_S50000x256_0_1 (broadcastInDim S1x256 ![1] bcast_S256_S1x256_1 g))) (broadcastInDim S50000x256 ![0, 1] bcast_S1x256_S50000x256_0_1 (broadcastInDim S1x256 ![1] bcast_S256_S1x256_1 be))

/-- The mean of the rows of each group: the rows summed into their group's row, over the larger of the group's size and one. -/
def pool (h : FVec Ideal S50000x256 .f32) (a2 : IVec S50000 32) : FVec Ideal S64x256 .f32 :=
  Host.divf (F := Ideal) (Host.scatterAdd (F := Ideal) scatter_S64x256_S50000x1_S50000x256_1_0_0_1 (broadcastInDim S64x256 ![] bcast_S_S64x256 (constant (F := Ideal) S_ .f32 0x00000000#32)) (broadcastInDim S50000x1 ![0] bcast_S50000_S50000x1_0 a2) h) (broadcastInDim S64x256 ![0, 1] bcast_S64x1_S64x256_0_1 (broadcastInDim S64x1 ![0] bcast_S64_S64x1_0 (maximumf (F := Ideal) (Host.scatterAdd (F := Ideal) scatter_S64_S50000x1_S50000_n_0_0_1 (broadcastInDim S64 ![] bcast_S_S64 (constant (F := Ideal) S_ .f32 0x00000000#32)) (broadcastInDim S50000x1 ![0] bcast_S50000_S50000x1_0 a2) (broadcastInDim S50000 ![] bcast_S_S50000 (constant (F := Ideal) S_ .f32 0x3F800000#32))) (broadcastInDim S64 ![] bcast_S_S64 (constant (F := Ideal) S_ .f32 0x3F800000#32)))))

/-- Two dense layers: the pooled rows plus a dense layer of the group features, then a dense layer of the sum. -/
def logits (h : FVec Ideal S50000x256 .f32) (a2 : IVec S50000 32) (a3 : FVec Ideal S64x1280 .f32) (a16 : FVec Ideal S1280x256 .f32) (a17 : FVec Ideal S256 .f32)
    (a18 : FVec Ideal S256x2752 .f32) (a19 : FVec Ideal S2752 .f32) : FVec Ideal S64x2752 .f32 :=
  addf (F := Ideal) (Host.dotGeneral (F := Ideal) dot_S64x256_S256x2752_S64x2752_1_0_0_1_n_n none (addf (F := Ideal) (pool h a2) (addf (F := Ideal) (Host.dotGeneral (F := Ideal) dot_S64x1280_S1280x256_S64x256_1_0_0_1_n_n none a3 a16) (broadcastInDim S64x256 ![0, 1] bcast_S1x256_S64x256_0_1 (broadcastInDim S1x256 ![1] bcast_S256_S1x256_1 a17)))) a18) (broadcastInDim S64x2752 ![0, 1] bcast_S1x2752_S64x2752_0_1 (broadcastInDim S1x2752 ![1] bcast_S2752_S1x2752_1 a19))

/-- The logistic function of logits, as one over one plus the exponential of the negation. -/
def tail (h : FVec Ideal S50000x256 .f32) (a2 : IVec S50000 32) (a3 : FVec Ideal S64x1280 .f32) (a16 : FVec Ideal S1280x256 .f32) (a17 : FVec Ideal S256 .f32)
    (a18 : FVec Ideal S256x2752 .f32) (a19 : FVec Ideal S2752 .f32) : FVec Ideal S64x2752 .f32 :=
  Host.divf (F := Ideal) (broadcastInDim S64x2752 ![] bcast_S_S64x2752 (constant (F := Ideal) S_ .f32 0x3F800000#32)) (addf (F := Ideal) (broadcastInDim S64x2752 ![] bcast_S_S64x2752 (constant (F := Ideal) S_ .f32 0x3F800000#32)) (Host.exp (F := Ideal) (Host.negf (F := Ideal) (logits h a2 a3 a16 a17 a18 a19))))

/-- The reference's result as a function of its twenty argument arrays. -/
def out (a0 : FVec Ideal S50000x1280 .f32) (a1 : IVec S2x800000 32) (a2 : IVec S50000 32) (a3 : FVec Ideal S64x1280 .f32) (a4 : FVec Ideal S1280x256 .f32)
    (a5 : FVec Ideal S256 .f32) (a6 : FVec Ideal S256x256 .f32) (a7 : FVec Ideal S256 .f32) (a8 : FVec Ideal S256x256 .f32)
    (a9 a10 a11 a12 a13 a14 a15 : FVec Ideal S256 .f32) (a16 : FVec Ideal S1280x256 .f32) (a17 : FVec Ideal S256 .f32)
    (a18 : FVec Ideal S256x2752 .f32) (a19 : FVec Ideal S2752 .f32) : FVec Ideal S64x2752 .f32 :=
  tail (bn (conv (dot256 (bn (relu (conv (dot256 (bn (relu (conv (dot1280 a0 a4) (src a1) (dst a1) a5)) a10 a11) a6) (src a1) (dst a1) a7)) a12 a13) a8) (src a1) (dst a1) a9) a14 a15) a2 a3 a16 a17 a18 a19

/-- The result is the layers composed: three aggregations, the first two followed by the maximum with zero, each
    followed by the standardization, the second and third preceded by a product with that layer's weights. -/
theorem out_eq (a0 : FVec Ideal S50000x1280 .f32) (a1 : IVec S2x800000 32) (a2 : IVec S50000 32) (a3 : FVec Ideal S64x1280 .f32) (a4 : FVec Ideal S1280x256 .f32)
    (a5 : FVec Ideal S256 .f32) (a6 : FVec Ideal S256x256 .f32) (a7 : FVec Ideal S256 .f32) (a8 : FVec Ideal S256x256 .f32)
    (a9 a10 a11 a12 a13 a14 a15 : FVec Ideal S256 .f32) (a16 : FVec Ideal S1280x256 .f32) (a17 : FVec Ideal S256 .f32)
    (a18 : FVec Ideal S256x2752 .f32) (a19 : FVec Ideal S2752 .f32) :
    out a0 a1 a2 a3 a4 a5 a6 a7 a8 a9 a10 a11 a12 a13 a14 a15 a16 a17 a18 a19
      = tail (bn (conv (dot256 (bn (relu (conv (dot256 (bn (relu (conv (dot1280 a0 a4) (src a1) (dst a1) a5)) a10 a11) a6) (src a1) (dst a1) a7)) a12 a13) a8) (src a1) (dst a1) a9) a14 a15) a2 a3 a16 a17 a18 a19 := rfl

end Cert.ReferenceIdeal.HandRun

end
-- ==== Proof.RefRunKit.lean ====
/-
  What the readings of the stretches share: the list of the program's argument buffers, and the step that shows one
  operation writes a buffer of a given list.
-/
import proofs.«155788_j3092376453711_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

/-- The program's twenty argument buffers. -/
abbrev argsL : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- One operation writes a buffer of the given list. -/
macro "writes_one" : tactic =>
  `(tactic| (simp only [nullary_writes, unary_writes, binary_writes, ternary_writes, quaternary_writes, reshape_writes,
      Finset.singleton_subset_iff, List.mem_toFinset]; exact List.mem_map_of_mem (by decide)))

end Cert.ReferenceIdeal.HandRun

end
-- ==== Proof.RefRunSegS0.lean ====
/-
  Stretch S0 of the reference's operations — the two rows of the edge table, each as a vector: the sources and the destinations — from any buffer contents: its result buffer is the
  stretch's named function of the buffers it reads (read off its operations one by one), and a buffer it does not
  write is unchanged through it.
-/
import proofs.«155788_j3092376453711_2_alg».proof.Proof.RefRunOps
import proofs.«155788_j3092376453711_2_alg».proof.Proof.RefRunFns
import proofs.«155788_j3092376453711_2_alg».proof.Proof.RefRunKit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the array operations stay folded: the readings below compare terms built from them, never their bodies
attribute [local irreducible] Host.gather Host.scatterAdd Host.reduceAdd

/-- The buffers that `opsS0_w0` writes. -/
abbrev opsS0_w0_W : List (Ref sig .tc) := [main_v0, main_v1, main_v2, main_v3]
theorem opsS0_w0_writes : (opsS0_w0 : (List (HloOp τ sig (Elt Ideal)))).Forall fun op =>
    op.writes ⊆ (opsS0_w0_W.map (Proc.devRef (τ := τ) .tc)).toFinset := by
  simp only [List.Forall]; exact ⟨by writes_one, by writes_one, by writes_one, by writes_one⟩
theorem args_not_opsS0_w0_W : ∀ r ∈ argsL, r ∉ opsS0_w0_W := by decide

/-- A buffer this stretch does not write keeps its contents through it. -/
theorem segS0_keep (W : Valuation τ sig (Elt Ideal)) (r : Ref sig .tc) (h0 : r ∉ opsS0_w0_W) :
    after opsS0_w0 (W) (Proc.devRef .tc r) = W (Proc.devRef .tc r) :=
  after_of_writes_sub opsS0_w0 _ opsS0_w0_writes h0

set_option maxRecDepth 4096 in
set_option maxHeartbeats 400000 in
/-- The stretch's result, read off its operations one by one. -/
theorem segS0_v1 (W : Valuation τ sig (Elt Ideal)) :
    after opsS0_w0 (W) (no_index (Proc.devRef .tc main_v1)) = src (W (Proc.devRef .tc main_arg1)) := by
  simp only [opsS0_w0]
  after_results_simp
  rfl

set_option maxRecDepth 4096 in
set_option maxHeartbeats 400000 in
/-- The stretch's result, read off its operations one by one. -/
theorem segS0_v3 (W : Valuation τ sig (Elt Ideal)) :
    after opsS0_w0 (W) (no_index (Proc.devRef .tc main_v3)) = dst (W (Proc.devRef .tc main_arg1)) := by
  simp only [opsS0_w0]
  after_results_simp
  rfl

end Cert.ReferenceIdeal.HandRun

end
-- ==== Proof.RefRunSegD1.lean ====
/-
  Stretch D1 of the reference's operations — the input features times the first weight matrix — from any buffer contents: its result buffer is the
  stretch's named function of the buffers it reads (read off its operations one by one), and a buffer it does not
  write is unchanged through it.
-/
import proofs.«155788_j3092376453711_2_alg».proof.Proof.RefRunOps
import proofs.«155788_j3092376453711_2_alg».proof.Proof.RefRunFns
import proofs.«155788_j3092376453711_2_alg».proof.Proof.RefRunKit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the array operations stay folded: the readings below compare terms built from them, never their bodies
attribute [local irreducible] Host.gather Host.scatterAdd Host.reduceAdd

/-- The buffers that `opsD1_w0` writes. -/
abbrev opsD1_w0_W : List (Ref sig .tc) := [main_v4]
theorem opsD1_w0_writes : (opsD1_w0 : (List (HloOp τ sig (Elt Ideal)))).Forall fun op =>
    op.writes ⊆ (opsD1_w0_W.map (Proc.devRef (τ := τ) .tc)).toFinset := by
  simp only [List.Forall]; exact (by writes_one)
theorem args_not_opsD1_w0_W : ∀ r ∈ argsL, r ∉ opsD1_w0_W := by decide

/-- A buffer this stretch does not write keeps its contents through it. -/
theorem segD1_keep (W : Valuation τ sig (Elt Ideal)) (r : Ref sig .tc) (h0 : r ∉ opsD1_w0_W) :
    after opsD1_w0 (W) (Proc.devRef .tc r) = W (Proc.devRef .tc r) :=
  after_of_writes_sub opsD1_w0 _ opsD1_w0_writes h0

set_option maxRecDepth 4096 in
set_option maxHeartbeats 400000 in
/-- The stretch's result, read off its operations one by one. -/
theorem segD1_v4 (W : Valuation τ sig (Elt Ideal)) :
    after opsD1_w0 (W) (no_index (Proc.devRef .tc main_v4)) = dot1280 (W (Proc.devRef .tc main_arg0)) (W (Proc.devRef .tc main_arg4)) := by
  simp only [opsD1_w0]
  after_results_simp
  rfl

end Cert.ReferenceIdeal.HandRun

end
-- ==== Proof.RefRunSegC1.lean ====
/-
  Stretch C1 of the reference's operations — the first normalized aggregation over the edges, with its bias — from any buffer contents: its result buffer is the
  stretch's named function of the buffers it reads (read off its operations one by one), and a buffer it does not
  write is unchanged through it.
-/
import proofs.«155788_j3092376453711_2_alg».proof.Proof.RefRunOps
import proofs.«155788_j3092376453711_2_alg».proof.Proof.RefRunFns
import proofs.«155788_j3092376453711_2_alg».proof.Proof.RefRunKit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the array operations stay folded: the readings below compare terms built from them, never their bodies
attribute [local irreducible] Host.gather Host.scatterAdd Host.reduceAdd

/-- The buffers that `opsC1_w0` writes. -/
abbrev opsC1_w0_W : List (Ref sig .tc) := [main_cst, main_v5, main_cst_0, main_v6, main_v7, main_v8, main_cst_1, main_v9, main_v10, main_v11, main_c, main_v12, main_v13, main_c_2, main_v14, main_v15, main_v16, main_v17, main_v18, main_c_3, main_v19, main_v20, main_c_4, main_v21, main_v22, main_v23, main_v24, main_v25, main_c_5, main_v26, main_v27, main_c_6, main_v28, main_v29, main_v30, main_v31, main_v32, main_v33, main_v34, main_v35, main_v36, main_cst_7, main_v37, main_v38, main_v39, main_v40, main_v41, main_v42, main_v43, main_v44, main_v45, main_v46, main_v47]
theorem opsC1_w0_writes : (opsC1_w0 : (List (HloOp τ sig (Elt Ideal)))).Forall fun op =>
    op.writes ⊆ (opsC1_w0_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
theorem args_not_opsC1_w0_W : ∀ r ∈ argsL, r ∉ opsC1_w0_W := by decide

/-- A buffer this stretch does not write keeps its contents through it. -/
theorem segC1_keep (W : Valuation τ sig (Elt Ideal)) (r : Ref sig .tc) (h0 : r ∉ opsC1_w0_W) :
    after opsC1_w0 (W) (Proc.devRef .tc r) = W (Proc.devRef .tc r) :=
  after_of_writes_sub opsC1_w0 _ opsC1_w0_writes h0

set_option maxRecDepth 4096 in
set_option maxHeartbeats 5300000 in
/-- The stretch's result, read off its operations one by one. -/
theorem segC1_v47 (W : Valuation τ sig (Elt Ideal)) :
    after opsC1_w0 (W) (no_index (Proc.devRef .tc main_v47)) = conv (W (Proc.devRef .tc main_v4)) (W (Proc.devRef .tc main_v1)) (W (Proc.devRef .tc main_v3)) (W (Proc.devRef .tc main_arg5)) := by
  simp only [opsC1_w0]
  after_results_simp
  rfl

end Cert.ReferenceIdeal.HandRun

end
-- ==== Proof.RefRunSegR1.lean ====
/-
  Stretch R1 of the reference's operations — the maximum with zero — from any buffer contents: its result buffer is the
  stretch's named function of the buffers it reads (read off its operations one by one), and a buffer it does not
  write is unchanged through it.
-/
import proofs.«155788_j3092376453711_2_alg».proof.Proof.RefRunOps
import proofs.«155788_j3092376453711_2_alg».proof.Proof.RefRunFns
import proofs.«155788_j3092376453711_2_alg».proof.Proof.RefRunKit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the array operations stay folded: the readings below compare terms built from them, never their bodies
attribute [local irreducible] Host.gather Host.scatterAdd Host.reduceAdd

/-- The buffers that `opsR1_w0` writes. -/
abbrev opsR1_w0_W : List (Ref sig .tc) := [main_call0_cst, main_call0_v0, main_v48]
theorem opsR1_w0_writes : (opsR1_w0 : (List (HloOp τ sig (Elt Ideal)))).Forall fun op =>
    op.writes ⊆ (opsR1_w0_W.map (Proc.devRef (τ := τ) .tc)).toFinset := by
  simp only [List.Forall]; exact ⟨by writes_one, by writes_one, by writes_one⟩
theorem args_not_opsR1_w0_W : ∀ r ∈ argsL, r ∉ opsR1_w0_W := by decide

/-- A buffer this stretch does not write keeps its contents through it. -/
theorem segR1_keep (W : Valuation τ sig (Elt Ideal)) (r : Ref sig .tc) (h0 : r ∉ opsR1_w0_W) :
    after opsR1_w0 (W) (Proc.devRef .tc r) = W (Proc.devRef .tc r) :=
  after_of_writes_sub opsR1_w0 _ opsR1_w0_writes h0

set_option maxRecDepth 4096 in
set_option maxHeartbeats 400000 in
/-- The stretch's result, read off its operations one by one. -/
theorem segR1_v48 (W : Valuation τ sig (Elt Ideal)) :
    after opsR1_w0 (W) (no_index (Proc.devRef .tc main_v48)) = relu (W (Proc.devRef .tc main_v47)) := by
  simp only [opsR1_w0]
  after_results_simp
  rfl

end Cert.ReferenceIdeal.HandRun

end
-- ==== Proof.RefRunSegB1.lean ====
/-
  Stretch B1 of the reference's operations — the first column-wise standardization, scaled and shifted — from any buffer contents: its result buffer is the
  stretch's named function of the buffers it reads (read off its operations one by one), and a buffer it does not
  write is unchanged through it.
-/
import proofs.«155788_j3092376453711_2_alg».proof.Proof.RefRunOps
import proofs.«155788_j3092376453711_2_alg».proof.Proof.RefRunFns
import proofs.«155788_j3092376453711_2_alg».proof.Proof.RefRunKit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the array operations stay folded: the readings below compare terms built from them, never their bodies
attribute [local irreducible] Host.gather Host.scatterAdd Host.reduceAdd

/-- The buffers that `opsB1_w0` writes. -/
abbrev opsB1_w0_W : List (Ref sig .tc) := [main_cst_8]
theorem opsB1_w0_writes : (opsB1_w0 : (List (HloOp τ sig (Elt Ideal)))).Forall fun op =>
    op.writes ⊆ (opsB1_w0_W.map (Proc.devRef (τ := τ) .tc)).toFinset := by
  simp only [List.Forall]; exact (by writes_one)
theorem args_not_opsB1_w0_W : ∀ r ∈ argsL, r ∉ opsB1_w0_W := by decide

/-- The buffers that `opsB1_w1` writes. -/
abbrev opsB1_w1_W : List (Ref sig .tc) := [main_v49, main_cst_9, main_v50, main_v51, main_c_10, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v52, main_v53, main_v54, main_v55, main_cst_11, main_v56, main_v57, main_v58, main_v59, main_v60, main_v61, main_v62, main_v63, main_v64, main_v65, main_v66, main_v67]
theorem opsB1_w1_writes : (opsB1_w1 : (List (HloOp τ sig (Elt Ideal)))).Forall fun op =>
    op.writes ⊆ (opsB1_w1_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
theorem args_not_opsB1_w1_W : ∀ r ∈ argsL, r ∉ opsB1_w1_W := by decide

/-- A buffer this stretch does not write keeps its contents through it. -/
theorem segB1_keep (W : Valuation τ sig (Elt Ideal)) (r : Ref sig .tc) (h0 : r ∉ opsB1_w0_W) (h1 : r ∉ opsB1_w1_W) :
    after opsB1_w1 (after opsB1_w0 (W)) (Proc.devRef .tc r) = W (Proc.devRef .tc r) :=
  (after_of_writes_sub opsB1_w1 _ opsB1_w1_writes h1).trans (after_of_writes_sub opsB1_w0 _ opsB1_w0_writes h0)

set_option maxRecDepth 4096 in
set_option maxHeartbeats 4400000 in
/-- The stretch's result, read off its operations one by one. -/
theorem segB1_v67 (W : Valuation τ sig (Elt Ideal)) :
    after opsB1_w1 (after opsB1_w0 (W)) (no_index (Proc.devRef .tc main_v67)) = bn (W (Proc.devRef .tc main_v48)) (W (Proc.devRef .tc main_arg10)) (W (Proc.devRef .tc main_arg11)) := by
  simp only [opsB1_w0, opsB1_w1]
  after_results_simp
  rfl

end Cert.ReferenceIdeal.HandRun

end
-- ==== Proof.RefRunSegD2.lean ====
/-
  Stretch D2 of the reference's operations — the times-weights product of the second layer — from any buffer contents: its result buffer is the
  stretch's named function of the buffers it reads (read off its operations one by one), and a buffer it does not
  write is unchanged through it.
-/
import proofs.«155788_j3092376453711_2_alg».proof.Proof.RefRunOps
import proofs.«155788_j3092376453711_2_alg».proof.Proof.RefRunFns
import proofs.«155788_j3092376453711_2_alg».proof.Proof.RefRunKit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the array operations stay folded: the readings below compare terms built from them, never their bodies
attribute [local irreducible] Host.gather Host.scatterAdd Host.reduceAdd

/-- The buffers that `opsD2_w1` writes. -/
abbrev opsD2_w1_W : List (Ref sig .tc) := [main_v68]
theorem opsD2_w1_writes : (opsD2_w1 : (List (HloOp τ sig (Elt Ideal)))).Forall fun op =>
    op.writes ⊆ (opsD2_w1_W.map (Proc.devRef (τ := τ) .tc)).toFinset := by
  simp only [List.Forall]; exact (by writes_one)
theorem args_not_opsD2_w1_W : ∀ r ∈ argsL, r ∉ opsD2_w1_W := by decide

/-- A buffer this stretch does not write keeps its contents through it. -/
theorem segD2_keep (W : Valuation τ sig (Elt Ideal)) (r : Ref sig .tc) (h0 : r ∉ opsD2_w1_W) :
    after opsD2_w1 (W) (Proc.devRef .tc r) = W (Proc.devRef .tc r) :=
  after_of_writes_sub opsD2_w1 _ opsD2_w1_writes h0

set_option maxRecDepth 4096 in
set_option maxHeartbeats 400000 in
/-- The stretch's result, read off its operations one by one. -/
theorem segD2_v68 (W : Valuation τ sig (Elt Ideal)) :
    after opsD2_w1 (W) (no_index (Proc.devRef .tc main_v68)) = dot256 (W (Proc.devRef .tc main_v67)) (W (Proc.devRef .tc main_arg6)) := by
  simp only [opsD2_w1]
  after_results_simp
  rfl

end Cert.ReferenceIdeal.HandRun

end
-- ==== Proof.RefRunSegC2.lean ====
/-
  Stretch C2 of the reference's operations — the second normalized aggregation — from any buffer contents: its result buffer is the
  stretch's named function of the buffers it reads (read off its operations one by one), and a buffer it does not
  write is unchanged through it.
-/
import proofs.«155788_j3092376453711_2_alg».proof.Proof.RefRunOps
import proofs.«155788_j3092376453711_2_alg».proof.Proof.RefRunFns
import proofs.«155788_j3092376453711_2_alg».proof.Proof.RefRunKit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the array operations stay folded: the readings below compare terms built from them, never their bodies
attribute [local irreducible] Host.gather Host.scatterAdd Host.reduceAdd

/-- The buffers that `opsC2_w1` writes. -/
abbrev opsC2_w1_W : List (Ref sig .tc) := [main_cst_12, main_v69, main_cst_13, main_v70, main_v71, main_v72, main_cst_14, main_v73, main_v74, main_v75, main_c_15, main_v76, main_v77, main_c_16, main_v78, main_v79, main_v80, main_v81, main_v82, main_c_17, main_v83, main_v84, main_c_18, main_v85, main_v86, main_v87, main_v88, main_v89, main_c_19, main_v90, main_v91, main_c_20, main_v92, main_v93, main_v94, main_v95, main_v96]
theorem opsC2_w1_writes : (opsC2_w1 : (List (HloOp τ sig (Elt Ideal)))).Forall fun op =>
    op.writes ⊆ (opsC2_w1_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
theorem args_not_opsC2_w1_W : ∀ r ∈ argsL, r ∉ opsC2_w1_W := by decide

/-- The buffers that `opsC2_w2` writes. -/
abbrev opsC2_w2_W : List (Ref sig .tc) := [main_v97, main_v98, main_v99, main_v100, main_cst_21, main_v101, main_v102, main_v103, main_v104, main_v105, main_v106, main_v107, main_v108, main_v109, main_v110, main_v111]
theorem opsC2_w2_writes : (opsC2_w2 : (List (HloOp τ sig (Elt Ideal)))).Forall fun op =>
    op.writes ⊆ (opsC2_w2_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one⟩
theorem args_not_opsC2_w2_W : ∀ r ∈ argsL, r ∉ opsC2_w2_W := by decide

/-- A buffer this stretch does not write keeps its contents through it. -/
theorem segC2_keep (W : Valuation τ sig (Elt Ideal)) (r : Ref sig .tc) (h0 : r ∉ opsC2_w1_W) (h1 : r ∉ opsC2_w2_W) :
    after opsC2_w2 (after opsC2_w1 (W)) (Proc.devRef .tc r) = W (Proc.devRef .tc r) :=
  (after_of_writes_sub opsC2_w2 _ opsC2_w2_writes h1).trans (after_of_writes_sub opsC2_w1 _ opsC2_w1_writes h0)

set_option maxRecDepth 4096 in
set_option maxHeartbeats 5300000 in
/-- The stretch's result, read off its operations one by one. -/
theorem segC2_v111 (W : Valuation τ sig (Elt Ideal)) :
    after opsC2_w2 (after opsC2_w1 (W)) (no_index (Proc.devRef .tc main_v111)) = conv (W (Proc.devRef .tc main_v68)) (W (Proc.devRef .tc main_v1)) (W (Proc.devRef .tc main_v3)) (W (Proc.devRef .tc main_arg7)) := by
  simp only [opsC2_w1, opsC2_w2]
  after_results_simp
  rfl

end Cert.ReferenceIdeal.HandRun

end
-- ==== Proof.RefRunSegR2.lean ====
/-
  Stretch R2 of the reference's operations — the maximum with zero, second layer — from any buffer contents: its result buffer is the
  stretch's named function of the buffers it reads (read off its operations one by one), and a buffer it does not
  write is unchanged through it.
-/
import proofs.«155788_j3092376453711_2_alg».proof.Proof.RefRunOps
import proofs.«155788_j3092376453711_2_alg».proof.Proof.RefRunFns
import proofs.«155788_j3092376453711_2_alg».proof.Proof.RefRunKit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the array operations stay folded: the readings below compare terms built from them, never their bodies
attribute [local irreducible] Host.gather Host.scatterAdd Host.reduceAdd

/-- The buffers that `opsR2_w2` writes. -/
abbrev opsR2_w2_W : List (Ref sig .tc) := [main_call2_cst, main_call2_v0, main_v112]
theorem opsR2_w2_writes : (opsR2_w2 : (List (HloOp τ sig (Elt Ideal)))).Forall fun op =>
    op.writes ⊆ (opsR2_w2_W.map (Proc.devRef (τ := τ) .tc)).toFinset := by
  simp only [List.Forall]; exact ⟨by writes_one, by writes_one, by writes_one⟩
theorem args_not_opsR2_w2_W : ∀ r ∈ argsL, r ∉ opsR2_w2_W := by decide

/-- A buffer this stretch does not write keeps its contents through it. -/
theorem segR2_keep (W : Valuation τ sig (Elt Ideal)) (r : Ref sig .tc) (h0 : r ∉ opsR2_w2_W) :
    after opsR2_w2 (W) (Proc.devRef .tc r) = W (Proc.devRef .tc r) :=
  after_of_writes_sub opsR2_w2 _ opsR2_w2_writes h0

set_option maxRecDepth 4096 in
set_option maxHeartbeats 400000 in
/-- The stretch's result, read off its operations one by one. -/
theorem segR2_v112 (W : Valuation τ sig (Elt Ideal)) :
    after opsR2_w2 (W) (no_index (Proc.devRef .tc main_v112)) = relu (W (Proc.devRef .tc main_v111)) := by
  simp only [opsR2_w2]
  after_results_simp
  rfl

end Cert.ReferenceIdeal.HandRun

end
-- ==== Proof.RefRunSegB2.lean ====
/-
  Stretch B2 of the reference's operations — the second column-wise standardization — from any buffer contents: its result buffer is the
  stretch's named function of the buffers it reads (read off its operations one by one), and a buffer it does not
  write is unchanged through it.
-/
import proofs.«155788_j3092376453711_2_alg».proof.Proof.RefRunOps
import proofs.«155788_j3092376453711_2_alg».proof.Proof.RefRunFns
import proofs.«155788_j3092376453711_2_alg».proof.Proof.RefRunKit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the array operations stay folded: the readings below compare terms built from them, never their bodies
attribute [local irreducible] Host.gather Host.scatterAdd Host.reduceAdd

/-- The buffers that `opsB2_w2` writes. -/
abbrev opsB2_w2_W : List (Ref sig .tc) := [main_cst_22, main_v113, main_cst_23, main_v114, main_v115, main_c_24, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v116, main_v117, main_v118, main_v119, main_cst_25, main_v120, main_v121, main_v122, main_v123, main_v124, main_v125, main_v126, main_v127, main_v128, main_v129, main_v130, main_v131]
theorem opsB2_w2_writes : (opsB2_w2 : (List (HloOp τ sig (Elt Ideal)))).Forall fun op =>
    op.writes ⊆ (opsB2_w2_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
theorem args_not_opsB2_w2_W : ∀ r ∈ argsL, r ∉ opsB2_w2_W := by decide

/-- A buffer this stretch does not write keeps its contents through it. -/
theorem segB2_keep (W : Valuation τ sig (Elt Ideal)) (r : Ref sig .tc) (h0 : r ∉ opsB2_w2_W) :
    after opsB2_w2 (W) (Proc.devRef .tc r) = W (Proc.devRef .tc r) :=
  after_of_writes_sub opsB2_w2 _ opsB2_w2_writes h0

set_option maxRecDepth 4096 in
set_option maxHeartbeats 4400000 in
/-- The stretch's result, read off its operations one by one. -/
theorem segB2_v131 (W : Valuation τ sig (Elt Ideal)) :
    after opsB2_w2 (W) (no_index (Proc.devRef .tc main_v131)) = bn (W (Proc.devRef .tc main_v112)) (W (Proc.devRef .tc main_arg12)) (W (Proc.devRef .tc main_arg13)) := by
  simp only [opsB2_w2]
  after_results_simp
  rfl

end Cert.ReferenceIdeal.HandRun

end
-- ==== Proof.RefRunSegD3.lean ====
/-
  Stretch D3 of the reference's operations — the times-weights product of the third layer — from any buffer contents: its result buffer is the
  stretch's named function of the buffers it reads (read off its operations one by one), and a buffer it does not
  write is unchanged through it.
-/
import proofs.«155788_j3092376453711_2_alg».proof.Proof.RefRunOps
import proofs.«155788_j3092376453711_2_alg».proof.Proof.RefRunFns
import proofs.«155788_j3092376453711_2_alg».proof.Proof.RefRunKit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the array operations stay folded: the readings below compare terms built from them, never their bodies
attribute [local irreducible] Host.gather Host.scatterAdd Host.reduceAdd

/-- The buffers that `opsD3_w2` writes. -/
abbrev opsD3_w2_W : List (Ref sig .tc) := [main_v132]
theorem opsD3_w2_writes : (opsD3_w2 : (List (HloOp τ sig (Elt Ideal)))).Forall fun op =>
    op.writes ⊆ (opsD3_w2_W.map (Proc.devRef (τ := τ) .tc)).toFinset := by
  simp only [List.Forall]; exact (by writes_one)
theorem args_not_opsD3_w2_W : ∀ r ∈ argsL, r ∉ opsD3_w2_W := by decide

/-- A buffer this stretch does not write keeps its contents through it. -/
theorem segD3_keep (W : Valuation τ sig (Elt Ideal)) (r : Ref sig .tc) (h0 : r ∉ opsD3_w2_W) :
    after opsD3_w2 (W) (Proc.devRef .tc r) = W (Proc.devRef .tc r) :=
  after_of_writes_sub opsD3_w2 _ opsD3_w2_writes h0

set_option maxRecDepth 4096 in
set_option maxHeartbeats 400000 in
/-- The stretch's result, read off its operations one by one. -/
theorem segD3_v132 (W : Valuation τ sig (Elt Ideal)) :
    after opsD3_w2 (W) (no_index (Proc.devRef .tc main_v132)) = dot256 (W (Proc.devRef .tc main_v131)) (W (Proc.devRef .tc main_arg8)) := by
  simp only [opsD3_w2]
  after_results_simp
  rfl

end Cert.ReferenceIdeal.HandRun

end
-- ==== Proof.RefRunSegC3.lean ====
/-
  Stretch C3 of the reference's operations — the third normalized aggregation — from any buffer contents: its result buffer is the
  stretch's named function of the buffers it reads (read off its operations one by one), and a buffer it does not
  write is unchanged through it.
-/
import proofs.«155788_j3092376453711_2_alg».proof.Proof.RefRunOps
import proofs.«155788_j3092376453711_2_alg».proof.Proof.RefRunFns
import proofs.«155788_j3092376453711_2_alg».proof.Proof.RefRunKit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the array operations stay folded: the readings below compare terms built from them, never their bodies
attribute [local irreducible] Host.gather Host.scatterAdd Host.reduceAdd

/-- The buffers that `opsC3_w2` writes. -/
abbrev opsC3_w2_W : List (Ref sig .tc) := [main_cst_26, main_v133, main_cst_27, main_v134, main_v135, main_v136, main_cst_28, main_v137, main_v138, main_v139, main_c_29, main_v140, main_v141, main_c_30, main_v142, main_v143, main_v144, main_v145, main_v146]
theorem opsC3_w2_writes : (opsC3_w2 : (List (HloOp τ sig (Elt Ideal)))).Forall fun op =>
    op.writes ⊆ (opsC3_w2_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one⟩
theorem args_not_opsC3_w2_W : ∀ r ∈ argsL, r ∉ opsC3_w2_W := by decide

/-- The buffers that `opsC3_w3` writes. -/
abbrev opsC3_w3_W : List (Ref sig .tc) := [main_c_31, main_v147, main_v148, main_c_32, main_v149, main_v150, main_v151, main_v152, main_v153, main_c_33, main_v154, main_v155, main_c_34, main_v156, main_v157, main_v158, main_v159, main_v160, main_v161, main_v162, main_v163, main_v164, main_cst_35, main_v165, main_v166, main_v167, main_v168, main_v169, main_v170, main_v171, main_v172, main_v173, main_v174, main_v175]
theorem opsC3_w3_writes : (opsC3_w3 : (List (HloOp τ sig (Elt Ideal)))).Forall fun op =>
    op.writes ⊆ (opsC3_w3_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
theorem args_not_opsC3_w3_W : ∀ r ∈ argsL, r ∉ opsC3_w3_W := by decide

/-- A buffer this stretch does not write keeps its contents through it. -/
theorem segC3_keep (W : Valuation τ sig (Elt Ideal)) (r : Ref sig .tc) (h0 : r ∉ opsC3_w2_W) (h1 : r ∉ opsC3_w3_W) :
    after opsC3_w3 (after opsC3_w2 (W)) (Proc.devRef .tc r) = W (Proc.devRef .tc r) :=
  (after_of_writes_sub opsC3_w3 _ opsC3_w3_writes h1).trans (after_of_writes_sub opsC3_w2 _ opsC3_w2_writes h0)

set_option maxRecDepth 4096 in
set_option maxHeartbeats 5300000 in
/-- The stretch's result, read off its operations one by one. -/
theorem segC3_v175 (W : Valuation τ sig (Elt Ideal)) :
    after opsC3_w3 (after opsC3_w2 (W)) (no_index (Proc.devRef .tc main_v175)) = conv (W (Proc.devRef .tc main_v132)) (W (Proc.devRef .tc main_v1)) (W (Proc.devRef .tc main_v3)) (W (Proc.devRef .tc main_arg9)) := by
  simp only [opsC3_w2, opsC3_w3]
  after_results_simp
  rfl

end Cert.ReferenceIdeal.HandRun

end
-- ==== Proof.RefRunSegB3.lean ====
/-
  Stretch B3 of the reference's operations — the third column-wise standardization — from any buffer contents: its result buffer is the
  stretch's named function of the buffers it reads (read off its operations one by one), and a buffer it does not
  write is unchanged through it.
-/
import proofs.«155788_j3092376453711_2_alg».proof.Proof.RefRunOps
import proofs.«155788_j3092376453711_2_alg».proof.Proof.RefRunFns
import proofs.«155788_j3092376453711_2_alg».proof.Proof.RefRunKit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the array operations stay folded: the readings below compare terms built from them, never their bodies
attribute [local irreducible] Host.gather Host.scatterAdd Host.reduceAdd

/-- The buffers that `opsB3_w3` writes. -/
abbrev opsB3_w3_W : List (Ref sig .tc) := [main_cst_36, main_v176, main_cst_37, main_v177, main_v178, main_c_38, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v179, main_v180, main_v181, main_v182, main_cst_39, main_v183, main_v184, main_v185, main_v186, main_v187, main_v188, main_v189, main_v190, main_v191, main_v192, main_v193, main_v194]
theorem opsB3_w3_writes : (opsB3_w3 : (List (HloOp τ sig (Elt Ideal)))).Forall fun op =>
    op.writes ⊆ (opsB3_w3_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
theorem args_not_opsB3_w3_W : ∀ r ∈ argsL, r ∉ opsB3_w3_W := by decide

/-- A buffer this stretch does not write keeps its contents through it. -/
theorem segB3_keep (W : Valuation τ sig (Elt Ideal)) (r : Ref sig .tc) (h0 : r ∉ opsB3_w3_W) :
    after opsB3_w3 (W) (Proc.devRef .tc r) = W (Proc.devRef .tc r) :=
  after_of_writes_sub opsB3_w3 _ opsB3_w3_writes h0

set_option maxRecDepth 4096 in
set_option maxHeartbeats 4400000 in
/-- The stretch's result, read off its operations one by one. -/
theorem segB3_v194 (W : Valuation τ sig (Elt Ideal)) :
    after opsB3_w3 (W) (no_index (Proc.devRef .tc main_v194)) = bn (W (Proc.devRef .tc main_v175)) (W (Proc.devRef .tc main_arg14)) (W (Proc.devRef .tc main_arg15)) := by
  simp only [opsB3_w3]
  after_results_simp
  rfl

end Cert.ReferenceIdeal.HandRun

end
-- ==== Proof.RefRunSegT.lean ====
/-
  Stretch T of the reference's operations — the per-group mean, the two dense layers and the logistic function — from any buffer contents: its result buffer is the
  stretch's named function of the buffers it reads (read off its operations one by one), and a buffer it does not
  write is unchanged through it.
-/
import proofs.«155788_j3092376453711_2_alg».proof.Proof.RefRunOps
import proofs.«155788_j3092376453711_2_alg».proof.Proof.RefRunFns
import proofs.«155788_j3092376453711_2_alg».proof.Proof.RefRunKit

noncomputable section

namespace Cert.ReferenceIdeal.HandRun

open Cert.ReferenceIdeal Cert.ReferenceIdeal.Gen Idealize.ShloMosaic Idealize.ShloMosaic.TcCoe Idealize.SL.Sem Idealize.ShloMosaic.StableHlo

-- the array operations stay folded: the readings below compare terms built from them, never their bodies
attribute [local irreducible] Host.gather Host.scatterAdd Host.reduceAdd

/-- The buffers that `opsT_w3` writes. -/
abbrev opsT_w3_W : List (Ref sig .tc) := [main_cst_40, main_v195, main_v196]
theorem opsT_w3_writes : (opsT_w3 : (List (HloOp τ sig (Elt Ideal)))).Forall fun op =>
    op.writes ⊆ (opsT_w3_W.map (Proc.devRef (τ := τ) .tc)).toFinset := by
  simp only [List.Forall]; exact ⟨by writes_one, by writes_one, by writes_one⟩
theorem args_not_opsT_w3_W : ∀ r ∈ argsL, r ∉ opsT_w3_W := by decide

/-- The buffers that `opsT_w4` writes. -/
abbrev opsT_w4_W : List (Ref sig .tc) := [main_v197, main_cst_41, main_v198, main_cst_42, main_v199, main_v200, main_v201, main_cst_43, main_v202, main_v203, main_v204, main_v205, main_v206, main_v207, main_v208, main_v209, main_v210, main_v211, main_v212, main_v213, main_v214, main_v215, main_v216, main_v217, main_cst_44, main_v218, main_v219, main_cst_45, main_v220, main_v221]
theorem opsT_w4_writes : (opsT_w4 : (List (HloOp τ sig (Elt Ideal)))).Forall fun op =>
    op.writes ⊆ (opsT_w4_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
theorem args_not_opsT_w4_W : ∀ r ∈ argsL, r ∉ opsT_w4_W := by decide

/-- A buffer this stretch does not write keeps its contents through it. -/
theorem segT_keep (W : Valuation τ sig (Elt Ideal)) (r : Ref sig .tc) (h0 : r ∉ opsT_w3_W) (h1 : r ∉ opsT_w4_W) :
    after opsT_w4 (after opsT_w3 (W)) (Proc.devRef .tc r) = W (Proc.devRef .tc r) :=
  (after_of_writes_sub opsT_w4 _ opsT_w4_writes h1).trans (after_of_writes_sub opsT_w3 _ opsT_w3_writes h0)

set_option maxRecDepth 4096 in
set_option maxHeartbeats 3300000 in
/-- The stretch's result, read off its operations one by one. -/
theorem segT_v221 (W : Valuation τ sig (Elt Ideal)) :
    after opsT_w4 (after opsT_w3 (W)) (no_index (Proc.devRef .tc main_v221)) = tail (W (Proc.devRef .tc main_v194)) (W (Proc.devRef .tc main_arg2)) (W (Proc.devRef .tc main_arg3)) (W (Proc.devRef .tc main_arg16)) (W (Proc.devRef .tc main_arg17)) (W (Proc.devRef .tc main_arg18)) (W (Proc.devRef .tc main_arg19)) := by
  simp only [opsT_w3, opsT_w4]
  after_results_simp
  rfl

end Cert.ReferenceIdeal.HandRun

end
-- ==== Proof.RefRunVal.lean ====
/-
  The buffers after each stretch of the reference's operations, as functions of the argument buffers' contents at the
  start: the stretches' readings composed in order.  A stretch's result is its named function of what it reads, and
  what it reads is what the stretches before it left.
-/
import proofs.«155788_j3092376453711_2_alg».proof.Proof.RefRunSegS0
import proofs.«155788_j3092376453711_2_alg».proof.Proof.RefRunSegD1
import proofs.«155788_j3092376453711_2_alg».proof.Proof.RefRunSegC1
import proofs.«155788_j3092376453711_2_alg».proof.Proof.RefRunSegR1
import proofs.«155788_j3092376453711_2_alg».proof.Proof.RefRunSegB1
import proofs.«155788_j3092376453711_2_alg».proof.Proof.RefRunSegD2
import proofs.«155788_j3092376453711_2_alg».proof.Proof.RefRunSegC2
import proofs.«155788_j3092376453711_2_alg».proof.Proof.RefRunSegR2
import proofs.«155788_j3092376453711_2_alg».proof.Proof.RefRunSegB2
import proofs.«155788_j3092376453711_2_alg».proof.Proof.RefRunSegD3
import proofs.«155788_j3092376453711_2_alg».proof.Proof.RefRunSegC3
import proofs.«155788_j3092376453711_2_alg».proof.Proof.RefRunSegB3
import proofs.«155788_j3092376453711_2_alg».proof.Proof.RefRunSegT

noncomputable section

namespace Cert.ReferenceIdeal.HandRun

open Cert.ReferenceIdeal Cert.ReferenceIdeal.Gen Idealize.ShloMosaic Idealize.ShloMosaic.TcCoe Idealize.SL.Sem Idealize.ShloMosaic.StableHlo

/-! ## After stretch S0: the two rows of the edge table, each as a vector: the sources and the destinations -/

/-- The buffer contents after this stretch, from contents `V`. -/
def stS0 (V : Valuation τ sig (Elt Ideal)) : Valuation τ sig (Elt Ideal) := after opsS0_w0 (V)
/-- A buffer this stretch does not write is as before it. -/
theorem stS0_keep (V : Valuation τ sig (Elt Ideal)) (r : Ref sig .tc) (h0 : r ∉ opsS0_w0_W) :
    stS0 V (Proc.devRef .tc r) = V (Proc.devRef .tc r) :=
  segS0_keep _ r h0
/-- The argument buffers are as at the start. -/
theorem stS0_args (V : Valuation τ sig (Elt Ideal)) (r : Ref sig .tc) (h : r ∈ argsL) : stS0 V (Proc.devRef .tc r) = V (Proc.devRef .tc r) :=
  stS0_keep V r (args_not_opsS0_w0_W r h)
/-- This stretch's result, as the composed function of the argument buffers' contents at the start. -/
theorem stS0_v3 (V : Valuation τ sig (Elt Ideal)) : stS0 V (no_index (Proc.devRef .tc main_v3)) = dst (V (Proc.devRef .tc main_arg1)) :=
  (segS0_v3 (V))
/-- This stretch's result, as the composed function of the argument buffers' contents at the start. -/
theorem stS0_v1 (V : Valuation τ sig (Elt Ideal)) : stS0 V (no_index (Proc.devRef .tc main_v1)) = src (V (Proc.devRef .tc main_arg1)) :=
  (segS0_v1 (V))

/-! ## After stretch D1: the input features times the first weight matrix -/

/-- The buffer contents after this stretch and all before it, from contents `V`. -/
def stD1 (V : Valuation τ sig (Elt Ideal)) : Valuation τ sig (Elt Ideal) := after opsD1_w0 (stS0 V)
/-- A buffer this stretch does not write is as before it. -/
theorem stD1_keep (V : Valuation τ sig (Elt Ideal)) (r : Ref sig .tc) (h0 : r ∉ opsD1_w0_W) :
    stD1 V (Proc.devRef .tc r) = stS0 V (Proc.devRef .tc r) :=
  segD1_keep _ r h0
/-- The argument buffers are as at the start. -/
theorem stD1_args (V : Valuation τ sig (Elt Ideal)) (r : Ref sig .tc) (h : r ∈ argsL) : stD1 V (Proc.devRef .tc r) = V (Proc.devRef .tc r) :=
  (stD1_keep V r (args_not_opsD1_w0_W r h)).trans (stS0_args V r h)
theorem stD1_v3 (V : Valuation τ sig (Elt Ideal)) : stD1 V (no_index (Proc.devRef .tc main_v3)) = dst (V (Proc.devRef .tc main_arg1)) :=
  (stD1_keep V main_v3 (by decide)).trans (stS0_v3 V)
theorem stD1_v1 (V : Valuation τ sig (Elt Ideal)) : stD1 V (no_index (Proc.devRef .tc main_v1)) = src (V (Proc.devRef .tc main_arg1)) :=
  (stD1_keep V main_v1 (by decide)).trans (stS0_v1 V)
/-- This stretch's result, as the composed function of the argument buffers' contents at the start. -/
theorem stD1_v4 (V : Valuation τ sig (Elt Ideal)) : stD1 V (no_index (Proc.devRef .tc main_v4)) = dot1280 (V (Proc.devRef .tc main_arg0)) (V (Proc.devRef .tc main_arg4)) :=
  (segD1_v4 (stS0 V)).trans (by rw [stS0_args V main_arg0 (by decide), stS0_args V main_arg4 (by decide)])

/-! ## After stretch C1: the first normalized aggregation over the edges, with its bias -/

/-- The buffer contents after this stretch and all before it, from contents `V`. -/
def stC1 (V : Valuation τ sig (Elt Ideal)) : Valuation τ sig (Elt Ideal) := after opsC1_w0 (stD1 V)
/-- A buffer this stretch does not write is as before it. -/
theorem stC1_keep (V : Valuation τ sig (Elt Ideal)) (r : Ref sig .tc) (h0 : r ∉ opsC1_w0_W) :
    stC1 V (Proc.devRef .tc r) = stD1 V (Proc.devRef .tc r) :=
  segC1_keep _ r h0
/-- The argument buffers are as at the start. -/
theorem stC1_args (V : Valuation τ sig (Elt Ideal)) (r : Ref sig .tc) (h : r ∈ argsL) : stC1 V (Proc.devRef .tc r) = V (Proc.devRef .tc r) :=
  (stC1_keep V r (args_not_opsC1_w0_W r h)).trans (stD1_args V r h)
/-- This stretch's result, as the composed function of the argument buffers' contents at the start. -/
theorem stC1_v47 (V : Valuation τ sig (Elt Ideal)) : stC1 V (no_index (Proc.devRef .tc main_v47)) = conv (dot1280 (V (Proc.devRef .tc main_arg0)) (V (Proc.devRef .tc main_arg4))) (src (V (Proc.devRef .tc main_arg1))) (dst (V (Proc.devRef .tc main_arg1))) (V (Proc.devRef .tc main_arg5)) :=
  (segC1_v47 (stD1 V)).trans (by rw [stD1_v3, stD1_v1, stD1_v4, stD1_args V main_arg5 (by decide)])
theorem stC1_v3 (V : Valuation τ sig (Elt Ideal)) : stC1 V (no_index (Proc.devRef .tc main_v3)) = dst (V (Proc.devRef .tc main_arg1)) :=
  (stC1_keep V main_v3 (by decide)).trans (stD1_v3 V)
theorem stC1_v1 (V : Valuation τ sig (Elt Ideal)) : stC1 V (no_index (Proc.devRef .tc main_v1)) = src (V (Proc.devRef .tc main_arg1)) :=
  (stC1_keep V main_v1 (by decide)).trans (stD1_v1 V)

/-! ## After stretch R1: the maximum with zero -/

/-- The buffer contents after this stretch and all before it, from contents `V`. -/
def stR1 (V : Valuation τ sig (Elt Ideal)) : Valuation τ sig (Elt Ideal) := after opsR1_w0 (stC1 V)
/-- A buffer this stretch does not write is as before it. -/
theorem stR1_keep (V : Valuation τ sig (Elt Ideal)) (r : Ref sig .tc) (h0 : r ∉ opsR1_w0_W) :
    stR1 V (Proc.devRef .tc r) = stC1 V (Proc.devRef .tc r) :=
  segR1_keep _ r h0
/-- The argument buffers are as at the start. -/
theorem stR1_args (V : Valuation τ sig (Elt Ideal)) (r : Ref sig .tc) (h : r ∈ argsL) : stR1 V (Proc.devRef .tc r) = V (Proc.devRef .tc r) :=
  (stR1_keep V r (args_not_opsR1_w0_W r h)).trans (stC1_args V r h)
/-- This stretch's result, as the composed function of the argument buffers' contents at the start. -/
theorem stR1_v48 (V : Valuation τ sig (Elt Ideal)) : stR1 V (no_index (Proc.devRef .tc main_v48)) = relu (conv (dot1280 (V (Proc.devRef .tc main_arg0)) (V (Proc.devRef .tc main_arg4))) (src (V (Proc.devRef .tc main_arg1))) (dst (V (Proc.devRef .tc main_arg1))) (V (Proc.devRef .tc main_arg5))) :=
  (segR1_v48 (stC1 V)).trans (by rw [stC1_v47])
theorem stR1_v3 (V : Valuation τ sig (Elt Ideal)) : stR1 V (no_index (Proc.devRef .tc main_v3)) = dst (V (Proc.devRef .tc main_arg1)) :=
  (stR1_keep V main_v3 (by decide)).trans (stC1_v3 V)
theorem stR1_v1 (V : Valuation τ sig (Elt Ideal)) : stR1 V (no_index (Proc.devRef .tc main_v1)) = src (V (Proc.devRef .tc main_arg1)) :=
  (stR1_keep V main_v1 (by decide)).trans (stC1_v1 V)

/-! ## After stretch B1: the first column-wise standardization, scaled and shifted -/

/-- The buffer contents after this stretch and all before it, from contents `V`. -/
def stB1 (V : Valuation τ sig (Elt Ideal)) : Valuation τ sig (Elt Ideal) := after opsB1_w1 (after opsB1_w0 (stR1 V))
/-- A buffer this stretch does not write is as before it. -/
theorem stB1_keep (V : Valuation τ sig (Elt Ideal)) (r : Ref sig .tc) (h0 : r ∉ opsB1_w0_W) (h1 : r ∉ opsB1_w1_W) :
    stB1 V (Proc.devRef .tc r) = stR1 V (Proc.devRef .tc r) :=
  segB1_keep _ r h0 h1
/-- The argument buffers are as at the start. -/
theorem stB1_args (V : Valuation τ sig (Elt Ideal)) (r : Ref sig .tc) (h : r ∈ argsL) : stB1 V (Proc.devRef .tc r) = V (Proc.devRef .tc r) :=
  (stB1_keep V r (args_not_opsB1_w0_W r h) (args_not_opsB1_w1_W r h)).trans (stR1_args V r h)
/-- This stretch's result, as the composed function of the argument buffers' contents at the start. -/
theorem stB1_v67 (V : Valuation τ sig (Elt Ideal)) : stB1 V (no_index (Proc.devRef .tc main_v67)) = bn (relu (conv (dot1280 (V (Proc.devRef .tc main_arg0)) (V (Proc.devRef .tc main_arg4))) (src (V (Proc.devRef .tc main_arg1))) (dst (V (Proc.devRef .tc main_arg1))) (V (Proc.devRef .tc main_arg5)))) (V (Proc.devRef .tc main_arg10)) (V (Proc.devRef .tc main_arg11)) :=
  (segB1_v67 (stR1 V)).trans (by rw [stR1_v48, stR1_args V main_arg10 (by decide), stR1_args V main_arg11 (by decide)])
theorem stB1_v3 (V : Valuation τ sig (Elt Ideal)) : stB1 V (no_index (Proc.devRef .tc main_v3)) = dst (V (Proc.devRef .tc main_arg1)) :=
  (stB1_keep V main_v3 (by decide) (by decide)).trans (stR1_v3 V)
theorem stB1_v1 (V : Valuation τ sig (Elt Ideal)) : stB1 V (no_index (Proc.devRef .tc main_v1)) = src (V (Proc.devRef .tc main_arg1)) :=
  (stB1_keep V main_v1 (by decide) (by decide)).trans (stR1_v1 V)

/-! ## After stretch D2: the times-weights product of the second layer -/

/-- The buffer contents after this stretch and all before it, from contents `V`. -/
def stD2 (V : Valuation τ sig (Elt Ideal)) : Valuation τ sig (Elt Ideal) := after opsD2_w1 (stB1 V)
/-- A buffer this stretch does not write is as before it. -/
theorem stD2_keep (V : Valuation τ sig (Elt Ideal)) (r : Ref sig .tc) (h0 : r ∉ opsD2_w1_W) :
    stD2 V (Proc.devRef .tc r) = stB1 V (Proc.devRef .tc r) :=
  segD2_keep _ r h0
/-- The argument buffers are as at the start. -/
theorem stD2_args (V : Valuation τ sig (Elt Ideal)) (r : Ref sig .tc) (h : r ∈ argsL) : stD2 V (Proc.devRef .tc r) = V (Proc.devRef .tc r) :=
  (stD2_keep V r (args_not_opsD2_w1_W r h)).trans (stB1_args V r h)
theorem stD2_v3 (V : Valuation τ sig (Elt Ideal)) : stD2 V (no_index (Proc.devRef .tc main_v3)) = dst (V (Proc.devRef .tc main_arg1)) :=
  (stD2_keep V main_v3 (by decide)).trans (stB1_v3 V)
theorem stD2_v1 (V : Valuation τ sig (Elt Ideal)) : stD2 V (no_index (Proc.devRef .tc main_v1)) = src (V (Proc.devRef .tc main_arg1)) :=
  (stD2_keep V main_v1 (by decide)).trans (stB1_v1 V)
/-- This stretch's result, as the composed function of the argument buffers' contents at the start. -/
theorem stD2_v68 (V : Valuation τ sig (Elt Ideal)) : stD2 V (no_index (Proc.devRef .tc main_v68)) = dot256 (bn (relu (conv (dot1280 (V (Proc.devRef .tc main_arg0)) (V (Proc.devRef .tc main_arg4))) (src (V (Proc.devRef .tc main_arg1))) (dst (V (Proc.devRef .tc main_arg1))) (V (Proc.devRef .tc main_arg5)))) (V (Proc.devRef .tc main_arg10)) (V (Proc.devRef .tc main_arg11))) (V (Proc.devRef .tc main_arg6)) :=
  (segD2_v68 (stB1 V)).trans (by rw [stB1_v67, stB1_args V main_arg6 (by decide)])

/-! ## After stretch C2: the second normalized aggregation -/

/-- The buffer contents after this stretch and all before it, from contents `V`. -/
def stC2 (V : Valuation τ sig (Elt Ideal)) : Valuation τ sig (Elt Ideal) := after opsC2_w2 (after opsC2_w1 (stD2 V))
/-- A buffer this stretch does not write is as before it. -/
theorem stC2_keep (V : Valuation τ sig (Elt Ideal)) (r : Ref sig .tc) (h0 : r ∉ opsC2_w1_W) (h1 : r ∉ opsC2_w2_W) :
    stC2 V (Proc.devRef .tc r) = stD2 V (Proc.devRef .tc r) :=
  segC2_keep _ r h0 h1
/-- The argument buffers are as at the start. -/
theorem stC2_args (V : Valuation τ sig (Elt Ideal)) (r : Ref sig .tc) (h : r ∈ argsL) : stC2 V (Proc.devRef .tc r) = V (Proc.devRef .tc r) :=
  (stC2_keep V r (args_not_opsC2_w1_W r h) (args_not_opsC2_w2_W r h)).trans (stD2_args V r h)
/-- This stretch's result, as the composed function of the argument buffers' contents at the start. -/
theorem stC2_v111 (V : Valuation τ sig (Elt Ideal)) : stC2 V (no_index (Proc.devRef .tc main_v111)) = conv (dot256 (bn (relu (conv (dot1280 (V (Proc.devRef .tc main_arg0)) (V (Proc.devRef .tc main_arg4))) (src (V (Proc.devRef .tc main_arg1))) (dst (V (Proc.devRef .tc main_arg1))) (V (Proc.devRef .tc main_arg5)))) (V (Proc.devRef .tc main_arg10)) (V (Proc.devRef .tc main_arg11))) (V (Proc.devRef .tc main_arg6))) (src (V (Proc.devRef .tc main_arg1))) (dst (V (Proc.devRef .tc main_arg1))) (V (Proc.devRef .tc main_arg7)) :=
  (segC2_v111 (stD2 V)).trans (by rw [stD2_v3, stD2_v1, stD2_v68, stD2_args V main_arg7 (by decide)])
theorem stC2_v3 (V : Valuation τ sig (Elt Ideal)) : stC2 V (no_index (Proc.devRef .tc main_v3)) = dst (V (Proc.devRef .tc main_arg1)) :=
  (stC2_keep V main_v3 (by decide) (by decide)).trans (stD2_v3 V)
theorem stC2_v1 (V : Valuation τ sig (Elt Ideal)) : stC2 V (no_index (Proc.devRef .tc main_v1)) = src (V (Proc.devRef .tc main_arg1)) :=
  (stC2_keep V main_v1 (by decide) (by decide)).trans (stD2_v1 V)

/-! ## After stretch R2: the maximum with zero, second layer -/

/-- The buffer contents after this stretch and all before it, from contents `V`. -/
def stR2 (V : Valuation τ sig (Elt Ideal)) : Valuation τ sig (Elt Ideal) := after opsR2_w2 (stC2 V)
/-- A buffer this stretch does not write is as before it. -/
theorem stR2_keep (V : Valuation τ sig (Elt Ideal)) (r : Ref sig .tc) (h0 : r ∉ opsR2_w2_W) :
    stR2 V (Proc.devRef .tc r) = stC2 V (Proc.devRef .tc r) :=
  segR2_keep _ r h0
/-- The argument buffers are as at the start. -/
theorem stR2_args (V : Valuation τ sig (Elt Ideal)) (r : Ref sig .tc) (h : r ∈ argsL) : stR2 V (Proc.devRef .tc r) = V (Proc.devRef .tc r) :=
  (stR2_keep V r (args_not_opsR2_w2_W r h)).trans (stC2_args V r h)
/-- This stretch's result, as the composed function of the argument buffers' contents at the start. -/
theorem stR2_v112 (V : Valuation τ sig (Elt Ideal)) : stR2 V (no_index (Proc.devRef .tc main_v112)) = relu (conv (dot256 (bn (relu (conv (dot1280 (V (Proc.devRef .tc main_arg0)) (V (Proc.devRef .tc main_arg4))) (src (V (Proc.devRef .tc main_arg1))) (dst (V (Proc.devRef .tc main_arg1))) (V (Proc.devRef .tc main_arg5)))) (V (Proc.devRef .tc main_arg10)) (V (Proc.devRef .tc main_arg11))) (V (Proc.devRef .tc main_arg6))) (src (V (Proc.devRef .tc main_arg1))) (dst (V (Proc.devRef .tc main_arg1))) (V (Proc.devRef .tc main_arg7))) :=
  (segR2_v112 (stC2 V)).trans (by rw [stC2_v111])
theorem stR2_v3 (V : Valuation τ sig (Elt Ideal)) : stR2 V (no_index (Proc.devRef .tc main_v3)) = dst (V (Proc.devRef .tc main_arg1)) :=
  (stR2_keep V main_v3 (by decide)).trans (stC2_v3 V)
theorem stR2_v1 (V : Valuation τ sig (Elt Ideal)) : stR2 V (no_index (Proc.devRef .tc main_v1)) = src (V (Proc.devRef .tc main_arg1)) :=
  (stR2_keep V main_v1 (by decide)).trans (stC2_v1 V)

/-! ## After stretch B2: the second column-wise standardization -/

/-- The buffer contents after this stretch and all before it, from contents `V`. -/
def stB2 (V : Valuation τ sig (Elt Ideal)) : Valuation τ sig (Elt Ideal) := after opsB2_w2 (stR2 V)
/-- A buffer this stretch does not write is as before it. -/
theorem stB2_keep (V : Valuation τ sig (Elt Ideal)) (r : Ref sig .tc) (h0 : r ∉ opsB2_w2_W) :
    stB2 V (Proc.devRef .tc r) = stR2 V (Proc.devRef .tc r) :=
  segB2_keep _ r h0
/-- The argument buffers are as at the start. -/
theorem stB2_args (V : Valuation τ sig (Elt Ideal)) (r : Ref sig .tc) (h : r ∈ argsL) : stB2 V (Proc.devRef .tc r) = V (Proc.devRef .tc r) :=
  (stB2_keep V r (args_not_opsB2_w2_W r h)).trans (stR2_args V r h)
/-- This stretch's result, as the composed function of the argument buffers' contents at the start. -/
theorem stB2_v131 (V : Valuation τ sig (Elt Ideal)) : stB2 V (no_index (Proc.devRef .tc main_v131)) = bn (relu (conv (dot256 (bn (relu (conv (dot1280 (V (Proc.devRef .tc main_arg0)) (V (Proc.devRef .tc main_arg4))) (src (V (Proc.devRef .tc main_arg1))) (dst (V (Proc.devRef .tc main_arg1))) (V (Proc.devRef .tc main_arg5)))) (V (Proc.devRef .tc main_arg10)) (V (Proc.devRef .tc main_arg11))) (V (Proc.devRef .tc main_arg6))) (src (V (Proc.devRef .tc main_arg1))) (dst (V (Proc.devRef .tc main_arg1))) (V (Proc.devRef .tc main_arg7)))) (V (Proc.devRef .tc main_arg12)) (V (Proc.devRef .tc main_arg13)) :=
  (segB2_v131 (stR2 V)).trans (by rw [stR2_v112, stR2_args V main_arg12 (by decide), stR2_args V main_arg13 (by decide)])
theorem stB2_v3 (V : Valuation τ sig (Elt Ideal)) : stB2 V (no_index (Proc.devRef .tc main_v3)) = dst (V (Proc.devRef .tc main_arg1)) :=
  (stB2_keep V main_v3 (by decide)).trans (stR2_v3 V)
theorem stB2_v1 (V : Valuation τ sig (Elt Ideal)) : stB2 V (no_index (Proc.devRef .tc main_v1)) = src (V (Proc.devRef .tc main_arg1)) :=
  (stB2_keep V main_v1 (by decide)).trans (stR2_v1 V)

/-! ## After stretch D3: the times-weights product of the third layer -/

/-- The buffer contents after this stretch and all before it, from contents `V`. -/
def stD3 (V : Valuation τ sig (Elt Ideal)) : Valuation τ sig (Elt Ideal) := after opsD3_w2 (stB2 V)
/-- A buffer this stretch does not write is as before it. -/
theorem stD3_keep (V : Valuation τ sig (Elt Ideal)) (r : Ref sig .tc) (h0 : r ∉ opsD3_w2_W) :
    stD3 V (Proc.devRef .tc r) = stB2 V (Proc.devRef .tc r) :=
  segD3_keep _ r h0
/-- The argument buffers are as at the start. -/
theorem stD3_args (V : Valuation τ sig (Elt Ideal)) (r : Ref sig .tc) (h : r ∈ argsL) : stD3 V (Proc.devRef .tc r) = V (Proc.devRef .tc r) :=
  (stD3_keep V r (args_not_opsD3_w2_W r h)).trans (stB2_args V r h)
theorem stD3_v3 (V : Valuation τ sig (Elt Ideal)) : stD3 V (no_index (Proc.devRef .tc main_v3)) = dst (V (Proc.devRef .tc main_arg1)) :=
  (stD3_keep V main_v3 (by decide)).trans (stB2_v3 V)
theorem stD3_v1 (V : Valuation τ sig (Elt Ideal)) : stD3 V (no_index (Proc.devRef .tc main_v1)) = src (V (Proc.devRef .tc main_arg1)) :=
  (stD3_keep V main_v1 (by decide)).trans (stB2_v1 V)
/-- This stretch's result, as the composed function of the argument buffers' contents at the start. -/
theorem stD3_v132 (V : Valuation τ sig (Elt Ideal)) : stD3 V (no_index (Proc.devRef .tc main_v132)) = dot256 (bn (relu (conv (dot256 (bn (relu (conv (dot1280 (V (Proc.devRef .tc main_arg0)) (V (Proc.devRef .tc main_arg4))) (src (V (Proc.devRef .tc main_arg1))) (dst (V (Proc.devRef .tc main_arg1))) (V (Proc.devRef .tc main_arg5)))) (V (Proc.devRef .tc main_arg10)) (V (Proc.devRef .tc main_arg11))) (V (Proc.devRef .tc main_arg6))) (src (V (Proc.devRef .tc main_arg1))) (dst (V (Proc.devRef .tc main_arg1))) (V (Proc.devRef .tc main_arg7)))) (V (Proc.devRef .tc main_arg12)) (V (Proc.devRef .tc main_arg13))) (V (Proc.devRef .tc main_arg8)) :=
  (segD3_v132 (stB2 V)).trans (by rw [stB2_v131, stB2_args V main_arg8 (by decide)])

/-! ## After stretch C3: the third normalized aggregation -/

/-- The buffer contents after this stretch and all before it, from contents `V`. -/
def stC3 (V : Valuation τ sig (Elt Ideal)) : Valuation τ sig (Elt Ideal) := after opsC3_w3 (after opsC3_w2 (stD3 V))
/-- A buffer this stretch does not write is as before it. -/
theorem stC3_keep (V : Valuation τ sig (Elt Ideal)) (r : Ref sig .tc) (h0 : r ∉ opsC3_w2_W) (h1 : r ∉ opsC3_w3_W) :
    stC3 V (Proc.devRef .tc r) = stD3 V (Proc.devRef .tc r) :=
  segC3_keep _ r h0 h1
/-- The argument buffers are as at the start. -/
theorem stC3_args (V : Valuation τ sig (Elt Ideal)) (r : Ref sig .tc) (h : r ∈ argsL) : stC3 V (Proc.devRef .tc r) = V (Proc.devRef .tc r) :=
  (stC3_keep V r (args_not_opsC3_w2_W r h) (args_not_opsC3_w3_W r h)).trans (stD3_args V r h)
/-- This stretch's result, as the composed function of the argument buffers' contents at the start. -/
theorem stC3_v175 (V : Valuation τ sig (Elt Ideal)) : stC3 V (no_index (Proc.devRef .tc main_v175)) = conv (dot256 (bn (relu (conv (dot256 (bn (relu (conv (dot1280 (V (Proc.devRef .tc main_arg0)) (V (Proc.devRef .tc main_arg4))) (src (V (Proc.devRef .tc main_arg1))) (dst (V (Proc.devRef .tc main_arg1))) (V (Proc.devRef .tc main_arg5)))) (V (Proc.devRef .tc main_arg10)) (V (Proc.devRef .tc main_arg11))) (V (Proc.devRef .tc main_arg6))) (src (V (Proc.devRef .tc main_arg1))) (dst (V (Proc.devRef .tc main_arg1))) (V (Proc.devRef .tc main_arg7)))) (V (Proc.devRef .tc main_arg12)) (V (Proc.devRef .tc main_arg13))) (V (Proc.devRef .tc main_arg8))) (src (V (Proc.devRef .tc main_arg1))) (dst (V (Proc.devRef .tc main_arg1))) (V (Proc.devRef .tc main_arg9)) :=
  (segC3_v175 (stD3 V)).trans (by rw [stD3_v3, stD3_v1, stD3_v132, stD3_args V main_arg9 (by decide)])

/-! ## After stretch B3: the third column-wise standardization -/

/-- The buffer contents after this stretch and all before it, from contents `V`. -/
def stB3 (V : Valuation τ sig (Elt Ideal)) : Valuation τ sig (Elt Ideal) := after opsB3_w3 (stC3 V)
/-- A buffer this stretch does not write is as before it. -/
theorem stB3_keep (V : Valuation τ sig (Elt Ideal)) (r : Ref sig .tc) (h0 : r ∉ opsB3_w3_W) :
    stB3 V (Proc.devRef .tc r) = stC3 V (Proc.devRef .tc r) :=
  segB3_keep _ r h0
/-- The argument buffers are as at the start. -/
theorem stB3_args (V : Valuation τ sig (Elt Ideal)) (r : Ref sig .tc) (h : r ∈ argsL) : stB3 V (Proc.devRef .tc r) = V (Proc.devRef .tc r) :=
  (stB3_keep V r (args_not_opsB3_w3_W r h)).trans (stC3_args V r h)
/-- This stretch's result, as the composed function of the argument buffers' contents at the start. -/
theorem stB3_v194 (V : Valuation τ sig (Elt Ideal)) : stB3 V (no_index (Proc.devRef .tc main_v194)) = bn (conv (dot256 (bn (relu (conv (dot256 (bn (relu (conv (dot1280 (V (Proc.devRef .tc main_arg0)) (V (Proc.devRef .tc main_arg4))) (src (V (Proc.devRef .tc main_arg1))) (dst (V (Proc.devRef .tc main_arg1))) (V (Proc.devRef .tc main_arg5)))) (V (Proc.devRef .tc main_arg10)) (V (Proc.devRef .tc main_arg11))) (V (Proc.devRef .tc main_arg6))) (src (V (Proc.devRef .tc main_arg1))) (dst (V (Proc.devRef .tc main_arg1))) (V (Proc.devRef .tc main_arg7)))) (V (Proc.devRef .tc main_arg12)) (V (Proc.devRef .tc main_arg13))) (V (Proc.devRef .tc main_arg8))) (src (V (Proc.devRef .tc main_arg1))) (dst (V (Proc.devRef .tc main_arg1))) (V (Proc.devRef .tc main_arg9))) (V (Proc.devRef .tc main_arg14)) (V (Proc.devRef .tc main_arg15)) :=
  (segB3_v194 (stC3 V)).trans (by rw [stC3_v175, stC3_args V main_arg14 (by decide), stC3_args V main_arg15 (by decide)])

/-! ## After stretch T: the per-group mean, the two dense layers and the logistic function -/

/-- The buffer contents after this stretch and all before it, from contents `V`. -/
def stT (V : Valuation τ sig (Elt Ideal)) : Valuation τ sig (Elt Ideal) := after opsT_w4 (after opsT_w3 (stB3 V))
/-- A buffer this stretch does not write is as before it. -/
theorem stT_keep (V : Valuation τ sig (Elt Ideal)) (r : Ref sig .tc) (h0 : r ∉ opsT_w3_W) (h1 : r ∉ opsT_w4_W) :
    stT V (Proc.devRef .tc r) = stB3 V (Proc.devRef .tc r) :=
  segT_keep _ r h0 h1
/-- The argument buffers are as at the start. -/
theorem stT_args (V : Valuation τ sig (Elt Ideal)) (r : Ref sig .tc) (h : r ∈ argsL) : stT V (Proc.devRef .tc r) = V (Proc.devRef .tc r) :=
  (stT_keep V r (args_not_opsT_w3_W r h) (args_not_opsT_w4_W r h)).trans (stB3_args V r h)
/-- This stretch's result, as the composed function of the argument buffers' contents at the start. -/
theorem stT_v221 (V : Valuation τ sig (Elt Ideal)) : stT V (no_index (Proc.devRef .tc main_v221)) = tail (bn (conv (dot256 (bn (relu (conv (dot256 (bn (relu (conv (dot1280 (V (Proc.devRef .tc main_arg0)) (V (Proc.devRef .tc main_arg4))) (src (V (Proc.devRef .tc main_arg1))) (dst (V (Proc.devRef .tc main_arg1))) (V (Proc.devRef .tc main_arg5)))) (V (Proc.devRef .tc main_arg10)) (V (Proc.devRef .tc main_arg11))) (V (Proc.devRef .tc main_arg6))) (src (V (Proc.devRef .tc main_arg1))) (dst (V (Proc.devRef .tc main_arg1))) (V (Proc.devRef .tc main_arg7)))) (V (Proc.devRef .tc main_arg12)) (V (Proc.devRef .tc main_arg13))) (V (Proc.devRef .tc main_arg8))) (src (V (Proc.devRef .tc main_arg1))) (dst (V (Proc.devRef .tc main_arg1))) (V (Proc.devRef .tc main_arg9))) (V (Proc.devRef .tc main_arg14)) (V (Proc.devRef .tc main_arg15))) (V (Proc.devRef .tc main_arg2)) (V (Proc.devRef .tc main_arg3)) (V (Proc.devRef .tc main_arg16)) (V (Proc.devRef .tc main_arg17)) (V (Proc.devRef .tc main_arg18)) (V (Proc.devRef .tc main_arg19)) :=
  (segT_v221 (stB3 V)).trans (by rw [stB3_args V main_arg2 (by decide), stB3_v194, stB3_args V main_arg3 (by decide), stB3_args V main_arg16 (by decide), stB3_args V main_arg17 (by decide), stB3_args V main_arg18 (by decide), stB3_args V main_arg19 (by decide)])

end Cert.ReferenceIdeal.HandRun

end
-- ==== Proof.RefRun.lean ====
/-
  The reference's run: every weakly fair execution terminates with the result buffer at `out` of the argument
  buffers' contents at launch, and the argument buffers unchanged.  The fold of all the operations is the contents
  after the last stretch; the result buffer there is `out`, and the arguments are written by no operation.
-/
import proofs.«155788_j3092376453711_2_alg».proof.Proof.RefRunMain
import proofs.«155788_j3092376453711_2_alg».proof.Proof.RefRunVal
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

/-- The fold of all the operations, stretch after stretch, is the contents after the last stretch. -/
theorem after_ops (V : Valuation τ sig (Elt Ideal)) : after (ops (F := Ideal)) V = stT V := by
  simp only [ops, win0, win1, win2, win3, win4, after_append]
  rfl

/-- The result buffer after all the operations, as `out` of the argument buffers' contents at the start. -/
theorem after_ops_v221 (V : Valuation τ sig (Elt Ideal)) :
    after (ops (F := Ideal)) V (Proc.devRef .tc main_v221)
      = out (V (Proc.devRef .tc main_arg0))
          (V (Proc.devRef .tc main_arg1))
          (V (Proc.devRef .tc main_arg2))
          (V (Proc.devRef .tc main_arg3))
          (V (Proc.devRef .tc main_arg4))
          (V (Proc.devRef .tc main_arg5))
          (V (Proc.devRef .tc main_arg6))
          (V (Proc.devRef .tc main_arg7))
          (V (Proc.devRef .tc main_arg8))
          (V (Proc.devRef .tc main_arg9))
          (V (Proc.devRef .tc main_arg10))
          (V (Proc.devRef .tc main_arg11))
          (V (Proc.devRef .tc main_arg12))
          (V (Proc.devRef .tc main_arg13))
          (V (Proc.devRef .tc main_arg14))
          (V (Proc.devRef .tc main_arg15))
          (V (Proc.devRef .tc main_arg16))
          (V (Proc.devRef .tc main_arg17))
          (V (Proc.devRef .tc main_arg18))
          (V (Proc.devRef .tc main_arg19)) :=
  (congrFun (after_ops V) _).trans (stT_v221 V)

/-- An argument buffer after all the operations is as at the start. -/
theorem after_ops_arg (V : Valuation τ sig (Elt Ideal)) (r : Ref sig .tc) (h : r ∈ argsL) :
    after (ops (F := Ideal)) V (Proc.devRef .tc r) = V (Proc.devRef .tc r) :=
  (congrFun (after_ops V) _).trans (stT_args V r h)

/-- On every device, at the extended reals, from any memory with zero counters: every weakly fair execution of the
    program terminates with the result at `out` of the arguments' contents at launch, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v221)
        = out (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(h c main_v221).trans (after_ops_v221 _),
      (h c main_arg0).trans (after_ops_arg _ main_arg0 (by decide)),
      (h c main_arg1).trans (after_ops_arg _ main_arg1 (by decide)),
      (h c main_arg2).trans (after_ops_arg _ main_arg2 (by decide)),
      (h c main_arg3).trans (after_ops_arg _ main_arg3 (by decide)),
      (h c main_arg4).trans (after_ops_arg _ main_arg4 (by decide)),
      (h c main_arg5).trans (after_ops_arg _ main_arg5 (by decide)),
      (h c main_arg6).trans (after_ops_arg _ main_arg6 (by decide)),
      (h c main_arg7).trans (after_ops_arg _ main_arg7 (by decide)),
      (h c main_arg8).trans (after_ops_arg _ main_arg8 (by decide)),
      (h c main_arg9).trans (after_ops_arg _ main_arg9 (by decide)),
      (h c main_arg10).trans (after_ops_arg _ main_arg10 (by decide)),
      (h c main_arg11).trans (after_ops_arg _ main_arg11 (by decide)),
      (h c main_arg12).trans (after_ops_arg _ main_arg12 (by decide)),
      (h c main_arg13).trans (after_ops_arg _ main_arg13 (by decide)),
      (h c main_arg14).trans (after_ops_arg _ main_arg14 (by decide)),
      (h c main_arg15).trans (after_ops_arg _ main_arg15 (by decide)),
      (h c main_arg16).trans (after_ops_arg _ main_arg16 (by decide)),
      (h c main_arg17).trans (after_ops_arg _ main_arg17 (by decide)),
      (h c main_arg18).trans (after_ops_arg _ main_arg18 (by decide)),
      (h c main_arg19).trans (after_ops_arg _ main_arg19 (by decide))⟩)
    (run_after m ρ)

end Cert.ReferenceIdeal.HandRun

end
-- ==== Proof.KerValueRun.lean ====
/-
  The run of the pipelined program, its post naming the result buffer as well as the twenty argument arrays.

  The buffer contents at the boundaries of the program's twenty-two segments are a fold W0 … W22 from the launch
  memory: a stretch of host operations rewrites the buffers it writes, a region leaves its arrays at what its
  write-backs hold.  Every weakly fair execution from a memory with zero counters terminates, and in every final state
  the result buffer holds what the fold ends with at that buffer, and each argument array is as launched.
-/
import proofs.«155788_j3092376453711_2_alg».proof.Proof.Gen.KernelIdeal.Frame
import Idealize.ShloMosaic.PureOps.Ideal

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- From any memory with zero counters, every weakly fair execution of the program on the TensorCores terminates, nothing
    faulting, and in every final state the result buffer holds the last boundary's contents at that buffer and every
    argument array is as launched. -/
theorem run_value : θ_run defs (onTc (τ := τ) (main (F := Ideal))) ⟨m, fun _ => 0, ρ⟩ (fun r => ∀ c : Dev nD,
      r.2.mem ((c.tc : Thread nD τ).loc main_v138) = W22 m ρ c (Proc.devRef .tc main_v138)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨(h c _ (mem_uc main_v138 (by decide))),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c),
       (h c _ (mem_uc main_arg16 (by decide))).trans (W22_main_arg16 m ρ c),
       (h c _ (mem_uc main_arg17 (by decide))).trans (W22_main_arg17 m ρ c),
       (h c _ (mem_uc main_arg18 (by decide))).trans (W22_main_arg18 m ρ c),
       (h c _ (mem_uc main_arg19 (by decide))).trans (W22_main_arg19 m ρ c)⟩)

end Cert.KernelIdeal.HandValue

end
-- ==== Proof.KerValueKeep.lean ====
/-
  What each segment of the pipelined program leaves unchanged.

  The buffer contents at the boundaries of the twenty-two segments are a fold W0 … W22 from the launch memory.  A stretch
  of host operations changes only the buffers its operations write; a region changes only its own arrays, and of those
  only its outputs: an input array is left as the region found it.  So a buffer read at a boundary holds what it held at
  the last boundary before which it was written, and an argument array holds the launch memory's contents at every
  boundary.
-/
import proofs.«155788_j3092376453711_2_alg».proof.Proof.Gen.KernelIdeal.Frame
import Idealize.ShloMosaic.PureOps.Ideal

set_option maxRecDepth 16384

noncomputable section

namespace Cert.KernelIdeal.HandValue

open Idealize.ShloMosaic Idealize.ShloMosaic.TcCoe
open Cert.KernelIdeal Cert.KernelIdeal.Gen

variable (m : (ℓ : Loc nD τ sig) → Buf (Elt Ideal) ℓ) (ρ : Dev nD → PrngReg)

/-! ## The buffers each stretch of host operations writes -/

/-- The buffers stretch 0 writes. -/
def wr0 : List (Ref sig .tc) := [main_v0, main_v1, main_v2, main_v3, main_cst, main_v4, main_cst_0, main_v5, main_v6, main_v7, main_cst_1, main_v8, main_v9, main_v10, main_v11]
theorem wr0_sub : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 0 does not write holds after it what it held before. -/
theorem hkeep0 (c : Dev nD) (b : Ref sig .tc) (hb : b ∉ wr0) :
    W1 m ρ c (Proc.devRef .tc b) = W0 m ρ c (Proc.devRef .tc b) :=
  StableHlo.after_of_writes_sub hostOps0 _ wr0_sub hb

/-- The buffers stretch 1 writes. -/
def wr1 : List (Ref sig .tc) := [main_c, main_v13, main_v14, main_c_2, main_v15, main_v16, main_v17, main_v18, main_v19, main_cst_3, main_v20, main_v21, main_v22, main_v23, main_v24, main_v25, main_v26, main_v27]
theorem wr1_sub : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 1 does not write holds after it what it held before. -/
theorem hkeep1 (c : Dev nD) (b : Ref sig .tc) (hb : b ∉ wr1) :
    W3 m ρ c (Proc.devRef .tc b) = W2 m ρ c (Proc.devRef .tc b) :=
  StableHlo.after_of_writes_sub hostOps1 _ wr1_sub hb

/-- The buffers stretch 2 writes. -/
def wr2 : List (Ref sig .tc) := [main_cst_4, main_v29, main_cst_5, main_v30, main_cst_6, main_v31, main_v32, main_cst_7, main_v33, main_v34, main_v35, main_v36, main_cst_8, main_v37, main_v38, main_v39, main_v40, main_cst_9, main_v41, main_v42, main_v43, main_v44, main_v45, main_v46]
theorem wr2_sub : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 2 does not write holds after it what it held before. -/
theorem hkeep2 (c : Dev nD) (b : Ref sig .tc) (hb : b ∉ wr2) :
    W5 m ρ c (Proc.devRef .tc b) = W4 m ρ c (Proc.devRef .tc b) :=
  StableHlo.after_of_writes_sub hostOps2 _ wr2_sub hb

/-- The buffers stretch 3 writes. -/
def wr3 : List (Ref sig .tc) := [main_v48]
theorem wr3_sub : (hostOps3 : List (HloOp τ sig (Elt Ideal))).Forall fun op => op.writes ⊆ (wr3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 3 does not write holds after it what it held before. -/
theorem hkeep3 (c : Dev nD) (b : Ref sig .tc) (hb : b ∉ wr3) :
    W7 m ρ c (Proc.devRef .tc b) = W6 m ρ c (Proc.devRef .tc b) :=
  StableHlo.after_of_writes_sub hostOps3 _ wr3_sub hb

/-- The buffers stretch 4 writes. -/
def wr4 : List (Ref sig .tc) := [main_c_10, main_v50, main_v51, main_c_11, main_v52, main_v53, main_v54, main_v55, main_v56, main_cst_12, main_v57, main_v58, main_v59, main_v60, main_v61, main_v62, main_v63, main_v64]
theorem wr4_sub : (hostOps4 : List (HloOp τ sig (Elt Ideal))).Forall fun op => op.writes ⊆ (wr4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 4 does not write holds after it what it held before. -/
theorem hkeep4 (c : Dev nD) (b : Ref sig .tc) (hb : b ∉ wr4) :
    W9 m ρ c (Proc.devRef .tc b) = W8 m ρ c (Proc.devRef .tc b) :=
  StableHlo.after_of_writes_sub hostOps4 _ wr4_sub hb

/-- The buffers stretch 5 writes. -/
def wr5 : List (Ref sig .tc) := [main_cst_13, main_v66, main_cst_14, main_v67, main_cst_15, main_v68, main_v69, main_cst_16, main_v70, main_v71, main_v72, main_v73, main_cst_17, main_v74, main_v75, main_v76, main_v77, main_cst_18, main_v78, main_v79, main_v80, main_v81, main_v82, main_v83]
theorem wr5_sub : (hostOps5 : List (HloOp τ sig (Elt Ideal))).Forall fun op => op.writes ⊆ (wr5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 5 does not write holds after it what it held before. -/
theorem hkeep5 (c : Dev nD) (b : Ref sig .tc) (hb : b ∉ wr5) :
    W11 m ρ c (Proc.devRef .tc b) = W10 m ρ c (Proc.devRef .tc b) :=
  StableHlo.after_of_writes_sub hostOps5 _ wr5_sub hb

/-- The buffers stretch 6 writes. -/
def wr6 : List (Ref sig .tc) := [main_v85]
theorem wr6_sub : (hostOps6 : List (HloOp τ sig (Elt Ideal))).Forall fun op => op.writes ⊆ (wr6.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 6 does not write holds after it what it held before. -/
theorem hkeep6 (c : Dev nD) (b : Ref sig .tc) (hb : b ∉ wr6) :
    W13 m ρ c (Proc.devRef .tc b) = W12 m ρ c (Proc.devRef .tc b) :=
  StableHlo.after_of_writes_sub hostOps6 _ wr6_sub hb

/-- The buffers stretch 7 writes. -/
def wr7 : List (Ref sig .tc) := [main_c_19, main_v87, main_v88, main_c_20, main_v89, main_v90, main_v91, main_v92, main_v93, main_cst_21, main_v94, main_v95, main_v96, main_v97, main_v98, main_v99, main_v100, main_v101]
theorem wr7_sub : (hostOps7 : List (HloOp τ sig (Elt Ideal))).Forall fun op => op.writes ⊆ (wr7.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 7 does not write holds after it what it held before. -/
theorem hkeep7 (c : Dev nD) (b : Ref sig .tc) (hb : b ∉ wr7) :
    W15 m ρ c (Proc.devRef .tc b) = W14 m ρ c (Proc.devRef .tc b) :=
  StableHlo.after_of_writes_sub hostOps7 _ wr7_sub hb

/-- The buffers stretch 8 writes. -/
def wr8 : List (Ref sig .tc) := [main_cst_22, main_v103, main_cst_23, main_v104, main_cst_24, main_v105, main_v106, main_cst_25, main_v107, main_v108, main_v109, main_v110, main_cst_26, main_v111, main_v112, main_v113, main_v114, main_cst_27, main_v115, main_v116, main_v117, main_v118, main_v119, main_v120]
theorem wr8_sub : (hostOps8 : List (HloOp τ sig (Elt Ideal))).Forall fun op => op.writes ⊆ (wr8.map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 8 does not write holds after it what it held before. -/
theorem hkeep8 (c : Dev nD) (b : Ref sig .tc) (hb : b ∉ wr8) :
    W17 m ρ c (Proc.devRef .tc b) = W16 m ρ c (Proc.devRef .tc b) :=
  StableHlo.after_of_writes_sub hostOps8 _ wr8_sub hb

/-- The buffers stretch 9 writes. -/
def wr9 : List (Ref sig .tc) := [main_cst_28, main_v122, main_v123, main_v124, main_cst_29, main_v125, main_cst_30, main_v126, main_v127, main_v128, main_cst_31, main_v129, main_v130, main_v131, main_v132, main_v133, main_v134]
theorem wr9_sub : (hostOps9 : List (HloOp τ sig (Elt Ideal))).Forall fun op => op.writes ⊆ (wr9.map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 9 does not write holds after it what it held before. -/
theorem hkeep9 (c : Dev nD) (b : Ref sig .tc) (hb : b ∉ wr9) :
    W19 m ρ c (Proc.devRef .tc b) = W18 m ρ c (Proc.devRef .tc b) :=
  StableHlo.after_of_writes_sub hostOps9 _ wr9_sub hb

/-- The buffers stretch 10 writes. -/
def wr10 : List (Ref sig .tc) := [main_v136, main_v137]
theorem wr10_sub : (hostOps10 : List (HloOp τ sig (Elt Ideal))).Forall fun op => op.writes ⊆ (wr10.map (Proc.devRef (τ := τ) .tc)).toFinset := by
  simp only [hostOps10, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 10 does not write holds after it what it held before. -/
theorem hkeep10 (c : Dev nD) (b : Ref sig .tc) (hb : b ∉ wr10) :
    W21 m ρ c (Proc.devRef .tc b) = W20 m ρ c (Proc.devRef .tc b) :=
  StableHlo.after_of_writes_sub hostOps10 _ wr10_sub hb

/-! ## The arrays of each region -/

/-- The arrays of region 0. -/
def arrs0 : List (Ref sig .tc) := [main_arg0, main_arg4, main_v11, main_v12]
theorem arrs0_mem : ∀ w : Fin cfg0.W, Pipeline.arrRef spec0 w ∈ arrs0 := by decide
/-- A buffer that is none of region 0's arrays holds at its exit what it held at its entry. -/
theorem rkeep0 (c : Dev nD) (b : Ref sig .tc) (hb : b ∉ arrs0) :
    W2 m ρ c (Proc.devRef .tc b) = W1 m ρ c (Proc.devRef .tc b) :=
  W2_of_ne m ρ c b fun w e => hb (e ▸ arrs0_mem w)

/-- The arrays of region 1. -/
def arrs1 : List (Ref sig .tc) := [main_v26, main_v27, main_v28_0, main_v28_1]
theorem arrs1_mem : ∀ w : Fin cfg1.W, Pipeline.arrRef spec1 w ∈ arrs1 := by decide
/-- A buffer that is none of region 1's arrays holds at its exit what it held at its entry. -/
theorem rkeep1 (c : Dev nD) (b : Ref sig .tc) (hb : b ∉ arrs1) :
    W4 m ρ c (Proc.devRef .tc b) = W3 m ρ c (Proc.devRef .tc b) :=
  W4_of_ne m ρ c b fun w e => hb (e ▸ arrs1_mem w)

/-- The arrays of region 2. -/
def arrs2 : List (Ref sig .tc) := [main_v26, main_v27, main_v44, main_v46, main_v47]
theorem arrs2_mem : ∀ w : Fin cfg2.W, Pipeline.arrRef spec2 w ∈ arrs2 := by decide
/-- A buffer that is none of region 2's arrays holds at its exit what it held at its entry. -/
theorem rkeep2 (c : Dev nD) (b : Ref sig .tc) (hb : b ∉ arrs2) :
    W6 m ρ c (Proc.devRef .tc b) = W5 m ρ c (Proc.devRef .tc b) :=
  W6_of_ne m ρ c b fun w e => hb (e ▸ arrs2_mem w)

/-- The arrays of region 3. -/
def arrs3 : List (Ref sig .tc) := [main_v47, main_arg6, main_v48, main_v49]
theorem arrs3_mem : ∀ w : Fin cfg3.W, Pipeline.arrRef spec3 w ∈ arrs3 := by decide
/-- A buffer that is none of region 3's arrays holds at its exit what it held at its entry. -/
theorem rkeep3 (c : Dev nD) (b : Ref sig .tc) (hb : b ∉ arrs3) :
    W8 m ρ c (Proc.devRef .tc b) = W7 m ρ c (Proc.devRef .tc b) :=
  W8_of_ne m ρ c b fun w e => hb (e ▸ arrs3_mem w)

/-- The arrays of region 4. -/
def arrs4 : List (Ref sig .tc) := [main_v63, main_v64, main_v65_0, main_v65_1]
theorem arrs4_mem : ∀ w : Fin cfg4.W, Pipeline.arrRef spec4 w ∈ arrs4 := by decide
/-- A buffer that is none of region 4's arrays holds at its exit what it held at its entry. -/
theorem rkeep4 (c : Dev nD) (b : Ref sig .tc) (hb : b ∉ arrs4) :
    W10 m ρ c (Proc.devRef .tc b) = W9 m ρ c (Proc.devRef .tc b) :=
  W10_of_ne m ρ c b fun w e => hb (e ▸ arrs4_mem w)

/-- The arrays of region 5. -/
def arrs5 : List (Ref sig .tc) := [main_v63, main_v64, main_v81, main_v83, main_v84]
theorem arrs5_mem : ∀ w : Fin cfg5.W, Pipeline.arrRef spec5 w ∈ arrs5 := by decide
/-- A buffer that is none of region 5's arrays holds at its exit what it held at its entry. -/
theorem rkeep5 (c : Dev nD) (b : Ref sig .tc) (hb : b ∉ arrs5) :
    W12 m ρ c (Proc.devRef .tc b) = W11 m ρ c (Proc.devRef .tc b) :=
  W12_of_ne m ρ c b fun w e => hb (e ▸ arrs5_mem w)

/-- The arrays of region 6. -/
def arrs6 : List (Ref sig .tc) := [main_v84, main_arg8, main_v85, main_v86]
theorem arrs6_mem : ∀ w : Fin cfg6.W, Pipeline.arrRef spec6 w ∈ arrs6 := by decide
/-- A buffer that is none of region 6's arrays holds at its exit what it held at its entry. -/
theorem rkeep6 (c : Dev nD) (b : Ref sig .tc) (hb : b ∉ arrs6) :
    W14 m ρ c (Proc.devRef .tc b) = W13 m ρ c (Proc.devRef .tc b) :=
  W14_of_ne m ρ c b fun w e => hb (e ▸ arrs6_mem w)

/-- The arrays of region 7. -/
def arrs7 : List (Ref sig .tc) := [main_v100, main_v101, main_v102_0, main_v102_1]
theorem arrs7_mem : ∀ w : Fin cfg7.W, Pipeline.arrRef spec7 w ∈ arrs7 := by decide
/-- A buffer that is none of region 7's arrays holds at its exit what it held at its entry. -/
theorem rkeep7 (c : Dev nD) (b : Ref sig .tc) (hb : b ∉ arrs7) :
    W16 m ρ c (Proc.devRef .tc b) = W15 m ρ c (Proc.devRef .tc b) :=
  W16_of_ne m ρ c b fun w e => hb (e ▸ arrs7_mem w)

/-- The arrays of region 8. -/
def arrs8 : List (Ref sig .tc) := [main_v100, main_v101, main_v118, main_v120, main_v121]
theorem arrs8_mem : ∀ w : Fin cfg8.W, Pipeline.arrRef spec8 w ∈ arrs8 := by decide
/-- A buffer that is none of region 8's arrays holds at its exit what it held at its entry. -/
theorem rkeep8 (c : Dev nD) (b : Ref sig .tc) (hb : b ∉ arrs8) :
    W18 m ρ c (Proc.devRef .tc b) = W17 m ρ c (Proc.devRef .tc b) :=
  W18_of_ne m ρ c b fun w e => hb (e ▸ arrs8_mem w)

/-- The arrays of region 9. -/
def arrs9 : List (Ref sig .tc) := [main_arg3, main_arg16, main_v134, main_v135]
theorem arrs9_mem : ∀ w : Fin cfg9.W, Pipeline.arrRef spec9 w ∈ arrs9 := by decide
/-- A buffer that is none of region 9's arrays holds at its exit what it held at its entry. -/
theorem rkeep9 (c : Dev nD) (b : Ref sig .tc) (hb : b ∉ arrs9) :
    W20 m ρ c (Proc.devRef .tc b) = W19 m ρ c (Proc.devRef .tc b) :=
  W20_of_ne m ρ c b fun w e => hb (e ▸ arrs9_mem w)

/-- The arrays of region 10. -/
def arrs10 : List (Ref sig .tc) := [main_v136, main_arg18, main_v137, main_v138]
theorem arrs10_mem : ∀ w : Fin cfg10.W, Pipeline.arrRef spec10 w ∈ arrs10 := by decide
/-- A buffer that is none of region 10's arrays holds at its exit what it held at its entry. -/
theorem rkeep10 (c : Dev nD) (b : Ref sig .tc) (hb : b ∉ arrs10) :
    W22 m ρ c (Proc.devRef .tc b) = W21 m ρ c (Proc.devRef .tc b) :=
  W22_of_ne m ρ c b fun w e => hb (e ▸ arrs10_mem w)

/-! ## An input array of a region is left as found -/

theorem rin1_0 (c : Dev nD) : W4 m ρ c (Proc.devRef .tc main_v26) = W3 m ρ c (Proc.devRef .tc main_v26) :=
  (W4_arr m ρ c 0).trans (((dat1 (V3 m ρ) c).arrAt_in 0 rfl _).trans (A_eq1 (V3 m ρ) c 0))
theorem rin1_1 (c : Dev nD) : W4 m ρ c (Proc.devRef .tc main_v27) = W3 m ρ c (Proc.devRef .tc main_v27) :=
  (W4_arr m ρ c 1).trans (((dat1 (V3 m ρ) c).arrAt_in 1 rfl _).trans (A_eq1 (V3 m ρ) c 1))
theorem rin4_0 (c : Dev nD) : W10 m ρ c (Proc.devRef .tc main_v63) = W9 m ρ c (Proc.devRef .tc main_v63) :=
  (W10_arr m ρ c 0).trans (((dat4 (V9 m ρ) c).arrAt_in 0 rfl _).trans (A_eq4 (V9 m ρ) c 0))
theorem rin4_1 (c : Dev nD) : W10 m ρ c (Proc.devRef .tc main_v64) = W9 m ρ c (Proc.devRef .tc main_v64) :=
  (W10_arr m ρ c 1).trans (((dat4 (V9 m ρ) c).arrAt_in 1 rfl _).trans (A_eq4 (V9 m ρ) c 1))
theorem rin7_0 (c : Dev nD) : W16 m ρ c (Proc.devRef .tc main_v100) = W15 m ρ c (Proc.devRef .tc main_v100) :=
  (W16_arr m ρ c 0).trans (((dat7 (V15 m ρ) c).arrAt_in 0 rfl _).trans (A_eq7 (V15 m ρ) c 0))
theorem rin7_1 (c : Dev nD) : W16 m ρ c (Proc.devRef .tc main_v101) = W15 m ρ c (Proc.devRef .tc main_v101) :=
  (W16_arr m ρ c 1).trans (((dat7 (V15 m ρ) c).arrAt_in 1 rfl _).trans (A_eq7 (V15 m ρ) c 1))

end Cert.KernelIdeal.HandValue

end
-- ==== Proof.KerValueOps.lean ====
/-
  The host operations of the pipelined program between its regions, as named functions of whole arrays.

  The program is a three-layer graph convolution followed by a pooled read-out.  Between the regions the host
    * splits the edge list into its source and destination rows (src, dst);
    * counts, for every node, the edges that end there, adds one, and takes the reciprocal square root (dinv);
    * after each feature product, gathers the rows of the product at the edges' sources, sums them at the edges'
      destinations, adds the product itself, and scales row p by dinv p (convTail);
    * from the per-tile column sums of a layer's activations and of their squares, forms the batch-normalisation
      scale  g * rsqrt (max (E x^2 - (E x)^2) 0 + eps)  and shift  be - E x * scale  (bnScale, bnShift);
    * sums the node rows of every graph of the batch and divides by the graph's node count, at least one (pool).
  A one-axis array is also read as a one-column or a one-row array (col, row, row2752).

  Every definition below is the program's own operations composed in the program's order, at the extended reals.
-/
import proofs.«155788_j3092376453711_2_alg».proof.Proof.Gen.KernelIdeal
import Idealize.ShloMosaic.PureOps.Ideal

noncomputable section

namespace Cert.KernelIdeal.HandValue

open Idealize.ShloMosaic
open Cert.KernelIdeal Cert.KernelIdeal.Gen

/-- The sources of the edges: row 0 of the edge list. -/
def src (a1 : IVec S2x800000 32) : IVec S800000 32 :=
  shapeCast S800000 (extractStridedSlice S1x800000 ![0, 0] a1 slices_S2x800000_S1x800000_0_0) shapeCasts_S1x800000_S800000

/-- The destinations of the edges: row 1 of the edge list. -/
def dst (a1 : IVec S2x800000 32) : IVec S800000 32 :=
  shapeCast S800000 (extractStridedSlice S1x800000 ![1, 0] a1 slices_S2x800000_S1x800000_1_0) shapeCasts_S1x800000_S800000

/-- For every node, one over the square root of one plus the number of edges that end at it. -/
def dinv (d : IVec S800000 32) : FVec Ideal S50000 .f32 :=
  Host.rsqrt (F := Ideal)
    (addf
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 d)
        (broadcastInDim S800000 ![] bcast_S_S800000 (constant (F := Ideal) S_ .f32 0x3F800000#32)))
      (broadcastInDim S50000 ![] bcast_S_S50000 (constant (F := Ideal) S_ .f32 0x3F800000#32)))

/-- A per-node array as one column. -/
def col (v : FVec Ideal S50000 .f32) : FVec Ideal S50000x1 .f32 := shapeCast S50000x1 v shapeCasts_S50000_S50000x1

/-- A per-feature array as one row. -/
def row (b : FVec Ideal S256 .f32) : FVec Ideal S1x256 .f32 := shapeCast S1x256 b shapeCasts_S256_S1x256

/-- The read-out's bias as one row. -/
def row2752 (b : FVec Ideal S2752 .f32) : FVec Ideal S1x2752 .f32 := shapeCast S1x2752 b shapeCasts_S2752_S1x2752

/-- An edge's source with a negative index counted from the end. -/
def wrapSrc (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The rows of hs gathered at the edges' sources and summed at the edges' destinations. -/
def edgeSum (hs : FVec Ideal S50000x256 .f32) (s d : IVec S800000 32) : FVec Ideal S50000x256 .f32 :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 d)
    (Host.gather gather_S50000x256_S800000x1_S800000x256_1_0_n_n_0_1_1256 hs
      (broadcastInDim S800000x1 ![0] bcast_S800000_S800000x1_0 (wrapSrc s)))

/-- The aggregation after a feature product hs: the edge sum plus hs itself, row p scaled by v p. -/
def convTail (hs : FVec Ideal S50000x256 .f32) (s d : IVec S800000 32) (v : FVec Ideal S50000 .f32) :
    FVec Ideal S50000x256 .f32 :=
  mulf
    (broadcastInDim S50000x256 ![0, 1] bcast_S50000x1_S50000x256_0_1 (broadcastInDim S50000x1 ![0] bcast_S50000_S50000x1_0 v))
    (addf (edgeSum hs s d) hs)

/-- The sum over the fifty tiles of per-tile column sums, divided by the number of nodes. -/
def tileMean (ps : FVec Ideal S50x1x256 .f32) : FVec Ideal S1x256 .f32 :=
  Host.divf (F := Ideal)
    (Host.reduceAdd (F := Ideal) ps (constant (F := Ideal) S_ .f32 0x00000000#32) reducesTo_S50x1x256_S1x256_d0 h_S_)
    (broadcastInDim S1x256 ![] bcast_S_S1x256 (constant (F := Ideal) S_ .f32 0x47435000#32))

/-- The batch-normalisation scale from the per-tile sums ps of the activations and pq of their squares:
    g times the reciprocal square root of the variance, floored at zero, plus the stabiliser. -/
def bnScale (ps pq : FVec Ideal S50x1x256 .f32) (g : FVec Ideal S256 .f32) : FVec Ideal S1x256 .f32 :=
  mulf (row g)
    (Host.rsqrt (F := Ideal)
      (addf
        (maximumf (subf (tileMean pq) (mulf (tileMean ps) (tileMean ps)))
          (broadcastInDim S1x256 ![] bcast_S_S1x256 (constant (F := Ideal) S_ .f32 0x00000000#32)))
        (broadcastInDim S1x256 ![] bcast_S_S1x256 (constant (F := Ideal) S_ .f32 0x3727C5AC#32))))

/-- The batch-normalisation shift: be minus the mean times the scale. -/
def bnShift (ps pq : FVec Ideal S50x1x256 .f32) (g be : FVec Ideal S256 .f32) : FVec Ideal S1x256 .f32 :=
  subf (row be) (mulf (tileMean ps) (bnScale ps pq g))

/-- The number of nodes of each graph of the batch, at least one. -/
def graphSize (a2 : IVec S50000 32) : FVec Ideal S64 .f32 :=
  maximumf
    (Host.scatterAdd (F := Ideal) scatter_S64_S50000x1_S50000_n_0_0_1
      (broadcastInDim S64 ![] bcast_S_S64 (constant (F := Ideal) S_ .f32 0x00000000#32))
      (broadcastInDim S50000x1 ![0] bcast_S50000_S50000x1_0 a2)
      (broadcastInDim S50000 ![] bcast_S_S50000 (constant (F := Ideal) S_ .f32 0x3F800000#32)))
    (broadcastInDim S64 ![] bcast_S_S64 (constant (F := Ideal) S_ .f32 0x3F800000#32))

/-- The mean of the node rows of each graph: the rows summed at the nodes' graph, divided by the graph's size. -/
def pool (h : FVec Ideal S50000x256 .f32) (a2 : IVec S50000 32) : FVec Ideal S64x256 .f32 :=
  Host.divf (F := Ideal)
    (Host.scatterAdd (F := Ideal) scatter_S64x256_S50000x1_S50000x256_1_0_0_1
      (broadcastInDim S64x256 ![] bcast_S_S64x256 (constant (F := Ideal) S_ .f32 0x00000000#32))
      (broadcastInDim S50000x1 ![0] bcast_S50000_S50000x1_0 a2) h)
    (broadcastInDim S64x256 ![0, 1] bcast_S64x1_S64x256_0_1 (broadcastInDim S64x1 ![0] bcast_S64_S64x1_0 (graphSize a2)))

end Cert.KernelIdeal.HandValue

end
-- ==== Proof.KerValueHost.lean ====
/-
  What each stretch of host operations of the pipelined program leaves in the buffers the regions and the later stretches
  read, as the named functions of whole arrays applied to the contents before the stretch.

  Each statement is about ANY contents V before the stretch, the buffers the stretch reads named by hypotheses: the
  stretch's operations are composed in order, each reading the buffers earlier operations of the stretch wrote or the
  contents V, and the composed term is the named function by definition.
-/
import proofs.«155788_j3092376453711_2_alg».proof.Proof.KerValueOps
import proofs.«155788_j3092376453711_2_alg».proof.Proof.Gen.KernelIdeal.Launch
import Idealize.ShloMosaic.Lib.StableHlo.Run

set_option maxRecDepth 16384

noncomputable section

namespace Cert.KernelIdeal.HandValue

open Idealize.ShloMosaic Idealize.ShloMosaic.TcCoe Idealize.ShloMosaic.StableHlo
open Cert.KernelIdeal Cert.KernelIdeal.Gen

variable (V : Valuation τ sig (Elt Ideal))

/-- After stretch 0: the edges' sources. -/
theorem host0_v1 (a1 : IVec S2x800000 32)
    (e_a1 : V (Proc.devRef .tc main_arg1) = a1) :
    (StableHlo.after (hostOps0 (F := Ideal)) V (Proc.devRef .tc main_v1) : S800000.Idx → BitVec 32) = src a1 := by
  subst e_a1; after_results_simp; rfl

/-- After stretch 0: the edges' destinations. -/
theorem host0_v3 (a1 : IVec S2x800000 32)
    (e_a1 : V (Proc.devRef .tc main_arg1) = a1) :
    (StableHlo.after (hostOps0 (F := Ideal)) V (Proc.devRef .tc main_v3) : S800000.Idx → BitVec 32) = dst a1 := by
  subst e_a1; after_results_simp; rfl

/-- After stretch 0: the reciprocal square roots of the node degrees. -/
theorem host0_v10 (a1 : IVec S2x800000 32)
    (e_a1 : V (Proc.devRef .tc main_arg1) = a1) :
    (StableHlo.after (hostOps0 (F := Ideal)) V (Proc.devRef .tc main_v10) : S50000.Idx → EReal) = dinv (dst a1) := by
  subst e_a1; after_results_simp; rfl

/-- After stretch 0: the same as one column. -/
theorem host0_v11 (a1 : IVec S2x800000 32)
    (e_a1 : V (Proc.devRef .tc main_arg1) = a1) :
    (StableHlo.after (hostOps0 (F := Ideal)) V (Proc.devRef .tc main_v11) : S50000x1.Idx → EReal) = col (dinv (dst a1)) := by
  subst e_a1; after_results_simp; rfl

/-- After stretch 1: the first layer's aggregated product. -/
theorem host1_v26 (hs : FVec Ideal S50000x256 .f32) (s : IVec S800000 32) (d : IVec S800000 32) (v : FVec Ideal S50000 .f32)
    (e_hs : V (Proc.devRef .tc main_v12) = hs) (e_s : V (Proc.devRef .tc main_v1) = s) (e_d : V (Proc.devRef .tc main_v3) = d) (e_v : V (Proc.devRef .tc main_v10) = v) :
    (StableHlo.after (hostOps1 (F := Ideal)) V (Proc.devRef .tc main_v26) : S50000x256.Idx → EReal) = convTail hs s d v := by
  subst e_hs e_s e_d e_v; after_results_simp; rfl

/-- After stretch 1: the first layer's bias as one row. -/
theorem host1_v27 (b : FVec Ideal S256 .f32)
    (e_b : V (Proc.devRef .tc main_arg5) = b) :
    (StableHlo.after (hostOps1 (F := Ideal)) V (Proc.devRef .tc main_v27) : S1x256.Idx → EReal) = row b := by
  subst e_b; after_results_simp; rfl

/-- After stretch 2: the first layer's normalisation scale. -/
theorem host2_v44 (ps : FVec Ideal S50x1x256 .f32) (pq : FVec Ideal S50x1x256 .f32) (g : FVec Ideal S256 .f32)
    (e_ps : V (Proc.devRef .tc main_v28_0) = ps) (e_pq : V (Proc.devRef .tc main_v28_1) = pq) (e_g : V (Proc.devRef .tc main_arg10) = g) :
    (StableHlo.after (hostOps2 (F := Ideal)) V (Proc.devRef .tc main_v44) : S1x256.Idx → EReal) = bnScale ps pq g := by
  subst e_ps e_pq e_g; after_results_simp; rfl

/-- After stretch 2: the first layer's normalisation shift. -/
theorem host2_v46 (ps : FVec Ideal S50x1x256 .f32) (pq : FVec Ideal S50x1x256 .f32) (g : FVec Ideal S256 .f32) (be : FVec Ideal S256 .f32)
    (e_ps : V (Proc.devRef .tc main_v28_0) = ps) (e_pq : V (Proc.devRef .tc main_v28_1) = pq) (e_g : V (Proc.devRef .tc main_arg10) = g) (e_be : V (Proc.devRef .tc main_arg11) = be) :
    (StableHlo.after (hostOps2 (F := Ideal)) V (Proc.devRef .tc main_v46) : S1x256.Idx → EReal) = bnShift ps pq g be := by
  subst e_ps e_pq e_g e_be; after_results_simp; rfl

/-- After stretch 3: the reciprocal square roots of the node degrees as one column. -/
theorem host3_v48 (v : FVec Ideal S50000 .f32)
    (e_v : V (Proc.devRef .tc main_v10) = v) :
    (StableHlo.after (hostOps3 (F := Ideal)) V (Proc.devRef .tc main_v48) : S50000x1.Idx → EReal) = col v := by
  subst e_v; after_results_simp; rfl

/-- After stretch 4: the second layer's aggregated product. -/
theorem host4_v63 (hs : FVec Ideal S50000x256 .f32) (s : IVec S800000 32) (d : IVec S800000 32) (v : FVec Ideal S50000 .f32)
    (e_hs : V (Proc.devRef .tc main_v49) = hs) (e_s : V (Proc.devRef .tc main_v1) = s) (e_d : V (Proc.devRef .tc main_v3) = d) (e_v : V (Proc.devRef .tc main_v10) = v) :
    (StableHlo.after (hostOps4 (F := Ideal)) V (Proc.devRef .tc main_v63) : S50000x256.Idx → EReal) = convTail hs s d v := by
  subst e_hs e_s e_d e_v; after_results_simp; rfl

/-- After stretch 4: the second layer's bias as one row. -/
theorem host4_v64 (b : FVec Ideal S256 .f32)
    (e_b : V (Proc.devRef .tc main_arg7) = b) :
    (StableHlo.after (hostOps4 (F := Ideal)) V (Proc.devRef .tc main_v64) : S1x256.Idx → EReal) = row b := by
  subst e_b; after_results_simp; rfl

/-- After stretch 5: the second layer's normalisation scale. -/
theorem host5_v81 (ps : FVec Ideal S50x1x256 .f32) (pq : FVec Ideal S50x1x256 .f32) (g : FVec Ideal S256 .f32)
    (e_ps : V (Proc.devRef .tc main_v65_0) = ps) (e_pq : V (Proc.devRef .tc main_v65_1) = pq) (e_g : V (Proc.devRef .tc main_arg12) = g) :
    (StableHlo.after (hostOps5 (F := Ideal)) V (Proc.devRef .tc main_v81) : S1x256.Idx → EReal) = bnScale ps pq g := by
  subst e_ps e_pq e_g; after_results_simp; rfl

/-- After stretch 5: the second layer's normalisation shift. -/
theorem host5_v83 (ps : FVec Ideal S50x1x256 .f32) (pq : FVec Ideal S50x1x256 .f32) (g : FVec Ideal S256 .f32) (be : FVec Ideal S256 .f32)
    (e_ps : V (Proc.devRef .tc main_v65_0) = ps) (e_pq : V (Proc.devRef .tc main_v65_1) = pq) (e_g : V (Proc.devRef .tc main_arg12) = g) (e_be : V (Proc.devRef .tc main_arg13) = be) :
    (StableHlo.after (hostOps5 (F := Ideal)) V (Proc.devRef .tc main_v83) : S1x256.Idx → EReal) = bnShift ps pq g be := by
  subst e_ps e_pq e_g e_be; after_results_simp; rfl

/-- After stretch 6: the reciprocal square roots of the node degrees as one column. -/
theorem host6_v85 (v : FVec Ideal S50000 .f32)
    (e_v : V (Proc.devRef .tc main_v10) = v) :
    (StableHlo.after (hostOps6 (F := Ideal)) V (Proc.devRef .tc main_v85) : S50000x1.Idx → EReal) = col v := by
  subst e_v; after_results_simp; rfl

/-- After stretch 7: the third layer's aggregated product. -/
theorem host7_v100 (hs : FVec Ideal S50000x256 .f32) (s : IVec S800000 32) (d : IVec S800000 32) (v : FVec Ideal S50000 .f32)
    (e_hs : V (Proc.devRef .tc main_v86) = hs) (e_s : V (Proc.devRef .tc main_v1) = s) (e_d : V (Proc.devRef .tc main_v3) = d) (e_v : V (Proc.devRef .tc main_v10) = v) :
    (StableHlo.after (hostOps7 (F := Ideal)) V (Proc.devRef .tc main_v100) : S50000x256.Idx → EReal) = convTail hs s d v := by
  subst e_hs e_s e_d e_v; after_results_simp; rfl

/-- After stretch 7: the third layer's bias as one row. -/
theorem host7_v101 (b : FVec Ideal S256 .f32)
    (e_b : V (Proc.devRef .tc main_arg9) = b) :
    (StableHlo.after (hostOps7 (F := Ideal)) V (Proc.devRef .tc main_v101) : S1x256.Idx → EReal) = row b := by
  subst e_b; after_results_simp; rfl

/-- After stretch 8: the third layer's normalisation scale. -/
theorem host8_v118 (ps : FVec Ideal S50x1x256 .f32) (pq : FVec Ideal S50x1x256 .f32) (g : FVec Ideal S256 .f32)
    (e_ps : V (Proc.devRef .tc main_v102_0) = ps) (e_pq : V (Proc.devRef .tc main_v102_1) = pq) (e_g : V (Proc.devRef .tc main_arg14) = g) :
    (StableHlo.after (hostOps8 (F := Ideal)) V (Proc.devRef .tc main_v118) : S1x256.Idx → EReal) = bnScale ps pq g := by
  subst e_ps e_pq e_g; after_results_simp; rfl

/-- After stretch 8: the third layer's normalisation shift. -/
theorem host8_v120 (ps : FVec Ideal S50x1x256 .f32) (pq : FVec Ideal S50x1x256 .f32) (g : FVec Ideal S256 .f32) (be : FVec Ideal S256 .f32)
    (e_ps : V (Proc.devRef .tc main_v102_0) = ps) (e_pq : V (Proc.devRef .tc main_v102_1) = pq) (e_g : V (Proc.devRef .tc main_arg14) = g) (e_be : V (Proc.devRef .tc main_arg15) = be) :
    (StableHlo.after (hostOps8 (F := Ideal)) V (Proc.devRef .tc main_v120) : S1x256.Idx → EReal) = bnShift ps pq g be := by
  subst e_ps e_pq e_g e_be; after_results_simp; rfl

/-- After stretch 9: the graphs' mean node rows. -/
theorem host9_v133 (h : FVec Ideal S50000x256 .f32) (a2 : IVec S50000 32)
    (e_h : V (Proc.devRef .tc main_v121) = h) (e_a2 : V (Proc.devRef .tc main_arg2) = a2) :
    (StableHlo.after (hostOps9 (F := Ideal)) V (Proc.devRef .tc main_v133) : S64x256.Idx → EReal) = pool h a2 := by
  subst e_h e_a2; after_results_simp; rfl

/-- After stretch 9: the first dense layer's bias as one row. -/
theorem host9_v134 (b : FVec Ideal S256 .f32)
    (e_b : V (Proc.devRef .tc main_arg17) = b) :
    (StableHlo.after (hostOps9 (F := Ideal)) V (Proc.devRef .tc main_v134) : S1x256.Idx → EReal) = row b := by
  subst e_b; after_results_simp; rfl

/-- After stretch 10: the sum of the pooled rows and the first dense layer. -/
theorem host10_v136 (p : FVec Ideal S64x256 .f32) (q : FVec Ideal S64x256 .f32)
    (e_p : V (Proc.devRef .tc main_v133) = p) (e_q : V (Proc.devRef .tc main_v135) = q) :
    (StableHlo.after (hostOps10 (F := Ideal)) V (Proc.devRef .tc main_v136) : S64x256.Idx → EReal) = addf p q := by
  subst e_p e_q; after_results_simp

/-- After stretch 10: the read-out's bias as one row. -/
theorem host10_v137 (b : FVec Ideal S2752 .f32)
    (e_b : V (Proc.devRef .tc main_arg19) = b) :
    (StableHlo.after (hostOps10 (F := Ideal)) V (Proc.devRef .tc main_v137) : S1x2752.Idx → EReal) = row2752 b := by
  subst e_b; after_results_simp; rfl

end Cert.KernelIdeal.HandValue

end
-- ==== Proof.LibRowBlocks.lean ====
/-
  Row blocks of a product and of a bias row, at the extended reals.

  For arrays read as functions of a (row, column) index into the extended reals:

    mm x w (p, q)      = Σ_k x (p, k) · w (k, q)          -- an M x K by K x N product
    addRow  a b (p, q) = a (p, q) + b (0, q)               -- a 1 x N row added to every row
    reluRow a b (p, q) = max (a (p, q) + b (0, q)) 0       -- the same, then the maximum with zero

  and, for a computation that works on the rows in blocks: if what is computed on a block of Mb rows is the product (or
  the pointwise formula) of the blocks it loaded, each loaded block being its array read at rows o .. o + Mb (all
  columns; the second operand of a product read whole), then the result block is the whole-array function read at the
  same rows (blk_mm, blk_row).  The blocks' positions enter only through the coordinates of their embeddings, so the
  lemmas serve any row-tiled pipeline: instantiate the embeddings at the windows' blocks and discharge the six coordinate
  facts by arithmetic.
-/
import Idealize.ShloMosaic.PureOps.Ideal
import Idealize.ShloMosaic.Lib.ValueIdx

noncomputable section

open scoped BigOperators

namespace Idealize.ShloMosaic.ValueIdx

open Idealize.ShloMosaic

/-- The product of an M x K array with a K x N array: entry (p, q) is the sum over the inner position. -/
def mm (M K N : ℕ) (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A 1 x N row added to every row of an M x N array. -/
def addRow (M N : ℕ) (a : (⟨2, ![M, N]⟩ : Shape).Idx → EReal) (b : (⟨2, ![1, N]⟩ : Shape).Idx → EReal) :
    (⟨2, ![M, N]⟩ : Shape).Idx → EReal :=
  fun i => a i + b (ix2 (0 : Fin 1) (i 1))

/-- A 1 x N row added to every row of an M x N array, then the maximum with zero. -/
def reluRow (M N : ℕ) (a : (⟨2, ![M, N]⟩ : Shape).Idx → EReal) (b : (⟨2, ![1, N]⟩ : Shape).Idx → EReal) :
    (⟨2, ![M, N]⟩ : Shape).Idx → EReal :=
  fun i => max (a i + b (ix2 (0 : Fin 1) (i 1))) 0

theorem mm_ix2 (M K N : ℕ) (x w) (p : Fin M) (q : Fin N) : mm M K N x w (ix2 p q) = ∑ k : Fin K, x (ix2 p k) * w (ix2 k q) := rfl
theorem addRow_ix2 (M N : ℕ) (a b) (p : Fin M) (q : Fin N) : addRow M N a b (ix2 p q) = a (ix2 p q) + b (ix2 (0 : Fin 1) q) := rfl
theorem reluRow_ix2 (M N : ℕ) (a b) (p : Fin M) (q : Fin N) : reluRow M N a b (ix2 p q) = max (a (ix2 p q) + b (ix2 (0 : Fin 1) q)) 0 := rfl

/-! ## A block of rows is the block of the whole-array function

  A region cuts the rows into blocks; point t works on rows o .. o + Mb of its arrays (o the block's first row), all
  columns.  If what the body computes on the block is the product (or the bias formula) of the blocks it loaded, and each
  loaded block is its array read at the block's rows, then the result block is the whole-array product (or bias formula)
  read at the block's rows.  The blocks' positions enter only through the coordinates of their embeddings. -/

theorem hz2 : (![0, 0] : Fin 2 → Nat) = fun _ => 0 := funext fun a => by fin_cases a <;> rfl

/-- A product block: rows o .. o + Mb of x · w are (rows o .. o + Mb of x) · w. -/
theorem blk_mm {Mb M K N : ℕ} (pay : (⟨2, ![Mb, N]⟩ : Shape).Idx → EReal)
    (x0 : (⟨2, ![Mb, K]⟩ : Shape).Idx → EReal) (x1 : (⟨2, ![K, N]⟩ : Shape).Idx → EReal)
    (hpay : ∀ (p : Fin Mb) (q : Fin N), pay (ix2 p q) = ∑ k : Fin K, x0 (ix2 p k) * x1 (ix2 k q))
    (A0 : (⟨2, ![M, K]⟩ : Shape).Idx → EReal) (A1 : (⟨2, ![K, N]⟩ : Shape).Idx → EReal)
    (e0 : (⟨2, ![Mb, K]⟩ : Shape).Idx → (⟨2, ![M, K]⟩ : Shape).Idx)
    (e1 : (⟨2, ![K, N]⟩ : Shape).Idx → (⟨2, ![K, N]⟩ : Shape).Idx)
    (e2 : (⟨2, ![Mb, N]⟩ : Shape).Idx → (⟨2, ![M, N]⟩ : Shape).Idx)
    (hx0 : ∀ y, x0 y = A0 (e0 y)) (hx1 : ∀ y, x1 y = A1 (e1 y)) (o : ℕ)
    (h00 : ∀ y, ((e0 y) 0).val = o + (y 0).val) (h01 : ∀ y, ((e0 y) 1).val = (y 1).val)
    (h10 : ∀ y, ((e1 y) 0).val = (y 0).val) (h11 : ∀ y, ((e1 y) 1).val = (y 1).val)
    (h20 : ∀ y, ((e2 y) 0).val = o + (y 0).val) (h21 : ∀ y, ((e2 y) 1).val = (y 1).val)
    (j : (⟨2, ![Mb, N]⟩ : Shape).Idx) : pay j = mm M K N A0 A1 (e2 j) := by
  obtain ⟨p, q, rfl⟩ : ∃ (p : Fin Mb) (q : Fin N), j = ix2 p q := ⟨j 0, j 1, eq_ix2 j⟩
  rw [hpay]
  show _ = ∑ k : Fin K, A0 (ix2 ((e2 (ix2 p q)) 0) k) * A1 (ix2 k ((e2 (ix2 p q)) 1))
  refine Finset.sum_congr rfl fun k _ => ?_
  rw [hx0, hx1]
  have a0 : e0 (ix2 p k) = ix2 ((e2 (ix2 p q)) 0) k := funext fun a => Fin.ext (by
    match a with
    | ⟨0, _⟩ => exact (h00 (ix2 p k)).trans (h20 (ix2 p q)).symm
    | ⟨1, _⟩ => exact h01 (ix2 p k))
  have a1 : e1 (ix2 k q) = ix2 k ((e2 (ix2 p q)) 1) := funext fun a => Fin.ext (by
    match a with
    | ⟨0, _⟩ => exact h10 (ix2 k q)
    | ⟨1, _⟩ => exact (h11 (ix2 k q)).trans (h21 (ix2 p q)).symm)
  rw [a0, a1]
  rfl

/-- A bias-row block: on rows o .. o + Mb, a pointwise f of the array's entry and the row's entry in that column. -/
theorem blk_row {Mb M N : ℕ} (f : EReal → EReal → EReal) (pay : (⟨2, ![Mb, N]⟩ : Shape).Idx → EReal)
    (x0 : (⟨2, ![Mb, N]⟩ : Shape).Idx → EReal) (x1 : (⟨2, ![1, N]⟩ : Shape).Idx → EReal)
    (hpay : ∀ (p : Fin Mb) (q : Fin N), pay (ix2 p q) = f (x0 (ix2 p q)) (x1 (ix2 (0 : Fin 1) q)))
    (A0 : (⟨2, ![M, N]⟩ : Shape).Idx → EReal) (A1 : (⟨2, ![1, N]⟩ : Shape).Idx → EReal)
    (e0 : (⟨2, ![Mb, N]⟩ : Shape).Idx → (⟨2, ![M, N]⟩ : Shape).Idx)
    (e1 : (⟨2, ![1, N]⟩ : Shape).Idx → (⟨2, ![1, N]⟩ : Shape).Idx)
    (e2 : (⟨2, ![Mb, N]⟩ : Shape).Idx → (⟨2, ![M, N]⟩ : Shape).Idx)
    (hx0 : ∀ y, x0 y = A0 (e0 y)) (hx1 : ∀ y, x1 y = A1 (e1 y))
    (h0 : ∀ y (a : Fin 2), ((e0 y) a).val = ((e2 y) a).val)
    (h11 : ∀ y, ((e1 y) 1).val = (y 1).val) (h21 : ∀ y, ((e2 y) 1).val = (y 1).val)
    (j : (⟨2, ![Mb, N]⟩ : Shape).Idx) : pay j = f (A0 (e2 j)) (A1 (ix2 (0 : Fin 1) ((e2 j) 1))) := by
  obtain ⟨p, q, rfl⟩ : ∃ (p : Fin Mb) (q : Fin N), j = ix2 p q := ⟨j 0, j 1, eq_ix2 j⟩
  rw [hpay, hx0, hx1]
  have a0 : e0 (ix2 p q) = e2 (ix2 p q) := funext fun a => Fin.ext (h0 (ix2 p q) a)
  have a1 : e1 (ix2 (0 : Fin 1) q) = ix2 (0 : Fin 1) ((e2 (ix2 p q)) 1) := funext fun a => Fin.ext (by
    match a with
    | ⟨0, _⟩ =>
      show ((e1 (ix2 (0 : Fin 1) q)) 0).val = 0
      exact Nat.lt_one_iff.mp ((e1 (ix2 (0 : Fin 1) q)) 0).isLt
    | ⟨1, _⟩ => exact (h11 (ix2 (0 : Fin 1) q)).trans (h21 (ix2 p q)).symm)
  rw [a0, a1]
  rfl

end Idealize.ShloMosaic.ValueIdx

end
-- ==== Proof.Fns.lean ====
/-
  The whole-array functions that the regions of the pipelined program compute, at the extended reals.

  Arrays are read as functions of a (row, column) index.  With mm the matrix product, addRow a row added to every row
  (both from the row-block library):

    mmScale x w d (p, q)        = (x w) (p, q) * d (p, 0)              a product whose rows are scaled by a column
    tileColSum g a b (t, 0, q)  = sum over the rows r of tile t of g (a (r, q) + b (0, q))
                                                                        the column sums of one tile of rows
    affRow g a b s h (p, q)     = g (a (p, q) + b (0, q)) * s (0, q) + h (0, q)
                                                                        a row-wise affine map after a pointwise g
    lin x w b                   = x w + b                               a dense layer
    linLogistic x w b           = logistic (x w + b)                    a dense layer followed by the logistic function
-/
import Idealize.ShloMosaic.PureOps.Ideal
import Idealize.ShloMosaic.Lib.ValueIdx
import proofs.«155788_j3092376453711_2_alg».proof.Proof.LibRowBlocks

noncomputable section

open scoped BigOperators

namespace Cert.Fns

open Idealize.ShloMosaic Idealize.ShloMosaic.ValueIdx

/-- A two-axis array of extended reals. -/
abbrev Arr2 (M N : ℕ) : Type := (⟨2, ![M, N]⟩ : Shape).Idx → EReal
/-- A three-axis array of extended reals. -/
abbrev Arr3 (A B C : ℕ) : Type := (⟨3, ![A, B, C]⟩ : Shape).Idx → EReal

/-- The pointwise maps met below: the maximum with zero, and the identity. -/
def relu (v : EReal) : EReal := max v 0
/-- The square of a pointwise map's value. -/
def sqOf (g : EReal → EReal) (v : EReal) : EReal := g v * g v

/-- A product whose row p is scaled by the entry (p, 0) of a one-column array. -/
def mmScale (M K N : ℕ) (x : Arr2 M K) (w : Arr2 K N) (d : Arr2 M 1) : Arr2 M N :=
  fun i => mm M K N x w i * d (ix2 (i 0) (0 : Fin 1))

theorem mmScale_ix2 (M K N : ℕ) (x : Arr2 M K) (w : Arr2 K N) (d : Arr2 M 1) (p : Fin M) (q : Fin N) :
    mmScale M K N x w d (ix2 p q) = (∑ k : Fin K, x (ix2 p k) * w (ix2 k q)) * d (ix2 p (0 : Fin 1)) := rfl

/-- Row r of tile t, of T tiles of Mb rows each, is a row of the M = T * Mb rows. -/
theorem tile_lt {T Mb M : ℕ} (hM : T * Mb = M) (t : Fin T) (r : Fin Mb) : t.val * Mb + r.val < M := by
  have ht := t.isLt
  have hr := r.isLt
  calc t.val * Mb + r.val < t.val * Mb + Mb := by omega
    _ = (t.val + 1) * Mb := by ring
    _ ≤ T * Mb := Nat.mul_le_mul_right Mb (by omega)
    _ = M := hM

/-- Row r of tile t as a row of the whole array. -/
def tileRow {T Mb M : ℕ} (hM : T * Mb = M) (t : Fin T) (r : Fin Mb) : Fin M := ⟨t.val * Mb + r.val, tile_lt hM t r⟩

/-- The column sums, tile by tile, of g applied to the array plus a bias row: entry (t, 0, q) sums over the Mb rows of tile t. -/
def tileColSum (T Mb M N : ℕ) (hM : T * Mb = M) (g : EReal → EReal) (a : Arr2 M N) (b : Arr2 1 N) : Arr3 T 1 N :=
  fun i => ∑ r : Fin Mb, g (a (ix2 (tileRow hM (i 0) r) (i 2)) + b (ix2 (0 : Fin 1) (i 2)))

theorem tileColSum_ix3 (T Mb M N : ℕ) (hM : T * Mb = M) (g : EReal → EReal) (a : Arr2 M N) (b : Arr2 1 N) (t : Fin T) (q : Fin N) :
    tileColSum T Mb M N hM g a b (ix3 t (0 : Fin 1) q) = ∑ r : Fin Mb, g (a (ix2 (tileRow hM t r) q) + b (ix2 (0 : Fin 1) q)) := rfl

/-- g of the array plus a bias row, then scaled and shifted column by column. -/
def affRow (M N : ℕ) (g : EReal → EReal) (a : Arr2 M N) (b s h : Arr2 1 N) : Arr2 M N :=
  fun i => g (a i + b (ix2 (0 : Fin 1) (i 1))) * s (ix2 (0 : Fin 1) (i 1)) + h (ix2 (0 : Fin 1) (i 1))

theorem affRow_ix2 (M N : ℕ) (g : EReal → EReal) (a : Arr2 M N) (b s h : Arr2 1 N) (p : Fin M) (q : Fin N) :
    affRow M N g a b s h (ix2 p q) = g (a (ix2 p q) + b (ix2 (0 : Fin 1) q)) * s (ix2 (0 : Fin 1) q) + h (ix2 (0 : Fin 1) q) := rfl

/-- A dense layer: the product plus a bias row. -/
def lin (M K N : ℕ) (x : Arr2 M K) (w : Arr2 K N) (b : Arr2 1 N) : Arr2 M N := addRow M N (mm M K N x w) b

theorem lin_ix2 (M K N : ℕ) (x : Arr2 M K) (w : Arr2 K N) (b : Arr2 1 N) (p : Fin M) (q : Fin N) :
    lin M K N x w b (ix2 p q) = (∑ k : Fin K, x (ix2 p k) * w (ix2 k q)) + b (ix2 (0 : Fin 1) q) := rfl

/-- A dense layer followed by the logistic function. -/
def linLogistic (M K N : ℕ) (x : Arr2 M K) (w : Arr2 K N) (b : Arr2 1 N) : Arr2 M N :=
  fun i => Ideal.logistic (lin M K N x w b i)

theorem linLogistic_ix2 (M K N : ℕ) (x : Arr2 M K) (w : Arr2 K N) (b : Arr2 1 N) (p : Fin M) (q : Fin N) :
    linLogistic M K N x w b (ix2 p q) = Ideal.logistic ((∑ k : Fin K, x (ix2 p k) * w (ix2 k q)) + b (ix2 (0 : Fin 1) q)) := rfl

end Cert.Fns

end
-- ==== Proof.KerValueOut.lean ====
/-
  The result of the pipelined program as one closed function of its twenty argument arrays.

  A layer of the network takes node features x, multiplies them by a weight matrix and scales row p by dinv p (the
  region's product), aggregates over the edges (convTail), adds a bias row and applies a pointwise map f, and
  normalises every column over all nodes: the column's mean and mean square come from the per-tile column sums of
  f (agg + b) and of its square, and give the scale and the shift of a row-wise affine map.  Three layers follow one
  another, the first two with the maximum with zero, the last with the identity.  The node rows of each graph are
  averaged (pool), a dense layer of the graphs' own features is added, and a dense layer followed by the logistic
  function gives the result.
-/
import proofs.«155788_j3092376453711_2_alg».proof.Proof.Fns
import proofs.«155788_j3092376453711_2_alg».proof.Proof.KerValueOps

noncomputable section

namespace Cert.KernelIdeal.HandValue

open Idealize.ShloMosaic
open Cert.KernelIdeal Cert.KernelIdeal.Gen

/-- The aggregated product of a layer: x w with row p scaled by v p, then summed over the edges, itself added, and
    row p scaled by v p again. -/
def layerAgg (K : ℕ) (x : Fns.Arr2 50000 K) (w : Fns.Arr2 K 256) (s d : IVec S800000 32) (v : FVec Ideal S50000 .f32) :
    FVec Ideal S50000x256 .f32 :=
  convTail (Fns.mmScale 50000 K 256 x w (col v)) s d v

/-- The per-tile column sums of g (agg + b), fifty tiles of a thousand rows. -/
def layerSums (g : EReal → EReal) (agg : FVec Ideal S50000x256 .f32) (b : FVec Ideal S256 .f32) : FVec Ideal S50x1x256 .f32 :=
  Fns.tileColSum 50 1000 50000 256 rfl g agg (row b)

/-- A layer with pointwise map f: f (agg + b) normalised column by column, with scale parameter g and shift
    parameter be. -/
def layer (f : EReal → EReal) (K : ℕ) (x : Fns.Arr2 50000 K) (w : Fns.Arr2 K 256) (s d : IVec S800000 32)
    (v : FVec Ideal S50000 .f32) (b g be : FVec Ideal S256 .f32) : FVec Ideal S50000x256 .f32 :=
  Fns.affRow 50000 256 f (layerAgg K x w s d v) (row b)
    (bnScale (layerSums f (layerAgg K x w s d v) b) (layerSums (Fns.sqOf f) (layerAgg K x w s d v) b) g)
    (bnShift (layerSums f (layerAgg K x w s d v) b) (layerSums (Fns.sqOf f) (layerAgg K x w s d v) b) g be)

/-- The node features after the first layer. -/
def hidden1 (a0 : FVec Ideal S50000x1280 .f32) (a1 : IVec S2x800000 32) (a4 : FVec Ideal S1280x256 .f32)
    (a5 a10 a11 : FVec Ideal S256 .f32) : FVec Ideal S50000x256 .f32 :=
  layer Fns.relu 1280 a0 a4 (src a1) (dst a1) (dinv (dst a1)) a5 a10 a11

/-- The node features after the second layer, from those after the first. -/
def hidden2 (h1 : FVec Ideal S50000x256 .f32) (a1 : IVec S2x800000 32) (a6 : FVec Ideal S256x256 .f32)
    (a7 a12 a13 : FVec Ideal S256 .f32) : FVec Ideal S50000x256 .f32 :=
  layer Fns.relu 256 h1 a6 (src a1) (dst a1) (dinv (dst a1)) a7 a12 a13

/-- The node features after the third layer, from those after the second. -/
def hidden3 (h2 : FVec Ideal S50000x256 .f32) (a1 : IVec S2x800000 32) (a8 : FVec Ideal S256x256 .f32)
    (a9 a14 a15 : FVec Ideal S256 .f32) : FVec Ideal S50000x256 .f32 :=
  layer id 256 h2 a8 (src a1) (dst a1) (dinv (dst a1)) a9 a14 a15

/-- The node features after the three layers. -/
def hidden (a0 : FVec Ideal S50000x1280 .f32) (a1 : IVec S2x800000 32) (a4 : FVec Ideal S1280x256 .f32) (a5 : FVec Ideal S256 .f32)
    (a6 : FVec Ideal S256x256 .f32) (a7 : FVec Ideal S256 .f32) (a8 : FVec Ideal S256x256 .f32)
    (a9 a10 a11 a12 a13 a14 a15 : FVec Ideal S256 .f32) : FVec Ideal S50000x256 .f32 :=
  hidden3 (hidden2 (hidden1 a0 a1 a4 a5 a10 a11) a1 a6 a7 a12 a13) a1 a8 a9 a14 a15

/-- The three layers written out. -/
theorem hidden_eq (a0 : FVec Ideal S50000x1280 .f32) (a1 : IVec S2x800000 32) (a4 : FVec Ideal S1280x256 .f32) (a5 : FVec Ideal S256 .f32)
    (a6 : FVec Ideal S256x256 .f32) (a7 : FVec Ideal S256 .f32) (a8 : FVec Ideal S256x256 .f32)
    (a9 a10 a11 a12 a13 a14 a15 : FVec Ideal S256 .f32) :
    hidden a0 a1 a4 a5 a6 a7 a8 a9 a10 a11 a12 a13 a14 a15 =
      layer id 256
        (layer Fns.relu 256
          (layer Fns.relu 1280 a0 a4 (src a1) (dst a1) (dinv (dst a1)) a5 a10 a11)
          a6 (src a1) (dst a1) (dinv (dst a1)) a7 a12 a13)
        a8 (src a1) (dst a1) (dinv (dst a1)) a9 a14 a15 := rfl

/-- The program's result, from its twenty argument arrays. -/
def out (a0 : FVec Ideal S50000x1280 .f32) (a1 : IVec S2x800000 32) (a2 : IVec S50000 32) (a3 : FVec Ideal S64x1280 .f32)
    (a4 : FVec Ideal S1280x256 .f32) (a5 : FVec Ideal S256 .f32) (a6 : FVec Ideal S256x256 .f32) (a7 : FVec Ideal S256 .f32)
    (a8 : FVec Ideal S256x256 .f32) (a9 a10 a11 a12 a13 a14 a15 : FVec Ideal S256 .f32) (a16 : FVec Ideal S1280x256 .f32)
    (a17 : FVec Ideal S256 .f32) (a18 : FVec Ideal S256x2752 .f32) (a19 : FVec Ideal S2752 .f32) : FVec Ideal S64x2752 .f32 :=
  Fns.linLogistic 64 256 2752
    (addf (pool (hidden a0 a1 a4 a5 a6 a7 a8 a9 a10 a11 a12 a13 a14 a15) a2) (Fns.lin 64 1280 256 a3 a16 (row a17)))
    a18 (row2752 a19)

end Cert.KernelIdeal.HandValue

end
-- ==== Proof.KerValueRegions.lean ====
/-
  What the eleven regions of the pipelined program compute, as hypotheses: each region's output array, once all its
  write-backs are folded, is a whole-array function of the region's input arrays as the region finds them.

  Regions 0, 3, 6 are a product whose rows are scaled by a column; regions 1, 4, 7 the per-tile column sums of a
  pointwise map of an array plus a bias row, and of its square; regions 2, 5, 8 a row-wise affine map after the
  pointwise map; region 9 a dense layer; region 10 a dense layer followed by the logistic function.  The facts are
  stated for any contents V at the region's entry, so that the walk through the program's segments can take them at the
  contents each region is in fact entered with.
-/
import proofs.«155788_j3092376453711_2_alg».proof.Proof.Gen.KernelIdeal.Frame
import proofs.«155788_j3092376453711_2_alg».proof.Proof.Fns

set_option maxRecDepth 16384

noncomputable section

namespace Cert.KernelIdeal.HandValue

open Idealize.ShloMosaic Idealize.ShloMosaic.TcCoe
open Cert.KernelIdeal Cert.KernelIdeal.Gen

set_option maxHeartbeats 4000000 in
/-- The value of every region's outputs from its inputs, for any contents at the region's entry. -/
structure RegionValues : Prop where
  /-- Region 0, output window 3. -/
  value0_3 : ∀ (V : (c : Dev nD) → (b : Ref sig .tc) → Buf (Elt Ideal) ((c : Thread nD τ).loc b)) (c : Dev nD) (x : Fns.Arr2 50000 1280) (w : Fns.Arr2 1280 256) (d : Fns.Arr2 50000 1),
    V c (Pipeline.arrRef spec0 0) = x → V c (Pipeline.arrRef spec0 1) = w → V c (Pipeline.arrRef spec0 2) = d →
    (Gen.dat0 (F := Ideal) V c).arrAt 3 cfg0.N = Fns.mmScale 50000 1280 256 x w d
  /-- Region 1, output window 2. -/
  value1_2 : ∀ (V : (c : Dev nD) → (b : Ref sig .tc) → Buf (Elt Ideal) ((c : Thread nD τ).loc b)) (c : Dev nD) (a : Fns.Arr2 50000 256) (b : Fns.Arr2 1 256),
    V c (Pipeline.arrRef spec1 0) = a → V c (Pipeline.arrRef spec1 1) = b →
    (Gen.dat1 (F := Ideal) V c).arrAt 2 cfg1.N = Fns.tileColSum 50 1000 50000 256 rfl Fns.relu a b
  /-- Region 1, output window 3. -/
  value1_3 : ∀ (V : (c : Dev nD) → (b : Ref sig .tc) → Buf (Elt Ideal) ((c : Thread nD τ).loc b)) (c : Dev nD) (a : Fns.Arr2 50000 256) (b : Fns.Arr2 1 256),
    V c (Pipeline.arrRef spec1 0) = a → V c (Pipeline.arrRef spec1 1) = b →
    (Gen.dat1 (F := Ideal) V c).arrAt 3 cfg1.N = Fns.tileColSum 50 1000 50000 256 rfl (Fns.sqOf Fns.relu) a b
  /-- Region 2, output window 4. -/
  value2_4 : ∀ (V : (c : Dev nD) → (b : Ref sig .tc) → Buf (Elt Ideal) ((c : Thread nD τ).loc b)) (c : Dev nD) (a : Fns.Arr2 50000 256) (b s h : Fns.Arr2 1 256),
    V c (Pipeline.arrRef spec2 0) = a → V c (Pipeline.arrRef spec2 1) = b → V c (Pipeline.arrRef spec2 2) = s → V c (Pipeline.arrRef spec2 3) = h →
    (Gen.dat2 (F := Ideal) V c).arrAt 4 cfg2.N = Fns.affRow 50000 256 Fns.relu a b s h
  /-- Region 3, output window 3. -/
  value3_3 : ∀ (V : (c : Dev nD) → (b : Ref sig .tc) → Buf (Elt Ideal) ((c : Thread nD τ).loc b)) (c : Dev nD) (x : Fns.Arr2 50000 256) (w : Fns.Arr2 256 256) (d : Fns.Arr2 50000 1),
    V c (Pipeline.arrRef spec3 0) = x → V c (Pipeline.arrRef spec3 1) = w → V c (Pipeline.arrRef spec3 2) = d →
    (Gen.dat3 (F := Ideal) V c).arrAt 3 cfg3.N = Fns.mmScale 50000 256 256 x w d
  /-- Region 4, output window 2. -/
  value4_2 : ∀ (V : (c : Dev nD) → (b : Ref sig .tc) → Buf (Elt Ideal) ((c : Thread nD τ).loc b)) (c : Dev nD) (a : Fns.Arr2 50000 256) (b : Fns.Arr2 1 256),
    V c (Pipeline.arrRef spec4 0) = a → V c (Pipeline.arrRef spec4 1) = b →
    (Gen.dat4 (F := Ideal) V c).arrAt 2 cfg4.N = Fns.tileColSum 50 1000 50000 256 rfl Fns.relu a b
  /-- Region 4, output window 3. -/
  value4_3 : ∀ (V : (c : Dev nD) → (b : Ref sig .tc) → Buf (Elt Ideal) ((c : Thread nD τ).loc b)) (c : Dev nD) (a : Fns.Arr2 50000 256) (b : Fns.Arr2 1 256),
    V c (Pipeline.arrRef spec4 0) = a → V c (Pipeline.arrRef spec4 1) = b →
    (Gen.dat4 (F := Ideal) V c).arrAt 3 cfg4.N = Fns.tileColSum 50 1000 50000 256 rfl (Fns.sqOf Fns.relu) a b
  /-- Region 5, output window 4. -/
  value5_4 : ∀ (V : (c : Dev nD) → (b : Ref sig .tc) → Buf (Elt Ideal) ((c : Thread nD τ).loc b)) (c : Dev nD) (a : Fns.Arr2 50000 256) (b s h : Fns.Arr2 1 256),
    V c (Pipeline.arrRef spec5 0) = a → V c (Pipeline.arrRef spec5 1) = b → V c (Pipeline.arrRef spec5 2) = s → V c (Pipeline.arrRef spec5 3) = h →
    (Gen.dat5 (F := Ideal) V c).arrAt 4 cfg5.N = Fns.affRow 50000 256 Fns.relu a b s h
  /-- Region 6, output window 3. -/
  value6_3 : ∀ (V : (c : Dev nD) → (b : Ref sig .tc) → Buf (Elt Ideal) ((c : Thread nD τ).loc b)) (c : Dev nD) (x : Fns.Arr2 50000 256) (w : Fns.Arr2 256 256) (d : Fns.Arr2 50000 1),
    V c (Pipeline.arrRef spec6 0) = x → V c (Pipeline.arrRef spec6 1) = w → V c (Pipeline.arrRef spec6 2) = d →
    (Gen.dat6 (F := Ideal) V c).arrAt 3 cfg6.N = Fns.mmScale 50000 256 256 x w d
  /-- Region 7, output window 2. -/
  value7_2 : ∀ (V : (c : Dev nD) → (b : Ref sig .tc) → Buf (Elt Ideal) ((c : Thread nD τ).loc b)) (c : Dev nD) (a : Fns.Arr2 50000 256) (b : Fns.Arr2 1 256),
    V c (Pipeline.arrRef spec7 0) = a → V c (Pipeline.arrRef spec7 1) = b →
    (Gen.dat7 (F := Ideal) V c).arrAt 2 cfg7.N = Fns.tileColSum 50 1000 50000 256 rfl id a b
  /-- Region 7, output window 3. -/
  value7_3 : ∀ (V : (c : Dev nD) → (b : Ref sig .tc) → Buf (Elt Ideal) ((c : Thread nD τ).loc b)) (c : Dev nD) (a : Fns.Arr2 50000 256) (b : Fns.Arr2 1 256),
    V c (Pipeline.arrRef spec7 0) = a → V c (Pipeline.arrRef spec7 1) = b →
    (Gen.dat7 (F := Ideal) V c).arrAt 3 cfg7.N = Fns.tileColSum 50 1000 50000 256 rfl (Fns.sqOf id) a b
  /-- Region 8, output window 4. -/
  value8_4 : ∀ (V : (c : Dev nD) → (b : Ref sig .tc) → Buf (Elt Ideal) ((c : Thread nD τ).loc b)) (c : Dev nD) (a : Fns.Arr2 50000 256) (b s h : Fns.Arr2 1 256),
    V c (Pipeline.arrRef spec8 0) = a → V c (Pipeline.arrRef spec8 1) = b → V c (Pipeline.arrRef spec8 2) = s → V c (Pipeline.arrRef spec8 3) = h →
    (Gen.dat8 (F := Ideal) V c).arrAt 4 cfg8.N = Fns.affRow 50000 256 id a b s h
  /-- Region 9, output window 3. -/
  value9_3 : ∀ (V : (c : Dev nD) → (b : Ref sig .tc) → Buf (Elt Ideal) ((c : Thread nD τ).loc b)) (c : Dev nD) (x : Fns.Arr2 64 1280) (w : Fns.Arr2 1280 256) (b : Fns.Arr2 1 256),
    V c (Pipeline.arrRef spec9 0) = x → V c (Pipeline.arrRef spec9 1) = w → V c (Pipeline.arrRef spec9 2) = b →
    (Gen.dat9 (F := Ideal) V c).arrAt 3 cfg9.N = Fns.lin 64 1280 256 x w b
  /-- Region 10, output window 3. -/
  value10_3 : ∀ (V : (c : Dev nD) → (b : Ref sig .tc) → Buf (Elt Ideal) ((c : Thread nD τ).loc b)) (c : Dev nD) (x : Fns.Arr2 64 256) (w : Fns.Arr2 256 2752) (b : Fns.Arr2 1 2752),
    V c (Pipeline.arrRef spec10 0) = x → V c (Pipeline.arrRef spec10 1) = w → V c (Pipeline.arrRef spec10 2) = b →
    (Gen.dat10 (F := Ideal) V c).arrAt 3 cfg10.N = Fns.linLogistic 64 256 2752 x w b

end Cert.KernelIdeal.HandValue

end
-- ==== Proof.KerValueWalk1.lean ====
/-
  The contents of the buffers the pipelined program's segments read, at the segment boundaries 1 … 6 of the fold
  W0 … W22, as the named functions of the launch arrays (written A₀ … A₁₉ for core c's argument arrays, 𝐬 and 𝐝 for the
  edges' sources and destinations, 𝐯 for the reciprocal square roots of the node degrees).

  At a stretch's end a buffer the stretch wrote holds the stretch's function of what the stretch read; at a region's
  exit its output holds the region's function (a hypothesis) of its inputs as entered; every other buffer holds what it
  held one boundary earlier.
-/
import proofs.«155788_j3092376453711_2_alg».proof.Proof.KerValueKeep
import proofs.«155788_j3092376453711_2_alg».proof.Proof.KerValueHost
import proofs.«155788_j3092376453711_2_alg».proof.Proof.KerValueOut
import proofs.«155788_j3092376453711_2_alg».proof.Proof.KerValueRegions

set_option maxRecDepth 16384
set_option quotPrecheck false

noncomputable section

namespace Cert.KernelIdeal.HandValue

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

local notation "A₀" => m ((c.tc : Thread nD τ).loc main_arg0)
local notation "A₁" => m ((c.tc : Thread nD τ).loc main_arg1)
local notation "A₂" => m ((c.tc : Thread nD τ).loc main_arg2)
local notation "A₃" => m ((c.tc : Thread nD τ).loc main_arg3)
local notation "A₄" => m ((c.tc : Thread nD τ).loc main_arg4)
local notation "A₅" => m ((c.tc : Thread nD τ).loc main_arg5)
local notation "A₆" => m ((c.tc : Thread nD τ).loc main_arg6)
local notation "A₇" => m ((c.tc : Thread nD τ).loc main_arg7)
local notation "A₈" => m ((c.tc : Thread nD τ).loc main_arg8)
local notation "A₉" => m ((c.tc : Thread nD τ).loc main_arg9)
local notation "A₁₀" => m ((c.tc : Thread nD τ).loc main_arg10)
local notation "A₁₁" => m ((c.tc : Thread nD τ).loc main_arg11)
local notation "A₁₂" => m ((c.tc : Thread nD τ).loc main_arg12)
local notation "A₁₃" => m ((c.tc : Thread nD τ).loc main_arg13)
local notation "A₁₄" => m ((c.tc : Thread nD τ).loc main_arg14)
local notation "A₁₅" => m ((c.tc : Thread nD τ).loc main_arg15)
local notation "A₁₆" => m ((c.tc : Thread nD τ).loc main_arg16)
local notation "A₁₇" => m ((c.tc : Thread nD τ).loc main_arg17)
local notation "A₁₈" => m ((c.tc : Thread nD τ).loc main_arg18)
local notation "A₁₉" => m ((c.tc : Thread nD τ).loc main_arg19)
local notation "𝐬" => src A₁
local notation "𝐝" => dst A₁
local notation "𝐯" => dinv (dst A₁)

/-! ## After the first stretch: the edge list split, the degrees' reciprocal square roots, and the first product's operands -/

theorem e1_v1 :
    (W1 m ρ c (Proc.devRef .tc main_v1) : IVec S800000 32) = 𝐬 :=
  host0_v1 (W0 m ρ c) _ rfl

theorem e1_v3 :
    (W1 m ρ c (Proc.devRef .tc main_v3) : IVec S800000 32) = 𝐝 :=
  host0_v3 (W0 m ρ c) _ rfl

theorem e1_v10 :
    (W1 m ρ c (Proc.devRef .tc main_v10) : FVec Ideal S50000 .f32) = 𝐯 :=
  host0_v10 (W0 m ρ c) _ rfl

theorem e1_v11 :
    (W1 m ρ c (Proc.devRef .tc main_v11) : FVec Ideal S50000x1 .f32) = col 𝐯 :=
  host0_v11 (W0 m ρ c) _ rfl

theorem e1_arg0 :
    (W1 m ρ c (Proc.devRef .tc main_arg0) : FVec Ideal S50000x1280 .f32) = A₀ :=
  (hkeep0 m ρ c main_arg0 (by decide)).trans <|
    rfl

theorem e1_arg4 :
    (W1 m ρ c (Proc.devRef .tc main_arg4) : FVec Ideal S1280x256 .f32) = A₄ :=
  (hkeep0 m ρ c main_arg4 (by decide)).trans <|
    rfl

/-! ## After region 0: the first layer's scaled product -/

theorem e2_v12 (H : RegionValues) :
    (W2 m ρ c (Proc.devRef .tc main_v12) : FVec Ideal S50000x256 .f32) = Fns.mmScale 50000 1280 256 A₀ A₄ (col 𝐯) :=
  (W2_arr m ρ c 3).trans (H.value0_3 (V1 m ρ) c _ _ _ (e1_arg0 m ρ c) (e1_arg4 m ρ c) (e1_v11 m ρ c))

theorem e2_v1 :
    (W2 m ρ c (Proc.devRef .tc main_v1) : IVec S800000 32) = 𝐬 :=
  (rkeep0 m ρ c main_v1 (by decide)).trans <|
    e1_v1 m ρ c

theorem e2_v3 :
    (W2 m ρ c (Proc.devRef .tc main_v3) : IVec S800000 32) = 𝐝 :=
  (rkeep0 m ρ c main_v3 (by decide)).trans <|
    e1_v3 m ρ c

theorem e2_v10 :
    (W2 m ρ c (Proc.devRef .tc main_v10) : FVec Ideal S50000 .f32) = 𝐯 :=
  (rkeep0 m ρ c main_v10 (by decide)).trans <|
    e1_v10 m ρ c

theorem e2_arg5 :
    (W2 m ρ c (Proc.devRef .tc main_arg5) : FVec Ideal S256 .f32) = A₅ :=
  (rkeep0 m ρ c main_arg5 (by decide)).trans <|
    (hkeep0 m ρ c main_arg5 (by decide)).trans <|
    rfl

/-! ## After stretch 1: the first layer's aggregated product and its bias row -/

theorem e3_v26 (H : RegionValues) :
    (W3 m ρ c (Proc.devRef .tc main_v26) : FVec Ideal S50000x256 .f32) = layerAgg 1280 A₀ A₄ 𝐬 𝐝 𝐯 :=
  host1_v26 (W2 m ρ c) _ _ _ _ (e2_v12 m ρ c H) (e2_v1 m ρ c) (e2_v3 m ρ c) (e2_v10 m ρ c)

theorem e3_v27 :
    (W3 m ρ c (Proc.devRef .tc main_v27) : FVec Ideal S1x256 .f32) = row A₅ :=
  host1_v27 (W2 m ρ c) _ (e2_arg5 m ρ c)

/-! ## After region 1: the per-tile column sums of the first layer's activations and of their squares -/

theorem e4_v28_0 (H : RegionValues) :
    (W4 m ρ c (Proc.devRef .tc main_v28_0) : FVec Ideal S50x1x256 .f32) = layerSums Fns.relu (layerAgg 1280 A₀ A₄ 𝐬 𝐝 𝐯) A₅ :=
  (W4_arr m ρ c 2).trans (H.value1_2 (V3 m ρ) c _ _ (e3_v26 m ρ c H) (e3_v27 m ρ c))

theorem e4_v28_1 (H : RegionValues) :
    (W4 m ρ c (Proc.devRef .tc main_v28_1) : FVec Ideal S50x1x256 .f32) = layerSums (Fns.sqOf Fns.relu) (layerAgg 1280 A₀ A₄ 𝐬 𝐝 𝐯) A₅ :=
  (W4_arr m ρ c 3).trans (H.value1_3 (V3 m ρ) c _ _ (e3_v26 m ρ c H) (e3_v27 m ρ c))

theorem e4_v26 (H : RegionValues) :
    (W4 m ρ c (Proc.devRef .tc main_v26) : FVec Ideal S50000x256 .f32) = layerAgg 1280 A₀ A₄ 𝐬 𝐝 𝐯 :=
  (rin1_0 m ρ c).trans <|
    e3_v26 m ρ c H

theorem e4_v27 :
    (W4 m ρ c (Proc.devRef .tc main_v27) : FVec Ideal S1x256 .f32) = row A₅ :=
  (rin1_1 m ρ c).trans <|
    e3_v27 m ρ c

theorem e4_arg10 :
    (W4 m ρ c (Proc.devRef .tc main_arg10) : FVec Ideal S256 .f32) = A₁₀ :=
  (rkeep1 m ρ c main_arg10 (by decide)).trans <|
    (hkeep1 m ρ c main_arg10 (by decide)).trans <|
    (rkeep0 m ρ c main_arg10 (by decide)).trans <|
    (hkeep0 m ρ c main_arg10 (by decide)).trans <|
    rfl

theorem e4_arg11 :
    (W4 m ρ c (Proc.devRef .tc main_arg11) : FVec Ideal S256 .f32) = A₁₁ :=
  (rkeep1 m ρ c main_arg11 (by decide)).trans <|
    (hkeep1 m ρ c main_arg11 (by decide)).trans <|
    (rkeep0 m ρ c main_arg11 (by decide)).trans <|
    (hkeep0 m ρ c main_arg11 (by decide)).trans <|
    rfl

/-! ## After stretch 2: the first layer's normalisation scale and shift -/

theorem e5_v44 (H : RegionValues) :
    (W5 m ρ c (Proc.devRef .tc main_v44) : FVec Ideal S1x256 .f32) = bnScale (layerSums Fns.relu (layerAgg 1280 A₀ A₄ 𝐬 𝐝 𝐯) A₅) (layerSums (Fns.sqOf Fns.relu) (layerAgg 1280 A₀ A₄ 𝐬 𝐝 𝐯) A₅) A₁₀ :=
  host2_v44 (W4 m ρ c) _ _ _ (e4_v28_0 m ρ c H) (e4_v28_1 m ρ c H) (e4_arg10 m ρ c)

theorem e5_v46 (H : RegionValues) :
    (W5 m ρ c (Proc.devRef .tc main_v46) : FVec Ideal S1x256 .f32) = bnShift (layerSums Fns.relu (layerAgg 1280 A₀ A₄ 𝐬 𝐝 𝐯) A₅) (layerSums (Fns.sqOf Fns.relu) (layerAgg 1280 A₀ A₄ 𝐬 𝐝 𝐯) A₅) A₁₀ A₁₁ :=
  host2_v46 (W4 m ρ c) _ _ _ _ (e4_v28_0 m ρ c H) (e4_v28_1 m ρ c H) (e4_arg10 m ρ c) (e4_arg11 m ρ c)

theorem e5_v26 (H : RegionValues) :
    (W5 m ρ c (Proc.devRef .tc main_v26) : FVec Ideal S50000x256 .f32) = layerAgg 1280 A₀ A₄ 𝐬 𝐝 𝐯 :=
  (hkeep2 m ρ c main_v26 (by decide)).trans <|
    e4_v26 m ρ c H

theorem e5_v27 :
    (W5 m ρ c (Proc.devRef .tc main_v27) : FVec Ideal S1x256 .f32) = row A₅ :=
  (hkeep2 m ρ c main_v27 (by decide)).trans <|
    e4_v27 m ρ c

/-! ## After region 2: the node features after the first layer -/

theorem e6_v47 (H : RegionValues) :
    (W6 m ρ c (Proc.devRef .tc main_v47) : FVec Ideal S50000x256 .f32) = hidden1 A₀ A₁ A₄ A₅ A₁₀ A₁₁ :=
  (W6_arr m ρ c 4).trans (H.value2_4 (V5 m ρ) c _ _ _ _ (e5_v26 m ρ c H) (e5_v27 m ρ c) (e5_v44 m ρ c H) (e5_v46 m ρ c H))

theorem e6_v1 :
    (W6 m ρ c (Proc.devRef .tc main_v1) : IVec S800000 32) = 𝐬 :=
  (rkeep2 m ρ c main_v1 (by decide)).trans <|
    (hkeep2 m ρ c main_v1 (by decide)).trans <|
    (rkeep1 m ρ c main_v1 (by decide)).trans <|
    (hkeep1 m ρ c main_v1 (by decide)).trans <|
    e2_v1 m ρ c

theorem e6_v3 :
    (W6 m ρ c (Proc.devRef .tc main_v3) : IVec S800000 32) = 𝐝 :=
  (rkeep2 m ρ c main_v3 (by decide)).trans <|
    (hkeep2 m ρ c main_v3 (by decide)).trans <|
    (rkeep1 m ρ c main_v3 (by decide)).trans <|
    (hkeep1 m ρ c main_v3 (by decide)).trans <|
    e2_v3 m ρ c

theorem e6_v10 :
    (W6 m ρ c (Proc.devRef .tc main_v10) : FVec Ideal S50000 .f32) = 𝐯 :=
  (rkeep2 m ρ c main_v10 (by decide)).trans <|
    (hkeep2 m ρ c main_v10 (by decide)).trans <|
    (rkeep1 m ρ c main_v10 (by decide)).trans <|
    (hkeep1 m ρ c main_v10 (by decide)).trans <|
    e2_v10 m ρ c

end Cert.KernelIdeal.HandValue

end
-- ==== Proof.KerValueWalk2.lean ====
/-
  The contents of the buffers the pipelined program's segments read, at the segment boundaries 7 … 12 of the fold
  W0 … W22, as the named functions of the launch arrays (written A₀ … A₁₉ for core c's argument arrays, 𝐬 and 𝐝 for the
  edges' sources and destinations, 𝐯 for the reciprocal square roots of the node degrees).

  At a stretch's end a buffer the stretch wrote holds the stretch's function of what the stretch read; at a region's
  exit its output holds the region's function (a hypothesis) of its inputs as entered; every other buffer holds what it
  held one boundary earlier.
-/
import proofs.«155788_j3092376453711_2_alg».proof.Proof.KerValueWalk1

set_option maxRecDepth 16384
set_option quotPrecheck false

noncomputable section

namespace Cert.KernelIdeal.HandValue

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

local notation "A₀" => m ((c.tc : Thread nD τ).loc main_arg0)
local notation "A₁" => m ((c.tc : Thread nD τ).loc main_arg1)
local notation "A₂" => m ((c.tc : Thread nD τ).loc main_arg2)
local notation "A₃" => m ((c.tc : Thread nD τ).loc main_arg3)
local notation "A₄" => m ((c.tc : Thread nD τ).loc main_arg4)
local notation "A₅" => m ((c.tc : Thread nD τ).loc main_arg5)
local notation "A₆" => m ((c.tc : Thread nD τ).loc main_arg6)
local notation "A₇" => m ((c.tc : Thread nD τ).loc main_arg7)
local notation "A₈" => m ((c.tc : Thread nD τ).loc main_arg8)
local notation "A₉" => m ((c.tc : Thread nD τ).loc main_arg9)
local notation "A₁₀" => m ((c.tc : Thread nD τ).loc main_arg10)
local notation "A₁₁" => m ((c.tc : Thread nD τ).loc main_arg11)
local notation "A₁₂" => m ((c.tc : Thread nD τ).loc main_arg12)
local notation "A₁₃" => m ((c.tc : Thread nD τ).loc main_arg13)
local notation "A₁₄" => m ((c.tc : Thread nD τ).loc main_arg14)
local notation "A₁₅" => m ((c.tc : Thread nD τ).loc main_arg15)
local notation "A₁₆" => m ((c.tc : Thread nD τ).loc main_arg16)
local notation "A₁₇" => m ((c.tc : Thread nD τ).loc main_arg17)
local notation "A₁₈" => m ((c.tc : Thread nD τ).loc main_arg18)
local notation "A₁₉" => m ((c.tc : Thread nD τ).loc main_arg19)
local notation "𝐬" => src A₁
local notation "𝐝" => dst A₁
local notation "𝐯" => dinv (dst A₁)

/-! ## After stretch 3: the second product's operands -/

theorem e7_v48 :
    (W7 m ρ c (Proc.devRef .tc main_v48) : FVec Ideal S50000x1 .f32) = col 𝐯 :=
  host3_v48 (W6 m ρ c) _ (e6_v10 m ρ c)

theorem e7_v47 (H : RegionValues) :
    (W7 m ρ c (Proc.devRef .tc main_v47) : FVec Ideal S50000x256 .f32) = hidden1 A₀ A₁ A₄ A₅ A₁₀ A₁₁ :=
  (hkeep3 m ρ c main_v47 (by decide)).trans <|
    e6_v47 m ρ c H

theorem e7_arg6 :
    (W7 m ρ c (Proc.devRef .tc main_arg6) : FVec Ideal S256x256 .f32) = A₆ :=
  (hkeep3 m ρ c main_arg6 (by decide)).trans <|
    (rkeep2 m ρ c main_arg6 (by decide)).trans <|
    (hkeep2 m ρ c main_arg6 (by decide)).trans <|
    (rkeep1 m ρ c main_arg6 (by decide)).trans <|
    (hkeep1 m ρ c main_arg6 (by decide)).trans <|
    (rkeep0 m ρ c main_arg6 (by decide)).trans <|
    (hkeep0 m ρ c main_arg6 (by decide)).trans <|
    rfl

/-! ## After region 3: the second layer's scaled product -/

theorem e8_v49 (H : RegionValues) :
    (W8 m ρ c (Proc.devRef .tc main_v49) : FVec Ideal S50000x256 .f32) = Fns.mmScale 50000 256 256 (hidden1 A₀ A₁ A₄ A₅ A₁₀ A₁₁) A₆ (col 𝐯) :=
  (W8_arr m ρ c 3).trans (H.value3_3 (V7 m ρ) c _ _ _ (e7_v47 m ρ c H) (e7_arg6 m ρ c) (e7_v48 m ρ c))

theorem e8_v1 :
    (W8 m ρ c (Proc.devRef .tc main_v1) : IVec S800000 32) = 𝐬 :=
  (rkeep3 m ρ c main_v1 (by decide)).trans <|
    (hkeep3 m ρ c main_v1 (by decide)).trans <|
    e6_v1 m ρ c

theorem e8_v3 :
    (W8 m ρ c (Proc.devRef .tc main_v3) : IVec S800000 32) = 𝐝 :=
  (rkeep3 m ρ c main_v3 (by decide)).trans <|
    (hkeep3 m ρ c main_v3 (by decide)).trans <|
    e6_v3 m ρ c

theorem e8_v10 :
    (W8 m ρ c (Proc.devRef .tc main_v10) : FVec Ideal S50000 .f32) = 𝐯 :=
  (rkeep3 m ρ c main_v10 (by decide)).trans <|
    (hkeep3 m ρ c main_v10 (by decide)).trans <|
    e6_v10 m ρ c

theorem e8_arg7 :
    (W8 m ρ c (Proc.devRef .tc main_arg7) : FVec Ideal S256 .f32) = A₇ :=
  (rkeep3 m ρ c main_arg7 (by decide)).trans <|
    (hkeep3 m ρ c main_arg7 (by decide)).trans <|
    (rkeep2 m ρ c main_arg7 (by decide)).trans <|
    (hkeep2 m ρ c main_arg7 (by decide)).trans <|
    (rkeep1 m ρ c main_arg7 (by decide)).trans <|
    (hkeep1 m ρ c main_arg7 (by decide)).trans <|
    (rkeep0 m ρ c main_arg7 (by decide)).trans <|
    (hkeep0 m ρ c main_arg7 (by decide)).trans <|
    rfl

/-! ## After stretch 4: the second layer's aggregated product and its bias row -/

theorem e9_v63 (H : RegionValues) :
    (W9 m ρ c (Proc.devRef .tc main_v63) : FVec Ideal S50000x256 .f32) = layerAgg 256 (hidden1 A₀ A₁ A₄ A₅ A₁₀ A₁₁) A₆ 𝐬 𝐝 𝐯 :=
  host4_v63 (W8 m ρ c) _ _ _ _ (e8_v49 m ρ c H) (e8_v1 m ρ c) (e8_v3 m ρ c) (e8_v10 m ρ c)

theorem e9_v64 :
    (W9 m ρ c (Proc.devRef .tc main_v64) : FVec Ideal S1x256 .f32) = row A₇ :=
  host4_v64 (W8 m ρ c) _ (e8_arg7 m ρ c)

/-! ## After region 4: the per-tile column sums of the second layer's activations and of their squares -/

theorem e10_v65_0 (H : RegionValues) :
    (W10 m ρ c (Proc.devRef .tc main_v65_0) : FVec Ideal S50x1x256 .f32) = layerSums Fns.relu (layerAgg 256 (hidden1 A₀ A₁ A₄ A₅ A₁₀ A₁₁) A₆ 𝐬 𝐝 𝐯) A₇ :=
  (W10_arr m ρ c 2).trans (H.value4_2 (V9 m ρ) c _ _ (e9_v63 m ρ c H) (e9_v64 m ρ c))

theorem e10_v65_1 (H : RegionValues) :
    (W10 m ρ c (Proc.devRef .tc main_v65_1) : FVec Ideal S50x1x256 .f32) = layerSums (Fns.sqOf Fns.relu) (layerAgg 256 (hidden1 A₀ A₁ A₄ A₅ A₁₀ A₁₁) A₆ 𝐬 𝐝 𝐯) A₇ :=
  (W10_arr m ρ c 3).trans (H.value4_3 (V9 m ρ) c _ _ (e9_v63 m ρ c H) (e9_v64 m ρ c))

theorem e10_v63 (H : RegionValues) :
    (W10 m ρ c (Proc.devRef .tc main_v63) : FVec Ideal S50000x256 .f32) = layerAgg 256 (hidden1 A₀ A₁ A₄ A₅ A₁₀ A₁₁) A₆ 𝐬 𝐝 𝐯 :=
  (rin4_0 m ρ c).trans <|
    e9_v63 m ρ c H

theorem e10_v64 :
    (W10 m ρ c (Proc.devRef .tc main_v64) : FVec Ideal S1x256 .f32) = row A₇ :=
  (rin4_1 m ρ c).trans <|
    e9_v64 m ρ c

theorem e10_arg12 :
    (W10 m ρ c (Proc.devRef .tc main_arg12) : FVec Ideal S256 .f32) = A₁₂ :=
  (rkeep4 m ρ c main_arg12 (by decide)).trans <|
    (hkeep4 m ρ c main_arg12 (by decide)).trans <|
    (rkeep3 m ρ c main_arg12 (by decide)).trans <|
    (hkeep3 m ρ c main_arg12 (by decide)).trans <|
    (rkeep2 m ρ c main_arg12 (by decide)).trans <|
    (hkeep2 m ρ c main_arg12 (by decide)).trans <|
    (rkeep1 m ρ c main_arg12 (by decide)).trans <|
    (hkeep1 m ρ c main_arg12 (by decide)).trans <|
    (rkeep0 m ρ c main_arg12 (by decide)).trans <|
    (hkeep0 m ρ c main_arg12 (by decide)).trans <|
    rfl

theorem e10_arg13 :
    (W10 m ρ c (Proc.devRef .tc main_arg13) : FVec Ideal S256 .f32) = A₁₃ :=
  (rkeep4 m ρ c main_arg13 (by decide)).trans <|
    (hkeep4 m ρ c main_arg13 (by decide)).trans <|
    (rkeep3 m ρ c main_arg13 (by decide)).trans <|
    (hkeep3 m ρ c main_arg13 (by decide)).trans <|
    (rkeep2 m ρ c main_arg13 (by decide)).trans <|
    (hkeep2 m ρ c main_arg13 (by decide)).trans <|
    (rkeep1 m ρ c main_arg13 (by decide)).trans <|
    (hkeep1 m ρ c main_arg13 (by decide)).trans <|
    (rkeep0 m ρ c main_arg13 (by decide)).trans <|
    (hkeep0 m ρ c main_arg13 (by decide)).trans <|
    rfl

/-! ## After stretch 5: the second layer's normalisation scale and shift -/

theorem e11_v81 (H : RegionValues) :
    (W11 m ρ c (Proc.devRef .tc main_v81) : FVec Ideal S1x256 .f32) = bnScale (layerSums Fns.relu (layerAgg 256 (hidden1 A₀ A₁ A₄ A₅ A₁₀ A₁₁) A₆ 𝐬 𝐝 𝐯) A₇) (layerSums (Fns.sqOf Fns.relu) (layerAgg 256 (hidden1 A₀ A₁ A₄ A₅ A₁₀ A₁₁) A₆ 𝐬 𝐝 𝐯) A₇) A₁₂ :=
  host5_v81 (W10 m ρ c) _ _ _ (e10_v65_0 m ρ c H) (e10_v65_1 m ρ c H) (e10_arg12 m ρ c)

theorem e11_v83 (H : RegionValues) :
    (W11 m ρ c (Proc.devRef .tc main_v83) : FVec Ideal S1x256 .f32) = bnShift (layerSums Fns.relu (layerAgg 256 (hidden1 A₀ A₁ A₄ A₅ A₁₀ A₁₁) A₆ 𝐬 𝐝 𝐯) A₇) (layerSums (Fns.sqOf Fns.relu) (layerAgg 256 (hidden1 A₀ A₁ A₄ A₅ A₁₀ A₁₁) A₆ 𝐬 𝐝 𝐯) A₇) A₁₂ A₁₃ :=
  host5_v83 (W10 m ρ c) _ _ _ _ (e10_v65_0 m ρ c H) (e10_v65_1 m ρ c H) (e10_arg12 m ρ c) (e10_arg13 m ρ c)

theorem e11_v63 (H : RegionValues) :
    (W11 m ρ c (Proc.devRef .tc main_v63) : FVec Ideal S50000x256 .f32) = layerAgg 256 (hidden1 A₀ A₁ A₄ A₅ A₁₀ A₁₁) A₆ 𝐬 𝐝 𝐯 :=
  (hkeep5 m ρ c main_v63 (by decide)).trans <|
    e10_v63 m ρ c H

theorem e11_v64 :
    (W11 m ρ c (Proc.devRef .tc main_v64) : FVec Ideal S1x256 .f32) = row A₇ :=
  (hkeep5 m ρ c main_v64 (by decide)).trans <|
    e10_v64 m ρ c

/-! ## After region 5: the node features after the second layer -/

theorem e12_v84 (H : RegionValues) :
    (W12 m ρ c (Proc.devRef .tc main_v84) : FVec Ideal S50000x256 .f32) = hidden2 (hidden1 A₀ A₁ A₄ A₅ A₁₀ A₁₁) A₁ A₆ A₇ A₁₂ A₁₃ :=
  (W12_arr m ρ c 4).trans (H.value5_4 (V11 m ρ) c _ _ _ _ (e11_v63 m ρ c H) (e11_v64 m ρ c) (e11_v81 m ρ c H) (e11_v83 m ρ c H))

theorem e12_v1 :
    (W12 m ρ c (Proc.devRef .tc main_v1) : IVec S800000 32) = 𝐬 :=
  (rkeep5 m ρ c main_v1 (by decide)).trans <|
    (hkeep5 m ρ c main_v1 (by decide)).trans <|
    (rkeep4 m ρ c main_v1 (by decide)).trans <|
    (hkeep4 m ρ c main_v1 (by decide)).trans <|
    e8_v1 m ρ c

theorem e12_v3 :
    (W12 m ρ c (Proc.devRef .tc main_v3) : IVec S800000 32) = 𝐝 :=
  (rkeep5 m ρ c main_v3 (by decide)).trans <|
    (hkeep5 m ρ c main_v3 (by decide)).trans <|
    (rkeep4 m ρ c main_v3 (by decide)).trans <|
    (hkeep4 m ρ c main_v3 (by decide)).trans <|
    e8_v3 m ρ c

theorem e12_v10 :
    (W12 m ρ c (Proc.devRef .tc main_v10) : FVec Ideal S50000 .f32) = 𝐯 :=
  (rkeep5 m ρ c main_v10 (by decide)).trans <|
    (hkeep5 m ρ c main_v10 (by decide)).trans <|
    (rkeep4 m ρ c main_v10 (by decide)).trans <|
    (hkeep4 m ρ c main_v10 (by decide)).trans <|
    e8_v10 m ρ c

end Cert.KernelIdeal.HandValue

end
-- ==== Proof.KerValueWalk3.lean ====
/-
  The contents of the buffers the pipelined program's segments read, at the segment boundaries 13 … 18 of the fold
  W0 … W22, as the named functions of the launch arrays (written A₀ … A₁₉ for core c's argument arrays, 𝐬 and 𝐝 for the
  edges' sources and destinations, 𝐯 for the reciprocal square roots of the node degrees).

  At a stretch's end a buffer the stretch wrote holds the stretch's function of what the stretch read; at a region's
  exit its output holds the region's function (a hypothesis) of its inputs as entered; every other buffer holds what it
  held one boundary earlier.
-/
import proofs.«155788_j3092376453711_2_alg».proof.Proof.KerValueWalk2

set_option maxRecDepth 16384
set_option quotPrecheck false

noncomputable section

namespace Cert.KernelIdeal.HandValue

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

local notation "A₀" => m ((c.tc : Thread nD τ).loc main_arg0)
local notation "A₁" => m ((c.tc : Thread nD τ).loc main_arg1)
local notation "A₂" => m ((c.tc : Thread nD τ).loc main_arg2)
local notation "A₃" => m ((c.tc : Thread nD τ).loc main_arg3)
local notation "A₄" => m ((c.tc : Thread nD τ).loc main_arg4)
local notation "A₅" => m ((c.tc : Thread nD τ).loc main_arg5)
local notation "A₆" => m ((c.tc : Thread nD τ).loc main_arg6)
local notation "A₇" => m ((c.tc : Thread nD τ).loc main_arg7)
local notation "A₈" => m ((c.tc : Thread nD τ).loc main_arg8)
local notation "A₉" => m ((c.tc : Thread nD τ).loc main_arg9)
local notation "A₁₀" => m ((c.tc : Thread nD τ).loc main_arg10)
local notation "A₁₁" => m ((c.tc : Thread nD τ).loc main_arg11)
local notation "A₁₂" => m ((c.tc : Thread nD τ).loc main_arg12)
local notation "A₁₃" => m ((c.tc : Thread nD τ).loc main_arg13)
local notation "A₁₄" => m ((c.tc : Thread nD τ).loc main_arg14)
local notation "A₁₅" => m ((c.tc : Thread nD τ).loc main_arg15)
local notation "A₁₆" => m ((c.tc : Thread nD τ).loc main_arg16)
local notation "A₁₇" => m ((c.tc : Thread nD τ).loc main_arg17)
local notation "A₁₈" => m ((c.tc : Thread nD τ).loc main_arg18)
local notation "A₁₉" => m ((c.tc : Thread nD τ).loc main_arg19)
local notation "𝐬" => src A₁
local notation "𝐝" => dst A₁
local notation "𝐯" => dinv (dst A₁)

/-! ## After stretch 6: the third product's operands -/

theorem e13_v85 :
    (W13 m ρ c (Proc.devRef .tc main_v85) : FVec Ideal S50000x1 .f32) = col 𝐯 :=
  host6_v85 (W12 m ρ c) _ (e12_v10 m ρ c)

theorem e13_v84 (H : RegionValues) :
    (W13 m ρ c (Proc.devRef .tc main_v84) : FVec Ideal S50000x256 .f32) = hidden2 (hidden1 A₀ A₁ A₄ A₅ A₁₀ A₁₁) A₁ A₆ A₇ A₁₂ A₁₃ :=
  (hkeep6 m ρ c main_v84 (by decide)).trans <|
    e12_v84 m ρ c H

theorem e13_arg8 :
    (W13 m ρ c (Proc.devRef .tc main_arg8) : FVec Ideal S256x256 .f32) = A₈ :=
  (hkeep6 m ρ c main_arg8 (by decide)).trans <|
    (rkeep5 m ρ c main_arg8 (by decide)).trans <|
    (hkeep5 m ρ c main_arg8 (by decide)).trans <|
    (rkeep4 m ρ c main_arg8 (by decide)).trans <|
    (hkeep4 m ρ c main_arg8 (by decide)).trans <|
    (rkeep3 m ρ c main_arg8 (by decide)).trans <|
    (hkeep3 m ρ c main_arg8 (by decide)).trans <|
    (rkeep2 m ρ c main_arg8 (by decide)).trans <|
    (hkeep2 m ρ c main_arg8 (by decide)).trans <|
    (rkeep1 m ρ c main_arg8 (by decide)).trans <|
    (hkeep1 m ρ c main_arg8 (by decide)).trans <|
    (rkeep0 m ρ c main_arg8 (by decide)).trans <|
    (hkeep0 m ρ c main_arg8 (by decide)).trans <|
    rfl

/-! ## After region 6: the third layer's scaled product -/

theorem e14_v86 (H : RegionValues) :
    (W14 m ρ c (Proc.devRef .tc main_v86) : FVec Ideal S50000x256 .f32) = Fns.mmScale 50000 256 256 (hidden2 (hidden1 A₀ A₁ A₄ A₅ A₁₀ A₁₁) A₁ A₆ A₇ A₁₂ A₁₃) A₈ (col 𝐯) :=
  (W14_arr m ρ c 3).trans (H.value6_3 (V13 m ρ) c _ _ _ (e13_v84 m ρ c H) (e13_arg8 m ρ c) (e13_v85 m ρ c))

theorem e14_v1 :
    (W14 m ρ c (Proc.devRef .tc main_v1) : IVec S800000 32) = 𝐬 :=
  (rkeep6 m ρ c main_v1 (by decide)).trans <|
    (hkeep6 m ρ c main_v1 (by decide)).trans <|
    e12_v1 m ρ c

theorem e14_v3 :
    (W14 m ρ c (Proc.devRef .tc main_v3) : IVec S800000 32) = 𝐝 :=
  (rkeep6 m ρ c main_v3 (by decide)).trans <|
    (hkeep6 m ρ c main_v3 (by decide)).trans <|
    e12_v3 m ρ c

theorem e14_v10 :
    (W14 m ρ c (Proc.devRef .tc main_v10) : FVec Ideal S50000 .f32) = 𝐯 :=
  (rkeep6 m ρ c main_v10 (by decide)).trans <|
    (hkeep6 m ρ c main_v10 (by decide)).trans <|
    e12_v10 m ρ c

theorem e14_arg9 :
    (W14 m ρ c (Proc.devRef .tc main_arg9) : FVec Ideal S256 .f32) = A₉ :=
  (rkeep6 m ρ c main_arg9 (by decide)).trans <|
    (hkeep6 m ρ c main_arg9 (by decide)).trans <|
    (rkeep5 m ρ c main_arg9 (by decide)).trans <|
    (hkeep5 m ρ c main_arg9 (by decide)).trans <|
    (rkeep4 m ρ c main_arg9 (by decide)).trans <|
    (hkeep4 m ρ c main_arg9 (by decide)).trans <|
    (rkeep3 m ρ c main_arg9 (by decide)).trans <|
    (hkeep3 m ρ c main_arg9 (by decide)).trans <|
    (rkeep2 m ρ c main_arg9 (by decide)).trans <|
    (hkeep2 m ρ c main_arg9 (by decide)).trans <|
    (rkeep1 m ρ c main_arg9 (by decide)).trans <|
    (hkeep1 m ρ c main_arg9 (by decide)).trans <|
    (rkeep0 m ρ c main_arg9 (by decide)).trans <|
    (hkeep0 m ρ c main_arg9 (by decide)).trans <|
    rfl

/-! ## After stretch 7: the third layer's aggregated product and its bias row -/

theorem e15_v100 (H : RegionValues) :
    (W15 m ρ c (Proc.devRef .tc main_v100) : FVec Ideal S50000x256 .f32) = layerAgg 256 (hidden2 (hidden1 A₀ A₁ A₄ A₅ A₁₀ A₁₁) A₁ A₆ A₇ A₁₂ A₁₃) A₈ 𝐬 𝐝 𝐯 :=
  host7_v100 (W14 m ρ c) _ _ _ _ (e14_v86 m ρ c H) (e14_v1 m ρ c) (e14_v3 m ρ c) (e14_v10 m ρ c)

theorem e15_v101 :
    (W15 m ρ c (Proc.devRef .tc main_v101) : FVec Ideal S1x256 .f32) = row A₉ :=
  host7_v101 (W14 m ρ c) _ (e14_arg9 m ρ c)

/-! ## After region 7: the per-tile column sums of the third layer's pre-activations and of their squares -/

theorem e16_v102_0 (H : RegionValues) :
    (W16 m ρ c (Proc.devRef .tc main_v102_0) : FVec Ideal S50x1x256 .f32) = layerSums id (layerAgg 256 (hidden2 (hidden1 A₀ A₁ A₄ A₅ A₁₀ A₁₁) A₁ A₆ A₇ A₁₂ A₁₃) A₈ 𝐬 𝐝 𝐯) A₉ :=
  (W16_arr m ρ c 2).trans (H.value7_2 (V15 m ρ) c _ _ (e15_v100 m ρ c H) (e15_v101 m ρ c))

theorem e16_v102_1 (H : RegionValues) :
    (W16 m ρ c (Proc.devRef .tc main_v102_1) : FVec Ideal S50x1x256 .f32) = layerSums (Fns.sqOf id) (layerAgg 256 (hidden2 (hidden1 A₀ A₁ A₄ A₅ A₁₀ A₁₁) A₁ A₆ A₇ A₁₂ A₁₃) A₈ 𝐬 𝐝 𝐯) A₉ :=
  (W16_arr m ρ c 3).trans (H.value7_3 (V15 m ρ) c _ _ (e15_v100 m ρ c H) (e15_v101 m ρ c))

theorem e16_v100 (H : RegionValues) :
    (W16 m ρ c (Proc.devRef .tc main_v100) : FVec Ideal S50000x256 .f32) = layerAgg 256 (hidden2 (hidden1 A₀ A₁ A₄ A₅ A₁₀ A₁₁) A₁ A₆ A₇ A₁₂ A₁₃) A₈ 𝐬 𝐝 𝐯 :=
  (rin7_0 m ρ c).trans <|
    e15_v100 m ρ c H

theorem e16_v101 :
    (W16 m ρ c (Proc.devRef .tc main_v101) : FVec Ideal S1x256 .f32) = row A₉ :=
  (rin7_1 m ρ c).trans <|
    e15_v101 m ρ c

theorem e16_arg14 :
    (W16 m ρ c (Proc.devRef .tc main_arg14) : FVec Ideal S256 .f32) = A₁₄ :=
  (rkeep7 m ρ c main_arg14 (by decide)).trans <|
    (hkeep7 m ρ c main_arg14 (by decide)).trans <|
    (rkeep6 m ρ c main_arg14 (by decide)).trans <|
    (hkeep6 m ρ c main_arg14 (by decide)).trans <|
    (rkeep5 m ρ c main_arg14 (by decide)).trans <|
    (hkeep5 m ρ c main_arg14 (by decide)).trans <|
    (rkeep4 m ρ c main_arg14 (by decide)).trans <|
    (hkeep4 m ρ c main_arg14 (by decide)).trans <|
    (rkeep3 m ρ c main_arg14 (by decide)).trans <|
    (hkeep3 m ρ c main_arg14 (by decide)).trans <|
    (rkeep2 m ρ c main_arg14 (by decide)).trans <|
    (hkeep2 m ρ c main_arg14 (by decide)).trans <|
    (rkeep1 m ρ c main_arg14 (by decide)).trans <|
    (hkeep1 m ρ c main_arg14 (by decide)).trans <|
    (rkeep0 m ρ c main_arg14 (by decide)).trans <|
    (hkeep0 m ρ c main_arg14 (by decide)).trans <|
    rfl

theorem e16_arg15 :
    (W16 m ρ c (Proc.devRef .tc main_arg15) : FVec Ideal S256 .f32) = A₁₅ :=
  (rkeep7 m ρ c main_arg15 (by decide)).trans <|
    (hkeep7 m ρ c main_arg15 (by decide)).trans <|
    (rkeep6 m ρ c main_arg15 (by decide)).trans <|
    (hkeep6 m ρ c main_arg15 (by decide)).trans <|
    (rkeep5 m ρ c main_arg15 (by decide)).trans <|
    (hkeep5 m ρ c main_arg15 (by decide)).trans <|
    (rkeep4 m ρ c main_arg15 (by decide)).trans <|
    (hkeep4 m ρ c main_arg15 (by decide)).trans <|
    (rkeep3 m ρ c main_arg15 (by decide)).trans <|
    (hkeep3 m ρ c main_arg15 (by decide)).trans <|
    (rkeep2 m ρ c main_arg15 (by decide)).trans <|
    (hkeep2 m ρ c main_arg15 (by decide)).trans <|
    (rkeep1 m ρ c main_arg15 (by decide)).trans <|
    (hkeep1 m ρ c main_arg15 (by decide)).trans <|
    (rkeep0 m ρ c main_arg15 (by decide)).trans <|
    (hkeep0 m ρ c main_arg15 (by decide)).trans <|
    rfl

/-! ## After stretch 8: the third layer's normalisation scale and shift -/

theorem e17_v118 (H : RegionValues) :
    (W17 m ρ c (Proc.devRef .tc main_v118) : FVec Ideal S1x256 .f32) = bnScale (layerSums id (layerAgg 256 (hidden2 (hidden1 A₀ A₁ A₄ A₅ A₁₀ A₁₁) A₁ A₆ A₇ A₁₂ A₁₃) A₈ 𝐬 𝐝 𝐯) A₉) (layerSums (Fns.sqOf id) (layerAgg 256 (hidden2 (hidden1 A₀ A₁ A₄ A₅ A₁₀ A₁₁) A₁ A₆ A₇ A₁₂ A₁₃) A₈ 𝐬 𝐝 𝐯) A₉) A₁₄ :=
  host8_v118 (W16 m ρ c) _ _ _ (e16_v102_0 m ρ c H) (e16_v102_1 m ρ c H) (e16_arg14 m ρ c)

theorem e17_v120 (H : RegionValues) :
    (W17 m ρ c (Proc.devRef .tc main_v120) : FVec Ideal S1x256 .f32) = bnShift (layerSums id (layerAgg 256 (hidden2 (hidden1 A₀ A₁ A₄ A₅ A₁₀ A₁₁) A₁ A₆ A₇ A₁₂ A₁₃) A₈ 𝐬 𝐝 𝐯) A₉) (layerSums (Fns.sqOf id) (layerAgg 256 (hidden2 (hidden1 A₀ A₁ A₄ A₅ A₁₀ A₁₁) A₁ A₆ A₇ A₁₂ A₁₃) A₈ 𝐬 𝐝 𝐯) A₉) A₁₄ A₁₅ :=
  host8_v120 (W16 m ρ c) _ _ _ _ (e16_v102_0 m ρ c H) (e16_v102_1 m ρ c H) (e16_arg14 m ρ c) (e16_arg15 m ρ c)

theorem e17_v100 (H : RegionValues) :
    (W17 m ρ c (Proc.devRef .tc main_v100) : FVec Ideal S50000x256 .f32) = layerAgg 256 (hidden2 (hidden1 A₀ A₁ A₄ A₅ A₁₀ A₁₁) A₁ A₆ A₇ A₁₂ A₁₃) A₈ 𝐬 𝐝 𝐯 :=
  (hkeep8 m ρ c main_v100 (by decide)).trans <|
    e16_v100 m ρ c H

theorem e17_v101 :
    (W17 m ρ c (Proc.devRef .tc main_v101) : FVec Ideal S1x256 .f32) = row A₉ :=
  (hkeep8 m ρ c main_v101 (by decide)).trans <|
    e16_v101 m ρ c

/-! ## After region 8: the node features after the third layer -/

theorem e18_v121 (H : RegionValues) :
    (W18 m ρ c (Proc.devRef .tc main_v121) : FVec Ideal S50000x256 .f32) = hidden3 (hidden2 (hidden1 A₀ A₁ A₄ A₅ A₁₀ A₁₁) A₁ A₆ A₇ A₁₂ A₁₃) A₁ A₈ A₉ A₁₄ A₁₅ :=
  (W18_arr m ρ c 4).trans (H.value8_4 (V17 m ρ) c _ _ _ _ (e17_v100 m ρ c H) (e17_v101 m ρ c) (e17_v118 m ρ c H) (e17_v120 m ρ c H))

theorem e18_arg2 :
    (W18 m ρ c (Proc.devRef .tc main_arg2) : IVec S50000 32) = A₂ :=
  (rkeep8 m ρ c main_arg2 (by decide)).trans <|
    (hkeep8 m ρ c main_arg2 (by decide)).trans <|
    (rkeep7 m ρ c main_arg2 (by decide)).trans <|
    (hkeep7 m ρ c main_arg2 (by decide)).trans <|
    (rkeep6 m ρ c main_arg2 (by decide)).trans <|
    (hkeep6 m ρ c main_arg2 (by decide)).trans <|
    (rkeep5 m ρ c main_arg2 (by decide)).trans <|
    (hkeep5 m ρ c main_arg2 (by decide)).trans <|
    (rkeep4 m ρ c main_arg2 (by decide)).trans <|
    (hkeep4 m ρ c main_arg2 (by decide)).trans <|
    (rkeep3 m ρ c main_arg2 (by decide)).trans <|
    (hkeep3 m ρ c main_arg2 (by decide)).trans <|
    (rkeep2 m ρ c main_arg2 (by decide)).trans <|
    (hkeep2 m ρ c main_arg2 (by decide)).trans <|
    (rkeep1 m ρ c main_arg2 (by decide)).trans <|
    (hkeep1 m ρ c main_arg2 (by decide)).trans <|
    (rkeep0 m ρ c main_arg2 (by decide)).trans <|
    (hkeep0 m ρ c main_arg2 (by decide)).trans <|
    rfl

theorem e18_arg17 :
    (W18 m ρ c (Proc.devRef .tc main_arg17) : FVec Ideal S256 .f32) = A₁₇ :=
  (rkeep8 m ρ c main_arg17 (by decide)).trans <|
    (hkeep8 m ρ c main_arg17 (by decide)).trans <|
    (rkeep7 m ρ c main_arg17 (by decide)).trans <|
    (hkeep7 m ρ c main_arg17 (by decide)).trans <|
    (rkeep6 m ρ c main_arg17 (by decide)).trans <|
    (hkeep6 m ρ c main_arg17 (by decide)).trans <|
    (rkeep5 m ρ c main_arg17 (by decide)).trans <|
    (hkeep5 m ρ c main_arg17 (by decide)).trans <|
    (rkeep4 m ρ c main_arg17 (by decide)).trans <|
    (hkeep4 m ρ c main_arg17 (by decide)).trans <|
    (rkeep3 m ρ c main_arg17 (by decide)).trans <|
    (hkeep3 m ρ c main_arg17 (by decide)).trans <|
    (rkeep2 m ρ c main_arg17 (by decide)).trans <|
    (hkeep2 m ρ c main_arg17 (by decide)).trans <|
    (rkeep1 m ρ c main_arg17 (by decide)).trans <|
    (hkeep1 m ρ c main_arg17 (by decide)).trans <|
    (rkeep0 m ρ c main_arg17 (by decide)).trans <|
    (hkeep0 m ρ c main_arg17 (by decide)).trans <|
    rfl

end Cert.KernelIdeal.HandValue

end
-- ==== Proof.KerValueWalk4.lean ====
/-
  The contents of the buffers the pipelined program's segments read, at the segment boundaries 19 … 22 of the fold
  W0 … W22, as the named functions of the launch arrays (written A₀ … A₁₉ for core c's argument arrays, 𝐬 and 𝐝 for the
  edges' sources and destinations, 𝐯 for the reciprocal square roots of the node degrees).

  At a stretch's end a buffer the stretch wrote holds the stretch's function of what the stretch read; at a region's
  exit its output holds the region's function (a hypothesis) of its inputs as entered; every other buffer holds what it
  held one boundary earlier.
-/
import proofs.«155788_j3092376453711_2_alg».proof.Proof.KerValueWalk3

set_option maxRecDepth 16384
set_option quotPrecheck false

noncomputable section

namespace Cert.KernelIdeal.HandValue

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

local notation "A₀" => m ((c.tc : Thread nD τ).loc main_arg0)
local notation "A₁" => m ((c.tc : Thread nD τ).loc main_arg1)
local notation "A₂" => m ((c.tc : Thread nD τ).loc main_arg2)
local notation "A₃" => m ((c.tc : Thread nD τ).loc main_arg3)
local notation "A₄" => m ((c.tc : Thread nD τ).loc main_arg4)
local notation "A₅" => m ((c.tc : Thread nD τ).loc main_arg5)
local notation "A₆" => m ((c.tc : Thread nD τ).loc main_arg6)
local notation "A₇" => m ((c.tc : Thread nD τ).loc main_arg7)
local notation "A₈" => m ((c.tc : Thread nD τ).loc main_arg8)
local notation "A₉" => m ((c.tc : Thread nD τ).loc main_arg9)
local notation "A₁₀" => m ((c.tc : Thread nD τ).loc main_arg10)
local notation "A₁₁" => m ((c.tc : Thread nD τ).loc main_arg11)
local notation "A₁₂" => m ((c.tc : Thread nD τ).loc main_arg12)
local notation "A₁₃" => m ((c.tc : Thread nD τ).loc main_arg13)
local notation "A₁₄" => m ((c.tc : Thread nD τ).loc main_arg14)
local notation "A₁₅" => m ((c.tc : Thread nD τ).loc main_arg15)
local notation "A₁₆" => m ((c.tc : Thread nD τ).loc main_arg16)
local notation "A₁₇" => m ((c.tc : Thread nD τ).loc main_arg17)
local notation "A₁₈" => m ((c.tc : Thread nD τ).loc main_arg18)
local notation "A₁₉" => m ((c.tc : Thread nD τ).loc main_arg19)
local notation "𝐬" => src A₁
local notation "𝐝" => dst A₁
local notation "𝐯" => dinv (dst A₁)

/-! ## After stretch 9: the graphs' mean node rows and the dense layer's bias row -/

theorem e19_v133 (H : RegionValues) :
    (W19 m ρ c (Proc.devRef .tc main_v133) : FVec Ideal S64x256 .f32) = pool (hidden3 (hidden2 (hidden1 A₀ A₁ A₄ A₅ A₁₀ A₁₁) A₁ A₆ A₇ A₁₂ A₁₃) A₁ A₈ A₉ A₁₄ A₁₅) A₂ :=
  host9_v133 (W18 m ρ c) _ _ (e18_v121 m ρ c H) (e18_arg2 m ρ c)

theorem e19_v134 :
    (W19 m ρ c (Proc.devRef .tc main_v134) : FVec Ideal S1x256 .f32) = row A₁₇ :=
  host9_v134 (W18 m ρ c) _ (e18_arg17 m ρ c)

theorem e19_arg3 :
    (W19 m ρ c (Proc.devRef .tc main_arg3) : FVec Ideal S64x1280 .f32) = A₃ :=
  (hkeep9 m ρ c main_arg3 (by decide)).trans <|
    (rkeep8 m ρ c main_arg3 (by decide)).trans <|
    (hkeep8 m ρ c main_arg3 (by decide)).trans <|
    (rkeep7 m ρ c main_arg3 (by decide)).trans <|
    (hkeep7 m ρ c main_arg3 (by decide)).trans <|
    (rkeep6 m ρ c main_arg3 (by decide)).trans <|
    (hkeep6 m ρ c main_arg3 (by decide)).trans <|
    (rkeep5 m ρ c main_arg3 (by decide)).trans <|
    (hkeep5 m ρ c main_arg3 (by decide)).trans <|
    (rkeep4 m ρ c main_arg3 (by decide)).trans <|
    (hkeep4 m ρ c main_arg3 (by decide)).trans <|
    (rkeep3 m ρ c main_arg3 (by decide)).trans <|
    (hkeep3 m ρ c main_arg3 (by decide)).trans <|
    (rkeep2 m ρ c main_arg3 (by decide)).trans <|
    (hkeep2 m ρ c main_arg3 (by decide)).trans <|
    (rkeep1 m ρ c main_arg3 (by decide)).trans <|
    (hkeep1 m ρ c main_arg3 (by decide)).trans <|
    (rkeep0 m ρ c main_arg3 (by decide)).trans <|
    (hkeep0 m ρ c main_arg3 (by decide)).trans <|
    rfl

theorem e19_arg16 :
    (W19 m ρ c (Proc.devRef .tc main_arg16) : FVec Ideal S1280x256 .f32) = A₁₆ :=
  (hkeep9 m ρ c main_arg16 (by decide)).trans <|
    (rkeep8 m ρ c main_arg16 (by decide)).trans <|
    (hkeep8 m ρ c main_arg16 (by decide)).trans <|
    (rkeep7 m ρ c main_arg16 (by decide)).trans <|
    (hkeep7 m ρ c main_arg16 (by decide)).trans <|
    (rkeep6 m ρ c main_arg16 (by decide)).trans <|
    (hkeep6 m ρ c main_arg16 (by decide)).trans <|
    (rkeep5 m ρ c main_arg16 (by decide)).trans <|
    (hkeep5 m ρ c main_arg16 (by decide)).trans <|
    (rkeep4 m ρ c main_arg16 (by decide)).trans <|
    (hkeep4 m ρ c main_arg16 (by decide)).trans <|
    (rkeep3 m ρ c main_arg16 (by decide)).trans <|
    (hkeep3 m ρ c main_arg16 (by decide)).trans <|
    (rkeep2 m ρ c main_arg16 (by decide)).trans <|
    (hkeep2 m ρ c main_arg16 (by decide)).trans <|
    (rkeep1 m ρ c main_arg16 (by decide)).trans <|
    (hkeep1 m ρ c main_arg16 (by decide)).trans <|
    (rkeep0 m ρ c main_arg16 (by decide)).trans <|
    (hkeep0 m ρ c main_arg16 (by decide)).trans <|
    rfl

/-! ## After region 9: the dense layer of the graphs' own features -/

theorem e20_v135 (H : RegionValues) :
    (W20 m ρ c (Proc.devRef .tc main_v135) : FVec Ideal S64x256 .f32) = Fns.lin 64 1280 256 A₃ A₁₆ (row A₁₇) :=
  (W20_arr m ρ c 3).trans (H.value9_3 (V19 m ρ) c _ _ _ (e19_arg3 m ρ c) (e19_arg16 m ρ c) (e19_v134 m ρ c))

theorem e20_v133 (H : RegionValues) :
    (W20 m ρ c (Proc.devRef .tc main_v133) : FVec Ideal S64x256 .f32) = pool (hidden3 (hidden2 (hidden1 A₀ A₁ A₄ A₅ A₁₀ A₁₁) A₁ A₆ A₇ A₁₂ A₁₃) A₁ A₈ A₉ A₁₄ A₁₅) A₂ :=
  (rkeep9 m ρ c main_v133 (by decide)).trans <|
    e19_v133 m ρ c H

theorem e20_arg19 :
    (W20 m ρ c (Proc.devRef .tc main_arg19) : FVec Ideal S2752 .f32) = A₁₉ :=
  (rkeep9 m ρ c main_arg19 (by decide)).trans <|
    (hkeep9 m ρ c main_arg19 (by decide)).trans <|
    (rkeep8 m ρ c main_arg19 (by decide)).trans <|
    (hkeep8 m ρ c main_arg19 (by decide)).trans <|
    (rkeep7 m ρ c main_arg19 (by decide)).trans <|
    (hkeep7 m ρ c main_arg19 (by decide)).trans <|
    (rkeep6 m ρ c main_arg19 (by decide)).trans <|
    (hkeep6 m ρ c main_arg19 (by decide)).trans <|
    (rkeep5 m ρ c main_arg19 (by decide)).trans <|
    (hkeep5 m ρ c main_arg19 (by decide)).trans <|
    (rkeep4 m ρ c main_arg19 (by decide)).trans <|
    (hkeep4 m ρ c main_arg19 (by decide)).trans <|
    (rkeep3 m ρ c main_arg19 (by decide)).trans <|
    (hkeep3 m ρ c main_arg19 (by decide)).trans <|
    (rkeep2 m ρ c main_arg19 (by decide)).trans <|
    (hkeep2 m ρ c main_arg19 (by decide)).trans <|
    (rkeep1 m ρ c main_arg19 (by decide)).trans <|
    (hkeep1 m ρ c main_arg19 (by decide)).trans <|
    (rkeep0 m ρ c main_arg19 (by decide)).trans <|
    (hkeep0 m ρ c main_arg19 (by decide)).trans <|
    rfl

/-! ## After stretch 10: the read-out's input and its bias row -/

theorem e21_v136 (H : RegionValues) :
    (W21 m ρ c (Proc.devRef .tc main_v136) : FVec Ideal S64x256 .f32) = addf (pool (hidden3 (hidden2 (hidden1 A₀ A₁ A₄ A₅ A₁₀ A₁₁) A₁ A₆ A₇ A₁₂ A₁₃) A₁ A₈ A₉ A₁₄ A₁₅) A₂) (Fns.lin 64 1280 256 A₃ A₁₆ (row A₁₇)) :=
  host10_v136 (W20 m ρ c) _ _ (e20_v133 m ρ c H) (e20_v135 m ρ c H)

theorem e21_v137 :
    (W21 m ρ c (Proc.devRef .tc main_v137) : FVec Ideal S1x2752 .f32) = row2752 A₁₉ :=
  host10_v137 (W20 m ρ c) _ (e20_arg19 m ρ c)

theorem e21_arg18 :
    (W21 m ρ c (Proc.devRef .tc main_arg18) : FVec Ideal S256x2752 .f32) = A₁₈ :=
  (hkeep10 m ρ c main_arg18 (by decide)).trans <|
    (rkeep9 m ρ c main_arg18 (by decide)).trans <|
    (hkeep9 m ρ c main_arg18 (by decide)).trans <|
    (rkeep8 m ρ c main_arg18 (by decide)).trans <|
    (hkeep8 m ρ c main_arg18 (by decide)).trans <|
    (rkeep7 m ρ c main_arg18 (by decide)).trans <|
    (hkeep7 m ρ c main_arg18 (by decide)).trans <|
    (rkeep6 m ρ c main_arg18 (by decide)).trans <|
    (hkeep6 m ρ c main_arg18 (by decide)).trans <|
    (rkeep5 m ρ c main_arg18 (by decide)).trans <|
    (hkeep5 m ρ c main_arg18 (by decide)).trans <|
    (rkeep4 m ρ c main_arg18 (by decide)).trans <|
    (hkeep4 m ρ c main_arg18 (by decide)).trans <|
    (rkeep3 m ρ c main_arg18 (by decide)).trans <|
    (hkeep3 m ρ c main_arg18 (by decide)).trans <|
    (rkeep2 m ρ c main_arg18 (by decide)).trans <|
    (hkeep2 m ρ c main_arg18 (by decide)).trans <|
    (rkeep1 m ρ c main_arg18 (by decide)).trans <|
    (hkeep1 m ρ c main_arg18 (by decide)).trans <|
    (rkeep0 m ρ c main_arg18 (by decide)).trans <|
    (hkeep0 m ρ c main_arg18 (by decide)).trans <|
    rfl

/-! ## After region 10: the result -/

theorem e22_v138 (H : RegionValues) :
    (W22 m ρ c (Proc.devRef .tc main_v138) : FVec Ideal S64x2752 .f32) = Fns.linLogistic 64 256 2752 (addf (pool (hidden3 (hidden2 (hidden1 A₀ A₁ A₄ A₅ A₁₀ A₁₁) A₁ A₆ A₇ A₁₂ A₁₃) A₁ A₈ A₉ A₁₄ A₁₅) A₂) (Fns.lin 64 1280 256 A₃ A₁₆ (row A₁₇))) A₁₈ (row2752 A₁₉) :=
  (W22_arr m ρ c 3).trans (H.value10_3 (V21 m ρ) c _ _ _ (e21_v136 m ρ c H) (e21_arg18 m ρ c) (e21_v137 m ρ c))

/-! ## The result buffer at the end of the fold -/

/-- The result buffer at the last boundary of the fold is the closed function `out` of core c's twenty launch arrays,
    given what each region computes. -/
theorem result_eq (H : RegionValues) :
    W22 m ρ c (Proc.devRef .tc main_v138)
      = out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19)) :=
  e22_v138 m ρ c H

end Cert.KernelIdeal.HandValue

end
-- ==== Proof.MatmulBlocks.lean ====
/-
  Row blocks of the scaled product and of the dense layer, at the extended reals.

  A region that works on the rows in blocks computes, on the block of rows o .. o + Mb,

    (rows of x) w, each row p scaled by d (p, 0)                 -- the scaled product
    g ((rows of x) w + b), b a 1 x N row, g pointwise            -- the dense layer, then a pointwise map

  from the blocks it loaded: rows o .. o + Mb of x (all columns), w whole, rows o .. o + Mb of the column d, or the
  row b whole.  If each loaded block is its array read through an embedding with those coordinates, the result block is
  the whole-array function (mmScale, or g after lin) read at the same rows (blk_mmScale, blk_lin).  The product part is
  the row-block library's blk_mm; what is added here is the second factor's row, or the bias row's column.
-/
import proofs.«155788_j3092376453711_2_alg».proof.Proof.Fns

noncomputable section

open scoped BigOperators

namespace Cert.Fns

open Idealize.ShloMosaic Idealize.ShloMosaic.ValueIdx

/-- A scaled product block: rows o .. o + Mb of (x w) scaled by the column d are (rows o .. o + Mb of x) w scaled by
    rows o .. o + Mb of d. -/
theorem blk_mmScale {Mb M K N : ℕ} (pay : (⟨2, ![Mb, N]⟩ : Shape).Idx → EReal)
    (x0 : (⟨2, ![Mb, K]⟩ : Shape).Idx → EReal) (x1 : (⟨2, ![K, N]⟩ : Shape).Idx → EReal)
    (x2 : (⟨2, ![Mb, 1]⟩ : Shape).Idx → EReal)
    (hpay : ∀ (p : Fin Mb) (q : Fin N),
      pay (ix2 p q) = (∑ k : Fin K, x0 (ix2 p k) * x1 (ix2 k q)) * x2 (ix2 p (0 : Fin 1)))
    (A0 : Arr2 M K) (A1 : Arr2 K N) (A2 : Arr2 M 1)
    (e0 : (⟨2, ![Mb, K]⟩ : Shape).Idx → (⟨2, ![M, K]⟩ : Shape).Idx)
    (e1 : (⟨2, ![K, N]⟩ : Shape).Idx → (⟨2, ![K, N]⟩ : Shape).Idx)
    (e2 : (⟨2, ![Mb, 1]⟩ : Shape).Idx → (⟨2, ![M, 1]⟩ : Shape).Idx)
    (e3 : (⟨2, ![Mb, N]⟩ : Shape).Idx → (⟨2, ![M, N]⟩ : Shape).Idx)
    (hx0 : ∀ y, x0 y = A0 (e0 y)) (hx1 : ∀ y, x1 y = A1 (e1 y)) (hx2 : ∀ y, x2 y = A2 (e2 y)) (o : ℕ)
    (h00 : ∀ y, ((e0 y) 0).val = o + (y 0).val) (h01 : ∀ y, ((e0 y) 1).val = (y 1).val)
    (h10 : ∀ y, ((e1 y) 0).val = (y 0).val) (h11 : ∀ y, ((e1 y) 1).val = (y 1).val)
    (h20 : ∀ y, ((e2 y) 0).val = o + (y 0).val)
    (h30 : ∀ y, ((e3 y) 0).val = o + (y 0).val) (h31 : ∀ y, ((e3 y) 1).val = (y 1).val)
    (j : (⟨2, ![Mb, N]⟩ : Shape).Idx) : pay j = mmScale M K N A0 A1 A2 (e3 j) := by
  obtain ⟨p, q, rfl⟩ : ∃ (p : Fin Mb) (q : Fin N), j = ix2 p q := ⟨j 0, j 1, eq_ix2 j⟩
  rw [hpay]
  show _ = mm M K N A0 A1 (e3 (ix2 p q)) * A2 (ix2 ((e3 (ix2 p q)) 0) (0 : Fin 1))
  have hm : (∑ k : Fin K, x0 (ix2 p k) * x1 (ix2 k q)) = mm M K N A0 A1 (e3 (ix2 p q)) :=
    blk_mm (fun i : (⟨2, ![Mb, N]⟩ : Shape).Idx => ∑ k : Fin K, x0 (ix2 (i 0) k) * x1 (ix2 k (i 1))) x0 x1 (fun _ _ => rfl) A0 A1 e0 e1 e3 hx0 hx1 o
      h00 h01 h10 h11 h30 h31 (ix2 p q)
  have hd : e2 (ix2 p (0 : Fin 1)) = ix2 ((e3 (ix2 p q)) 0) (0 : Fin 1) := funext fun a => Fin.ext (by
    match a with
    | ⟨0, _⟩ => exact (h20 (ix2 p (0 : Fin 1))).trans (h30 (ix2 p q)).symm
    | ⟨1, _⟩ =>
      show ((e2 (ix2 p (0 : Fin 1))) 1).val = 0
      exact Nat.lt_one_iff.mp ((e2 (ix2 p (0 : Fin 1))) 1).isLt)
  rw [hm, hx2, hd]
  rfl

/-- A dense-layer block: on rows o .. o + Mb, a pointwise g of (rows o .. o + Mb of x) w plus the bias row is g of the
    dense layer read at those rows. -/
theorem blk_lin (g : EReal → EReal) {Mb M K N : ℕ} (pay : (⟨2, ![Mb, N]⟩ : Shape).Idx → EReal)
    (x0 : (⟨2, ![Mb, K]⟩ : Shape).Idx → EReal) (x1 : (⟨2, ![K, N]⟩ : Shape).Idx → EReal)
    (x2 : (⟨2, ![1, N]⟩ : Shape).Idx → EReal)
    (hpay : ∀ (p : Fin Mb) (q : Fin N),
      pay (ix2 p q) = g ((∑ k : Fin K, x0 (ix2 p k) * x1 (ix2 k q)) + x2 (ix2 (0 : Fin 1) q)))
    (A0 : Arr2 M K) (A1 : Arr2 K N) (A2 : Arr2 1 N)
    (e0 : (⟨2, ![Mb, K]⟩ : Shape).Idx → (⟨2, ![M, K]⟩ : Shape).Idx)
    (e1 : (⟨2, ![K, N]⟩ : Shape).Idx → (⟨2, ![K, N]⟩ : Shape).Idx)
    (e2 : (⟨2, ![1, N]⟩ : Shape).Idx → (⟨2, ![1, N]⟩ : Shape).Idx)
    (e3 : (⟨2, ![Mb, N]⟩ : Shape).Idx → (⟨2, ![M, N]⟩ : Shape).Idx)
    (hx0 : ∀ y, x0 y = A0 (e0 y)) (hx1 : ∀ y, x1 y = A1 (e1 y)) (hx2 : ∀ y, x2 y = A2 (e2 y)) (o : ℕ)
    (h00 : ∀ y, ((e0 y) 0).val = o + (y 0).val) (h01 : ∀ y, ((e0 y) 1).val = (y 1).val)
    (h10 : ∀ y, ((e1 y) 0).val = (y 0).val) (h11 : ∀ y, ((e1 y) 1).val = (y 1).val)
    (h21 : ∀ y, ((e2 y) 1).val = (y 1).val)
    (h30 : ∀ y, ((e3 y) 0).val = o + (y 0).val) (h31 : ∀ y, ((e3 y) 1).val = (y 1).val)
    (j : (⟨2, ![Mb, N]⟩ : Shape).Idx) : pay j = g (lin M K N A0 A1 A2 (e3 j)) := by
  obtain ⟨p, q, rfl⟩ : ∃ (p : Fin Mb) (q : Fin N), j = ix2 p q := ⟨j 0, j 1, eq_ix2 j⟩
  rw [hpay]
  show _ = g (mm M K N A0 A1 (e3 (ix2 p q)) + A2 (ix2 (0 : Fin 1) ((e3 (ix2 p q)) 1)))
  have hm : (∑ k : Fin K, x0 (ix2 p k) * x1 (ix2 k q)) = mm M K N A0 A1 (e3 (ix2 p q)) :=
    blk_mm (fun i : (⟨2, ![Mb, N]⟩ : Shape).Idx => ∑ k : Fin K, x0 (ix2 (i 0) k) * x1 (ix2 k (i 1))) x0 x1 (fun _ _ => rfl) A0 A1 e0 e1 e3 hx0 hx1 o
      h00 h01 h10 h11 h30 h31 (ix2 p q)
  have hb : e2 (ix2 (0 : Fin 1) q) = ix2 (0 : Fin 1) ((e3 (ix2 p q)) 1) := funext fun a => Fin.ext (by
    match a with
    | ⟨0, _⟩ =>
      show ((e2 (ix2 (0 : Fin 1) q)) 0).val = 0
      exact Nat.lt_one_iff.mp ((e2 (ix2 (0 : Fin 1) q)) 0).isLt
    | ⟨1, _⟩ => exact (h21 (ix2 (0 : Fin 1) q)).trans (h31 (ix2 p q)).symm)
  rw [hm, hx2, hb]
  rfl

end Cert.Fns

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region0.lean ====
/-
  Region 0 of the pipelined program: a product whose rows are scaled by a column, as one whole-array function.

  The region cuts the 50000 rows into 25 blocks of 2000 rows.  At grid point t it loads rows 2000 t .. 2000 t + 1999 of x (all
  1280 columns), w whole (1280 x 256), and the same rows of the one-column array d, and stores, at the same rows of the
  output (all 256 columns), the product of the loaded blocks with row p scaled by d (p, 0): the rounding of the factors
  to a narrower format is the identity at the extended reals, the product into a zero accumulator is the sum over the
  1280 inner positions, and the broadcast of the column reads its entry in the row.  A block of rows of the product depends
  only on the same rows of x and of d, so each stored block is the block of x w scaled by d, and the 25 blocks cover the
  array: the output ends as mmScale x w d.
-/
import proofs.«155788_j3092376453711_2_alg».proof.Proof.Fns
import proofs.«155788_j3092376453711_2_alg».proof.Proof.MatmulBlocks
import proofs.«155788_j3092376453711_2_alg».proof.Proof.LibDotIx2
import proofs.«155788_j3092376453711_2_alg».proof.Proof.LibKeepdims
import proofs.«155788_j3092376453711_2_alg».proof.Proof.Gen.KernelIdeal.Frame
import Idealize.ShloMosaic.Lib.Pipeline.Value

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The product's dimension numbers are those of a plain 2000 x 1280 by 1280 x 256 product -/

theorem plainDot0 : PlainDot dot_S2000x1280_S1280x256_S2000x256_1_0_0_1_n_n where
  rank := rfl
  size := rfl
  l0 := fun j q => by
    simp [DotDims.lhsIdx, dot_S2000x1280_S1280x256_S2000x256_1_0_0_1_n_n]; rfl
  l1 := fun j q => (dot_S2000x1280_S1280x256_S2000x256_1_0_0_1_n_n).lhsIdx_val_of_single (cl := 1) rfl j q
  r0 := fun j q => (dot_S2000x1280_S1280x256_S2000x256_1_0_0_1_n_n).rhsIdx_val_of_single (cr := 0) rfl j q
  r1 := fun j q => by
    simp [DotDims.rhsIdx, dot_S2000x1280_S1280x256_S2000x256_1_0_0_1_n_n]; rfl

/-! ## What the body stores, at a row and a column -/

/-- The stored block at (p, q): the sum over the inner position of the loaded blocks' products, times the loaded
    column's entry in row p. -/
theorem pay0_ix2 (x0 : Vec Ideal S2000x1280 .f32) (x1 : Vec Ideal S1280x256 .f32) (x2 : Vec Ideal S2000x1 .f32)
    (p : Fin 2000) (q : Fin 256) :
    k0_pay1 x0 x1 x2 (ix2 p q) = (∑ k : Fin 1280, x0 (ix2 p k) * x1 (ix2 k q)) * x2 (ix2 p (0 : Fin 1)) := by
  unfold k0_pay1
  rw [mulf_apply, broadcastTo_a1_ab_apply]
  simp only [shapeCast_self]
  exact congrArg (· * x2 (ix2 p (0 : Fin 1))) (matmul_zero_ix2_any plainDot0 none _ _ p q)

/-! ## The windows' block indices over the grid -/

/-- The printed index maps, decided over the 25 points: x, d and the output are at block (t, 0), w at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## What a point writes back is a block of the whole-array function -/

/-- What point t writes back to the output: rows 2000 t .. 2000 t + 1999 of mmScale of the arrays as the region finds them. -/
theorem flushed0_3_eq (c : Dev nD) (t : Fin cfg0.N) :
    (dat0 (F := Ideal) V c).flushed 3 t
      = ((cfg0.win 3).blk t).view.read (Elt Ideal)
          (Fns.mmScale 50000 1280 256 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S2000x1280) hz2, View.ld_unit_zero (S := S1280x256) hz2, View.ld_unit_zero (S := S2000x1) hz2]
  obtain ⟨e00, e01, e10, e11, e20, e21, e30, e31⟩ := idx_facts0 t
  funext j
  exact Fns.blk_mmScale (Mb := 2000) (M := 50000) (K := 1280) (N := 256)
    (k0_pay1 (iblk0 V c 0 t) (iblk0 V c 1 t) (iblk0 V c 2 t)) (iblk0 V c 0 t) (iblk0 V c 1 t) (iblk0 V c 2 t)
    (pay0_ix2 (iblk0 V c 0 t) (iblk0 V c 1 t) (iblk0 V c 2 t))
    (V c (Pipeline.arrRef spec0 0)) (V c (Pipeline.arrRef spec0 1)) (V c (Pipeline.arrRef spec0 2))
    (fun y => ((cfg0.win 0).blk t).view.emb y) (fun y => ((cfg0.win 1).blk t).view.emb y)
    (fun y => ((cfg0.win 2).blk t).view.emb y) (fun y => ((cfg0.win 3).blk t).view.emb y)
    (fun y => rfl) (fun y => rfl) (fun y => rfl) (t.val * 2000)
    (fun y => by show win0_0.index t (0 : Fin 2) * 2000 + 1 * (y 0).val = _; rw [e00]; omega)
    (fun y => by show win0_0.index t (1 : Fin 2) * 1280 + 1 * (y 1).val = _; rw [e01]; omega)
    (fun y => by show win0_1.index t (0 : Fin 2) * 1280 + 1 * (y 0).val = _; rw [e10]; omega)
    (fun y => by show win0_1.index t (1 : Fin 2) * 256 + 1 * (y 1).val = _; rw [e11]; omega)
    (fun y => by show win0_2.index t (0 : Fin 2) * 2000 + 1 * (y 0).val = _; rw [e20]; omega)
    (fun y => by show win0_3.index t (0 : Fin 2) * 2000 + 1 * (y 0).val = _; rw [e30]; omega)
    (fun y => by show win0_3.index t (1 : Fin 2) * 256 + 1 * (y 1).val = _; rw [e31]; omega)
    j

/-! ## The blocks cover the output -/

/-- An index of the output is in point t's block iff each coordinate is in the block's range on its axis. -/
theorem mem_blk0_3 (t : Fin cfg0.N) (i : S50000x256.Idx) :
    i ∈ ((cfg0.win 3).blk t).view.set
      ↔ ∀ a : Fin 2, win0_3.index t a * S2000x256.size a ≤ (i a).val ∧ (i a).val < win0_3.index t a * S2000x256.size a + S2000x256.size a := by
  show i ∈ ((View.whole main_v12).slice (win0_3.rect t)).set ↔ _
  rw [View.set_slice_whole, Rect.mem_set_unit]
  exact Iff.rfl

/-- Row r is in the block of point r / 2000. -/
theorem rows_covered0 (i : S50000x256.Idx) :
    ∃ t : Fin cfg0.N, (cfg0.win 3).flush t = true ∧ i ∈ ((cfg0.win 3).blk t).view.set := by
  have hN : cfg0.N = 25 := N_0
  have hi0 : (i 0).val < 50000 := (i 0).isLt
  have hi1 : (i 1).val < 256 := (i 1).isLt
  refine ⟨⟨(i 0).val / 2000, by rw [hN]; omega⟩, flush0_3 _, ?_⟩
  obtain ⟨-, -, -, -, -, -, e30, e31⟩ := idx_facts0 ⟨(i 0).val / 2000, by rw [hN]; omega⟩
  rw [mem_blk0_3]
  intro a
  match a with
  | ⟨0, _⟩ =>
    show win0_3.index _ (0 : Fin 2) * 2000 ≤ (i 0).val ∧ (i 0).val < win0_3.index _ (0 : Fin 2) * 2000 + 2000
    rw [e30]
    show (i 0).val / 2000 * 2000 ≤ (i 0).val ∧ (i 0).val < (i 0).val / 2000 * 2000 + 2000
    omega
  | ⟨1, _⟩ =>
    show win0_3.index _ (1 : Fin 2) * 256 ≤ (i 1).val ∧ (i 1).val < win0_3.index _ (1 : Fin 2) * 256 + 256
    rw [e31]
    omega

/-! ## The output after the region's run -/

/-- The output array after the run of region 0: the product of the input arrays with row p scaled by d (p, 0). -/
theorem value0_3 (c : Dev nD) (x : Fns.Arr2 50000 1280) (w : Fns.Arr2 1280 256) (d : Fns.Arr2 50000 1)
    (hx : V c (Pipeline.arrRef spec0 0) = x) (hw : V c (Pipeline.arrRef spec0 1) = w)
    (hd : V c (Pipeline.arrRef spec0 2) = d) :
    (dat0 (F := Ideal) V c).arrAt 3 cfg0.N = Fns.mmScale 50000 1280 256 x w d := by
  subst hx hw hd
  exact (dat0 (F := Ideal) V c).arrAt_eq_of_cover 3 _ (fun t _ => flushed0_3_eq V c t) rows_covered0

end Cert.KernelIdeal.RegionValue

end
-- ==== Proof.LibColReduce.lean ====
/-
  Reductions of an n x k array along its columns, read at a column given by its coordinate. The reduced index (c) with
  the outer coordinate s put back is the array index (s, c); so a sum over the first axis at c is the finite sum over s
  of the entries (s, c), for the vector unit's reduction and for the host's (after its initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Column c's reduced index with the outer coordinate s inserted is (s, c). -/
theorem lift_col {n k : ℕ} (h : (⟨2, ![n, k]⟩ : Shape).Reduces [0] (⟨1, ![k]⟩ : Shape)) (c : Fin k)
    (s : Fin ((⟨2, ![n, k]⟩ : Shape).size 0)) : h.lift (ix1 c) s = ix2 (⟨s.val, s.isLt⟩ : Fin n) c := by
  funext a; apply Fin.ext
  fin_cases a <;> rfl

/-- A vector-unit sum over the first axis, at column c: the sum of the column's entries. -/
theorem multiReduction_add_col {n k : ℕ} {φ : FTy} (src : FVec Ideal (⟨2, ![n, k]⟩ : Shape) φ) (acc : BitVec φ.bits)
    (h : (⟨2, ![n, k]⟩ : Shape).Reduces [0] (⟨1, ![k]⟩ : Shape)) (hφ : FKind.Formats φ) (hacc : acc = FKind.add.neutral φ hφ) (c : Fin k) :
    multiReduction .add [0] (⟨1, ![k]⟩ : Shape) src acc h hφ hacc (ix1 c) = ∑ s : Fin n, (src (ix2 s c) : EReal) :=
  (Ideal.multiReduction_add_single src acc h hφ hacc (ix1 c)).trans
    (Finset.sum_congr rfl fun s _ => congrArg src (lift_col h c s))

/-- The host's sum over the first axis, at column c: the initial value plus the sum of the column's entries. -/
theorem hostReduceAdd_col {n k : ℕ} (h' : (⟨2, ![n, k]⟩ : Shape).ReducesTo [0] (⟨1, ![k]⟩ : Shape))
    (h : (⟨2, ![n, k]⟩ : Shape).Reduces [0] (⟨1, ![k]⟩ : Shape)) (x : (⟨2, ![n, k]⟩ : Shape).Idx → EReal) (init : EReal) (c : Fin k) :
    Ideal.hostReduceAdd h' x init (ix1 c) = init + ∑ s : Fin n, x (ix2 s c) :=
  (Ideal.hostReduceAdd_single h' h x init (ix1 c)).trans
    (congrArg (init + ·) (Finset.sum_congr rfl fun s _ => congrArg x (lift_col h c s)))

end Idealize.ShloMosaic.ValueIdx

end
-- ==== Proof.Region1.lean ====
/-
  Region 1 of the pipelined program as one whole-array function of its input arrays.

  The region walks the rows in tiles; at a tile it reads the tile's rows of the first array and the whole of the
  one-row arrays, and writes one block of each output.  What a tile writes is the block of one function of the
  whole arrays; the tiles cover the output, so after the region the output array is that function.
-/
import proofs.«155788_j3092376453711_2_alg».proof.Proof.Fns
import proofs.«155788_j3092376453711_2_alg».proof.Proof.LibColReduce
import proofs.«155788_j3092376453711_2_alg».proof.Proof.Gen.KernelIdeal.Frame
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz3_1 : (![0, 0, 0] : Fin 3 → Nat) = fun _ => 0 := funext fun a => by fin_cases a <;> rfl

/-- The tile's pointwise stage at (p, q): the maximum with zero of the entry plus the bias of column q. -/
theorem k1_pay1_ix2 (x0 : Vec Ideal S1000x256 .f32) (x1 : Vec Ideal S1x256 .f32) (p : Fin 1000) (q : Fin 256) :
    k1_pay1 x0 x1 (ix2 p q) = max (x0 (ix2 p q) + x1 (ix2 (0 : Fin 1) q)) 0 := by
  unfold k1_pay1
  simp only [addf_apply, maximumf_apply, broadcast_apply, shapeCast_self, broadcastTo_1b_ab_apply]
  have hz : (FloatOps.ofBits (F := Ideal) FTy.f32 0#32) = (0 : EReal) := Ideal.ofBits_zero_f32
  rw [hz]

/-- The lane sum over the tile's rows, at column q. -/
theorem colsum1 (src : FVec Ideal S1000x256 .f32) (q : Fin 256) :
    multiReduction .add [0] S256 src 0x00000000#32 reduces_S1000x256_S256 (.inl rfl) rfl (ix1 q)
      = ∑ r : Fin 1000, src (ix2 r q) :=
  multiReduction_add_col src _ _ _ _ q

/-- The first payload at (0, 0, q): the sum over the tile's rows of the pointwise stage. -/
theorem k1_pay2_ix3 (x0 : Vec Ideal S1000x256 .f32) (x1 : Vec Ideal S1x256 .f32) (u v : Fin 1) (q : Fin 256) :
    k1_pay2 x0 x1 (ix3 u v q) = ∑ r : Fin 1000, max (x0 (ix2 r q) + x1 (ix2 (0 : Fin 1) q)) 0 := by
  unfold k1_pay2
  simp only [shapeCast_ab_1ab_apply, shapeCast_a_1a_apply]
  exact (colsum1 _ q).trans (Finset.sum_congr rfl fun r _ => k1_pay1_ix2 x0 x1 r q)

/-- The second payload at (0, 0, q): the sum over the tile's rows of the square of the pointwise stage. -/
theorem k1_pay3_ix3 (x0 : Vec Ideal S1000x256 .f32) (x1 : Vec Ideal S1x256 .f32) (u v : Fin 1) (q : Fin 256) :
    k1_pay3 x0 x1 (ix3 u v q) = ∑ r : Fin 1000, max (x0 (ix2 r q) + x1 (ix2 (0 : Fin 1) q)) 0 * max (x0 (ix2 r q) + x1 (ix2 (0 : Fin 1) q)) 0 := by
  unfold k1_pay3
  simp only [shapeCast_ab_1ab_apply, shapeCast_a_1a_apply]
  exact (colsum1 _ q).trans (Finset.sum_congr rfl fun r _ => by rw [mulf_apply, k1_pay1_ix2])

/-- The block indices of the windows at a tile, decided over the 50 tiles: the row window and the two outputs sit at
    tile t on their first axis and at 0 on the others; the one-row window at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- Entry (p, q) of tile t's block of the input rows is entry (row p of tile t, q) of the array. -/
theorem emb1_0 (t : Fin cfg1.N) (p : Fin 1000) (q : Fin 256) :
    ((cfg1.win 0).blk t).view.emb (ix2 p q : S1000x256.Idx)
      = (ix2 (Fns.tileRow (T := 50) (Mb := 1000) (M := 50000) rfl t p) q : S50000x256.Idx) := by
  obtain ⟨e00, e01, -⟩ := idx_facts1 t
  funext ax; apply Fin.ext
  match ax with
  | ⟨0, _⟩ => show win1_0.index t (0 : Fin 2) * 1000 + 1 * p.val = t.val * 1000 + p.val; omega
  | ⟨1, _⟩ => show win1_0.index t (1 : Fin 2) * 256 + 1 * q.val = q.val; omega

/-- The one-row window's block is the whole row: its entry (0, q) is the array's entry (0, q). -/
theorem emb1_1 (t : Fin cfg1.N) (q : Fin 256) :
    ((cfg1.win 1).blk t).view.emb (ix2 (0 : Fin 1) q : S1x256.Idx) = (ix2 (0 : Fin 1) q : S1x256.Idx) := by
  obtain ⟨-, -, e10, e11, -⟩ := idx_facts1 t
  funext ax; apply Fin.ext
  match ax with
  | ⟨0, _⟩ => show win1_1.index t (0 : Fin 2) * 1 + 1 * 0 = 0; omega
  | ⟨1, _⟩ => show win1_1.index t (1 : Fin 2) * 256 + 1 * q.val = q.val; omega

/-- An output block's entry (0, 0, q) at tile t is the array's entry (t, 0, q). -/
theorem emb1_2 (t : Fin cfg1.N) (u v : Fin 1) (q : Fin 256) :
    ((cfg1.win 2).blk t).view.emb (ix3 u v q : S1x1x256.Idx)
      = (ix3 (n0 := 50) t (0 : Fin 1) q : S50x1x256.Idx) := by
  obtain ⟨-, -, -, -, e20, e21, e22, e30, e31, e32⟩ := idx_facts1 t
  have hu : u.val < 1 := u.isLt
  have hv : v.val < 1 := v.isLt
  funext ax; apply Fin.ext
  match ax with
  | ⟨0, _⟩ => show win1_2.index t (0 : Fin 3) * 1 + 1 * u.val = t.val; omega
  | ⟨1, _⟩ => show win1_2.index t (1 : Fin 3) * 1 + 1 * v.val = 0; omega
  | ⟨2, _⟩ => show win1_2.index t (2 : Fin 3) * 256 + 1 * q.val = q.val; omega

theorem emb1_3 (t : Fin cfg1.N) (u v : Fin 1) (q : Fin 256) :
    ((cfg1.win 3).blk t).view.emb (ix3 u v q : S1x1x256.Idx)
      = (ix3 (n0 := 50) t (0 : Fin 1) q : S50x1x256.Idx) := by
  obtain ⟨-, -, -, -, e20, e21, e22, e30, e31, e32⟩ := idx_facts1 t
  have hu : u.val < 1 := u.isLt
  have hv : v.val < 1 := v.isLt
  funext ax; apply Fin.ext
  match ax with
  | ⟨0, _⟩ => show win1_3.index t (0 : Fin 3) * 1 + 1 * u.val = t.val; omega
  | ⟨1, _⟩ => show win1_3.index t (1 : Fin 3) * 1 + 1 * v.val = 0; omega
  | ⟨2, _⟩ => show win1_3.index t (2 : Fin 3) * 256 + 1 * q.val = q.val; omega

/-- The loaded block of rows, read at (r, q), is the array at (row r of tile t, q). -/
theorem blk1_0 (c : Dev nD) (a : Fns.Arr2 50000 256) (ha : V c (Pipeline.arrRef spec1 0) = a)
    (t : Fin cfg1.N) (r : Fin 1000) (q : Fin 256) :
    iblk1 V c 0 t (ix2 r q) = a (ix2 (Fns.tileRow (T := 50) (Mb := 1000) (M := 50000) rfl t r) q) := by
  show V c (Pipeline.arrRef spec1 0) (((cfg1.win 0).blk t).view.emb (ix2 r q : S1000x256.Idx)) = _
  rw [emb1_0, ha]

/-- The loaded bias row, read at (0, q), is the array at (0, q). -/
theorem blk1_1 (c : Dev nD) (b : Fns.Arr2 1 256) (hb : V c (Pipeline.arrRef spec1 1) = b)
    (t : Fin cfg1.N) (q : Fin 256) :
    iblk1 V c 1 t (ix2 (0 : Fin 1) q) = b (ix2 (0 : Fin 1) q) := by
  show V c (Pipeline.arrRef spec1 1) (((cfg1.win 1).blk t).view.emb (ix2 (0 : Fin 1) q : S1x256.Idx)) = _
  rw [emb1_1, hb]

/-- What tile t writes back to the array of the column sums is block t of the whole-array function. -/
theorem flushed1_2_eq (c : Dev nD) (a : Fns.Arr2 50000 256) (b : Fns.Arr2 1 256)
    (ha : V c (Pipeline.arrRef spec1 0) = a) (hb : V c (Pipeline.arrRef spec1 1) = b) (t : Fin cfg1.N) :
    (Gen.dat1 (F := Ideal) V c).flushed 2 t
      = ((cfg1.win 2).blk t).view.read (Elt Ideal) (Fns.tileColSum 50 1000 50000 256 rfl Fns.relu a b) := by
  show (cfg1.win 2).cut (grid1.coords t) ((dat1 V c).after 2 t) = _
  rw [after1_2]
  unfold out1_2
  rw [View.canon_unit_zero hz3_1]
  simp only [View.ld_unit_zero (S := S1000x256) hz2, View.ld_unit_zero (S := S1x256) hz2]
  funext j
  revert j
  show ∀ j : S1x1x256.Idx, k1_pay2 (iblk1 V c 0 t) (iblk1 V c 1 t) j
    = Fns.tileColSum 50 1000 50000 256 rfl Fns.relu a b (((cfg1.win 2).blk t).view.emb j)
  intro j
  obtain ⟨u, v, q, rfl⟩ : ∃ (u v : Fin 1) (q : Fin 256), j = ix3 u v q := ⟨j 0, j 1, j 2, eq_ix3 j⟩
  rw [k1_pay2_ix3, emb1_2]
  refine Eq.trans (Finset.sum_congr rfl fun r _ => ?_) (Fns.tileColSum_ix3 50 1000 50000 256 rfl Fns.relu a b t q).symm
  rw [blk1_0 V c a ha t r q, blk1_1 V c b hb t q]
  rfl

/-- An index of that array is in tile t's block iff each coordinate is in the block's range on its axis. -/
theorem mem_blk1_2 (t : Fin cfg1.N) (i : S50x1x256.Idx) :
    i ∈ ((cfg1.win 2).blk t).view.set ↔ ∀ ax : Fin 3, win1_2.index t ax * S1x1x256.size ax ≤ (i ax).val
      ∧ (i ax).val < win1_2.index t ax * S1x1x256.size ax + S1x1x256.size ax := by
  show i ∈ ((View.whole (cfg1.win 2).arr.view.ref).slice (win1_2.rect t)).set ↔ _
  rw [View.set_slice_whole, Rect.mem_set_unit]
  exact Iff.rfl

/-- Every index of that array is in the block of the tile its first coordinate names. -/
theorem covered1_2 (i : S50x1x256.Idx) :
    ∃ t : Fin cfg1.N, (cfg1.win 2).flush t = true ∧ i ∈ ((cfg1.win 2).blk t).view.set := by
  have hi0 : (i 0).val < 50 := (i 0).isLt
  have hi1 : (i 1).val < 1 := (i 1).isLt
  have hi2 : (i 2).val < 256 := (i 2).isLt
  obtain ⟨t, ht⟩ : ∃ t : Fin cfg1.N, t.val = (i 0).val := ⟨⟨(i 0).val, hi0⟩, rfl⟩
  refine ⟨t, flush1_2 t, ?_⟩
  rw [mem_blk1_2]
  obtain ⟨-, -, -, -, e20, e21, e22, e30, e31, e32⟩ := idx_facts1 t
  intro ax
  match ax with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 1 ≤ (i 1).val ∧ (i 1).val < win1_2.index t (1 : Fin 3) * 1 + 1
    omega
  | ⟨2, _⟩ =>
    show win1_2.index t (2 : Fin 3) * 256 ≤ (i 2).val ∧ (i 2).val < win1_2.index t (2 : Fin 3) * 256 + 256
    omega

/-- After the region the array of the column sums is the whole-array function of the region's input arrays. -/
theorem value1_2 (c : Dev nD) (a : Fns.Arr2 50000 256) (b : Fns.Arr2 1 256)
    (ha : V c (Pipeline.arrRef spec1 0) = a) (hb : V c (Pipeline.arrRef spec1 1) = b) :
    (Gen.dat1 (F := Ideal) V c).arrAt 2 cfg1.N = Fns.tileColSum 50 1000 50000 256 rfl Fns.relu a b :=
  (Gen.dat1 (F := Ideal) V c).arrAt_eq_of_cover 2 (Fns.tileColSum 50 1000 50000 256 rfl Fns.relu a b)
    (fun t _ => flushed1_2_eq V c a b ha hb t) covered1_2

/-- What tile t writes back to the array of the column sums of squares is block t of the whole-array function. -/
theorem flushed1_3_eq (c : Dev nD) (a : Fns.Arr2 50000 256) (b : Fns.Arr2 1 256)
    (ha : V c (Pipeline.arrRef spec1 0) = a) (hb : V c (Pipeline.arrRef spec1 1) = b) (t : Fin cfg1.N) :
    (Gen.dat1 (F := Ideal) V c).flushed 3 t
      = ((cfg1.win 3).blk t).view.read (Elt Ideal) (Fns.tileColSum 50 1000 50000 256 rfl (Fns.sqOf Fns.relu) a b) := by
  show (cfg1.win 3).cut (grid1.coords t) ((dat1 V c).after 3 t) = _
  rw [after1_3]
  unfold out1_3
  rw [View.canon_unit_zero hz3_1]
  simp only [View.ld_unit_zero (S := S1000x256) hz2, View.ld_unit_zero (S := S1x256) hz2]
  funext j
  revert j
  show ∀ j : S1x1x256.Idx, k1_pay3 (iblk1 V c 0 t) (iblk1 V c 1 t) j
    = Fns.tileColSum 50 1000 50000 256 rfl (Fns.sqOf Fns.relu) a b (((cfg1.win 3).blk t).view.emb j)
  intro j
  obtain ⟨u, v, q, rfl⟩ : ∃ (u v : Fin 1) (q : Fin 256), j = ix3 u v q := ⟨j 0, j 1, j 2, eq_ix3 j⟩
  rw [k1_pay3_ix3, emb1_3]
  refine Eq.trans (Finset.sum_congr rfl fun r _ => ?_) (Fns.tileColSum_ix3 50 1000 50000 256 rfl (Fns.sqOf Fns.relu) a b t q).symm
  rw [blk1_0 V c a ha t r q, blk1_1 V c b hb t q]
  rfl

/-- An index of that array is in tile t's block iff each coordinate is in the block's range on its axis. -/
theorem mem_blk1_3 (t : Fin cfg1.N) (i : S50x1x256.Idx) :
    i ∈ ((cfg1.win 3).blk t).view.set ↔ ∀ ax : Fin 3, win1_3.index t ax * S1x1x256.size ax ≤ (i ax).val
      ∧ (i ax).val < win1_3.index t ax * S1x1x256.size ax + S1x1x256.size ax := by
  show i ∈ ((View.whole (cfg1.win 3).arr.view.ref).slice (win1_3.rect t)).set ↔ _
  rw [View.set_slice_whole, Rect.mem_set_unit]
  exact Iff.rfl

/-- Every index of that array is in the block of the tile its first coordinate names. -/
theorem covered1_3 (i : S50x1x256.Idx) :
    ∃ t : Fin cfg1.N, (cfg1.win 3).flush t = true ∧ i ∈ ((cfg1.win 3).blk t).view.set := by
  have hi0 : (i 0).val < 50 := (i 0).isLt
  have hi1 : (i 1).val < 1 := (i 1).isLt
  have hi2 : (i 2).val < 256 := (i 2).isLt
  obtain ⟨t, ht⟩ : ∃ t : Fin cfg1.N, t.val = (i 0).val := ⟨⟨(i 0).val, hi0⟩, rfl⟩
  refine ⟨t, flush1_3 t, ?_⟩
  rw [mem_blk1_3]
  obtain ⟨-, -, -, -, e20, e21, e22, e30, e31, e32⟩ := idx_facts1 t
  intro ax
  match ax with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1 ≤ (i 1).val ∧ (i 1).val < win1_3.index t (1 : Fin 3) * 1 + 1
    omega
  | ⟨2, _⟩ =>
    show win1_3.index t (2 : Fin 3) * 256 ≤ (i 2).val ∧ (i 2).val < win1_3.index t (2 : Fin 3) * 256 + 256
    omega

/-- After the region the array of the column sums of squares is the whole-array function of the region's input arrays. -/
theorem value1_3 (c : Dev nD) (a : Fns.Arr2 50000 256) (b : Fns.Arr2 1 256)
    (ha : V c (Pipeline.arrRef spec1 0) = a) (hb : V c (Pipeline.arrRef spec1 1) = b) :
    (Gen.dat1 (F := Ideal) V c).arrAt 3 cfg1.N = Fns.tileColSum 50 1000 50000 256 rfl (Fns.sqOf Fns.relu) a b :=
  (Gen.dat1 (F := Ideal) V c).arrAt_eq_of_cover 3 (Fns.tileColSum 50 1000 50000 256 rfl (Fns.sqOf Fns.relu) a b)
    (fun t _ => flushed1_3_eq V c a b ha hb t) covered1_3

end Cert.KernelIdeal.RegionValue

end
-- ==== Proof.Region2.lean ====
/-
  Region 2 of the pipelined program as one whole-array function of its input arrays.

  The region walks the rows in tiles; at a tile it reads the tile's rows of the first array and the whole of the
  one-row arrays, and writes one block of each output.  What a tile writes is the block of one function of the
  whole arrays; the tiles cover the output, so after the region the output array is that function.
-/
import proofs.«155788_j3092376453711_2_alg».proof.Proof.Fns
import proofs.«155788_j3092376453711_2_alg».proof.Proof.Gen.KernelIdeal.Frame
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The tile's payload at (p, q): the maximum with zero of the entry plus the bias, scaled and shifted by column q. -/
theorem pay2_ix2 (x0 : Vec Ideal S1000x256 .f32) (x1 x2 x3 : Vec Ideal S1x256 .f32) (p : Fin 1000) (q : Fin 256) :
    k2_pay1 x0 x1 x2 x3 (ix2 p q)
      = max (x0 (ix2 p q) + x1 (ix2 (0 : Fin 1) q)) 0 * x2 (ix2 (0 : Fin 1) q) + x3 (ix2 (0 : Fin 1) q) := by
  unfold k2_pay1
  simp only [addf_apply, mulf_apply, maximumf_apply, broadcast_apply, shapeCast_self, broadcastTo_1b_ab_apply]
  have hz : (FloatOps.ofBits (F := Ideal) FTy.f32 0#32) = (0 : EReal) := Ideal.ofBits_zero_f32
  rw [hz]

/-- The block indices of the windows at a tile, decided over the 50 tiles: the row windows sit at tile t, column block 0;
    the one-row windows at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry (p, q) of tile t's block of the input rows is entry (row p of tile t, q) of the array. -/
theorem emb2_0 (t : Fin cfg2.N) (p : Fin 1000) (q : Fin 256) :
    ((cfg2.win 0).blk t).view.emb (ix2 p q : S1000x256.Idx)
      = (ix2 (Fns.tileRow (T := 50) (Mb := 1000) (M := 50000) rfl t p) q : S50000x256.Idx) := by
  obtain ⟨e00, e01, -⟩ := idx_facts2 t
  funext ax; apply Fin.ext
  match ax with
  | ⟨0, _⟩ => show win2_0.index t (0 : Fin 2) * 1000 + 1 * p.val = t.val * 1000 + p.val; omega
  | ⟨1, _⟩ => show win2_0.index t (1 : Fin 2) * 256 + 1 * q.val = q.val; omega

/-- The same for the output's block. -/
theorem emb2_4 (t : Fin cfg2.N) (p : Fin 1000) (q : Fin 256) :
    ((cfg2.win 4).blk t).view.emb (ix2 p q : S1000x256.Idx)
      = (ix2 (Fns.tileRow (T := 50) (Mb := 1000) (M := 50000) rfl t p) q : S50000x256.Idx) := by
  obtain ⟨-, -, -, -, -, -, -, -, e40, e41⟩ := idx_facts2 t
  funext ax; apply Fin.ext
  match ax with
  | ⟨0, _⟩ => show win2_4.index t (0 : Fin 2) * 1000 + 1 * p.val = t.val * 1000 + p.val; omega
  | ⟨1, _⟩ => show win2_4.index t (1 : Fin 2) * 256 + 1 * q.val = q.val; omega

/-- A one-row window's block is the whole row: its entry (0, q) is the array's entry (0, q). -/
theorem emb2_1 (t : Fin cfg2.N) (q : Fin 256) :
    ((cfg2.win 1).blk t).view.emb (ix2 (0 : Fin 1) q : S1x256.Idx) = (ix2 (0 : Fin 1) q : S1x256.Idx) := by
  obtain ⟨-, -, e10, e11, -⟩ := idx_facts2 t
  funext ax; apply Fin.ext
  match ax with
  | ⟨0, _⟩ => show win2_1.index t (0 : Fin 2) * 1 + 1 * 0 = 0; omega
  | ⟨1, _⟩ => show win2_1.index t (1 : Fin 2) * 256 + 1 * q.val = q.val; omega

theorem emb2_2 (t : Fin cfg2.N) (q : Fin 256) :
    ((cfg2.win 2).blk t).view.emb (ix2 (0 : Fin 1) q : S1x256.Idx) = (ix2 (0 : Fin 1) q : S1x256.Idx) := by
  obtain ⟨-, -, -, -, e20, e21, -⟩ := idx_facts2 t
  funext ax; apply Fin.ext
  match ax with
  | ⟨0, _⟩ => show win2_2.index t (0 : Fin 2) * 1 + 1 * 0 = 0; omega
  | ⟨1, _⟩ => show win2_2.index t (1 : Fin 2) * 256 + 1 * q.val = q.val; omega

theorem emb2_3 (t : Fin cfg2.N) (q : Fin 256) :
    ((cfg2.win 3).blk t).view.emb (ix2 (0 : Fin 1) q : S1x256.Idx) = (ix2 (0 : Fin 1) q : S1x256.Idx) := by
  obtain ⟨-, -, -, -, -, -, e30, e31, -⟩ := idx_facts2 t
  funext ax; apply Fin.ext
  match ax with
  | ⟨0, _⟩ => show win2_3.index t (0 : Fin 2) * 1 + 1 * 0 = 0; omega
  | ⟨1, _⟩ => show win2_3.index t (1 : Fin 2) * 256 + 1 * q.val = q.val; omega

/-- The loaded block of rows, read at (p, q), is the array at (row p of tile t, q). -/
theorem blk2_0 (c : Dev nD) (a : Fns.Arr2 50000 256) (ha : V c (Pipeline.arrRef spec2 0) = a)
    (t : Fin cfg2.N) (p : Fin 1000) (q : Fin 256) :
    iblk2 V c 0 t (ix2 p q) = a (ix2 (Fns.tileRow (T := 50) (Mb := 1000) (M := 50000) rfl t p) q) := by
  show V c (Pipeline.arrRef spec2 0) (((cfg2.win 0).blk t).view.emb (ix2 p q : S1000x256.Idx)) = _
  rw [emb2_0, ha]

/-- The loaded one-row block of window 1, read at (0, q), is its array at (0, q). -/
theorem blk2_1 (c : Dev nD) (b : Fns.Arr2 1 256) (hb : V c (Pipeline.arrRef spec2 1) = b)
    (t : Fin cfg2.N) (q : Fin 256) :
    iblk2 V c 1 t (ix2 (0 : Fin 1) q) = b (ix2 (0 : Fin 1) q) := by
  show V c (Pipeline.arrRef spec2 1) (((cfg2.win 1).blk t).view.emb (ix2 (0 : Fin 1) q : S1x256.Idx)) = _
  rw [emb2_1, hb]

/-- The loaded one-row block of window 2, read at (0, q), is its array at (0, q). -/
theorem blk2_2 (c : Dev nD) (s : Fns.Arr2 1 256) (hs : V c (Pipeline.arrRef spec2 2) = s)
    (t : Fin cfg2.N) (q : Fin 256) :
    iblk2 V c 2 t (ix2 (0 : Fin 1) q) = s (ix2 (0 : Fin 1) q) := by
  show V c (Pipeline.arrRef spec2 2) (((cfg2.win 2).blk t).view.emb (ix2 (0 : Fin 1) q : S1x256.Idx)) = _
  rw [emb2_2, hs]

/-- The loaded one-row block of window 3, read at (0, q), is its array at (0, q). -/
theorem blk2_3 (c : Dev nD) (h : Fns.Arr2 1 256) (hh : V c (Pipeline.arrRef spec2 3) = h)
    (t : Fin cfg2.N) (q : Fin 256) :
    iblk2 V c 3 t (ix2 (0 : Fin 1) q) = h (ix2 (0 : Fin 1) q) := by
  show V c (Pipeline.arrRef spec2 3) (((cfg2.win 3).blk t).view.emb (ix2 (0 : Fin 1) q : S1x256.Idx)) = _
  rw [emb2_3, hh]

/-- What the body leaves in the output's buffer at tile t, read at (p, q): the whole-array function at (row p of tile t, q). -/
theorem body2_4_eq (c : Dev nD) (a : Fns.Arr2 50000 256) (b s h : Fns.Arr2 1 256)
    (ha : V c (Pipeline.arrRef spec2 0) = a) (hb : V c (Pipeline.arrRef spec2 1) = b)
    (hs : V c (Pipeline.arrRef spec2 2) = s) (hh : V c (Pipeline.arrRef spec2 3) = h) (t : Fin cfg2.N)
    (p : Fin 1000) (q : Fin 256) :
    k2_pay1 (iblk2 V c 0 t) (iblk2 V c 1 t) (iblk2 V c 2 t) (iblk2 V c 3 t) (ix2 p q)
      = Fns.affRow 50000 256 Fns.relu a b s h (ix2 (Fns.tileRow (T := 50) (Mb := 1000) (M := 50000) rfl t p) q) := by
  rw [pay2_ix2, blk2_0 V c a ha t p q, blk2_1 V c b hb t q, blk2_2 V c s hs t q, blk2_3 V c h hh t q,
    Fns.affRow_ix2]
  rfl

/-- What tile t writes back is block t of the whole-array function. -/
theorem flushed2_4_eq (c : Dev nD) (a : Fns.Arr2 50000 256) (b s h : Fns.Arr2 1 256)
    (ha : V c (Pipeline.arrRef spec2 0) = a) (hb : V c (Pipeline.arrRef spec2 1) = b)
    (hs : V c (Pipeline.arrRef spec2 2) = s) (hh : V c (Pipeline.arrRef spec2 3) = h) (t : Fin cfg2.N) :
    (Gen.dat2 (F := Ideal) V c).flushed 4 t
      = ((cfg2.win 4).blk t).view.read (Elt Ideal) (Fns.affRow 50000 256 Fns.relu a b s h) := by
  show (cfg2.win 4).cut (grid2.coords t) ((dat2 V c).after 4 t) = _
  rw [after2_4]
  unfold out2_4
  rw [View.canon_unit_zero hz2]
  simp only [View.ld_unit_zero (S := S1000x256) hz2, View.ld_unit_zero (S := S1x256) hz2]
  funext j
  revert j
  show ∀ j : S1000x256.Idx, k2_pay1 (iblk2 V c 0 t) (iblk2 V c 1 t) (iblk2 V c 2 t) (iblk2 V c 3 t) j
    = Fns.affRow 50000 256 Fns.relu a b s h (((cfg2.win 4).blk t).view.emb j)
  intro j
  obtain ⟨p, q, rfl⟩ : ∃ (p : Fin 1000) (q : Fin 256), j = ix2 p q := ⟨j 0, j 1, eq_ix2 j⟩
  rw [emb2_4]
  exact body2_4_eq V c a b s h ha hb hs hh t p q

/-- An index of the output array is in tile t's block iff each coordinate is in the block's range on its axis. -/
theorem mem_blk2_4 (t : Fin cfg2.N) (i : S50000x256.Idx) :
    i ∈ ((cfg2.win 4).blk t).view.set ↔ ∀ ax : Fin 2, win2_4.index t ax * S1000x256.size ax ≤ (i ax).val
      ∧ (i ax).val < win2_4.index t ax * S1000x256.size ax + S1000x256.size ax := by
  show i ∈ ((View.whole (cfg2.win 4).arr.view.ref).slice (win2_4.rect t)).set ↔ _
  rw [View.set_slice_whole, Rect.mem_set_unit]
  exact Iff.rfl

/-- Every index of the output array is in the block of the tile that holds its row. -/
theorem covered2_4 (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  have hlt : (i 0).val / 1000 < 50 := by omega
  obtain ⟨t, ht⟩ : ∃ t : Fin cfg2.N, t.val = (i 0).val / 1000 := ⟨⟨(i 0).val / 1000, hlt⟩, rfl⟩
  refine ⟨t, flush2_4 t, ?_⟩
  rw [mem_blk2_4]
  obtain ⟨-, -, -, -, -, -, -, -, e40, e41⟩ := idx_facts2 t
  intro ax
  match ax with
  | ⟨0, _⟩ =>
    show win2_4.index t (0 : Fin 2) * 1000 ≤ (i 0).val ∧ (i 0).val < win2_4.index t (0 : Fin 2) * 1000 + 1000
    omega
  | ⟨1, _⟩ =>
    show win2_4.index t (1 : Fin 2) * 256 ≤ (i 1).val ∧ (i 1).val < win2_4.index t (1 : Fin 2) * 256 + 256
    omega

/-- After the region the output array is the whole-array function of the region's input arrays. -/
theorem value2_4 (c : Dev nD) (a : Fns.Arr2 50000 256) (b s h : Fns.Arr2 1 256)
    (ha : V c (Pipeline.arrRef spec2 0) = a) (hb : V c (Pipeline.arrRef spec2 1) = b)
    (hs : V c (Pipeline.arrRef spec2 2) = s) (hh : V c (Pipeline.arrRef spec2 3) = h) :
    (Gen.dat2 (F := Ideal) V c).arrAt 4 cfg2.N = Fns.affRow 50000 256 Fns.relu a b s h :=
  (Gen.dat2 (F := Ideal) V c).arrAt_eq_of_cover 4 (Fns.affRow 50000 256 Fns.relu a b s h)
    (fun t _ => flushed2_4_eq V c a b s h ha hb hs hh t) covered2_4

end Cert.KernelIdeal.RegionValue

end
-- ==== Proof.Region3.lean ====
/-
  Region 3 of the pipelined program: a product whose rows are scaled by a column, as one whole-array function.

  The region cuts the 50000 rows into 50 blocks of 1000 rows.  At grid point t it loads rows 1000 t .. 1000 t + 999 of x (all
  256 columns), w whole (256 x 256), and the same rows of the one-column array d, and stores, at the same rows of the
  output (all 256 columns), the product of the loaded blocks with row p scaled by d (p, 0): the rounding of the factors
  to a narrower format is the identity at the extended reals, the product into a zero accumulator is the sum over the
  256 inner positions, and the broadcast of the column reads its entry in the row.  A block of rows of the product depends
  only on the same rows of x and of d, so each stored block is the block of x w scaled by d, and the 50 blocks cover the
  array: the output ends as mmScale x w d.
-/
import proofs.«155788_j3092376453711_2_alg».proof.Proof.Fns
import proofs.«155788_j3092376453711_2_alg».proof.Proof.MatmulBlocks
import proofs.«155788_j3092376453711_2_alg».proof.Proof.LibDotIx2
import proofs.«155788_j3092376453711_2_alg».proof.Proof.LibKeepdims
import proofs.«155788_j3092376453711_2_alg».proof.Proof.Gen.KernelIdeal.Frame
import Idealize.ShloMosaic.Lib.Pipeline.Value

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The product's dimension numbers are those of a plain 1000 x 256 by 256 x 256 product -/

theorem plainDot3 : PlainDot dot_S1000x256_S256x256_S1000x256_1_0_0_1_n_n where
  rank := rfl
  size := rfl
  l0 := fun j q => by
    simp [DotDims.lhsIdx, dot_S1000x256_S256x256_S1000x256_1_0_0_1_n_n]; rfl
  l1 := fun j q => (dot_S1000x256_S256x256_S1000x256_1_0_0_1_n_n).lhsIdx_val_of_single (cl := 1) rfl j q
  r0 := fun j q => (dot_S1000x256_S256x256_S1000x256_1_0_0_1_n_n).rhsIdx_val_of_single (cr := 0) rfl j q
  r1 := fun j q => by
    simp [DotDims.rhsIdx, dot_S1000x256_S256x256_S1000x256_1_0_0_1_n_n]; rfl

/-! ## What the body stores, at a row and a column -/

/-- The stored block at (p, q): the sum over the inner position of the loaded blocks' products, times the loaded
    column's entry in row p. -/
theorem pay3_ix2 (x0 : Vec Ideal S1000x256 .f32) (x1 : Vec Ideal S256x256 .f32) (x2 : Vec Ideal S1000x1 .f32)
    (p : Fin 1000) (q : Fin 256) :
    k3_pay1 x0 x1 x2 (ix2 p q) = (∑ k : Fin 256, x0 (ix2 p k) * x1 (ix2 k q)) * x2 (ix2 p (0 : Fin 1)) := by
  unfold k3_pay1
  rw [mulf_apply, broadcastTo_a1_ab_apply]
  simp only [shapeCast_self]
  exact congrArg (· * x2 (ix2 p (0 : Fin 1))) (matmul_zero_ix2_any plainDot3 none _ _ p q)

/-! ## The windows' block indices over the grid -/

/-- The printed index maps, decided over the 50 points: x, d and the output are at block (t, 0), w at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-! ## What a point writes back is a block of the whole-array function -/

/-- What point t writes back to the output: rows 1000 t .. 1000 t + 999 of mmScale of the arrays as the region finds them. -/
theorem flushed3_3_eq (c : Dev nD) (t : Fin cfg3.N) :
    (dat3 (F := Ideal) V c).flushed 3 t
      = ((cfg3.win 3).blk t).view.read (Elt Ideal)
          (Fns.mmScale 50000 256 256 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz2]
  simp only [View.ld_unit_zero (S := S1000x256) hz2, View.ld_unit_zero (S := S256x256) hz2, View.ld_unit_zero (S := S1000x1) hz2]
  obtain ⟨e00, e01, e10, e11, e20, e21, e30, e31⟩ := idx_facts3 t
  funext j
  exact Fns.blk_mmScale (Mb := 1000) (M := 50000) (K := 256) (N := 256)
    (k3_pay1 (iblk3 V c 0 t) (iblk3 V c 1 t) (iblk3 V c 2 t)) (iblk3 V c 0 t) (iblk3 V c 1 t) (iblk3 V c 2 t)
    (pay3_ix2 (iblk3 V c 0 t) (iblk3 V c 1 t) (iblk3 V c 2 t))
    (V c (Pipeline.arrRef spec3 0)) (V c (Pipeline.arrRef spec3 1)) (V c (Pipeline.arrRef spec3 2))
    (fun y => ((cfg3.win 0).blk t).view.emb y) (fun y => ((cfg3.win 1).blk t).view.emb y)
    (fun y => ((cfg3.win 2).blk t).view.emb y) (fun y => ((cfg3.win 3).blk t).view.emb y)
    (fun y => rfl) (fun y => rfl) (fun y => rfl) (t.val * 1000)
    (fun y => by show win3_0.index t (0 : Fin 2) * 1000 + 1 * (y 0).val = _; rw [e00]; omega)
    (fun y => by show win3_0.index t (1 : Fin 2) * 256 + 1 * (y 1).val = _; rw [e01]; omega)
    (fun y => by show win3_1.index t (0 : Fin 2) * 256 + 1 * (y 0).val = _; rw [e10]; omega)
    (fun y => by show win3_1.index t (1 : Fin 2) * 256 + 1 * (y 1).val = _; rw [e11]; omega)
    (fun y => by show win3_2.index t (0 : Fin 2) * 1000 + 1 * (y 0).val = _; rw [e20]; omega)
    (fun y => by show win3_3.index t (0 : Fin 2) * 1000 + 1 * (y 0).val = _; rw [e30]; omega)
    (fun y => by show win3_3.index t (1 : Fin 2) * 256 + 1 * (y 1).val = _; rw [e31]; omega)
    j

/-! ## The blocks cover the output -/

/-- An index of the output is in point t's block iff each coordinate is in the block's range on its axis. -/
theorem mem_blk3_3 (t : Fin cfg3.N) (i : S50000x256.Idx) :
    i ∈ ((cfg3.win 3).blk t).view.set
      ↔ ∀ a : Fin 2, win3_3.index t a * S1000x256.size a ≤ (i a).val ∧ (i a).val < win3_3.index t a * S1000x256.size a + S1000x256.size a := by
  show i ∈ ((View.whole main_v49).slice (win3_3.rect t)).set ↔ _
  rw [View.set_slice_whole, Rect.mem_set_unit]
  exact Iff.rfl

/-- Row r is in the block of point r / 1000. -/
theorem rows_covered3 (i : S50000x256.Idx) :
    ∃ t : Fin cfg3.N, (cfg3.win 3).flush t = true ∧ i ∈ ((cfg3.win 3).blk t).view.set := by
  have hN : cfg3.N = 50 := N_3
  have hi0 : (i 0).val < 50000 := (i 0).isLt
  have hi1 : (i 1).val < 256 := (i 1).isLt
  refine ⟨⟨(i 0).val / 1000, by rw [hN]; omega⟩, flush3_3 _, ?_⟩
  obtain ⟨-, -, -, -, -, -, e30, e31⟩ := idx_facts3 ⟨(i 0).val / 1000, by rw [hN]; omega⟩
  rw [mem_blk3_3]
  intro a
  match a with
  | ⟨0, _⟩ =>
    show win3_3.index _ (0 : Fin 2) * 1000 ≤ (i 0).val ∧ (i 0).val < win3_3.index _ (0 : Fin 2) * 1000 + 1000
    rw [e30]
    show (i 0).val / 1000 * 1000 ≤ (i 0).val ∧ (i 0).val < (i 0).val / 1000 * 1000 + 1000
    omega
  | ⟨1, _⟩ =>
    show win3_3.index _ (1 : Fin 2) * 256 ≤ (i 1).val ∧ (i 1).val < win3_3.index _ (1 : Fin 2) * 256 + 256
    rw [e31]
    omega

/-! ## The output after the region's run -/

/-- The output array after the run of region 3: the product of the input arrays with row p scaled by d (p, 0). -/
theorem value3_3 (c : Dev nD) (x : Fns.Arr2 50000 256) (w : Fns.Arr2 256 256) (d : Fns.Arr2 50000 1)
    (hx : V c (Pipeline.arrRef spec3 0) = x) (hw : V c (Pipeline.arrRef spec3 1) = w)
    (hd : V c (Pipeline.arrRef spec3 2) = d) :
    (dat3 (F := Ideal) V c).arrAt 3 cfg3.N = Fns.mmScale 50000 256 256 x w d := by
  subst hx hw hd
  exact (dat3 (F := Ideal) V c).arrAt_eq_of_cover 3 _ (fun t _ => flushed3_3_eq V c t) rows_covered3

end Cert.KernelIdeal.RegionValue

end
-- ==== Proof.Region4.lean ====
/-
  Region 4 of the pipelined program as one whole-array function of its input arrays.

  The region walks the rows in tiles; at a tile it reads the tile's rows of the first array and the whole of the
  one-row arrays, and writes one block of each output.  What a tile writes is the block of one function of the
  whole arrays; the tiles cover the output, so after the region the output array is that function.
-/
import proofs.«155788_j3092376453711_2_alg».proof.Proof.Fns
import proofs.«155788_j3092376453711_2_alg».proof.Proof.LibColReduce
import proofs.«155788_j3092376453711_2_alg».proof.Proof.Gen.KernelIdeal.Frame
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz3_4 : (![0, 0, 0] : Fin 3 → Nat) = fun _ => 0 := funext fun a => by fin_cases a <;> rfl

/-- The tile's pointwise stage at (p, q): the maximum with zero of the entry plus the bias of column q. -/
theorem k4_pay1_ix2 (x0 : Vec Ideal S1000x256 .f32) (x1 : Vec Ideal S1x256 .f32) (p : Fin 1000) (q : Fin 256) :
    k4_pay1 x0 x1 (ix2 p q) = max (x0 (ix2 p q) + x1 (ix2 (0 : Fin 1) q)) 0 := by
  unfold k4_pay1
  simp only [addf_apply, maximumf_apply, broadcast_apply, shapeCast_self, broadcastTo_1b_ab_apply]
  have hz : (FloatOps.ofBits (F := Ideal) FTy.f32 0#32) = (0 : EReal) := Ideal.ofBits_zero_f32
  rw [hz]

/-- The lane sum over the tile's rows, at column q. -/
theorem colsum4 (src : FVec Ideal S1000x256 .f32) (q : Fin 256) :
    multiReduction .add [0] S256 src 0x00000000#32 reduces_S1000x256_S256 (.inl rfl) rfl (ix1 q)
      = ∑ r : Fin 1000, src (ix2 r q) :=
  multiReduction_add_col src _ _ _ _ q

/-- The first payload at (0, 0, q): the sum over the tile's rows of the pointwise stage. -/
theorem k4_pay2_ix3 (x0 : Vec Ideal S1000x256 .f32) (x1 : Vec Ideal S1x256 .f32) (u v : Fin 1) (q : Fin 256) :
    k4_pay2 x0 x1 (ix3 u v q) = ∑ r : Fin 1000, max (x0 (ix2 r q) + x1 (ix2 (0 : Fin 1) q)) 0 := by
  unfold k4_pay2
  simp only [shapeCast_ab_1ab_apply, shapeCast_a_1a_apply]
  exact (colsum4 _ q).trans (Finset.sum_congr rfl fun r _ => k4_pay1_ix2 x0 x1 r q)

/-- The second payload at (0, 0, q): the sum over the tile's rows of the square of the pointwise stage. -/
theorem k4_pay3_ix3 (x0 : Vec Ideal S1000x256 .f32) (x1 : Vec Ideal S1x256 .f32) (u v : Fin 1) (q : Fin 256) :
    k4_pay3 x0 x1 (ix3 u v q) = ∑ r : Fin 1000, max (x0 (ix2 r q) + x1 (ix2 (0 : Fin 1) q)) 0 * max (x0 (ix2 r q) + x1 (ix2 (0 : Fin 1) q)) 0 := by
  unfold k4_pay3
  simp only [shapeCast_ab_1ab_apply, shapeCast_a_1a_apply]
  exact (colsum4 _ q).trans (Finset.sum_congr rfl fun r _ => by rw [mulf_apply, k4_pay1_ix2])

/-- The block indices of the windows at a tile, decided over the 50 tiles: the row window and the two outputs sit at
    tile t on their first axis and at 0 on the others; the one-row window at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 3) = t.val ∧ win4_2.index t (1 : Fin 3) = 0 ∧ win4_2.index t (2 : Fin 3) = 0
    ∧ win4_3.index t (0 : Fin 3) = t.val ∧ win4_3.index t (1 : Fin 3) = 0 ∧ win4_3.index t (2 : Fin 3) = 0 :=
  (by decide +kernel : ∀ t : Fin grid4.N, _)

/-- Entry (p, q) of tile t's block of the input rows is entry (row p of tile t, q) of the array. -/
theorem emb4_0 (t : Fin cfg4.N) (p : Fin 1000) (q : Fin 256) :
    ((cfg4.win 0).blk t).view.emb (ix2 p q : S1000x256.Idx)
      = (ix2 (Fns.tileRow (T := 50) (Mb := 1000) (M := 50000) rfl t p) q : S50000x256.Idx) := by
  obtain ⟨e00, e01, -⟩ := idx_facts4 t
  funext ax; apply Fin.ext
  match ax with
  | ⟨0, _⟩ => show win4_0.index t (0 : Fin 2) * 1000 + 1 * p.val = t.val * 1000 + p.val; omega
  | ⟨1, _⟩ => show win4_0.index t (1 : Fin 2) * 256 + 1 * q.val = q.val; omega

/-- The one-row window's block is the whole row: its entry (0, q) is the array's entry (0, q). -/
theorem emb4_1 (t : Fin cfg4.N) (q : Fin 256) :
    ((cfg4.win 1).blk t).view.emb (ix2 (0 : Fin 1) q : S1x256.Idx) = (ix2 (0 : Fin 1) q : S1x256.Idx) := by
  obtain ⟨-, -, e10, e11, -⟩ := idx_facts4 t
  funext ax; apply Fin.ext
  match ax with
  | ⟨0, _⟩ => show win4_1.index t (0 : Fin 2) * 1 + 1 * 0 = 0; omega
  | ⟨1, _⟩ => show win4_1.index t (1 : Fin 2) * 256 + 1 * q.val = q.val; omega

/-- An output block's entry (0, 0, q) at tile t is the array's entry (t, 0, q). -/
theorem emb4_2 (t : Fin cfg4.N) (u v : Fin 1) (q : Fin 256) :
    ((cfg4.win 2).blk t).view.emb (ix3 u v q : S1x1x256.Idx)
      = (ix3 (n0 := 50) t (0 : Fin 1) q : S50x1x256.Idx) := by
  obtain ⟨-, -, -, -, e20, e21, e22, e30, e31, e32⟩ := idx_facts4 t
  have hu : u.val < 1 := u.isLt
  have hv : v.val < 1 := v.isLt
  funext ax; apply Fin.ext
  match ax with
  | ⟨0, _⟩ => show win4_2.index t (0 : Fin 3) * 1 + 1 * u.val = t.val; omega
  | ⟨1, _⟩ => show win4_2.index t (1 : Fin 3) * 1 + 1 * v.val = 0; omega
  | ⟨2, _⟩ => show win4_2.index t (2 : Fin 3) * 256 + 1 * q.val = q.val; omega

theorem emb4_3 (t : Fin cfg4.N) (u v : Fin 1) (q : Fin 256) :
    ((cfg4.win 3).blk t).view.emb (ix3 u v q : S1x1x256.Idx)
      = (ix3 (n0 := 50) t (0 : Fin 1) q : S50x1x256.Idx) := by
  obtain ⟨-, -, -, -, e20, e21, e22, e30, e31, e32⟩ := idx_facts4 t
  have hu : u.val < 1 := u.isLt
  have hv : v.val < 1 := v.isLt
  funext ax; apply Fin.ext
  match ax with
  | ⟨0, _⟩ => show win4_3.index t (0 : Fin 3) * 1 + 1 * u.val = t.val; omega
  | ⟨1, _⟩ => show win4_3.index t (1 : Fin 3) * 1 + 1 * v.val = 0; omega
  | ⟨2, _⟩ => show win4_3.index t (2 : Fin 3) * 256 + 1 * q.val = q.val; omega

/-- The loaded block of rows, read at (r, q), is the array at (row r of tile t, q). -/
theorem blk4_0 (c : Dev nD) (a : Fns.Arr2 50000 256) (ha : V c (Pipeline.arrRef spec4 0) = a)
    (t : Fin cfg4.N) (r : Fin 1000) (q : Fin 256) :
    iblk4 V c 0 t (ix2 r q) = a (ix2 (Fns.tileRow (T := 50) (Mb := 1000) (M := 50000) rfl t r) q) := by
  show V c (Pipeline.arrRef spec4 0) (((cfg4.win 0).blk t).view.emb (ix2 r q : S1000x256.Idx)) = _
  rw [emb4_0, ha]

/-- The loaded bias row, read at (0, q), is the array at (0, q). -/
theorem blk4_1 (c : Dev nD) (b : Fns.Arr2 1 256) (hb : V c (Pipeline.arrRef spec4 1) = b)
    (t : Fin cfg4.N) (q : Fin 256) :
    iblk4 V c 1 t (ix2 (0 : Fin 1) q) = b (ix2 (0 : Fin 1) q) := by
  show V c (Pipeline.arrRef spec4 1) (((cfg4.win 1).blk t).view.emb (ix2 (0 : Fin 1) q : S1x256.Idx)) = _
  rw [emb4_1, hb]

/-- What tile t writes back to the array of the column sums is block t of the whole-array function. -/
theorem flushed4_2_eq (c : Dev nD) (a : Fns.Arr2 50000 256) (b : Fns.Arr2 1 256)
    (ha : V c (Pipeline.arrRef spec4 0) = a) (hb : V c (Pipeline.arrRef spec4 1) = b) (t : Fin cfg4.N) :
    (Gen.dat4 (F := Ideal) V c).flushed 2 t
      = ((cfg4.win 2).blk t).view.read (Elt Ideal) (Fns.tileColSum 50 1000 50000 256 rfl Fns.relu a b) := by
  show (cfg4.win 2).cut (grid4.coords t) ((dat4 V c).after 2 t) = _
  rw [after4_2]
  unfold out4_2
  rw [View.canon_unit_zero hz3_4]
  simp only [View.ld_unit_zero (S := S1000x256) hz2, View.ld_unit_zero (S := S1x256) hz2]
  funext j
  revert j
  show ∀ j : S1x1x256.Idx, k4_pay2 (iblk4 V c 0 t) (iblk4 V c 1 t) j
    = Fns.tileColSum 50 1000 50000 256 rfl Fns.relu a b (((cfg4.win 2).blk t).view.emb j)
  intro j
  obtain ⟨u, v, q, rfl⟩ : ∃ (u v : Fin 1) (q : Fin 256), j = ix3 u v q := ⟨j 0, j 1, j 2, eq_ix3 j⟩
  rw [k4_pay2_ix3, emb4_2]
  refine Eq.trans (Finset.sum_congr rfl fun r _ => ?_) (Fns.tileColSum_ix3 50 1000 50000 256 rfl Fns.relu a b t q).symm
  rw [blk4_0 V c a ha t r q, blk4_1 V c b hb t q]
  rfl

/-- An index of that array is in tile t's block iff each coordinate is in the block's range on its axis. -/
theorem mem_blk4_2 (t : Fin cfg4.N) (i : S50x1x256.Idx) :
    i ∈ ((cfg4.win 2).blk t).view.set ↔ ∀ ax : Fin 3, win4_2.index t ax * S1x1x256.size ax ≤ (i ax).val
      ∧ (i ax).val < win4_2.index t ax * S1x1x256.size ax + S1x1x256.size ax := by
  show i ∈ ((View.whole (cfg4.win 2).arr.view.ref).slice (win4_2.rect t)).set ↔ _
  rw [View.set_slice_whole, Rect.mem_set_unit]
  exact Iff.rfl

/-- Every index of that array is in the block of the tile its first coordinate names. -/
theorem covered4_2 (i : S50x1x256.Idx) :
    ∃ t : Fin cfg4.N, (cfg4.win 2).flush t = true ∧ i ∈ ((cfg4.win 2).blk t).view.set := by
  have hi0 : (i 0).val < 50 := (i 0).isLt
  have hi1 : (i 1).val < 1 := (i 1).isLt
  have hi2 : (i 2).val < 256 := (i 2).isLt
  obtain ⟨t, ht⟩ : ∃ t : Fin cfg4.N, t.val = (i 0).val := ⟨⟨(i 0).val, hi0⟩, rfl⟩
  refine ⟨t, flush4_2 t, ?_⟩
  rw [mem_blk4_2]
  obtain ⟨-, -, -, -, e20, e21, e22, e30, e31, e32⟩ := idx_facts4 t
  intro ax
  match ax with
  | ⟨0, _⟩ =>
    show win4_2.index t (0 : Fin 3) * 1 ≤ (i 0).val ∧ (i 0).val < win4_2.index t (0 : Fin 3) * 1 + 1
    omega
  | ⟨1, _⟩ =>
    show win4_2.index t (1 : Fin 3) * 1 ≤ (i 1).val ∧ (i 1).val < win4_2.index t (1 : Fin 3) * 1 + 1
    omega
  | ⟨2, _⟩ =>
    show win4_2.index t (2 : Fin 3) * 256 ≤ (i 2).val ∧ (i 2).val < win4_2.index t (2 : Fin 3) * 256 + 256
    omega

/-- After the region the array of the column sums is the whole-array function of the region's input arrays. -/
theorem value4_2 (c : Dev nD) (a : Fns.Arr2 50000 256) (b : Fns.Arr2 1 256)
    (ha : V c (Pipeline.arrRef spec4 0) = a) (hb : V c (Pipeline.arrRef spec4 1) = b) :
    (Gen.dat4 (F := Ideal) V c).arrAt 2 cfg4.N = Fns.tileColSum 50 1000 50000 256 rfl Fns.relu a b :=
  (Gen.dat4 (F := Ideal) V c).arrAt_eq_of_cover 2 (Fns.tileColSum 50 1000 50000 256 rfl Fns.relu a b)
    (fun t _ => flushed4_2_eq V c a b ha hb t) covered4_2

/-- What tile t writes back to the array of the column sums of squares is block t of the whole-array function. -/
theorem flushed4_3_eq (c : Dev nD) (a : Fns.Arr2 50000 256) (b : Fns.Arr2 1 256)
    (ha : V c (Pipeline.arrRef spec4 0) = a) (hb : V c (Pipeline.arrRef spec4 1) = b) (t : Fin cfg4.N) :
    (Gen.dat4 (F := Ideal) V c).flushed 3 t
      = ((cfg4.win 3).blk t).view.read (Elt Ideal) (Fns.tileColSum 50 1000 50000 256 rfl (Fns.sqOf Fns.relu) a b) := by
  show (cfg4.win 3).cut (grid4.coords t) ((dat4 V c).after 3 t) = _
  rw [after4_3]
  unfold out4_3
  rw [View.canon_unit_zero hz3_4]
  simp only [View.ld_unit_zero (S := S1000x256) hz2, View.ld_unit_zero (S := S1x256) hz2]
  funext j
  revert j
  show ∀ j : S1x1x256.Idx, k4_pay3 (iblk4 V c 0 t) (iblk4 V c 1 t) j
    = Fns.tileColSum 50 1000 50000 256 rfl (Fns.sqOf Fns.relu) a b (((cfg4.win 3).blk t).view.emb j)
  intro j
  obtain ⟨u, v, q, rfl⟩ : ∃ (u v : Fin 1) (q : Fin 256), j = ix3 u v q := ⟨j 0, j 1, j 2, eq_ix3 j⟩
  rw [k4_pay3_ix3, emb4_3]
  refine Eq.trans (Finset.sum_congr rfl fun r _ => ?_) (Fns.tileColSum_ix3 50 1000 50000 256 rfl (Fns.sqOf Fns.relu) a b t q).symm
  rw [blk4_0 V c a ha t r q, blk4_1 V c b hb t q]
  rfl

/-- An index of that array is in tile t's block iff each coordinate is in the block's range on its axis. -/
theorem mem_blk4_3 (t : Fin cfg4.N) (i : S50x1x256.Idx) :
    i ∈ ((cfg4.win 3).blk t).view.set ↔ ∀ ax : Fin 3, win4_3.index t ax * S1x1x256.size ax ≤ (i ax).val
      ∧ (i ax).val < win4_3.index t ax * S1x1x256.size ax + S1x1x256.size ax := by
  show i ∈ ((View.whole (cfg4.win 3).arr.view.ref).slice (win4_3.rect t)).set ↔ _
  rw [View.set_slice_whole, Rect.mem_set_unit]
  exact Iff.rfl

/-- Every index of that array is in the block of the tile its first coordinate names. -/
theorem covered4_3 (i : S50x1x256.Idx) :
    ∃ t : Fin cfg4.N, (cfg4.win 3).flush t = true ∧ i ∈ ((cfg4.win 3).blk t).view.set := by
  have hi0 : (i 0).val < 50 := (i 0).isLt
  have hi1 : (i 1).val < 1 := (i 1).isLt
  have hi2 : (i 2).val < 256 := (i 2).isLt
  obtain ⟨t, ht⟩ : ∃ t : Fin cfg4.N, t.val = (i 0).val := ⟨⟨(i 0).val, hi0⟩, rfl⟩
  refine ⟨t, flush4_3 t, ?_⟩
  rw [mem_blk4_3]
  obtain ⟨-, -, -, -, e20, e21, e22, e30, e31, e32⟩ := idx_facts4 t
  intro ax
  match ax with
  | ⟨0, _⟩ =>
    show win4_3.index t (0 : Fin 3) * 1 ≤ (i 0).val ∧ (i 0).val < win4_3.index t (0 : Fin 3) * 1 + 1
    omega
  | ⟨1, _⟩ =>
    show win4_3.index t (1 : Fin 3) * 1 ≤ (i 1).val ∧ (i 1).val < win4_3.index t (1 : Fin 3) * 1 + 1
    omega
  | ⟨2, _⟩ =>
    show win4_3.index t (2 : Fin 3) * 256 ≤ (i 2).val ∧ (i 2).val < win4_3.index t (2 : Fin 3) * 256 + 256
    omega

/-- After the region the array of the column sums of squares is the whole-array function of the region's input arrays. -/
theorem value4_3 (c : Dev nD) (a : Fns.Arr2 50000 256) (b : Fns.Arr2 1 256)
    (ha : V c (Pipeline.arrRef spec4 0) = a) (hb : V c (Pipeline.arrRef spec4 1) = b) :
    (Gen.dat4 (F := Ideal) V c).arrAt 3 cfg4.N = Fns.tileColSum 50 1000 50000 256 rfl (Fns.sqOf Fns.relu) a b :=
  (Gen.dat4 (F := Ideal) V c).arrAt_eq_of_cover 3 (Fns.tileColSum 50 1000 50000 256 rfl (Fns.sqOf Fns.relu) a b)
    (fun t _ => flushed4_3_eq V c a b ha hb t) covered4_3

end Cert.KernelIdeal.RegionValue

end
-- ==== Proof.Region5.lean ====
/-
  Region 5 of the pipelined program as one whole-array function of its input arrays.

  The region walks the rows in tiles; at a tile it reads the tile's rows of the first array and the whole of the
  one-row arrays, and writes one block of each output.  What a tile writes is the block of one function of the
  whole arrays; the tiles cover the output, so after the region the output array is that function.
-/
import proofs.«155788_j3092376453711_2_alg».proof.Proof.Fns
import proofs.«155788_j3092376453711_2_alg».proof.Proof.Gen.KernelIdeal.Frame
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The tile's payload at (p, q): the maximum with zero of the entry plus the bias, scaled and shifted by column q. -/
theorem pay5_ix2 (x0 : Vec Ideal S1000x256 .f32) (x1 x2 x3 : Vec Ideal S1x256 .f32) (p : Fin 1000) (q : Fin 256) :
    k5_pay1 x0 x1 x2 x3 (ix2 p q)
      = max (x0 (ix2 p q) + x1 (ix2 (0 : Fin 1) q)) 0 * x2 (ix2 (0 : Fin 1) q) + x3 (ix2 (0 : Fin 1) q) := by
  unfold k5_pay1
  simp only [addf_apply, mulf_apply, maximumf_apply, broadcast_apply, shapeCast_self, broadcastTo_1b_ab_apply]
  have hz : (FloatOps.ofBits (F := Ideal) FTy.f32 0#32) = (0 : EReal) := Ideal.ofBits_zero_f32
  rw [hz]

/-- The block indices of the windows at a tile, decided over the 50 tiles: the row windows sit at tile t, column block 0;
    the one-row windows at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Entry (p, q) of tile t's block of the input rows is entry (row p of tile t, q) of the array. -/
theorem emb5_0 (t : Fin cfg5.N) (p : Fin 1000) (q : Fin 256) :
    ((cfg5.win 0).blk t).view.emb (ix2 p q : S1000x256.Idx)
      = (ix2 (Fns.tileRow (T := 50) (Mb := 1000) (M := 50000) rfl t p) q : S50000x256.Idx) := by
  obtain ⟨e00, e01, -⟩ := idx_facts5 t
  funext ax; apply Fin.ext
  match ax with
  | ⟨0, _⟩ => show win5_0.index t (0 : Fin 2) * 1000 + 1 * p.val = t.val * 1000 + p.val; omega
  | ⟨1, _⟩ => show win5_0.index t (1 : Fin 2) * 256 + 1 * q.val = q.val; omega

/-- The same for the output's block. -/
theorem emb5_4 (t : Fin cfg5.N) (p : Fin 1000) (q : Fin 256) :
    ((cfg5.win 4).blk t).view.emb (ix2 p q : S1000x256.Idx)
      = (ix2 (Fns.tileRow (T := 50) (Mb := 1000) (M := 50000) rfl t p) q : S50000x256.Idx) := by
  obtain ⟨-, -, -, -, -, -, -, -, e40, e41⟩ := idx_facts5 t
  funext ax; apply Fin.ext
  match ax with
  | ⟨0, _⟩ => show win5_4.index t (0 : Fin 2) * 1000 + 1 * p.val = t.val * 1000 + p.val; omega
  | ⟨1, _⟩ => show win5_4.index t (1 : Fin 2) * 256 + 1 * q.val = q.val; omega

/-- A one-row window's block is the whole row: its entry (0, q) is the array's entry (0, q). -/
theorem emb5_1 (t : Fin cfg5.N) (q : Fin 256) :
    ((cfg5.win 1).blk t).view.emb (ix2 (0 : Fin 1) q : S1x256.Idx) = (ix2 (0 : Fin 1) q : S1x256.Idx) := by
  obtain ⟨-, -, e10, e11, -⟩ := idx_facts5 t
  funext ax; apply Fin.ext
  match ax with
  | ⟨0, _⟩ => show win5_1.index t (0 : Fin 2) * 1 + 1 * 0 = 0; omega
  | ⟨1, _⟩ => show win5_1.index t (1 : Fin 2) * 256 + 1 * q.val = q.val; omega

theorem emb5_2 (t : Fin cfg5.N) (q : Fin 256) :
    ((cfg5.win 2).blk t).view.emb (ix2 (0 : Fin 1) q : S1x256.Idx) = (ix2 (0 : Fin 1) q : S1x256.Idx) := by
  obtain ⟨-, -, -, -, e20, e21, -⟩ := idx_facts5 t
  funext ax; apply Fin.ext
  match ax with
  | ⟨0, _⟩ => show win5_2.index t (0 : Fin 2) * 1 + 1 * 0 = 0; omega
  | ⟨1, _⟩ => show win5_2.index t (1 : Fin 2) * 256 + 1 * q.val = q.val; omega

theorem emb5_3 (t : Fin cfg5.N) (q : Fin 256) :
    ((cfg5.win 3).blk t).view.emb (ix2 (0 : Fin 1) q : S1x256.Idx) = (ix2 (0 : Fin 1) q : S1x256.Idx) := by
  obtain ⟨-, -, -, -, -, -, e30, e31, -⟩ := idx_facts5 t
  funext ax; apply Fin.ext
  match ax with
  | ⟨0, _⟩ => show win5_3.index t (0 : Fin 2) * 1 + 1 * 0 = 0; omega
  | ⟨1, _⟩ => show win5_3.index t (1 : Fin 2) * 256 + 1 * q.val = q.val; omega

/-- The loaded block of rows, read at (p, q), is the array at (row p of tile t, q). -/
theorem blk5_0 (c : Dev nD) (a : Fns.Arr2 50000 256) (ha : V c (Pipeline.arrRef spec5 0) = a)
    (t : Fin cfg5.N) (p : Fin 1000) (q : Fin 256) :
    iblk5 V c 0 t (ix2 p q) = a (ix2 (Fns.tileRow (T := 50) (Mb := 1000) (M := 50000) rfl t p) q) := by
  show V c (Pipeline.arrRef spec5 0) (((cfg5.win 0).blk t).view.emb (ix2 p q : S1000x256.Idx)) = _
  rw [emb5_0, ha]

/-- The loaded one-row block of window 1, read at (0, q), is its array at (0, q). -/
theorem blk5_1 (c : Dev nD) (b : Fns.Arr2 1 256) (hb : V c (Pipeline.arrRef spec5 1) = b)
    (t : Fin cfg5.N) (q : Fin 256) :
    iblk5 V c 1 t (ix2 (0 : Fin 1) q) = b (ix2 (0 : Fin 1) q) := by
  show V c (Pipeline.arrRef spec5 1) (((cfg5.win 1).blk t).view.emb (ix2 (0 : Fin 1) q : S1x256.Idx)) = _
  rw [emb5_1, hb]

/-- The loaded one-row block of window 2, read at (0, q), is its array at (0, q). -/
theorem blk5_2 (c : Dev nD) (s : Fns.Arr2 1 256) (hs : V c (Pipeline.arrRef spec5 2) = s)
    (t : Fin cfg5.N) (q : Fin 256) :
    iblk5 V c 2 t (ix2 (0 : Fin 1) q) = s (ix2 (0 : Fin 1) q) := by
  show V c (Pipeline.arrRef spec5 2) (((cfg5.win 2).blk t).view.emb (ix2 (0 : Fin 1) q : S1x256.Idx)) = _
  rw [emb5_2, hs]

/-- The loaded one-row block of window 3, read at (0, q), is its array at (0, q). -/
theorem blk5_3 (c : Dev nD) (h : Fns.Arr2 1 256) (hh : V c (Pipeline.arrRef spec5 3) = h)
    (t : Fin cfg5.N) (q : Fin 256) :
    iblk5 V c 3 t (ix2 (0 : Fin 1) q) = h (ix2 (0 : Fin 1) q) := by
  show V c (Pipeline.arrRef spec5 3) (((cfg5.win 3).blk t).view.emb (ix2 (0 : Fin 1) q : S1x256.Idx)) = _
  rw [emb5_3, hh]

/-- What the body leaves in the output's buffer at tile t, read at (p, q): the whole-array function at (row p of tile t, q). -/
theorem body5_4_eq (c : Dev nD) (a : Fns.Arr2 50000 256) (b s h : Fns.Arr2 1 256)
    (ha : V c (Pipeline.arrRef spec5 0) = a) (hb : V c (Pipeline.arrRef spec5 1) = b)
    (hs : V c (Pipeline.arrRef spec5 2) = s) (hh : V c (Pipeline.arrRef spec5 3) = h) (t : Fin cfg5.N)
    (p : Fin 1000) (q : Fin 256) :
    k5_pay1 (iblk5 V c 0 t) (iblk5 V c 1 t) (iblk5 V c 2 t) (iblk5 V c 3 t) (ix2 p q)
      = Fns.affRow 50000 256 Fns.relu a b s h (ix2 (Fns.tileRow (T := 50) (Mb := 1000) (M := 50000) rfl t p) q) := by
  rw [pay5_ix2, blk5_0 V c a ha t p q, blk5_1 V c b hb t q, blk5_2 V c s hs t q, blk5_3 V c h hh t q,
    Fns.affRow_ix2]
  rfl

/-- What tile t writes back is block t of the whole-array function. -/
theorem flushed5_4_eq (c : Dev nD) (a : Fns.Arr2 50000 256) (b s h : Fns.Arr2 1 256)
    (ha : V c (Pipeline.arrRef spec5 0) = a) (hb : V c (Pipeline.arrRef spec5 1) = b)
    (hs : V c (Pipeline.arrRef spec5 2) = s) (hh : V c (Pipeline.arrRef spec5 3) = h) (t : Fin cfg5.N) :
    (Gen.dat5 (F := Ideal) V c).flushed 4 t
      = ((cfg5.win 4).blk t).view.read (Elt Ideal) (Fns.affRow 50000 256 Fns.relu a b s h) := by
  show (cfg5.win 4).cut (grid5.coords t) ((dat5 V c).after 4 t) = _
  rw [after5_4]
  unfold out5_4
  rw [View.canon_unit_zero hz2]
  simp only [View.ld_unit_zero (S := S1000x256) hz2, View.ld_unit_zero (S := S1x256) hz2]
  funext j
  revert j
  show ∀ j : S1000x256.Idx, k5_pay1 (iblk5 V c 0 t) (iblk5 V c 1 t) (iblk5 V c 2 t) (iblk5 V c 3 t) j
    = Fns.affRow 50000 256 Fns.relu a b s h (((cfg5.win 4).blk t).view.emb j)
  intro j
  obtain ⟨p, q, rfl⟩ : ∃ (p : Fin 1000) (q : Fin 256), j = ix2 p q := ⟨j 0, j 1, eq_ix2 j⟩
  rw [emb5_4]
  exact body5_4_eq V c a b s h ha hb hs hh t p q

/-- An index of the output array is in tile t's block iff each coordinate is in the block's range on its axis. -/
theorem mem_blk5_4 (t : Fin cfg5.N) (i : S50000x256.Idx) :
    i ∈ ((cfg5.win 4).blk t).view.set ↔ ∀ ax : Fin 2, win5_4.index t ax * S1000x256.size ax ≤ (i ax).val
      ∧ (i ax).val < win5_4.index t ax * S1000x256.size ax + S1000x256.size ax := by
  show i ∈ ((View.whole (cfg5.win 4).arr.view.ref).slice (win5_4.rect t)).set ↔ _
  rw [View.set_slice_whole, Rect.mem_set_unit]
  exact Iff.rfl

/-- Every index of the output array is in the block of the tile that holds its row. -/
theorem covered5_4 (i : S50000x256.Idx) :
    ∃ t : Fin cfg5.N, (cfg5.win 4).flush t = true ∧ i ∈ ((cfg5.win 4).blk t).view.set := by
  have hi0 : (i 0).val < 50000 := (i 0).isLt
  have hi1 : (i 1).val < 256 := (i 1).isLt
  have hlt : (i 0).val / 1000 < 50 := by omega
  obtain ⟨t, ht⟩ : ∃ t : Fin cfg5.N, t.val = (i 0).val / 1000 := ⟨⟨(i 0).val / 1000, hlt⟩, rfl⟩
  refine ⟨t, flush5_4 t, ?_⟩
  rw [mem_blk5_4]
  obtain ⟨-, -, -, -, -, -, -, -, e40, e41⟩ := idx_facts5 t
  intro ax
  match ax with
  | ⟨0, _⟩ =>
    show win5_4.index t (0 : Fin 2) * 1000 ≤ (i 0).val ∧ (i 0).val < win5_4.index t (0 : Fin 2) * 1000 + 1000
    omega
  | ⟨1, _⟩ =>
    show win5_4.index t (1 : Fin 2) * 256 ≤ (i 1).val ∧ (i 1).val < win5_4.index t (1 : Fin 2) * 256 + 256
    omega

/-- After the region the output array is the whole-array function of the region's input arrays. -/
theorem value5_4 (c : Dev nD) (a : Fns.Arr2 50000 256) (b s h : Fns.Arr2 1 256)
    (ha : V c (Pipeline.arrRef spec5 0) = a) (hb : V c (Pipeline.arrRef spec5 1) = b)
    (hs : V c (Pipeline.arrRef spec5 2) = s) (hh : V c (Pipeline.arrRef spec5 3) = h) :
    (Gen.dat5 (F := Ideal) V c).arrAt 4 cfg5.N = Fns.affRow 50000 256 Fns.relu a b s h :=
  (Gen.dat5 (F := Ideal) V c).arrAt_eq_of_cover 4 (Fns.affRow 50000 256 Fns.relu a b s h)
    (fun t _ => flushed5_4_eq V c a b s h ha hb hs hh t) covered5_4

end Cert.KernelIdeal.RegionValue

end
-- ==== Proof.Region6.lean ====
/-
  Region 6 of the pipelined program: a product whose rows are scaled by a column, as one whole-array function.

  The region cuts the 50000 rows into 50 blocks of 1000 rows.  At grid point t it loads rows 1000 t .. 1000 t + 999 of x (all
  256 columns), w whole (256 x 256), and the same rows of the one-column array d, and stores, at the same rows of the
  output (all 256 columns), the product of the loaded blocks with row p scaled by d (p, 0): the rounding of the factors
  to a narrower format is the identity at the extended reals, the product into a zero accumulator is the sum over the
  256 inner positions, and the broadcast of the column reads its entry in the row.  A block of rows of the product depends
  only on the same rows of x and of d, so each stored block is the block of x w scaled by d, and the 50 blocks cover the
  array: the output ends as mmScale x w d.
-/
import proofs.«155788_j3092376453711_2_alg».proof.Proof.Fns
import proofs.«155788_j3092376453711_2_alg».proof.Proof.MatmulBlocks
import proofs.«155788_j3092376453711_2_alg».proof.Proof.LibDotIx2
import proofs.«155788_j3092376453711_2_alg».proof.Proof.LibKeepdims
import proofs.«155788_j3092376453711_2_alg».proof.Proof.Gen.KernelIdeal.Frame
import Idealize.ShloMosaic.Lib.Pipeline.Value

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The product's dimension numbers are those of a plain 1000 x 256 by 256 x 256 product -/

theorem plainDot6 : PlainDot dot_S1000x256_S256x256_S1000x256_1_0_0_1_n_n where
  rank := rfl
  size := rfl
  l0 := fun j q => by
    simp [DotDims.lhsIdx, dot_S1000x256_S256x256_S1000x256_1_0_0_1_n_n]; rfl
  l1 := fun j q => (dot_S1000x256_S256x256_S1000x256_1_0_0_1_n_n).lhsIdx_val_of_single (cl := 1) rfl j q
  r0 := fun j q => (dot_S1000x256_S256x256_S1000x256_1_0_0_1_n_n).rhsIdx_val_of_single (cr := 0) rfl j q
  r1 := fun j q => by
    simp [DotDims.rhsIdx, dot_S1000x256_S256x256_S1000x256_1_0_0_1_n_n]; rfl

/-! ## What the body stores, at a row and a column -/

/-- The stored block at (p, q): the sum over the inner position of the loaded blocks' products, times the loaded
    column's entry in row p. -/
theorem pay6_ix2 (x0 : Vec Ideal S1000x256 .f32) (x1 : Vec Ideal S256x256 .f32) (x2 : Vec Ideal S1000x1 .f32)
    (p : Fin 1000) (q : Fin 256) :
    k6_pay1 x0 x1 x2 (ix2 p q) = (∑ k : Fin 256, x0 (ix2 p k) * x1 (ix2 k q)) * x2 (ix2 p (0 : Fin 1)) := by
  unfold k6_pay1
  rw [mulf_apply, broadcastTo_a1_ab_apply]
  simp only [shapeCast_self]
  exact congrArg (· * x2 (ix2 p (0 : Fin 1))) (matmul_zero_ix2_any plainDot6 none _ _ p q)

/-! ## The windows' block indices over the grid -/

/-- The printed index maps, decided over the 50 points: x, d and the output are at block (t, 0), w at block (0, 0). -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-! ## What a point writes back is a block of the whole-array function -/

/-- What point t writes back to the output: rows 1000 t .. 1000 t + 999 of mmScale of the arrays as the region finds them. -/
theorem flushed6_3_eq (c : Dev nD) (t : Fin cfg6.N) :
    (dat6 (F := Ideal) V c).flushed 3 t
      = ((cfg6.win 3).blk t).view.read (Elt Ideal)
          (Fns.mmScale 50000 256 256 (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz2]
  simp only [View.ld_unit_zero (S := S1000x256) hz2, View.ld_unit_zero (S := S256x256) hz2, View.ld_unit_zero (S := S1000x1) hz2]
  obtain ⟨e00, e01, e10, e11, e20, e21, e30, e31⟩ := idx_facts6 t
  funext j
  exact Fns.blk_mmScale (Mb := 1000) (M := 50000) (K := 256) (N := 256)
    (k6_pay1 (iblk6 V c 0 t) (iblk6 V c 1 t) (iblk6 V c 2 t)) (iblk6 V c 0 t) (iblk6 V c 1 t) (iblk6 V c 2 t)
    (pay6_ix2 (iblk6 V c 0 t) (iblk6 V c 1 t) (iblk6 V c 2 t))
    (V c (Pipeline.arrRef spec6 0)) (V c (Pipeline.arrRef spec6 1)) (V c (Pipeline.arrRef spec6 2))
    (fun y => ((cfg6.win 0).blk t).view.emb y) (fun y => ((cfg6.win 1).blk t).view.emb y)
    (fun y => ((cfg6.win 2).blk t).view.emb y) (fun y => ((cfg6.win 3).blk t).view.emb y)
    (fun y => rfl) (fun y => rfl) (fun y => rfl) (t.val * 1000)
    (fun y => by show win6_0.index t (0 : Fin 2) * 1000 + 1 * (y 0).val = _; rw [e00]; omega)
    (fun y => by show win6_0.index t (1 : Fin 2) * 256 + 1 * (y 1).val = _; rw [e01]; omega)
    (fun y => by show win6_1.index t (0 : Fin 2) * 256 + 1 * (y 0).val = _; rw [e10]; omega)
    (fun y => by show win6_1.index t (1 : Fin 2) * 256 + 1 * (y 1).val = _; rw [e11]; omega)
    (fun y => by show win6_2.index t (0 : Fin 2) * 1000 + 1 * (y 0).val = _; rw [e20]; omega)
    (fun y => by show win6_3.index t (0 : Fin 2) * 1000 + 1 * (y 0).val = _; rw [e30]; omega)
    (fun y => by show win6_3.index t (1 : Fin 2) * 256 + 1 * (y 1).val = _; rw [e31]; omega)
    j

/-! ## The blocks cover the output -/

/-- An index of the output is in point t's block iff each coordinate is in the block's range on its axis. -/
theorem mem_blk6_3 (t : Fin cfg6.N) (i : S50000x256.Idx) :
    i ∈ ((cfg6.win 3).blk t).view.set
      ↔ ∀ a : Fin 2, win6_3.index t a * S1000x256.size a ≤ (i a).val ∧ (i a).val < win6_3.index t a * S1000x256.size a + S1000x256.size a := by
  show i ∈ ((View.whole main_v86).slice (win6_3.rect t)).set ↔ _
  rw [View.set_slice_whole, Rect.mem_set_unit]
  exact Iff.rfl

/-- Row r is in the block of point r / 1000. -/
theorem rows_covered6 (i : S50000x256.Idx) :
    ∃ t : Fin cfg6.N, (cfg6.win 3).flush t = true ∧ i ∈ ((cfg6.win 3).blk t).view.set := by
  have hN : cfg6.N = 50 := N_6
  have hi0 : (i 0).val < 50000 := (i 0).isLt
  have hi1 : (i 1).val < 256 := (i 1).isLt
  refine ⟨⟨(i 0).val / 1000, by rw [hN]; omega⟩, flush6_3 _, ?_⟩
  obtain ⟨-, -, -, -, -, -, e30, e31⟩ := idx_facts6 ⟨(i 0).val / 1000, by rw [hN]; omega⟩
  rw [mem_blk6_3]
  intro a
  match a with
  | ⟨0, _⟩ =>
    show win6_3.index _ (0 : Fin 2) * 1000 ≤ (i 0).val ∧ (i 0).val < win6_3.index _ (0 : Fin 2) * 1000 + 1000
    rw [e30]
    show (i 0).val / 1000 * 1000 ≤ (i 0).val ∧ (i 0).val < (i 0).val / 1000 * 1000 + 1000
    omega
  | ⟨1, _⟩ =>
    show win6_3.index _ (1 : Fin 2) * 256 ≤ (i 1).val ∧ (i 1).val < win6_3.index _ (1 : Fin 2) * 256 + 256
    rw [e31]
    omega

/-! ## The output after the region's run -/

/-- The output array after the run of region 6: the product of the input arrays with row p scaled by d (p, 0). -/
theorem value6_3 (c : Dev nD) (x : Fns.Arr2 50000 256) (w : Fns.Arr2 256 256) (d : Fns.Arr2 50000 1)
    (hx : V c (Pipeline.arrRef spec6 0) = x) (hw : V c (Pipeline.arrRef spec6 1) = w)
    (hd : V c (Pipeline.arrRef spec6 2) = d) :
    (dat6 (F := Ideal) V c).arrAt 3 cfg6.N = Fns.mmScale 50000 256 256 x w d := by
  subst hx hw hd
  exact (dat6 (F := Ideal) V c).arrAt_eq_of_cover 3 _ (fun t _ => flushed6_3_eq V c t) rows_covered6

end Cert.KernelIdeal.RegionValue

end
-- ==== Proof.Region7.lean ====
/-
  Region 7 of the pipelined program as one whole-array function of its input arrays.

  The region walks the rows in tiles; at a tile it reads the tile's rows of the first array and the whole of the
  one-row arrays, and writes one block of each output.  What a tile writes is the block of one function of the
  whole arrays; the tiles cover the output, so after the region the output array is that function.
-/
import proofs.«155788_j3092376453711_2_alg».proof.Proof.Fns
import proofs.«155788_j3092376453711_2_alg».proof.Proof.LibColReduce
import proofs.«155788_j3092376453711_2_alg».proof.Proof.Gen.KernelIdeal.Frame
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz3_7 : (![0, 0, 0] : Fin 3 → Nat) = fun _ => 0 := funext fun a => by fin_cases a <;> rfl

/-- The tile's pointwise stage at (p, q): the entry plus the bias of column q. -/
theorem k7_pay1_ix2 (x0 : Vec Ideal S1000x256 .f32) (x1 : Vec Ideal S1x256 .f32) (p : Fin 1000) (q : Fin 256) :
    k7_pay1 x0 x1 (ix2 p q) = x0 (ix2 p q) + x1 (ix2 (0 : Fin 1) q) := by
  unfold k7_pay1
  simp only [addf_apply, shapeCast_self, broadcastTo_1b_ab_apply]

/-- The lane sum over the tile's rows, at column q. -/
theorem colsum7 (src : FVec Ideal S1000x256 .f32) (q : Fin 256) :
    multiReduction .add [0] S256 src 0x00000000#32 reduces_S1000x256_S256 (.inl rfl) rfl (ix1 q)
      = ∑ r : Fin 1000, src (ix2 r q) :=
  multiReduction_add_col src _ _ _ _ q

/-- The first payload at (0, 0, q): the sum over the tile's rows of the pointwise stage. -/
theorem k7_pay2_ix3 (x0 : Vec Ideal S1000x256 .f32) (x1 : Vec Ideal S1x256 .f32) (u v : Fin 1) (q : Fin 256) :
    k7_pay2 x0 x1 (ix3 u v q) = ∑ r : Fin 1000, (x0 (ix2 r q) + x1 (ix2 (0 : Fin 1) q)) := by
  unfold k7_pay2
  simp only [shapeCast_ab_1ab_apply, shapeCast_a_1a_apply]
  exact (colsum7 _ q).trans (Finset.sum_congr rfl fun r _ => k7_pay1_ix2 x0 x1 r q)

/-- The second payload at (0, 0, q): the sum over the tile's rows of the square of the pointwise stage. -/
theorem k7_pay3_ix3 (x0 : Vec Ideal S1000x256 .f32) (x1 : Vec Ideal S1x256 .f32) (u v : Fin 1) (q : Fin 256) :
    k7_pay3 x0 x1 (ix3 u v q) = ∑ r : Fin 1000, (x0 (ix2 r q) + x1 (ix2 (0 : Fin 1) q)) * (x0 (ix2 r q) + x1 (ix2 (0 : Fin 1) q)) := by
  unfold k7_pay3
  simp only [shapeCast_ab_1ab_apply, shapeCast_a_1a_apply]
  exact (colsum7 _ q).trans (Finset.sum_congr rfl fun r _ => by rw [mulf_apply, k7_pay1_ix2])

/-- The block indices of the windows at a tile, decided over the 50 tiles: the row window and the two outputs sit at
    tile t on their first axis and at 0 on the others; the one-row window at block (0, 0). -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 3) = t.val ∧ win7_2.index t (1 : Fin 3) = 0 ∧ win7_2.index t (2 : Fin 3) = 0
    ∧ win7_3.index t (0 : Fin 3) = t.val ∧ win7_3.index t (1 : Fin 3) = 0 ∧ win7_3.index t (2 : Fin 3) = 0 :=
  (by decide +kernel : ∀ t : Fin grid7.N, _)

/-- Entry (p, q) of tile t's block of the input rows is entry (row p of tile t, q) of the array. -/
theorem emb7_0 (t : Fin cfg7.N) (p : Fin 1000) (q : Fin 256) :
    ((cfg7.win 0).blk t).view.emb (ix2 p q : S1000x256.Idx)
      = (ix2 (Fns.tileRow (T := 50) (Mb := 1000) (M := 50000) rfl t p) q : S50000x256.Idx) := by
  obtain ⟨e00, e01, -⟩ := idx_facts7 t
  funext ax; apply Fin.ext
  match ax with
  | ⟨0, _⟩ => show win7_0.index t (0 : Fin 2) * 1000 + 1 * p.val = t.val * 1000 + p.val; omega
  | ⟨1, _⟩ => show win7_0.index t (1 : Fin 2) * 256 + 1 * q.val = q.val; omega

/-- The one-row window's block is the whole row: its entry (0, q) is the array's entry (0, q). -/
theorem emb7_1 (t : Fin cfg7.N) (q : Fin 256) :
    ((cfg7.win 1).blk t).view.emb (ix2 (0 : Fin 1) q : S1x256.Idx) = (ix2 (0 : Fin 1) q : S1x256.Idx) := by
  obtain ⟨-, -, e10, e11, -⟩ := idx_facts7 t
  funext ax; apply Fin.ext
  match ax with
  | ⟨0, _⟩ => show win7_1.index t (0 : Fin 2) * 1 + 1 * 0 = 0; omega
  | ⟨1, _⟩ => show win7_1.index t (1 : Fin 2) * 256 + 1 * q.val = q.val; omega

/-- An output block's entry (0, 0, q) at tile t is the array's entry (t, 0, q). -/
theorem emb7_2 (t : Fin cfg7.N) (u v : Fin 1) (q : Fin 256) :
    ((cfg7.win 2).blk t).view.emb (ix3 u v q : S1x1x256.Idx)
      = (ix3 (n0 := 50) t (0 : Fin 1) q : S50x1x256.Idx) := by
  obtain ⟨-, -, -, -, e20, e21, e22, e30, e31, e32⟩ := idx_facts7 t
  have hu : u.val < 1 := u.isLt
  have hv : v.val < 1 := v.isLt
  funext ax; apply Fin.ext
  match ax with
  | ⟨0, _⟩ => show win7_2.index t (0 : Fin 3) * 1 + 1 * u.val = t.val; omega
  | ⟨1, _⟩ => show win7_2.index t (1 : Fin 3) * 1 + 1 * v.val = 0; omega
  | ⟨2, _⟩ => show win7_2.index t (2 : Fin 3) * 256 + 1 * q.val = q.val; omega

theorem emb7_3 (t : Fin cfg7.N) (u v : Fin 1) (q : Fin 256) :
    ((cfg7.win 3).blk t).view.emb (ix3 u v q : S1x1x256.Idx)
      = (ix3 (n0 := 50) t (0 : Fin 1) q : S50x1x256.Idx) := by
  obtain ⟨-, -, -, -, e20, e21, e22, e30, e31, e32⟩ := idx_facts7 t
  have hu : u.val < 1 := u.isLt
  have hv : v.val < 1 := v.isLt
  funext ax; apply Fin.ext
  match ax with
  | ⟨0, _⟩ => show win7_3.index t (0 : Fin 3) * 1 + 1 * u.val = t.val; omega
  | ⟨1, _⟩ => show win7_3.index t (1 : Fin 3) * 1 + 1 * v.val = 0; omega
  | ⟨2, _⟩ => show win7_3.index t (2 : Fin 3) * 256 + 1 * q.val = q.val; omega

/-- The loaded block of rows, read at (r, q), is the array at (row r of tile t, q). -/
theorem blk7_0 (c : Dev nD) (a : Fns.Arr2 50000 256) (ha : V c (Pipeline.arrRef spec7 0) = a)
    (t : Fin cfg7.N) (r : Fin 1000) (q : Fin 256) :
    iblk7 V c 0 t (ix2 r q) = a (ix2 (Fns.tileRow (T := 50) (Mb := 1000) (M := 50000) rfl t r) q) := by
  show V c (Pipeline.arrRef spec7 0) (((cfg7.win 0).blk t).view.emb (ix2 r q : S1000x256.Idx)) = _
  rw [emb7_0, ha]

/-- The loaded bias row, read at (0, q), is the array at (0, q). -/
theorem blk7_1 (c : Dev nD) (b : Fns.Arr2 1 256) (hb : V c (Pipeline.arrRef spec7 1) = b)
    (t : Fin cfg7.N) (q : Fin 256) :
    iblk7 V c 1 t (ix2 (0 : Fin 1) q) = b (ix2 (0 : Fin 1) q) := by
  show V c (Pipeline.arrRef spec7 1) (((cfg7.win 1).blk t).view.emb (ix2 (0 : Fin 1) q : S1x256.Idx)) = _
  rw [emb7_1, hb]

/-- What tile t writes back to the array of the column sums is block t of the whole-array function. -/
theorem flushed7_2_eq (c : Dev nD) (a : Fns.Arr2 50000 256) (b : Fns.Arr2 1 256)
    (ha : V c (Pipeline.arrRef spec7 0) = a) (hb : V c (Pipeline.arrRef spec7 1) = b) (t : Fin cfg7.N) :
    (Gen.dat7 (F := Ideal) V c).flushed 2 t
      = ((cfg7.win 2).blk t).view.read (Elt Ideal) (Fns.tileColSum 50 1000 50000 256 rfl id a b) := by
  show (cfg7.win 2).cut (grid7.coords t) ((dat7 V c).after 2 t) = _
  rw [after7_2]
  unfold out7_2
  rw [View.canon_unit_zero hz3_7]
  simp only [View.ld_unit_zero (S := S1000x256) hz2, View.ld_unit_zero (S := S1x256) hz2]
  funext j
  revert j
  show ∀ j : S1x1x256.Idx, k7_pay2 (iblk7 V c 0 t) (iblk7 V c 1 t) j
    = Fns.tileColSum 50 1000 50000 256 rfl id a b (((cfg7.win 2).blk t).view.emb j)
  intro j
  obtain ⟨u, v, q, rfl⟩ : ∃ (u v : Fin 1) (q : Fin 256), j = ix3 u v q := ⟨j 0, j 1, j 2, eq_ix3 j⟩
  rw [k7_pay2_ix3, emb7_2]
  refine Eq.trans (Finset.sum_congr rfl fun r _ => ?_) (Fns.tileColSum_ix3 50 1000 50000 256 rfl id a b t q).symm
  rw [blk7_0 V c a ha t r q, blk7_1 V c b hb t q]
  rfl

/-- An index of that array is in tile t's block iff each coordinate is in the block's range on its axis. -/
theorem mem_blk7_2 (t : Fin cfg7.N) (i : S50x1x256.Idx) :
    i ∈ ((cfg7.win 2).blk t).view.set ↔ ∀ ax : Fin 3, win7_2.index t ax * S1x1x256.size ax ≤ (i ax).val
      ∧ (i ax).val < win7_2.index t ax * S1x1x256.size ax + S1x1x256.size ax := by
  show i ∈ ((View.whole (cfg7.win 2).arr.view.ref).slice (win7_2.rect t)).set ↔ _
  rw [View.set_slice_whole, Rect.mem_set_unit]
  exact Iff.rfl

/-- Every index of that array is in the block of the tile its first coordinate names. -/
theorem covered7_2 (i : S50x1x256.Idx) :
    ∃ t : Fin cfg7.N, (cfg7.win 2).flush t = true ∧ i ∈ ((cfg7.win 2).blk t).view.set := by
  have hi0 : (i 0).val < 50 := (i 0).isLt
  have hi1 : (i 1).val < 1 := (i 1).isLt
  have hi2 : (i 2).val < 256 := (i 2).isLt
  obtain ⟨t, ht⟩ : ∃ t : Fin cfg7.N, t.val = (i 0).val := ⟨⟨(i 0).val, hi0⟩, rfl⟩
  refine ⟨t, flush7_2 t, ?_⟩
  rw [mem_blk7_2]
  obtain ⟨-, -, -, -, e20, e21, e22, e30, e31, e32⟩ := idx_facts7 t
  intro ax
  match ax with
  | ⟨0, _⟩ =>
    show win7_2.index t (0 : Fin 3) * 1 ≤ (i 0).val ∧ (i 0).val < win7_2.index t (0 : Fin 3) * 1 + 1
    omega
  | ⟨1, _⟩ =>
    show win7_2.index t (1 : Fin 3) * 1 ≤ (i 1).val ∧ (i 1).val < win7_2.index t (1 : Fin 3) * 1 + 1
    omega
  | ⟨2, _⟩ =>
    show win7_2.index t (2 : Fin 3) * 256 ≤ (i 2).val ∧ (i 2).val < win7_2.index t (2 : Fin 3) * 256 + 256
    omega

/-- After the region the array of the column sums is the whole-array function of the region's input arrays. -/
theorem value7_2 (c : Dev nD) (a : Fns.Arr2 50000 256) (b : Fns.Arr2 1 256)
    (ha : V c (Pipeline.arrRef spec7 0) = a) (hb : V c (Pipeline.arrRef spec7 1) = b) :
    (Gen.dat7 (F := Ideal) V c).arrAt 2 cfg7.N = Fns.tileColSum 50 1000 50000 256 rfl id a b :=
  (Gen.dat7 (F := Ideal) V c).arrAt_eq_of_cover 2 (Fns.tileColSum 50 1000 50000 256 rfl id a b)
    (fun t _ => flushed7_2_eq V c a b ha hb t) covered7_2

/-- What tile t writes back to the array of the column sums of squares is block t of the whole-array function. -/
theorem flushed7_3_eq (c : Dev nD) (a : Fns.Arr2 50000 256) (b : Fns.Arr2 1 256)
    (ha : V c (Pipeline.arrRef spec7 0) = a) (hb : V c (Pipeline.arrRef spec7 1) = b) (t : Fin cfg7.N) :
    (Gen.dat7 (F := Ideal) V c).flushed 3 t
      = ((cfg7.win 3).blk t).view.read (Elt Ideal) (Fns.tileColSum 50 1000 50000 256 rfl (Fns.sqOf id) a b) := by
  show (cfg7.win 3).cut (grid7.coords t) ((dat7 V c).after 3 t) = _
  rw [after7_3]
  unfold out7_3
  rw [View.canon_unit_zero hz3_7]
  simp only [View.ld_unit_zero (S := S1000x256) hz2, View.ld_unit_zero (S := S1x256) hz2]
  funext j
  revert j
  show ∀ j : S1x1x256.Idx, k7_pay3 (iblk7 V c 0 t) (iblk7 V c 1 t) j
    = Fns.tileColSum 50 1000 50000 256 rfl (Fns.sqOf id) a b (((cfg7.win 3).blk t).view.emb j)
  intro j
  obtain ⟨u, v, q, rfl⟩ : ∃ (u v : Fin 1) (q : Fin 256), j = ix3 u v q := ⟨j 0, j 1, j 2, eq_ix3 j⟩
  rw [k7_pay3_ix3, emb7_3]
  refine Eq.trans (Finset.sum_congr rfl fun r _ => ?_) (Fns.tileColSum_ix3 50 1000 50000 256 rfl (Fns.sqOf id) a b t q).symm
  rw [blk7_0 V c a ha t r q, blk7_1 V c b hb t q]
  rfl

/-- An index of that array is in tile t's block iff each coordinate is in the block's range on its axis. -/
theorem mem_blk7_3 (t : Fin cfg7.N) (i : S50x1x256.Idx) :
    i ∈ ((cfg7.win 3).blk t).view.set ↔ ∀ ax : Fin 3, win7_3.index t ax * S1x1x256.size ax ≤ (i ax).val
      ∧ (i ax).val < win7_3.index t ax * S1x1x256.size ax + S1x1x256.size ax := by
  show i ∈ ((View.whole (cfg7.win 3).arr.view.ref).slice (win7_3.rect t)).set ↔ _
  rw [View.set_slice_whole, Rect.mem_set_unit]
  exact Iff.rfl

/-- Every index of that array is in the block of the tile its first coordinate names. -/
theorem covered7_3 (i : S50x1x256.Idx) :
    ∃ t : Fin cfg7.N, (cfg7.win 3).flush t = true ∧ i ∈ ((cfg7.win 3).blk t).view.set := by
  have hi0 : (i 0).val < 50 := (i 0).isLt
  have hi1 : (i 1).val < 1 := (i 1).isLt
  have hi2 : (i 2).val < 256 := (i 2).isLt
  obtain ⟨t, ht⟩ : ∃ t : Fin cfg7.N, t.val = (i 0).val := ⟨⟨(i 0).val, hi0⟩, rfl⟩
  refine ⟨t, flush7_3 t, ?_⟩
  rw [mem_blk7_3]
  obtain ⟨-, -, -, -, e20, e21, e22, e30, e31, e32⟩ := idx_facts7 t
  intro ax
  match ax with
  | ⟨0, _⟩ =>
    show win7_3.index t (0 : Fin 3) * 1 ≤ (i 0).val ∧ (i 0).val < win7_3.index t (0 : Fin 3) * 1 + 1
    omega
  | ⟨1, _⟩ =>
    show win7_3.index t (1 : Fin 3) * 1 ≤ (i 1).val ∧ (i 1).val < win7_3.index t (1 : Fin 3) * 1 + 1
    omega
  | ⟨2, _⟩ =>
    show win7_3.index t (2 : Fin 3) * 256 ≤ (i 2).val ∧ (i 2).val < win7_3.index t (2 : Fin 3) * 256 + 256
    omega

/-- After the region the array of the column sums of squares is the whole-array function of the region's input arrays. -/
theorem value7_3 (c : Dev nD) (a : Fns.Arr2 50000 256) (b : Fns.Arr2 1 256)
    (ha : V c (Pipeline.arrRef spec7 0) = a) (hb : V c (Pipeline.arrRef spec7 1) = b) :
    (Gen.dat7 (F := Ideal) V c).arrAt 3 cfg7.N = Fns.tileColSum 50 1000 50000 256 rfl (Fns.sqOf id) a b :=
  (Gen.dat7 (F := Ideal) V c).arrAt_eq_of_cover 3 (Fns.tileColSum 50 1000 50000 256 rfl (Fns.sqOf id) a b)
    (fun t _ => flushed7_3_eq V c a b ha hb t) covered7_3

end Cert.KernelIdeal.RegionValue

end
-- ==== Proof.Region8.lean ====
/-
  Region 8 of the pipelined program as one whole-array function of its input arrays.

  The region walks the rows in tiles; at a tile it reads the tile's rows of the first array and the whole of the
  one-row arrays, and writes one block of each output.  What a tile writes is the block of one function of the
  whole arrays; the tiles cover the output, so after the region the output array is that function.
-/
import proofs.«155788_j3092376453711_2_alg».proof.Proof.Fns
import proofs.«155788_j3092376453711_2_alg».proof.Proof.Gen.KernelIdeal.Frame
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The tile's payload at (p, q): the entry plus the bias, scaled and shifted by column q. -/
theorem pay8_ix2 (x0 : Vec Ideal S1000x256 .f32) (x1 x2 x3 : Vec Ideal S1x256 .f32) (p : Fin 1000) (q : Fin 256) :
    k8_pay1 x0 x1 x2 x3 (ix2 p q)
      = (x0 (ix2 p q) + x1 (ix2 (0 : Fin 1) q)) * x2 (ix2 (0 : Fin 1) q) + x3 (ix2 (0 : Fin 1) q) := by
  unfold k8_pay1
  simp only [addf_apply, mulf_apply, shapeCast_self, broadcastTo_1b_ab_apply]

/-- The block indices of the windows at a tile, decided over the 50 tiles: the row windows sit at tile t, column block 0;
    the one-row windows at block (0, 0). -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- Entry (p, q) of tile t's block of the input rows is entry (row p of tile t, q) of the array. -/
theorem emb8_0 (t : Fin cfg8.N) (p : Fin 1000) (q : Fin 256) :
    ((cfg8.win 0).blk t).view.emb (ix2 p q : S1000x256.Idx)
      = (ix2 (Fns.tileRow (T := 50) (Mb := 1000) (M := 50000) rfl t p) q : S50000x256.Idx) := by
  obtain ⟨e00, e01, -⟩ := idx_facts8 t
  funext ax; apply Fin.ext
  match ax with
  | ⟨0, _⟩ => show win8_0.index t (0 : Fin 2) * 1000 + 1 * p.val = t.val * 1000 + p.val; omega
  | ⟨1, _⟩ => show win8_0.index t (1 : Fin 2) * 256 + 1 * q.val = q.val; omega

/-- The same for the output's block. -/
theorem emb8_4 (t : Fin cfg8.N) (p : Fin 1000) (q : Fin 256) :
    ((cfg8.win 4).blk t).view.emb (ix2 p q : S1000x256.Idx)
      = (ix2 (Fns.tileRow (T := 50) (Mb := 1000) (M := 50000) rfl t p) q : S50000x256.Idx) := by
  obtain ⟨-, -, -, -, -, -, -, -, e40, e41⟩ := idx_facts8 t
  funext ax; apply Fin.ext
  match ax with
  | ⟨0, _⟩ => show win8_4.index t (0 : Fin 2) * 1000 + 1 * p.val = t.val * 1000 + p.val; omega
  | ⟨1, _⟩ => show win8_4.index t (1 : Fin 2) * 256 + 1 * q.val = q.val; omega

/-- A one-row window's block is the whole row: its entry (0, q) is the array's entry (0, q). -/
theorem emb8_1 (t : Fin cfg8.N) (q : Fin 256) :
    ((cfg8.win 1).blk t).view.emb (ix2 (0 : Fin 1) q : S1x256.Idx) = (ix2 (0 : Fin 1) q : S1x256.Idx) := by
  obtain ⟨-, -, e10, e11, -⟩ := idx_facts8 t
  funext ax; apply Fin.ext
  match ax with
  | ⟨0, _⟩ => show win8_1.index t (0 : Fin 2) * 1 + 1 * 0 = 0; omega
  | ⟨1, _⟩ => show win8_1.index t (1 : Fin 2) * 256 + 1 * q.val = q.val; omega

theorem emb8_2 (t : Fin cfg8.N) (q : Fin 256) :
    ((cfg8.win 2).blk t).view.emb (ix2 (0 : Fin 1) q : S1x256.Idx) = (ix2 (0 : Fin 1) q : S1x256.Idx) := by
  obtain ⟨-, -, -, -, e20, e21, -⟩ := idx_facts8 t
  funext ax; apply Fin.ext
  match ax with
  | ⟨0, _⟩ => show win8_2.index t (0 : Fin 2) * 1 + 1 * 0 = 0; omega
  | ⟨1, _⟩ => show win8_2.index t (1 : Fin 2) * 256 + 1 * q.val = q.val; omega

theorem emb8_3 (t : Fin cfg8.N) (q : Fin 256) :
    ((cfg8.win 3).blk t).view.emb (ix2 (0 : Fin 1) q : S1x256.Idx) = (ix2 (0 : Fin 1) q : S1x256.Idx) := by
  obtain ⟨-, -, -, -, -, -, e30, e31, -⟩ := idx_facts8 t
  funext ax; apply Fin.ext
  match ax with
  | ⟨0, _⟩ => show win8_3.index t (0 : Fin 2) * 1 + 1 * 0 = 0; omega
  | ⟨1, _⟩ => show win8_3.index t (1 : Fin 2) * 256 + 1 * q.val = q.val; omega

/-- The loaded block of rows, read at (p, q), is the array at (row p of tile t, q). -/
theorem blk8_0 (c : Dev nD) (a : Fns.Arr2 50000 256) (ha : V c (Pipeline.arrRef spec8 0) = a)
    (t : Fin cfg8.N) (p : Fin 1000) (q : Fin 256) :
    iblk8 V c 0 t (ix2 p q) = a (ix2 (Fns.tileRow (T := 50) (Mb := 1000) (M := 50000) rfl t p) q) := by
  show V c (Pipeline.arrRef spec8 0) (((cfg8.win 0).blk t).view.emb (ix2 p q : S1000x256.Idx)) = _
  rw [emb8_0, ha]

/-- The loaded one-row block of window 1, read at (0, q), is its array at (0, q). -/
theorem blk8_1 (c : Dev nD) (b : Fns.Arr2 1 256) (hb : V c (Pipeline.arrRef spec8 1) = b)
    (t : Fin cfg8.N) (q : Fin 256) :
    iblk8 V c 1 t (ix2 (0 : Fin 1) q) = b (ix2 (0 : Fin 1) q) := by
  show V c (Pipeline.arrRef spec8 1) (((cfg8.win 1).blk t).view.emb (ix2 (0 : Fin 1) q : S1x256.Idx)) = _
  rw [emb8_1, hb]

/-- The loaded one-row block of window 2, read at (0, q), is its array at (0, q). -/
theorem blk8_2 (c : Dev nD) (s : Fns.Arr2 1 256) (hs : V c (Pipeline.arrRef spec8 2) = s)
    (t : Fin cfg8.N) (q : Fin 256) :
    iblk8 V c 2 t (ix2 (0 : Fin 1) q) = s (ix2 (0 : Fin 1) q) := by
  show V c (Pipeline.arrRef spec8 2) (((cfg8.win 2).blk t).view.emb (ix2 (0 : Fin 1) q : S1x256.Idx)) = _
  rw [emb8_2, hs]

/-- The loaded one-row block of window 3, read at (0, q), is its array at (0, q). -/
theorem blk8_3 (c : Dev nD) (h : Fns.Arr2 1 256) (hh : V c (Pipeline.arrRef spec8 3) = h)
    (t : Fin cfg8.N) (q : Fin 256) :
    iblk8 V c 3 t (ix2 (0 : Fin 1) q) = h (ix2 (0 : Fin 1) q) := by
  show V c (Pipeline.arrRef spec8 3) (((cfg8.win 3).blk t).view.emb (ix2 (0 : Fin 1) q : S1x256.Idx)) = _
  rw [emb8_3, hh]

/-- What the body leaves in the output's buffer at tile t, read at (p, q): the whole-array function at (row p of tile t, q). -/
theorem body8_4_eq (c : Dev nD) (a : Fns.Arr2 50000 256) (b s h : Fns.Arr2 1 256)
    (ha : V c (Pipeline.arrRef spec8 0) = a) (hb : V c (Pipeline.arrRef spec8 1) = b)
    (hs : V c (Pipeline.arrRef spec8 2) = s) (hh : V c (Pipeline.arrRef spec8 3) = h) (t : Fin cfg8.N)
    (p : Fin 1000) (q : Fin 256) :
    k8_pay1 (iblk8 V c 0 t) (iblk8 V c 1 t) (iblk8 V c 2 t) (iblk8 V c 3 t) (ix2 p q)
      = Fns.affRow 50000 256 id a b s h (ix2 (Fns.tileRow (T := 50) (Mb := 1000) (M := 50000) rfl t p) q) := by
  rw [pay8_ix2, blk8_0 V c a ha t p q, blk8_1 V c b hb t q, blk8_2 V c s hs t q, blk8_3 V c h hh t q,
    Fns.affRow_ix2]
  rfl

/-- What tile t writes back is block t of the whole-array function. -/
theorem flushed8_4_eq (c : Dev nD) (a : Fns.Arr2 50000 256) (b s h : Fns.Arr2 1 256)
    (ha : V c (Pipeline.arrRef spec8 0) = a) (hb : V c (Pipeline.arrRef spec8 1) = b)
    (hs : V c (Pipeline.arrRef spec8 2) = s) (hh : V c (Pipeline.arrRef spec8 3) = h) (t : Fin cfg8.N) :
    (Gen.dat8 (F := Ideal) V c).flushed 4 t
      = ((cfg8.win 4).blk t).view.read (Elt Ideal) (Fns.affRow 50000 256 id a b s h) := by
  show (cfg8.win 4).cut (grid8.coords t) ((dat8 V c).after 4 t) = _
  rw [after8_4]
  unfold out8_4
  rw [View.canon_unit_zero hz2]
  simp only [View.ld_unit_zero (S := S1000x256) hz2, View.ld_unit_zero (S := S1x256) hz2]
  funext j
  revert j
  show ∀ j : S1000x256.Idx, k8_pay1 (iblk8 V c 0 t) (iblk8 V c 1 t) (iblk8 V c 2 t) (iblk8 V c 3 t) j
    = Fns.affRow 50000 256 id a b s h (((cfg8.win 4).blk t).view.emb j)
  intro j
  obtain ⟨p, q, rfl⟩ : ∃ (p : Fin 1000) (q : Fin 256), j = ix2 p q := ⟨j 0, j 1, eq_ix2 j⟩
  rw [emb8_4]
  exact body8_4_eq V c a b s h ha hb hs hh t p q

/-- An index of the output array is in tile t's block iff each coordinate is in the block's range on its axis. -/
theorem mem_blk8_4 (t : Fin cfg8.N) (i : S50000x256.Idx) :
    i ∈ ((cfg8.win 4).blk t).view.set ↔ ∀ ax : Fin 2, win8_4.index t ax * S1000x256.size ax ≤ (i ax).val
      ∧ (i ax).val < win8_4.index t ax * S1000x256.size ax + S1000x256.size ax := by
  show i ∈ ((View.whole (cfg8.win 4).arr.view.ref).slice (win8_4.rect t)).set ↔ _
  rw [View.set_slice_whole, Rect.mem_set_unit]
  exact Iff.rfl

/-- Every index of the output array is in the block of the tile that holds its row. -/
theorem covered8_4 (i : S50000x256.Idx) :
    ∃ t : Fin cfg8.N, (cfg8.win 4).flush t = true ∧ i ∈ ((cfg8.win 4).blk t).view.set := by
  have hi0 : (i 0).val < 50000 := (i 0).isLt
  have hi1 : (i 1).val < 256 := (i 1).isLt
  have hlt : (i 0).val / 1000 < 50 := by omega
  obtain ⟨t, ht⟩ : ∃ t : Fin cfg8.N, t.val = (i 0).val / 1000 := ⟨⟨(i 0).val / 1000, hlt⟩, rfl⟩
  refine ⟨t, flush8_4 t, ?_⟩
  rw [mem_blk8_4]
  obtain ⟨-, -, -, -, -, -, -, -, e40, e41⟩ := idx_facts8 t
  intro ax
  match ax with
  | ⟨0, _⟩ =>
    show win8_4.index t (0 : Fin 2) * 1000 ≤ (i 0).val ∧ (i 0).val < win8_4.index t (0 : Fin 2) * 1000 + 1000
    omega
  | ⟨1, _⟩ =>
    show win8_4.index t (1 : Fin 2) * 256 ≤ (i 1).val ∧ (i 1).val < win8_4.index t (1 : Fin 2) * 256 + 256
    omega

/-- After the region the output array is the whole-array function of the region's input arrays. -/
theorem value8_4 (c : Dev nD) (a : Fns.Arr2 50000 256) (b s h : Fns.Arr2 1 256)
    (ha : V c (Pipeline.arrRef spec8 0) = a) (hb : V c (Pipeline.arrRef spec8 1) = b)
    (hs : V c (Pipeline.arrRef spec8 2) = s) (hh : V c (Pipeline.arrRef spec8 3) = h) :
    (Gen.dat8 (F := Ideal) V c).arrAt 4 cfg8.N = Fns.affRow 50000 256 id a b s h :=
  (Gen.dat8 (F := Ideal) V c).arrAt_eq_of_cover 4 (Fns.affRow 50000 256 id a b s h)
    (fun t _ => flushed8_4_eq V c a b s h ha hb hs hh t) covered8_4

end Cert.KernelIdeal.RegionValue

end
-- ==== Proof.Region9.lean ====
/-
  Region 9 of the pipelined program: a dense layer, as one whole-array function.

  The region has one grid point, whose blocks are the whole arrays: x (64 x 1280), w (1280 x 256), the bias row b (1 x 256),
  and the output (64 x 256).  The body stores the product of x and w plus the bias row broadcast over the rows: the
  rounding of the factors to a narrower format is the identity at the extended reals, the product into a zero
  accumulator is the sum over the 1280 inner positions, the broadcast of the row reads its entry in the column.  The one block covers the array, so the output ends as lin x w b.
-/
import proofs.«155788_j3092376453711_2_alg».proof.Proof.Fns
import proofs.«155788_j3092376453711_2_alg».proof.Proof.MatmulBlocks
import proofs.«155788_j3092376453711_2_alg».proof.Proof.LibDotIx2
import proofs.«155788_j3092376453711_2_alg».proof.Proof.Gen.KernelIdeal.Frame
import Idealize.ShloMosaic.Lib.Pipeline.Value
import Idealize.ShloMosaic.Lib.ValueLayout

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The product's dimension numbers are those of a plain 64 x 1280 by 1280 x 256 product -/

theorem plainDot9 : PlainDot dot_S64x1280_S1280x256_S64x256_1_0_0_1_n_n where
  rank := rfl
  size := rfl
  l0 := fun j q => by
    simp [DotDims.lhsIdx, dot_S64x1280_S1280x256_S64x256_1_0_0_1_n_n]; rfl
  l1 := fun j q => (dot_S64x1280_S1280x256_S64x256_1_0_0_1_n_n).lhsIdx_val_of_single (cl := 1) rfl j q
  r0 := fun j q => (dot_S64x1280_S1280x256_S64x256_1_0_0_1_n_n).rhsIdx_val_of_single (cr := 0) rfl j q
  r1 := fun j q => by
    simp [DotDims.rhsIdx, dot_S64x1280_S1280x256_S64x256_1_0_0_1_n_n]; rfl

/-! ## What the body stores, at a row and a column -/

/-- The stored block at (p, q): the sum over the inner position of the loaded blocks' products plus the bias
    row's entry in column q. -/
theorem pay9_ix2 (x0 : Vec Ideal S64x1280 .f32) (x1 : Vec Ideal S1280x256 .f32) (x2 : Vec Ideal S1x256 .f32)
    (p : Fin 64) (q : Fin 256) :
    k9_pay1 x0 x1 x2 (ix2 p q) = (∑ k : Fin 1280, x0 (ix2 p k) * x1 (ix2 k q)) + x2 (ix2 (0 : Fin 1) q) := by
  unfold k9_pay1
  rw [addf_apply, broadcastTo_1b_ab_apply]
  simp only [shapeCast_self]
  exact congrArg (· + x2 (ix2 (0 : Fin 1) q)) (matmul_zero_ix2_any plainDot9 none _ _ p q)

/-! ## The windows' block indices at the one grid point -/

/-- The printed index maps, decided over the grid: every window is at block (0, 0). -/
theorem idx_facts9 : ∀ t : Fin cfg9.N,
    win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0 :=
  (by decide +kernel : ∀ t : Fin grid9.N, _)

/-! ## What the point writes back is the whole-array function -/

/-- What the grid point writes back to the output: lin of the arrays as the region finds them, read through the
    output's one block. -/
theorem flushed9_3_eq (c : Dev nD) (t : Fin cfg9.N) :
    (dat9 (F := Ideal) V c).flushed 3 t
      = ((cfg9.win 3).blk t).view.read (Elt Ideal)
          (Fns.lin 64 1280 256 (V c (Pipeline.arrRef spec9 0)) (V c (Pipeline.arrRef spec9 1)) (V c (Pipeline.arrRef spec9 2))) := by
  show (cfg9.win 3).cut (grid9.coords t) ((dat9 V c).after 3 t) = _
  rw [after9_3]
  unfold out9_3
  rw [View.canon_unit_zero hz2]
  simp only [View.ld_unit_zero (S := S64x1280) hz2, View.ld_unit_zero (S := S1280x256) hz2, View.ld_unit_zero (S := S1x256) hz2]
  obtain ⟨e00, e01, e10, e11, e20, e21, e30, e31⟩ := idx_facts9 t
  funext j
  exact Fns.blk_lin (fun v => v) (Mb := 64) (M := 64) (K := 1280) (N := 256)
    (k9_pay1 (iblk9 V c 0 t) (iblk9 V c 1 t) (iblk9 V c 2 t)) (iblk9 V c 0 t) (iblk9 V c 1 t) (iblk9 V c 2 t)
    (pay9_ix2 (iblk9 V c 0 t) (iblk9 V c 1 t) (iblk9 V c 2 t))
    (V c (Pipeline.arrRef spec9 0)) (V c (Pipeline.arrRef spec9 1)) (V c (Pipeline.arrRef spec9 2))
    (fun y => ((cfg9.win 0).blk t).view.emb y) (fun y => ((cfg9.win 1).blk t).view.emb y)
    (fun y => ((cfg9.win 2).blk t).view.emb y) (fun y => ((cfg9.win 3).blk t).view.emb y)
    (fun y => rfl) (fun y => rfl) (fun y => rfl) 0
    (fun y => by show win9_0.index t (0 : Fin 2) * 64 + 1 * (y 0).val = _; rw [e00]; omega)
    (fun y => by show win9_0.index t (1 : Fin 2) * 1280 + 1 * (y 1).val = _; rw [e01]; omega)
    (fun y => by show win9_1.index t (0 : Fin 2) * 1280 + 1 * (y 0).val = _; rw [e10]; omega)
    (fun y => by show win9_1.index t (1 : Fin 2) * 256 + 1 * (y 1).val = _; rw [e11]; omega)
    (fun y => by show win9_2.index t (1 : Fin 2) * 256 + 1 * (y 1).val = _; rw [e21]; omega)
    (fun y => by show win9_3.index t (0 : Fin 2) * 64 + 1 * (y 0).val = _; rw [e30]; omega)
    (fun y => by show win9_3.index t (1 : Fin 2) * 256 + 1 * (y 1).val = _; rw [e31]; omega)
    j

/-! ## The one block covers the output -/

/-- An index of the output is in the point's block iff each coordinate is in the block's range on its axis. -/
theorem mem_blk9_3 (t : Fin cfg9.N) (i : S64x256.Idx) :
    i ∈ ((cfg9.win 3).blk t).view.set
      ↔ ∀ a : Fin 2, win9_3.index t a * S64x256.size a ≤ (i a).val ∧ (i a).val < win9_3.index t a * S64x256.size a + S64x256.size a := by
  show i ∈ ((View.whole main_v135).slice (win9_3.rect t)).set ↔ _
  rw [View.set_slice_whole, Rect.mem_set_unit]
  exact Iff.rfl

/-- Every index of the output is in the block of the one grid point. -/
theorem rows_covered9 (i : S64x256.Idx) :
    ∃ t : Fin cfg9.N, (cfg9.win 3).flush t = true ∧ i ∈ ((cfg9.win 3).blk t).view.set := by
  have hN : cfg9.N = 1 := N_9
  have hi0 : (i 0).val < 64 := (i 0).isLt
  have hi1 : (i 1).val < 256 := (i 1).isLt
  refine ⟨⟨0, by rw [hN]; omega⟩, flush9_3 _, ?_⟩
  obtain ⟨-, -, -, -, -, -, e30, e31⟩ := idx_facts9 ⟨0, by rw [hN]; omega⟩
  rw [mem_blk9_3]
  intro a
  match a with
  | ⟨0, _⟩ =>
    show win9_3.index _ (0 : Fin 2) * 64 ≤ (i 0).val ∧ (i 0).val < win9_3.index _ (0 : Fin 2) * 64 + 64
    rw [e30]
    omega
  | ⟨1, _⟩ =>
    show win9_3.index _ (1 : Fin 2) * 256 ≤ (i 1).val ∧ (i 1).val < win9_3.index _ (1 : Fin 2) * 256 + 256
    rw [e31]
    omega

/-! ## The output after the region's run -/

/-- The output array after the run of region 9: the product of x and w plus the bias row. -/
theorem value9_3 (c : Dev nD) (x : Fns.Arr2 64 1280) (w : Fns.Arr2 1280 256) (b : Fns.Arr2 1 256)
    (hx : V c (Pipeline.arrRef spec9 0) = x) (hw : V c (Pipeline.arrRef spec9 1) = w)
    (hb : V c (Pipeline.arrRef spec9 2) = b) :
    (dat9 (F := Ideal) V c).arrAt 3 cfg9.N = Fns.lin 64 1280 256 x w b := by
  subst hx hw hb
  exact (dat9 (F := Ideal) V c).arrAt_eq_of_cover 3 _ (fun t _ => flushed9_3_eq V c t) rows_covered9

end Cert.KernelIdeal.RegionValue

end
-- ==== Proof.Region10.lean ====
/-
  Region 10 of the pipelined program: a dense layer followed by the logistic function, as one whole-array function.

  The region has one grid point, whose blocks are the whole arrays: x (64 x 256), w (256 x 2752), the bias row b (1 x 2752),
  and the output (64 x 2752).  The body stores the product of x and w plus the bias row broadcast over the rows: the
  rounding of the factors to a narrower format is the identity at the extended reals, the product into a zero
  accumulator is the sum over the 256 inner positions, the broadcast of the row reads its entry in the column, and the logistic operation is the logistic function entry by entry.  The one block covers the array, so the output ends as linLogistic x w b.
-/
import proofs.«155788_j3092376453711_2_alg».proof.Proof.Fns
import proofs.«155788_j3092376453711_2_alg».proof.Proof.MatmulBlocks
import proofs.«155788_j3092376453711_2_alg».proof.Proof.LibDotIx2
import proofs.«155788_j3092376453711_2_alg».proof.Proof.Gen.KernelIdeal.Frame
import Idealize.ShloMosaic.Lib.Pipeline.Value
import Idealize.ShloMosaic.Lib.ValueLayout

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The product's dimension numbers are those of a plain 64 x 256 by 256 x 2752 product -/

theorem plainDot10 : PlainDot dot_S64x256_S256x2752_S64x2752_1_0_0_1_n_n where
  rank := rfl
  size := rfl
  l0 := fun j q => by
    simp [DotDims.lhsIdx, dot_S64x256_S256x2752_S64x2752_1_0_0_1_n_n]; rfl
  l1 := fun j q => (dot_S64x256_S256x2752_S64x2752_1_0_0_1_n_n).lhsIdx_val_of_single (cl := 1) rfl j q
  r0 := fun j q => (dot_S64x256_S256x2752_S64x2752_1_0_0_1_n_n).rhsIdx_val_of_single (cr := 0) rfl j q
  r1 := fun j q => by
    simp [DotDims.rhsIdx, dot_S64x256_S256x2752_S64x2752_1_0_0_1_n_n]; rfl

/-! ## What the body stores, at a row and a column -/

/-- The stored block at (p, q): the logistic function of the sum over the inner position of the loaded blocks' products plus the bias
    row's entry in column q. -/
theorem pay10_ix2 (x0 : Vec Ideal S64x256 .f32) (x1 : Vec Ideal S256x2752 .f32) (x2 : Vec Ideal S1x2752 .f32)
    (p : Fin 64) (q : Fin 2752) :
    k10_pay1 x0 x1 x2 (ix2 p q) = Ideal.logistic ((∑ k : Fin 256, x0 (ix2 p k) * x1 (ix2 k q)) + x2 (ix2 (0 : Fin 1) q)) := by
  unfold k10_pay1
  show Ideal.logistic _ = _
  refine congrArg Ideal.logistic ?_
  rw [addf_apply, broadcastTo_1b_ab_apply]
  simp only [shapeCast_self]
  exact congrArg (· + x2 (ix2 (0 : Fin 1) q)) (matmul_zero_ix2_any plainDot10 none _ _ p q)

/-! ## The windows' block indices at the one grid point -/

/-- The printed index maps, decided over the grid: every window is at block (0, 0). -/
theorem idx_facts10 : ∀ t : Fin cfg10.N,
    win10_0.index t (0 : Fin 2) = 0 ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0 :=
  (by decide +kernel : ∀ t : Fin grid10.N, _)

/-! ## What the point writes back is the whole-array function -/

/-- What the grid point writes back to the output: linLogistic of the arrays as the region finds them, read through the
    output's one block. -/
theorem flushed10_3_eq (c : Dev nD) (t : Fin cfg10.N) :
    (dat10 (F := Ideal) V c).flushed 3 t
      = ((cfg10.win 3).blk t).view.read (Elt Ideal)
          (Fns.linLogistic 64 256 2752 (V c (Pipeline.arrRef spec10 0)) (V c (Pipeline.arrRef spec10 1)) (V c (Pipeline.arrRef spec10 2))) := by
  show (cfg10.win 3).cut (grid10.coords t) ((dat10 V c).after 3 t) = _
  rw [after10_3]
  unfold out10_3
  rw [View.canon_unit_zero hz2]
  simp only [View.ld_unit_zero (S := S64x256) hz2, View.ld_unit_zero (S := S256x2752) hz2, View.ld_unit_zero (S := S1x2752) hz2]
  obtain ⟨e00, e01, e10, e11, e20, e21, e30, e31⟩ := idx_facts10 t
  funext j
  exact Fns.blk_lin Ideal.logistic (Mb := 64) (M := 64) (K := 256) (N := 2752)
    (k10_pay1 (iblk10 V c 0 t) (iblk10 V c 1 t) (iblk10 V c 2 t)) (iblk10 V c 0 t) (iblk10 V c 1 t) (iblk10 V c 2 t)
    (pay10_ix2 (iblk10 V c 0 t) (iblk10 V c 1 t) (iblk10 V c 2 t))
    (V c (Pipeline.arrRef spec10 0)) (V c (Pipeline.arrRef spec10 1)) (V c (Pipeline.arrRef spec10 2))
    (fun y => ((cfg10.win 0).blk t).view.emb y) (fun y => ((cfg10.win 1).blk t).view.emb y)
    (fun y => ((cfg10.win 2).blk t).view.emb y) (fun y => ((cfg10.win 3).blk t).view.emb y)
    (fun y => rfl) (fun y => rfl) (fun y => rfl) 0
    (fun y => by show win10_0.index t (0 : Fin 2) * 64 + 1 * (y 0).val = _; rw [e00]; omega)
    (fun y => by show win10_0.index t (1 : Fin 2) * 256 + 1 * (y 1).val = _; rw [e01]; omega)
    (fun y => by show win10_1.index t (0 : Fin 2) * 256 + 1 * (y 0).val = _; rw [e10]; omega)
    (fun y => by show win10_1.index t (1 : Fin 2) * 2752 + 1 * (y 1).val = _; rw [e11]; omega)
    (fun y => by show win10_2.index t (1 : Fin 2) * 2752 + 1 * (y 1).val = _; rw [e21]; omega)
    (fun y => by show win10_3.index t (0 : Fin 2) * 64 + 1 * (y 0).val = _; rw [e30]; omega)
    (fun y => by show win10_3.index t (1 : Fin 2) * 2752 + 1 * (y 1).val = _; rw [e31]; omega)
    j

/-! ## The one block covers the output -/

/-- An index of the output is in the point's block iff each coordinate is in the block's range on its axis. -/
theorem mem_blk10_3 (t : Fin cfg10.N) (i : S64x2752.Idx) :
    i ∈ ((cfg10.win 3).blk t).view.set
      ↔ ∀ a : Fin 2, win10_3.index t a * S64x2752.size a ≤ (i a).val ∧ (i a).val < win10_3.index t a * S64x2752.size a + S64x2752.size a := by
  show i ∈ ((View.whole main_v138).slice (win10_3.rect t)).set ↔ _
  rw [View.set_slice_whole, Rect.mem_set_unit]
  exact Iff.rfl

/-- Every index of the output is in the block of the one grid point. -/
theorem rows_covered10 (i : S64x2752.Idx) :
    ∃ t : Fin cfg10.N, (cfg10.win 3).flush t = true ∧ i ∈ ((cfg10.win 3).blk t).view.set := by
  have hN : cfg10.N = 1 := N_10
  have hi0 : (i 0).val < 64 := (i 0).isLt
  have hi1 : (i 1).val < 2752 := (i 1).isLt
  refine ⟨⟨0, by rw [hN]; omega⟩, flush10_3 _, ?_⟩
  obtain ⟨-, -, -, -, -, -, e30, e31⟩ := idx_facts10 ⟨0, by rw [hN]; omega⟩
  rw [mem_blk10_3]
  intro a
  match a with
  | ⟨0, _⟩ =>
    show win10_3.index _ (0 : Fin 2) * 64 ≤ (i 0).val ∧ (i 0).val < win10_3.index _ (0 : Fin 2) * 64 + 64
    rw [e30]
    omega
  | ⟨1, _⟩ =>
    show win10_3.index _ (1 : Fin 2) * 2752 ≤ (i 1).val ∧ (i 1).val < win10_3.index _ (1 : Fin 2) * 2752 + 2752
    rw [e31]
    omega

/-! ## The output after the region's run -/

/-- The output array after the run of region 10: the logistic function of the product of x and w plus the bias row. -/
theorem value10_3 (c : Dev nD) (x : Fns.Arr2 64 256) (w : Fns.Arr2 256 2752) (b : Fns.Arr2 1 2752)
    (hx : V c (Pipeline.arrRef spec10 0) = x) (hw : V c (Pipeline.arrRef spec10 1) = w)
    (hb : V c (Pipeline.arrRef spec10 2) = b) :
    (dat10 (F := Ideal) V c).arrAt 3 cfg10.N = Fns.linLogistic 64 256 2752 x w b := by
  subst hx hw hb
  exact (dat10 (F := Ideal) V c).arrAt_eq_of_cover 3 _ (fun t _ => flushed10_3_eq V c t) rows_covered10

end Cert.KernelIdeal.RegionValue

end
-- ==== Proof.LibRealEntries.lean ====
/-
  Extended reals that are real numbers, and the one law that joins the two programs' batch normalisations.

  An extended real is called real when it is the image of a real number. Sums, differences, products, maxima and
  quotients by a nonzero real of real entries are real, and so is the reciprocal square root of a positive real.

  The law: for n real numbers a_i and N = n (as a real, nonzero),
      (sum of a_i^2) / N - (sum a_i / N)^2  =  (sum of (a_i - sum a / N)^2) / N,
  the mean of the squares minus the square of the mean is the mean of the squared deviations. It holds for real
  entries only (an infinite entry makes the two sides different infinities), which is why finiteness is carried
  through every layer. The right-hand side is a nonnegative real, so adding a positive epsilon and taking the
  reciprocal square root gives a real number.
-/
import Idealize.ShloMosaic.PureOps.Ideal

noncomputable section

open scoped BigOperators

namespace Cert.Algebra

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.div_real {x : EReal} (hx : IsReal x) {y : ℝ} (hy : y ≠ 0) : IsReal (Ideal.div x (y : EReal)) := by
  rw [Ideal.div_coe hy]; exact hx.mul ⟨_, rfl⟩

/-- The reciprocal square root of a positive real is a real. -/
theorem isReal_rsqrt_pos {r : ℝ} (h : 0 < r) : IsReal (Ideal.rsqrt (r : EReal)) := by
  rw [Ideal.rsqrt_coe, if_neg (not_lt.mpr h.le), if_neg h.ne']
  exact ⟨_, rfl⟩

/-- The mean of the squares minus the square of the mean is the mean of the squared deviations, for real entries. -/
theorem var_eq {n : ℕ} (a : Fin n → EReal) (ha : ∀ i, IsReal (a i)) (N : ℝ) (hN : N ≠ 0) (hn : (n : ℝ) = N) :
    Ideal.div (∑ i, a i * a i) (N : EReal) - Ideal.div (∑ i, a i) (N : EReal) * Ideal.div (∑ i, a i) (N : EReal)
      = Ideal.div (∑ i, (a i - Ideal.div (∑ j, a j) (N : EReal)) * (a i - Ideal.div (∑ j, a j) (N : EReal))) (N : EReal) := by
  choose f hf using ha
  have hfun : a = fun i => (f i : EReal) := funext hf
  subst hfun
  simp only [Ideal.div_coe hN, ← EReal.coe_mul, ← coe_sum, ← EReal.coe_sub]
  refine congrArg _ ?_
  have h1 : ∑ i, (f i - (∑ j, f j) * (1 / N)) * (f i - (∑ j, f j) * (1 / N))
      = ∑ i, f i * f i - 2 * ((∑ j, f j) * (1 / N)) * ∑ i, f i + (n : ℝ) * (((∑ j, f j) * (1 / N)) * ((∑ j, f j) * (1 / N))) := by
    have : ∀ i, (f i - (∑ j, f j) * (1 / N)) * (f i - (∑ j, f j) * (1 / N))
        = f i * f i - 2 * ((∑ j, f j) * (1 / N)) * f i + ((∑ j, f j) * (1 / N)) * ((∑ j, f j) * (1 / N)) := fun i => by ring
    simp only [this, Finset.sum_add_distrib, Finset.sum_sub_distrib, ← Finset.mul_sum, Finset.sum_const, Finset.card_univ,
      Fintype.card_fin, nsmul_eq_mul]
    ring
  rw [h1, hn]
  field_simp
  ring

/-- The mean of the squared deviations of real entries, plus a positive real, has a real reciprocal square root. -/
theorem isReal_rsqrt_var {n : ℕ} (a : Fin n → EReal) (ha : ∀ i, IsReal (a i)) (μ : EReal) (hμ : IsReal μ) (N : ℝ) (hN : 0 < N)
    (e : ℝ) (he : 0 < e) : IsReal (Ideal.rsqrt (Ideal.div (∑ i, (a i - μ) * (a i - μ)) (N : EReal) + (e : EReal))) := by
  choose f hf using ha
  obtain ⟨u, rfl⟩ := hμ
  have hfun : a = fun i => (f i : EReal) := funext hf
  subst hfun
  simp only [Ideal.div_coe hN.ne', ← EReal.coe_mul, ← coe_sum, ← EReal.coe_sub, ← EReal.coe_add]
  refine isReal_rsqrt_pos ?_
  have : 0 ≤ (∑ i, (f i - u) * (f i - u)) * (1 / N) :=
    mul_nonneg (Finset.sum_nonneg fun i _ => mul_self_nonneg _) (by positivity)
  linarith

end Cert.Algebra

end
-- ==== Proof.FiniteEntry.lean ====
/-
  From "all entries are below plus infinity in absolute value" to "every entry is a real number".

  An extended real x is a real number exactly when |x| = max x (-x) is strictly below plus infinity: at minus
  infinity and at plus infinity the maximum is plus infinity itself, and at a real r it is the real |r|. The
  word 0x7F800000 of the single-precision format denotes plus infinity (exponent field all ones, fraction zero,
  sign clear).

  A conjunction over all entries of an array is written as a reduction by "and", from the word 1, over every
  axis of the array of one-bit comparison results. When that reduction is 1, each comparison result is 1, and
  so each entry of the array is a real number.
-/
import Idealize.ShloMosaic.Lib.ReduceAll
import Idealize.ShloMosaic.Lib.ValueIdx
import Idealize.ShloMosaic.PureOps.Ideal
import proofs.«155788_j3092376453711_2_alg».proof.Pre_finite_inputs
import proofs.«155788_j3092376453711_2_alg».proof.Proof.LibRealEntries

noncomputable section

namespace Cert.Finite

open Idealize.ShloMosaic
open Cert.Pre_finite_inputs (S_)

/-- The shape with no axes has exactly one index. -/
instance : Subsingleton S_.Idx := ⟨fun a b => funext fun d => d.elim0⟩

/-- The single-precision word with exponent all ones and fraction zero is plus infinity. -/
theorem inf_word : Ideal.ofBits .f32 0x7F800000#32 = (⊤ : EReal) := by
  simp [Ideal.ofBits, Ideal.ieee]

/-- An extended real whose absolute value is strictly below plus infinity is a real number. -/
theorem isReal_of_abs_lt_inf (x : EReal)
    (h : Ideal.cmp .olt (max x (-x)) (Ideal.ofBits .f32 0x7F800000#32) = 1#1) : Cert.Algebra.IsReal x := by
  rw [inf_word] at h
  induction x using EReal.rec with
  | bot => simp [Ideal.cmp] at h
  | top => simp [Ideal.cmp] at h
  | coe r => exact ⟨r, rfl⟩

/-- One array, any shape: if the reduction by "and" over all axes of the comparisons |x| < +inf is 1,
    then every entry of x is a real number. -/
theorem real_of_all {s : Shape} {axes : List (Fin s.rank)} (x : FVec Ideal s .f32)
    (bc : S_.BroadcastsInDim s (![] : Fin 0 → Fin s.rank)) (h : s.ReducesTo axes S_) (hu : 0 < S_.numel)
    (e : Host.reduce IntOp.andi
          (cmpf .olt (Host.absf x) (broadcastInDim s ![] bc (constant (F := Ideal) S_ .f32 0x7F800000#32)))
          (constantI S_ 1 1#1) h hu ValueIdx.ix0 = 1#1) :
    ∀ i, Cert.Algebra.IsReal (x i) := fun i =>
  isReal_of_abs_lt_inf (x i) (Host.reduce_andi_all _ _ h hu ValueIdx.ix0 e i)

/-- A conjunction of two one-bit scalars that is 1 has both conjuncts 1. -/
theorem and_split (A B : IVec S_ 1) (h : andi A B ValueIdx.ix0 = 1#1) :
    A ValueIdx.ix0 = 1#1 ∧ B ValueIdx.ix0 = 1#1 := IntOp.andi_eq_one.1 h

end Cert.Finite

end
-- ==== Proof.FiniteFn.lean ====
/-
  The finiteness predicate, read back: it is the conjunction, over the eighteen real-valued argument arrays,
  of "every entry is below plus infinity in absolute value". The conjunction is nested to the left, one
  array after another in argument order, so it is taken apart from the last array to the first; each conjunct
  is a reduction by "and" over all axes, which gives that every entry of that array is a real number.
-/
import proofs.«155788_j3092376453711_2_alg».proof.Proof.FiniteEntry

noncomputable section

namespace Cert.Finite

open Idealize.ShloMosaic
open Cert.Pre_finite_inputs

variable [Cert.Pre_finite_inputs.Facts]
open Cert.Pre_finite_inputs.Facts

/-- If the finiteness predicate of twenty argument arrays is 1, every entry of each of the eighteen
    real-valued arrays is a real number. -/
theorem fn_real (a0 : FVec Ideal S50000x1280 .f32) (a1 : IVec S2x800000 32) (a2 : IVec S50000 32) (a3 : FVec Ideal S64x1280 .f32) (a4 : FVec Ideal S1280x256 .f32) (a5 : FVec Ideal S256 .f32) (a6 : FVec Ideal S256x256 .f32) (a7 : FVec Ideal S256 .f32) (a8 : FVec Ideal S256x256 .f32) (a9 : FVec Ideal S256 .f32) (a10 : FVec Ideal S256 .f32) (a11 : FVec Ideal S256 .f32) (a12 : FVec Ideal S256 .f32) (a13 : FVec Ideal S256 .f32) (a14 : FVec Ideal S256 .f32) (a15 : FVec Ideal S256 .f32) (a16 : FVec Ideal S1280x256 .f32) (a17 : FVec Ideal S256 .f32) (a18 : FVec Ideal S256x2752 .f32) (a19 : FVec Ideal S2752 .f32)
    (h : Cert.Pre_finite_inputs.fn (F := Ideal) a0 a1 a2 a3 a4 a5 a6 a7 a8 a9 a10 a11 a12 a13 a14 a15 a16 a17 a18 a19 ValueIdx.ix0 = 1#1) :
    (∀ i, Cert.Algebra.IsReal (a0 i)) ∧ (∀ i, Cert.Algebra.IsReal (a3 i)) ∧ (∀ i, Cert.Algebra.IsReal (a4 i)) ∧ (∀ i, Cert.Algebra.IsReal (a5 i)) ∧ (∀ i, Cert.Algebra.IsReal (a6 i)) ∧ (∀ i, Cert.Algebra.IsReal (a7 i)) ∧ (∀ i, Cert.Algebra.IsReal (a8 i)) ∧ (∀ i, Cert.Algebra.IsReal (a9 i)) ∧ (∀ i, Cert.Algebra.IsReal (a10 i)) ∧ (∀ i, Cert.Algebra.IsReal (a11 i)) ∧ (∀ i, Cert.Algebra.IsReal (a12 i)) ∧ (∀ i, Cert.Algebra.IsReal (a13 i)) ∧ (∀ i, Cert.Algebra.IsReal (a14 i)) ∧ (∀ i, Cert.Algebra.IsReal (a15 i)) ∧ (∀ i, Cert.Algebra.IsReal (a16 i)) ∧ (∀ i, Cert.Algebra.IsReal (a17 i)) ∧ (∀ i, Cert.Algebra.IsReal (a18 i)) ∧ (∀ i, Cert.Algebra.IsReal (a19 i)) := by
  dsimp only [Cert.Pre_finite_inputs.fn, fn_part1, fn_part2, fn_part3, fn_part4, fn_part5] at h
  obtain ⟨h, e19⟩ := and_split _ _ h
  obtain ⟨h, e18⟩ := and_split _ _ h
  obtain ⟨h, e17⟩ := and_split _ _ h
  obtain ⟨h, e16⟩ := and_split _ _ h
  obtain ⟨h, e15⟩ := and_split _ _ h
  obtain ⟨h, e14⟩ := and_split _ _ h
  obtain ⟨h, e13⟩ := and_split _ _ h
  obtain ⟨h, e12⟩ := and_split _ _ h
  obtain ⟨h, e11⟩ := and_split _ _ h
  obtain ⟨h, e10⟩ := and_split _ _ h
  obtain ⟨h, e9⟩ := and_split _ _ h
  obtain ⟨h, e8⟩ := and_split _ _ h
  obtain ⟨h, e7⟩ := and_split _ _ h
  obtain ⟨h, e6⟩ := and_split _ _ h
  obtain ⟨h, e5⟩ := and_split _ _ h
  obtain ⟨h, e4⟩ := and_split _ _ h
  obtain ⟨h, e3⟩ := and_split _ _ h
  have e0 := h
  exact ⟨real_of_all a0 bcast_S_S50000x1280 reducesTo_S50000x1280_S_d0_1 h_S_ e0,
    real_of_all a3 bcast_S_S64x1280 reducesTo_S64x1280_S_d0_1 h_S_ e3,
    real_of_all a4 bcast_S_S1280x256 reducesTo_S1280x256_S_d0_1 h_S_ e4,
    real_of_all a5 bcast_S_S256 reducesTo_S256_S_d0 h_S_ e5,
    real_of_all a6 bcast_S_S256x256 reducesTo_S256x256_S_d0_1 h_S_ e6,
    real_of_all a7 bcast_S_S256 reducesTo_S256_S_d0 h_S_ e7,
    real_of_all a8 bcast_S_S256x256 reducesTo_S256x256_S_d0_1 h_S_ e8,
    real_of_all a9 bcast_S_S256 reducesTo_S256_S_d0 h_S_ e9,
    real_of_all a10 bcast_S_S256 reducesTo_S256_S_d0 h_S_ e10,
    real_of_all a11 bcast_S_S256 reducesTo_S256_S_d0 h_S_ e11,
    real_of_all a12 bcast_S_S256 reducesTo_S256_S_d0 h_S_ e12,
    real_of_all a13 bcast_S_S256 reducesTo_S256_S_d0 h_S_ e13,
    real_of_all a14 bcast_S_S256 reducesTo_S256_S_d0 h_S_ e14,
    real_of_all a15 bcast_S_S256 reducesTo_S256_S_d0 h_S_ e15,
    real_of_all a16 bcast_S_S1280x256 reducesTo_S1280x256_S_d0_1 h_S_ e16,
    real_of_all a17 bcast_S_S256 reducesTo_S256_S_d0 h_S_ e17,
    real_of_all a18 bcast_S_S256x2752 reducesTo_S256x2752_S_d0_1 h_S_ e18,
    real_of_all a19 bcast_S_S2752 reducesTo_S2752_S_d0 h_S_ e19⟩

end Cert.Finite

end
-- ==== Proof.Finite.lean ====
/-
  Under the precondition, every entry of every real-valued argument array of the idealized kernel is a real
  number, on every device. The precondition says that the finiteness predicate of the twenty argument arrays
  is 1; the predicate is the conjunction over the eighteen real-valued arrays of "every entry is below plus
  infinity in absolute value", and an extended real below plus infinity in absolute value is a real number.

  The statement is split in two: the thirteen arrays numbered 0 and 4 to 15 in argument order, and the
  remaining five, numbered 3 and 16 to 19 (arguments 1 and 2 are integer arrays).
-/
import proofs.«155788_j3092376453711_2_alg».proof.Defs
import proofs.«155788_j3092376453711_2_alg».proof.Proof.FiniteFn

noncomputable section

namespace Cert.Finite

open Idealize.ShloMosaic Idealize.SL.Sem

/-- All eighteen real-valued argument arrays have real entries. -/
theorem real_all [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Algebra.IsReal ((m ((c.tc : Thread Cert.KernelIdeal.nD Cert.KernelIdeal.τ).loc Cert.KernelIdeal.main_arg0)) i))
      ∧ (∀ i, Cert.Algebra.IsReal ((m ((c.tc : Thread Cert.KernelIdeal.nD Cert.KernelIdeal.τ).loc Cert.KernelIdeal.main_arg3)) i))
      ∧ (∀ i, Cert.Algebra.IsReal ((m ((c.tc : Thread Cert.KernelIdeal.nD Cert.KernelIdeal.τ).loc Cert.KernelIdeal.main_arg4)) i))
      ∧ (∀ i, Cert.Algebra.IsReal ((m ((c.tc : Thread Cert.KernelIdeal.nD Cert.KernelIdeal.τ).loc Cert.KernelIdeal.main_arg5)) i))
      ∧ (∀ i, Cert.Algebra.IsReal ((m ((c.tc : Thread Cert.KernelIdeal.nD Cert.KernelIdeal.τ).loc Cert.KernelIdeal.main_arg6)) i))
      ∧ (∀ i, Cert.Algebra.IsReal ((m ((c.tc : Thread Cert.KernelIdeal.nD Cert.KernelIdeal.τ).loc Cert.KernelIdeal.main_arg7)) i))
      ∧ (∀ i, Cert.Algebra.IsReal ((m ((c.tc : Thread Cert.KernelIdeal.nD Cert.KernelIdeal.τ).loc Cert.KernelIdeal.main_arg8)) i))
      ∧ (∀ i, Cert.Algebra.IsReal ((m ((c.tc : Thread Cert.KernelIdeal.nD Cert.KernelIdeal.τ).loc Cert.KernelIdeal.main_arg9)) i))
      ∧ (∀ i, Cert.Algebra.IsReal ((m ((c.tc : Thread Cert.KernelIdeal.nD Cert.KernelIdeal.τ).loc Cert.KernelIdeal.main_arg10)) i))
      ∧ (∀ i, Cert.Algebra.IsReal ((m ((c.tc : Thread Cert.KernelIdeal.nD Cert.KernelIdeal.τ).loc Cert.KernelIdeal.main_arg11)) i))
      ∧ (∀ i, Cert.Algebra.IsReal ((m ((c.tc : Thread Cert.KernelIdeal.nD Cert.KernelIdeal.τ).loc Cert.KernelIdeal.main_arg12)) i))
      ∧ (∀ i, Cert.Algebra.IsReal ((m ((c.tc : Thread Cert.KernelIdeal.nD Cert.KernelIdeal.τ).loc Cert.KernelIdeal.main_arg13)) i))
      ∧ (∀ i, Cert.Algebra.IsReal ((m ((c.tc : Thread Cert.KernelIdeal.nD Cert.KernelIdeal.τ).loc Cert.KernelIdeal.main_arg14)) i))
      ∧ (∀ i, Cert.Algebra.IsReal ((m ((c.tc : Thread Cert.KernelIdeal.nD Cert.KernelIdeal.τ).loc Cert.KernelIdeal.main_arg15)) i))
      ∧ (∀ i, Cert.Algebra.IsReal ((m ((c.tc : Thread Cert.KernelIdeal.nD Cert.KernelIdeal.τ).loc Cert.KernelIdeal.main_arg16)) i))
      ∧ (∀ i, Cert.Algebra.IsReal ((m ((c.tc : Thread Cert.KernelIdeal.nD Cert.KernelIdeal.τ).loc Cert.KernelIdeal.main_arg17)) i))
      ∧ (∀ i, Cert.Algebra.IsReal ((m ((c.tc : Thread Cert.KernelIdeal.nD Cert.KernelIdeal.τ).loc Cert.KernelIdeal.main_arg18)) i))
      ∧ (∀ i, Cert.Algebra.IsReal ((m ((c.tc : Thread Cert.KernelIdeal.nD Cert.KernelIdeal.τ).loc Cert.KernelIdeal.main_arg19)) i)) :=
  fn_real _ _ _ _ _ _ _ _ _ _ _ _ _ _ _ _ _ _ _ _ (congrFun (h c) ValueIdx.ix0)

/-- Arguments 0 and 4 to 15 have real entries. -/
theorem real_args [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Algebra.IsReal ((m ((c.tc : Thread Cert.KernelIdeal.nD Cert.KernelIdeal.τ).loc Cert.KernelIdeal.main_arg0)) i))
      ∧ (∀ i, Cert.Algebra.IsReal ((m ((c.tc : Thread Cert.KernelIdeal.nD Cert.KernelIdeal.τ).loc Cert.KernelIdeal.main_arg4)) i))
      ∧ (∀ i, Cert.Algebra.IsReal ((m ((c.tc : Thread Cert.KernelIdeal.nD Cert.KernelIdeal.τ).loc Cert.KernelIdeal.main_arg5)) i))
      ∧ (∀ i, Cert.Algebra.IsReal ((m ((c.tc : Thread Cert.KernelIdeal.nD Cert.KernelIdeal.τ).loc Cert.KernelIdeal.main_arg6)) i))
      ∧ (∀ i, Cert.Algebra.IsReal ((m ((c.tc : Thread Cert.KernelIdeal.nD Cert.KernelIdeal.τ).loc Cert.KernelIdeal.main_arg7)) i))
      ∧ (∀ i, Cert.Algebra.IsReal ((m ((c.tc : Thread Cert.KernelIdeal.nD Cert.KernelIdeal.τ).loc Cert.KernelIdeal.main_arg8)) i))
      ∧ (∀ i, Cert.Algebra.IsReal ((m ((c.tc : Thread Cert.KernelIdeal.nD Cert.KernelIdeal.τ).loc Cert.KernelIdeal.main_arg9)) i))
      ∧ (∀ i, Cert.Algebra.IsReal ((m ((c.tc : Thread Cert.KernelIdeal.nD Cert.KernelIdeal.τ).loc Cert.KernelIdeal.main_arg10)) i))
      ∧ (∀ i, Cert.Algebra.IsReal ((m ((c.tc : Thread Cert.KernelIdeal.nD Cert.KernelIdeal.τ).loc Cert.KernelIdeal.main_arg11)) i))
      ∧ (∀ i, Cert.Algebra.IsReal ((m ((c.tc : Thread Cert.KernelIdeal.nD Cert.KernelIdeal.τ).loc Cert.KernelIdeal.main_arg12)) i))
      ∧ (∀ i, Cert.Algebra.IsReal ((m ((c.tc : Thread Cert.KernelIdeal.nD Cert.KernelIdeal.τ).loc Cert.KernelIdeal.main_arg13)) i))
      ∧ (∀ i, Cert.Algebra.IsReal ((m ((c.tc : Thread Cert.KernelIdeal.nD Cert.KernelIdeal.τ).loc Cert.KernelIdeal.main_arg14)) i))
      ∧ (∀ i, Cert.Algebra.IsReal ((m ((c.tc : Thread Cert.KernelIdeal.nD Cert.KernelIdeal.τ).loc Cert.KernelIdeal.main_arg15)) i)) := by
  obtain ⟨r0, r3, r4, r5, r6, r7, r8, r9, r10, r11, r12, r13, r14, r15, r16, r17, r18, r19⟩ := real_all m h c
  exact ⟨r0, r4, r5, r6, r7, r8, r9, r10, r11, r12, r13, r14, r15⟩

/-- Arguments 3 and 16 to 19 have real entries. -/
theorem real_args_rest [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Algebra.IsReal ((m ((c.tc : Thread Cert.KernelIdeal.nD Cert.KernelIdeal.τ).loc Cert.KernelIdeal.main_arg3)) i))
      ∧ (∀ i, Cert.Algebra.IsReal ((m ((c.tc : Thread Cert.KernelIdeal.nD Cert.KernelIdeal.τ).loc Cert.KernelIdeal.main_arg16)) i))
      ∧ (∀ i, Cert.Algebra.IsReal ((m ((c.tc : Thread Cert.KernelIdeal.nD Cert.KernelIdeal.τ).loc Cert.KernelIdeal.main_arg17)) i))
      ∧ (∀ i, Cert.Algebra.IsReal ((m ((c.tc : Thread Cert.KernelIdeal.nD Cert.KernelIdeal.τ).loc Cert.KernelIdeal.main_arg18)) i))
      ∧ (∀ i, Cert.Algebra.IsReal ((m ((c.tc : Thread Cert.KernelIdeal.nD Cert.KernelIdeal.τ).loc Cert.KernelIdeal.main_arg19)) i)) := by
  obtain ⟨r0, r3, r4, r5, r6, r7, r8, r9, r10, r11, r12, r13, r14, r15, r16, r17, r18, r19⟩ := real_all m h c
  exact ⟨r3, r16, r17, r18, r19⟩

end Cert.Finite

end
-- ==== Proof.LibTileSum.lean ====
/-
  Sums over tiled and over unit-axis index sets, over any additive commutative monoid.

  * A sum over the indices of a rank-4 shape [n0, 1, n2, n3] is the triple sum over its coordinates on axes 0, 2, 3.
  * A sum over a * b positions is the sum over a tiles of the sum over the b positions of each tile, position r of
    tile t being b * t + r.
  * A sequence that starts at zero and adds f n at step n is the running sum of f.
-/
import Idealize.ShloMosaic.Lib.ValueIdx

noncomputable section

open scoped BigOperators

namespace Cert.Lib.TileSum

open Idealize.ShloMosaic Idealize.ShloMosaic.ValueIdx

/-! ## A rank-4 index set with a unit second axis is the product of its three other coordinate ranges -/

/-- An index of shape `[n0, 1, n2, n3]` is its coordinates on axes 0, 2, 3 (axis 1 has one point). -/
def idxEquiv4u {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- A sum over every index of shape `[n0, 1, n2, n3]` is the triple sum over the coordinates on axes 0, 2, 3. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ c : Fin n3, f (ix4 a (0 : Fin 1) b c) := by
  rw [← Equiv.sum_comp (idxEquiv4u (n0 := n0) (n2 := n2) (n3 := n3)).symm f, Fintype.sum_prod_type]
  refine Finset.sum_congr rfl fun a _ => ?_
  rw [Fintype.sum_prod_type]
  rfl

/-! ## Tiles -/

section Laws
variable {M : Type*} [AddCommMonoid M]

/-- Position `r` of tile `t`, among `a` tiles of `b` positions each, is below `a * b`. -/
theorem tile_lt {a b t r : ℕ} (ht : t < a) (hr : r < b) : b * t + r < a * b :=
  calc b * t + r < b * t + b := Nat.add_lt_add_left hr _
    _ = b * (t + 1) := (Nat.mul_succ b t).symm
    _ ≤ b * a := Nat.mul_le_mul_left b ht
    _ = a * b := Nat.mul_comm b a

/-- A sum over `a * b` positions is the sum over `a` tiles of the sum over the `b` positions of each tile. -/
theorem sum_fin_tiles (a b : ℕ) (g : Fin (a * b) → M) :
    ∑ n, g n = ∑ t : Fin a, ∑ r : Fin b, g ⟨b * t.val + r.val, tile_lt t.isLt r.isLt⟩ := by
  rw [← Equiv.sum_comp (finProdFinEquiv (m := a) (n := b)) g, Fintype.sum_prod_type]
  refine Finset.sum_congr rfl fun t _ => Finset.sum_congr rfl fun r _ => congrArg g (Fin.ext ?_)
  show r.val + b * t.val = b * t.val + r.val
  exact Nat.add_comm _ _

/-- THE FOLD LAW: a sequence that starts at zero and adds `f n` at step `n` is the running sum of `f`. -/
theorem fold_eq_sum (f g : ℕ → M) (h0 : g 0 = 0) (hs : ∀ n, g (n + 1) = g n + f n) (n : ℕ) :
    g n = ∑ i ∈ Finset.range n, f i := by
  induction n with
  | zero => rw [h0, Finset.range_zero, Finset.sum_empty]
  | succ n ih => rw [hs, ih, Finset.sum_range_succ]

end Laws

end Cert.Lib.TileSum

end
-- ==== Proof.LibScatterSum.lean ====
/-
  A scatter whose combiner is addition, read at an index: the operand's entry plus the sum of the updates that land there.

  `Host.scatter d f x idx upd` folds over the update indices in row-major order; the step for an update index whose
  landing index (`ScatterDims.resultIdx?`) is `some i` replaces the entry at `i` by `f` of that entry and the update,
  and an update whose landing index is `none` (outside the operand) is dropped.  When `f` is the addition of a
  commutative monoid, every step adds to entry `b` the update if it lands on `b` and zero otherwise, so the entry at
  `i` after the fold is the entry before it plus the sum of the updates whose landing index is `some i`.  This holds
  for every choice of dimension numbers; it is the same formula the exact float accumulation
  `Ideal.hostScatterAdd` is defined by.
-/
import Idealize.ShloMosaic.PureOps.ShapeOps
import Mathlib.Algebra.BigOperators.Group.Finset.Basic
import Mathlib.Algebra.BigOperators.Fin

namespace ScatterSum

open Idealize.ShloMosaic

/-- A fold whose every step adds `g n b` to entry `b`: the entry at `b` ends at its start plus the sum of the
    `g n b` over the list. -/
theorem foldl_of_step {α β ι : Type*} [AddCommMonoid α] (step : (β → α) → ι → (β → α)) (g : ι → β → α)
    (hstep : ∀ r n b, step r n b = r b + g n b) (l : List ι) (r : β → α) (b : β) :
    (l.foldl step r) b = r b + (l.map fun n => g n b).sum := by
  induction l generalizing r with
  | nil => simp
  | cons a l ih =>
    simp only [List.foldl_cons, List.map_cons, List.sum_cons]
    rw [ih, hstep, add_assoc]

variable {α : Type} [AddCommMonoid α] {s si u : Shape} {w : ℕ}

/-- A scatter with an additive combiner at an index: the operand's entry plus the sum of the updates whose
    landing index is that entry. -/
theorem scatter_add_apply (d : ScatterDims s si u) (f : α → α → α) (hf : ∀ a b, f a b = a + b)
    (x : s.Idx → α) (idx : IVec si w) (upd : u.Idx → α) (i : s.Idx) :
    Host.scatter d f x idx upd i
      = x i + ∑ j ∈ Finset.univ.filter (fun j => d.resultIdx? j idx = some i), upd j := by
  unfold Host.scatter
  rw [foldl_of_step _
    (fun n b => if d.resultIdx? (u.rowMajor.symm n) idx = some b then upd (u.rowMajor.symm n) else 0) ?_,
    ← List.ofFn_eq_map, List.sum_ofFn, Finset.sum_filter]
  · congr 1
    exact Equiv.sum_comp u.rowMajor.symm (fun j => if d.resultIdx? j idx = some i then upd j else 0)
  · intro r n b
    cases hres : d.resultIdx? (u.rowMajor.symm n) idx with
    | none => simp
    | some i =>
      by_cases hb : b = i
      · subst hb; simp [hf]
      · have hne : ¬ (i = b) := fun h => hb h.symm
        simp [hb, hne]

end ScatterSum
-- ==== Proof.LibPrefixSum.lean ====
/-
  The inclusive prefix sum that a full-width padded window sum computes, read at an index.

  `Host.reduceWindow IntOp.addi ![m + 1] ![1] ![m] ![0] x init` over a one-axis array of length `m + 1` slides a window
  of `m + 1` positions over the array padded with `m` initial values on the low side: the window at output
  position `j` covers padded positions `j … j + m`, that is, array positions `0 … j` preceded by `m - j` padding
  cells.  With the initial value `0` its sum is `x 0 + … + x j`: the inclusive prefix sum.  The sum is taken as a
  left fold over the window's positions; addition of bit vectors is commutative and associative, so the fold is
  the finite sum over the window, which is re-indexed by `q ↦ j + q - m` onto `0 … j`.

  Then two facts that turn such sums of 32-bit words into natural numbers: a finite sum of bit vectors has the
  sum of their values as its value when that sum is below `2 ^ w`; and a sum of indicator words `1` / `0` of a
  decidable predicate over `range n` has value `Nat.count p n` when `n < 2 ^ w`.
-/
import Idealize.ShloMosaic.PureOps.Contract
import Idealize.ShloMosaic.Lib.ValueIdx
import Mathlib.Data.BitVec
import Mathlib.Data.Nat.Count
import Mathlib.Algebra.BigOperators.Intervals
import Mathlib.Algebra.BigOperators.Fin

namespace PrefixSumRead

open Idealize.ShloMosaic

/-- A left fold that adds one term per list element is the start value plus the sum of the terms. -/
theorem foldl_add_eq {α ι : Type*} [AddCommMonoid α] (g : ι → α) (l : List ι) (v : α) :
    l.foldl (fun r k => r + g k) v = v + (l.map g).sum := by
  induction l generalizing v with
  | nil => simp
  | cons a l ih => simp [ih, add_assoc]

/-- The same over all of `Fin N` in order: the start value plus the finite sum. -/
theorem foldl_finRange_add_eq {α : Type*} [AddCommMonoid α] {N : ℕ} (g : Fin N → α) (v : α) :
    (List.finRange N).foldl (fun r k => r + g k) v = v + ∑ k, g k := by
  rw [foldl_add_eq, ← List.ofFn_eq_map, List.sum_ofFn]

/-- The indices of a one-axis shape are its coordinates. -/
def idxEquiv1 {n : ℕ} : (⟨1, ![n]⟩ : Shape).Idx ≃ Fin n where
  toFun j := j 0
  invFun a := ValueIdx.ix1 a
  left_inv j := (ValueIdx.eq_ix1 j).symm
  right_inv _ := rfl

@[simp] theorem idxEquiv1_apply {n : ℕ} (j : (⟨1, ![n]⟩ : Shape).Idx) : idxEquiv1 j = j 0 := rfl

/-- A sum over a one-axis shape's indices is the sum over its coordinates. -/
theorem sum_idx1 {M : Type*} [AddCommMonoid M] {n : ℕ} (f : (⟨1, ![n]⟩ : Shape).Idx → M) :
    ∑ i, f i = ∑ a : Fin n, f (ValueIdx.ix1 a) :=
  (Fintype.sum_equiv idxEquiv1.symm _ _ fun _ => rfl).symm

/-- The window at output position `j0 ≤ m`, of `m + 1` cells of which the first `m - j0` are padding: the cells
    `q` with `m ≤ j0 + q` hold array position `j0 + q - m`, and these are the positions `0 … j0`. -/
theorem sum_shift {α : Type*} [AddCommMonoid α] (X : ℕ → α) (m j0 : ℕ) (hj : j0 ≤ m) :
    (∑ q ∈ Finset.range (m + 1), if m ≤ j0 + q then X (j0 + q - m) else 0) = ∑ k ∈ Finset.range (j0 + 1), X k := by
  rw [← Finset.sum_filter]
  refine Finset.sum_nbij' (fun q => j0 + q - m) (fun k => k + m - j0) ?_ ?_ ?_ ?_ ?_
  · intro q hq; simp only [Finset.mem_filter, Finset.mem_range] at hq ⊢; omega
  · intro k hk; simp only [Finset.mem_filter, Finset.mem_range] at hk ⊢; omega
  · intro q hq; simp only [Finset.mem_filter, Finset.mem_range] at hq; omega
  · intro k hk; simp only [Finset.mem_range] at hk; omega
  · intro q _; rfl

/-- The full-width window sum, padded `m` low, of a one-axis integer array of length `m + 1` whose entry at
    coordinate `k` is `X k`, from the initial value `0`: at output position `j` the inclusive prefix sum
    `X 0 + … + X j`. -/
theorem reduceWindow_addi_prefix {w m : ℕ}
    (x : (⟨1, ![m + 1]⟩ : Shape).Idx → BitVec w) (X : ℕ → BitVec w)
    (hx : ∀ i, x i = X (i 0).val)
    {u : Shape} (init : u.Idx → BitVec w) (hu : 0 < u.numel) (hinit : init (Shape.Idx.first hu) = 0)
    (h : (⟨1, ![m + 1]⟩ : Shape).ReduceWindows ![m + 1] ![1] ![m] ![0] ⟨1, ![m + 1]⟩)
    (j : (⟨1, ![m + 1]⟩ : Shape).Idx) :
    Host.reduceWindow IntOp.addi ![m + 1] ![1] ![m] ![0] x init h hu j
      = ∑ k ∈ Finset.range ((j 0).val + 1), X k := by
  unfold Host.reduceWindow
  simp only [IntOp.addi]
  rw [foldl_finRange_add_eq, hinit, zero_add]
  have hj : (j 0).val < m + 1 := (j 0).isLt
  rw [Fintype.sum_equiv ((Shape.rowMajor _).symm.trans idxEquiv1) _
        (fun q : Fin (m + 1) => if m ≤ (j 0).val + q.val then X ((j 0).val + q.val - m) else 0) ?_]
  · rw [Fin.sum_univ_eq_sum_range (fun q => if m ≤ (j 0).val + q then X ((j 0).val + q - m) else 0) (m + 1)]
    exact sum_shift X m (j 0).val (by omega)
  · intro k
    simp only [Equiv.trans_apply, idxEquiv1_apply]
    have hy : ((Shape.rowMajor (⟨1, ![m + 1]⟩ : Shape)).symm k 0).val < m + 1 := ((Shape.rowMajor _).symm k 0).isLt
    by_cases h2 : m ≤ (j 0).val + ((Shape.rowMajor (⟨1, ![m + 1]⟩ : Shape)).symm k 0).val
    · refine Eq.trans ?_ (if_pos h2).symm
      split_ifs with h1
      · exact (hx _).trans (congrArg X (by simp))
      · exact absurd (by intro a; fin_cases a; simp; omega) h1
    · refine Eq.trans ?_ (if_neg h2).symm
      split_ifs with h1
      · exfalso
        have := (h1 0).1
        simp at this
        omega
      · rfl

/-- A finite sum of bit vectors has the sum of their values as its value, when that sum fits the width. -/
theorem toNat_sum {ι : Type*} [DecidableEq ι] {w : ℕ} (s : Finset ι) (f : ι → BitVec w)
    (hlt : ∑ i ∈ s, (f i).toNat < 2 ^ w) : (∑ i ∈ s, f i).toNat = ∑ i ∈ s, (f i).toNat := by
  induction s using Finset.induction_on with
  | empty => simp
  | insert a s ha ih =>
    rw [Finset.sum_insert ha] at hlt ⊢
    rw [Finset.sum_insert ha, BitVec.toNat_add, ih (by omega), Nat.mod_eq_of_lt hlt]

/-- The value of the indicator word of a proposition. -/
theorem toNat_indicator {w : ℕ} (hw : 0 < w) (c : Prop) [Decidable c] :
    (if c then (1 : BitVec w) else 0).toNat = if c then 1 else 0 := by
  split_ifs
  · show (BitVec.ofNat w 1).toNat = 1
    rw [BitVec.toNat_ofNat]
    exact Nat.one_mod_two_pow hw
  · rfl

/-- The number of positions below `n` satisfying `p`, as a sum of indicators. -/
theorem count_eq_sum (p : ℕ → Prop) [DecidablePred p] (n : ℕ) :
    Nat.count p n = ∑ k ∈ Finset.range n, if p k then 1 else 0 := by
  induction n with
  | zero => simp
  | succ n ih => rw [Nat.count_succ, Finset.sum_range_succ, ih]

/-- A sum of indicator words `1` / `0` of `p` over `range n` has value `Nat.count p n`, when `n < 2 ^ w`. -/
theorem toNat_sum_indicator {w : ℕ} (hw : 0 < w) (p : ℕ → Prop) [DecidablePred p] (n : ℕ) (hn : n < 2 ^ w) :
    (∑ k ∈ Finset.range n, if p k then (1 : BitVec w) else 0).toNat = Nat.count p n := by
  have hsum : ∑ k ∈ Finset.range n, (if p k then (1 : BitVec w) else 0).toNat = Nat.count p n := by
    rw [count_eq_sum]; exact Finset.sum_congr rfl fun k _ => toNat_indicator hw (p k)
  rw [toNat_sum _ _ (by rw [hsum]; exact lt_of_le_of_lt (Nat.count_le p) hn), hsum]

end PrefixSumRead
-- ==== Proof.LibVecScatter.lean ====
/-
  Adding a vector of updates into a one-axis table at positions given by an index vector (jnp's `x.at[idx].add(u)` of a
  one-axis array, and `jnp.bincount` when the updates are ones), read at an index.

  For a table `x` of `N` entries, positions `idx` of `E` integer words (held as an `E × 1` array) and updates `u` of
  `E` entries, the scatter whose dimension numbers have no update window axis, insert the table's one axis and map the one
  index component to it sends update `e` to table position `idx e`, read as a SIGNED integer and not clamped, when
  `0 ≤ idx e < N`, and drops it otherwise (`vecDst`, `vecScatter_resultIdx`).  With an additive combiner the table's
  entry at `r` ends at `x r` plus the sum of the updates at the positions `e` with `idx e = r`
  (`vecScatter_add_apply`).
-/
import Idealize.ShloMosaic.PureOps.ShapeOps
import Idealize.ShloMosaic.Lib.ValueIdx
import proofs.«155788_j3092376453711_2_alg».proof.Proof.LibScatterSum
import proofs.«155788_j3092376453711_2_alg».proof.Proof.LibPrefixSum

namespace VecScatter

open Idealize.ShloMosaic Idealize.ShloMosaic.ValueIdx

/-- The scatter dimension numbers of `x.at[idx].add(u)` for a one-axis table `x : [N]`, positions `idx : [E, 1]` and
    updates `u : [E]`: no update window axis, the table's axis inserted and the target of the one index component, the
    index vector on the indices' second axis. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The table position update `e` goes to: `idx[e, 0]` read as a signed integer when that is in `[0, N)`, none
    otherwise. -/
def vecDst {E w : Nat} (N : Nat) (idx : IVec ⟨2, ![E, 1]⟩ w) (e : Fin E) : Option (Fin N) :=
  if h : 0 ≤ (idx (ix2 e (0 : Fin 1))).toInt ∧ (idx (ix2 e (0 : Fin 1))).toInt < N then
    some ⟨(idx (ix2 e (0 : Fin 1))).toInt.toNat, by omega⟩
  else none

variable {N E w : Nat} (wf : ScatterDims.WF ⟨1, ![N]⟩ ⟨2, ![E, 1]⟩ ⟨1, ![E]⟩ [] [0] [0] 1)

/-- The window starts at the position word, read signed. -/
theorem vecScatter_start (idx : IVec ⟨2, ![E, 1]⟩ w) (e : Fin E) :
    (vecScatterDims N E wf).start (ix1 e) idx (0 : Fin 1) = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The table's axis is inserted: its window coordinate is 0. -/
theorem vecScatter_window (e : Fin E) : (vecScatterDims N E wf).window (ix1 e) (0 : Fin 1) = 0 := by
  unfold ScatterDims.window
  rw [dif_neg (show (0 : Fin 1) ∉ (vecScatterDims N E wf).sKept by simp [ScatterDims.sKept, Shape.kept, List.mem_filter])]

/-- Where update `e` lands: at its position word when that is a position of the table, nowhere otherwise. -/
theorem vecScatter_resultIdx (idx : IVec ⟨2, ![E, 1]⟩ w) (e : Fin E) :
    (vecScatterDims N E wf).resultIdx? (ix1 e) idx = (vecDst N idx e).map ix1 := by
  have hs := vecScatter_start wf idx e
  have hw := vecScatter_window wf e
  unfold ScatterDims.resultIdx? vecDst
  by_cases h : 0 ≤ (idx (ix2 e (0 : Fin 1))).toInt ∧ (idx (ix2 e (0 : Fin 1))).toInt < N
  · have hall : ∀ a : Fin 1, 0 ≤ (vecScatterDims N E wf).start (ix1 e) idx a + ((vecScatterDims N E wf).window (ix1 e) a : Int) ∧
        (vecScatterDims N E wf).start (ix1 e) idx a + ((vecScatterDims N E wf).window (ix1 e) a : Int)
          < ((⟨1, ![N]⟩ : Shape).size a : Int) := by
      intro a
      match a with
      | ⟨0, _⟩ =>
        show 0 ≤ (vecScatterDims N E wf).start (ix1 e) idx (0 : Fin 1) + ((vecScatterDims N E wf).window (ix1 e) (0 : Fin 1) : Int) ∧
          (vecScatterDims N E wf).start (ix1 e) idx (0 : Fin 1) + ((vecScatterDims N E wf).window (ix1 e) (0 : Fin 1) : Int) < (N : Int)
        rw [hs, hw]; omega
    rw [dif_pos hall, dif_pos h]
    simp only [Option.map_some]
    congr 1
    funext a
    refine Fin.ext ?_
    match a with
    | ⟨0, _⟩ =>
      show ((vecScatterDims N E wf).start (ix1 e) idx (0 : Fin 1) + ((vecScatterDims N E wf).window (ix1 e) (0 : Fin 1) : Int)).toNat
        = (idx (ix2 e (0 : Fin 1))).toInt.toNat
      rw [hs, hw]; simp
  · have hnall : ¬ ∀ a : Fin 1, 0 ≤ (vecScatterDims N E wf).start (ix1 e) idx a + ((vecScatterDims N E wf).window (ix1 e) a : Int) ∧
        (vecScatterDims N E wf).start (ix1 e) idx a + ((vecScatterDims N E wf).window (ix1 e) a : Int)
          < ((⟨1, ![N]⟩ : Shape).size a : Int) := by
      intro hall
      have h0 := hall (0 : Fin 1)
      rw [hs, hw] at h0
      apply h
      have : ((⟨1, ![N]⟩ : Shape).size (0 : Fin 1) : Int) = (N : Int) := rfl
      rw [this] at h0
      omega
    rw [dif_neg hnall, dif_neg h]
    rfl

/-- Two one-axis indices given by coordinates are equal exactly when the coordinates are. -/
theorem ix1_eq_ix1 {n : Nat} (a a' : Fin n) : ix1 a = ix1 a' ↔ a = a' :=
  ⟨fun h => congrFun h 0, fun h => h ▸ rfl⟩

/-- The scatter with an additive combiner read at position `r`: the table's entry plus the updates at the positions
    whose position word is `r`. -/
theorem vecScatter_add_apply {α : Type} [AddCommMonoid α] (f : α → α → α) (hf : ∀ a b, f a b = a + b)
    (x : (⟨1, ![N]⟩ : Shape).Idx → α) (idx : IVec ⟨2, ![E, 1]⟩ w) (upd : (⟨1, ![E]⟩ : Shape).Idx → α) (r : Fin N) :
    Host.scatter (vecScatterDims N E wf) f x idx upd (ix1 r)
      = x (ix1 r) + ∑ e ∈ Finset.univ.filter (fun e : Fin E => vecDst N idx e = some r), upd (ix1 e) := by
  rw [ScatterSum.scatter_add_apply _ f hf]
  congr 1
  rw [Finset.sum_filter, PrefixSumRead.sum_idx1, Finset.sum_filter]
  refine Finset.sum_congr rfl fun e _ => ?_
  have key : ((vecScatterDims N E wf).resultIdx? (ix1 e) idx = some (ix1 r)) ↔ vecDst N idx e = some r := by
    rw [vecScatter_resultIdx]
    cases vecDst N idx e with
    | none => simp
    | some r' =>
      simp only [Option.map_some, Option.some.injEq]
      exact ix1_eq_ix1 r' r
  simp only [key]

end VecScatter
-- ==== Proof.LibVecGather.lean ====
/-
  READING A ONE-AXIS TABLE BY AN INDEX VECTOR, THE RECIPROCAL SQUARE ROOT OF A POSITIVE EXTENDED REAL, A NONNEGATIVE REAL
  FACTOR THROUGH A FINITE SUM, AND THE WRAP OF A NEGATIVE INDEX, each read at an index.

  * For a table x of N entries and a vector idx of E integer positions (held as an E x 1 array of words of any width),
    the gather whose dimension numbers have no offset axis, collapse the one table axis, map the one start-index
    component to it and slice 1 — what x[idx] of a one-axis table is — has, at e, the value x (clamp (idx e)): the
    position is read as a signed integer and clamped into [0, N - 1] (vecGather_apply).

  * The reciprocal square root of a positive extended real is a nonnegative real: 1 / sqrt r for a positive real r, and
    0 at +infinity (rsqrt_pos_nonneg_real).

  * A nonnegative real factor distributes over a finite sum of extended reals, whatever the terms are: the only failure
    of distributivity in the extended reals needs an infinite or a negative factor (coe_nonneg_mul_finset_sum).

  * The wrap of a possibly negative position, "r if r >= 0, r + N otherwise", written lane by lane as a select on the
    signed comparison r < 0 between r + N and r with the two constants broadcast from scalars, reads at a lane i as
    r i + N when r i is negative as a signed integer and as r i otherwise (wrapNeg_apply); on a lane whose position is
    nonnegative it is the position itself (wrapNeg_apply_of_nonneg).
-/
import Idealize.ShloMosaic.PureOps.Ideal.Laws
import Idealize.ShloMosaic.Lib.ValueIdx

noncomputable section

open scoped BigOperators

namespace Idealize.ShloMosaic.ValueIdx

open Idealize.ShloMosaic

/-! ## Entries of a one-axis table taken by an index vector -/

section VecGather
variable {α : Type}

/-- The gather dimension numbers of `x[idx]` for a table `x : [N]` and positions `idx : [E, 1]`, result `[E]`: no offset
    axis, the one table axis collapsed and the target of the one start-index component, index vector on the indices'
    second axis, slices of size `1`; their conditions `wf` are decided on literal shapes. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT `e`: the table at position `idx[e, 0]`, read signed and clamped into `[0, N − 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end VecGather

/-! ## The reciprocal square root of a positive extended real -/

section Rsqrt

/-- The reciprocal square root of a positive extended real is a nonnegative real: `(√r)⁻¹` at a positive real `r`, `0` at
    `⊤`. -/
theorem rsqrt_pos_nonneg_real (x : EReal) (hx : 0 < x) : ∃ r : ℝ, 0 ≤ r ∧ Ideal.rsqrt x = ((r : ℝ) : EReal) := by
  induction x using EReal.rec with
  | bot => exact absurd hx (by simp)
  | top => exact ⟨0, le_refl _, by simp⟩
  | coe r =>
    have hr : 0 < r := by exact_mod_cast hx
    refine ⟨(Real.sqrt r)⁻¹, inv_nonneg.mpr (Real.sqrt_nonneg r), ?_⟩
    rw [Ideal.rsqrt_coe, if_neg (not_lt.mpr hr.le), if_neg hr.ne']

end Rsqrt

/-! ## A nonnegative real factor through a finite sum -/

section CoeMulSum

/-- A nonnegative real factor distributes over a finite sum of extended reals. -/
theorem coe_nonneg_mul_finset_sum (r : ℝ) (hr : 0 ≤ r) {ι : Type*} (s : Finset ι) (f : ι → EReal) :
    ((r : ℝ) : EReal) * ∑ i ∈ s, f i = ∑ i ∈ s, ((r : ℝ) : EReal) * f i := by
  classical
  induction s using Finset.induction_on with
  | empty => simp
  | insert i s hi ih =>
    rw [Finset.sum_insert hi, Finset.sum_insert hi,
      EReal.left_distrib_of_nonneg_of_ne_top (EReal.coe_nonneg.mpr hr) (EReal.coe_ne_top r), ih]

end CoeMulSum

/-! ## The wrap of a negative position -/

section WrapNeg

/-- THE WRAP READ AT A LANE: the select, on the signed comparison `r < 0`, between `r + N` and `r`, the constants `0` and
    `N` broadcast from scalars, is `r i + N` on a lane whose position is negative as a signed integer and `r i`
    elsewhere. -/
theorem wrapNeg_apply {S : Shape} {w : Nat} (h : (⟨0, ![]⟩ : Shape).BroadcastsInDim S ![]) (N : Nat) (r : IVec S w)
    (i : S.Idx) :
    select (cmpi .slt r (broadcastInDim S ![] h (constantI ⟨0, ![]⟩ w 0#w)))
        (addi r (broadcastInDim S ![] h (constantI ⟨0, ![]⟩ w (BitVec.ofNat w N)))) r i
      = if (r i).toInt < 0 then r i + BitVec.ofNat w N else r i := by
  show Scalar.select (IntOp.cmpi .slt (r i) (broadcastInDim S ![] h (constantI ⟨0, ![]⟩ w 0#w) i))
      (IntOp.addi (r i) (broadcastInDim S ![] h (constantI ⟨0, ![]⟩ w (BitVec.ofNat w N)) i)) (r i) = _
  have hb : ∀ x : (⟨0, ![]⟩ : Shape).Idx → BitVec w, broadcastInDim S ![] h x i = x ix0 := fun x => by
    unfold broadcastInDim; exact congrArg x (funext fun a => a.elim0)
  rw [hb, hb]
  unfold constantI Scalar.select IntOp.cmpi IntOp.addi
  simp only [BitVec.slt, BitVec.toInt_zero]
  by_cases hneg : (r i).toInt < 0
  · simp [hneg]
  · simp [hneg]

/-- On a lane whose position is nonnegative as a signed integer the wrap is the position itself. -/
theorem wrapNeg_apply_of_nonneg {S : Shape} {w : Nat} (h : (⟨0, ![]⟩ : Shape).BroadcastsInDim S ![]) (N : Nat)
    (r : IVec S w) (i : S.Idx) (hi : 0 ≤ (r i).toInt) :
    select (cmpi .slt r (broadcastInDim S ![] h (constantI ⟨0, ![]⟩ w 0#w)))
        (addi r (broadcastInDim S ![] h (constantI ⟨0, ![]⟩ w (BitVec.ofNat w N)))) r i
      = r i := by
  rw [wrapNeg_apply, if_neg (not_lt.mpr hi)]

end WrapNeg

end Idealize.ShloMosaic.ValueIdx

end
-- ==== Proof.MathSums.lean ====
/-
  Sums met on both sides, read at an index.

  * A sum over the M = T · Mb rows of an array is the sum, over the T tiles, of the sums over each tile's Mb rows
    (sum_tiles).
  * An array of shape [T, 1, K] summed over its leading axis from an initial value, read at (0, c): the initial value
    plus the sum over t of the entries (t, 0, c) (hostReduceAdd_lead).
  * An accumulating scatter into a one-axis table, read at position r: the table's entry plus the updates whose
    position word is r (hostScatterAdd_vec_apply).
  * A count of edges plus one is positive, so its reciprocal square root is a nonnegative real (rsqrt_count_nonneg_real).
-/
import Idealize.ShloMosaic.PureOps.Ideal
import Idealize.ShloMosaic.PureOps.Ideal.Laws
import Idealize.ShloMosaic.Lib.ValueIdx
import proofs.«155788_j3092376453711_2_alg».proof.Proof.LibTileSum
import proofs.«155788_j3092376453711_2_alg».proof.Proof.LibVecScatter
import proofs.«155788_j3092376453711_2_alg».proof.Proof.LibVecGather
import proofs.«155788_j3092376453711_2_alg».proof.Proof.Fns

noncomputable section

open scoped BigOperators

namespace Cert.Algebra

open Idealize.ShloMosaic Idealize.ShloMosaic.ValueIdx

/-- A sum over all M = T · Mb rows, tile by tile. -/
theorem sum_tiles {α : Type*} [AddCommMonoid α] {T Mb M : ℕ} (hM : T * Mb = M) (g : Fin M → α) :
    ∑ n, g n = ∑ t : Fin T, ∑ r : Fin Mb, g (Cert.Fns.tileRow hM t r) := by
  subst hM
  rw [Cert.Lib.TileSum.sum_fin_tiles T Mb g]
  refine Finset.sum_congr rfl fun t _ => Finset.sum_congr rfl fun r _ => congrArg g (Fin.ext ?_)
  show Mb * t.val + r.val = t.val * Mb + r.val
  rw [Nat.mul_comm]

/-- Position (0, c) of the reduced shape with the leading coordinate s inserted is (s, 0, c). -/
theorem lift_lead {T K : ℕ} (h : (⟨3, ![T, 1, K]⟩ : Shape).Reduces [0] (⟨2, ![1, K]⟩ : Shape)) (c : Fin K)
    (s : Fin ((⟨3, ![T, 1, K]⟩ : Shape).size 0)) :
    h.lift (ix2 (0 : Fin 1) c) s = ix3 (⟨s.val, s.isLt⟩ : Fin T) (0 : Fin 1) c := by
  funext a; apply Fin.ext
  fin_cases a <;> rfl

/-- An array [T, 1, K] summed over its leading axis from an initial value, read at (0, c). -/
theorem hostReduceAdd_lead {T K : ℕ} (h' : (⟨3, ![T, 1, K]⟩ : Shape).ReducesTo [0] (⟨2, ![1, K]⟩ : Shape))
    (h : (⟨3, ![T, 1, K]⟩ : Shape).Reduces [0] (⟨2, ![1, K]⟩ : Shape)) (x : (⟨3, ![T, 1, K]⟩ : Shape).Idx → EReal)
    (init : EReal) (c : Fin K) :
    Ideal.hostReduceAdd h' x init (ix2 (0 : Fin 1) c) = init + ∑ t : Fin T, x (ix3 t (0 : Fin 1) c) :=
  (Ideal.hostReduceAdd_single h' h x init (ix2 (0 : Fin 1) c)).trans
    (congrArg (init + ·) (Finset.sum_congr rfl fun s _ => congrArg x (lift_lead h c s)))

/-- An accumulating scatter into a one-axis table read at position r: the table's entry plus the updates whose
    position word is r. -/
theorem hostScatterAdd_vec_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (VecScatter.vecScatterDims N E wf) x idx upd (ix1 r)
      = x (ix1 r) + ∑ e ∈ Finset.univ.filter (fun e : Fin E => VecScatter.vecDst N idx e = some r), upd (ix1 e) := by
  unfold Ideal.hostScatterAdd
  congr 1
  rw [Finset.sum_filter, PrefixSumRead.sum_idx1, Finset.sum_filter]
  refine Finset.sum_congr rfl fun e _ => ?_
  have key : ((VecScatter.vecScatterDims N E wf).resultIdx? (ix1 e) idx = some (ix1 r)) ↔ VecScatter.vecDst N idx e = some r := by
    rw [VecScatter.vecScatter_resultIdx]
    cases VecScatter.vecDst N idx e with
    | none => simp
    | some r' =>
      simp only [Option.map_some, Option.some.injEq]
      exact VecScatter.ix1_eq_ix1 r' r
  simp only [key]

/-- The reciprocal square root of a count of ones plus one is a nonnegative real. -/
theorem rsqrt_count_nonneg_real {ι : Type*} (S : Finset ι) :
    ∃ r : ℝ, 0 ≤ r ∧ Ideal.rsqrt ((0 + ∑ _e ∈ S, (1 : EReal)) + 1) = ((r : ℝ) : EReal) := by
  refine rsqrt_pos_nonneg_real _ ?_
  have h : (0 : EReal) ≤ 0 + ∑ _e ∈ S, (1 : EReal) := by
    rw [zero_add]; exact Finset.sum_nonneg fun _ _ => zero_le_one
  calc (0 : EReal) < 1 := zero_lt_one
    _ = 0 + 1 := (zero_add 1).symm
    _ ≤ (0 + ∑ _e ∈ S, (1 : EReal)) + 1 := add_le_add_left h 1

end Cert.Algebra

end
-- ==== Proof.Consts.lean ====
/-
  The float constants that the two programs spell, as the extended reals their patterns denote: zero, one, fifty
  thousand (the number of rows a column mean divides by) and the small positive number added to a variance before
  its reciprocal square root is taken.
-/
import Idealize.ShloMosaic.PureOps.Ideal

noncomputable section

namespace Cert.Consts

open Idealize.ShloMosaic

/-- The pattern of +0.0 denotes 0. -/
theorem ofBits_zero : Ideal.ofBits .f32 0x00000000#32 = 0 := by
  simp [Ideal.ofBits, Ideal.ieee]

/-- The pattern of 1.0 denotes 1. -/
theorem ofBits_one : Ideal.ofBits .f32 0x3F800000#32 = 1 := by
  simp [Ideal.ofBits, Ideal.ieee, -EReal.coe_mul]; norm_num

/-- The pattern of 50000.0 denotes the real 50000. -/
theorem ofBits_50000 : Ideal.ofBits .f32 0x47435000#32 = ((50000 : ℝ) : EReal) := by
  simp [Ideal.ofBits, Ideal.ieee, -EReal.coe_mul]; norm_num

/-- The small number added to a variance: the binary fraction 10995116 / 2 ^ 40, the float nearest to 1e-5. -/
def eps : ℝ := 10995116 / 2 ^ 40

theorem eps_pos : 0 < eps := by unfold eps; positivity

/-- The pattern 0x3727C5AC denotes that fraction. -/
theorem ofBits_eps : Ideal.ofBits .f32 0x3727C5AC#32 = ((eps : ℝ) : EReal) := by
  unfold eps
  simp [Ideal.ofBits, Ideal.ieee, -EReal.coe_mul]; norm_num

end Cert.Consts

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.LibRowGatherScatter.lean ====
/-
  TAKING ROWS OF A TABLE BY AN INDEX VECTOR, AND ADDING ROWS INTO A TABLE BY AN INDEX VECTOR, read at an index.

  For a table x of N rows and K columns and a vector idx of E integer row numbers (held as an E x 1 array of words of
  any width):

  * the gather whose dimension numbers keep the column axis as the one offset axis, collapse the row axis, map the one
    start-index component to the row axis and slice 1 x K — what H[idx] of a two-axis table is — has, at (e, c), the value
    x (clamp (idx e), c): the row number is read as a signed integer and clamped into [0, N - 1], the column is kept
    (rowGather_apply);

  * the scatter whose dimension numbers take the column axis as the one update window axis, insert the row axis and map
    the one index component to the row axis — what .at[idx].add(u) of a two-axis table is — sends update element (e, c)
    to table element (idx e, c) when 0 <= idx e < N, the row number read signed and NOT clamped, and drops it otherwise
    (rowDst, rowScatter_resultIdx); so the accumulating scatter at the extended reals is, at (r, c),
    x (r, c) + the sum of u (e, c) over the positions e whose row number is r (hostScatterAdd_row_apply).

  Last, a law of finite sums of reals seen in the extended reals: weighting rows by scalars and summing commutes with a
  matrix product, sum_e v e * (sum_k a e k * b k) = sum_k (sum_e v e * a e k) * b k, every term being a real
  (sum_mul_sum_coe_comm; coe_finset_sum is the coercion of a finite real sum).
-/
import Idealize.ShloMosaic.PureOps.Ideal.Laws
import Idealize.ShloMosaic.Lib.ValueIdx

noncomputable section

open scoped BigOperators

namespace Idealize.ShloMosaic.ValueIdx

open Idealize.ShloMosaic

/-! ## Rows of a table taken by an index vector -/

section RowGather
variable {α : Type}

/-- The gather dimension numbers of `x[idx]` for a table `x : [N, K]` and row numbers `idx : [E, 1]`, result `[E, K]`:
    offset axis the result's column axis, the row axis collapsed and the target of the one start-index component, index
    vector on the indices' second axis, slices `1 × K`; their conditions `wf` are decided on literal shapes. -/
abbrev rowGatherDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- THE GATHER READ AT `(e, c)`: the table at row `idx[e, 0]`, read signed and clamped into `[0, N − 1]`, and column `c`. -/
theorem rowGather_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (c : Fin K) :
    Host.gather (rowGatherDims N E K wf) x idx (ix2 e c)
      = x (ix2 (⟨min (idx (ix2 e (0 : Fin 1))).toInt.toNat (N - 1), by omega⟩ : Fin N) c) := by
  have h0 : (rowGatherDims N E K wf).start (ix2 e c) idx (0 : Fin 2) + (rowGatherDims N E K wf).batchCoord (ix2 e c) (0 : Fin 2)
      + (rowGatherDims N E K wf).offCoord (ix2 e c) (0 : Fin 2) = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E K wf).startIndexMap from List.mem_singleton.mpr rfl)]
    have hsi : (rowGatherDims N E K wf).siIdx (ix2 e c) ⟨List.idxOf (0 : Fin 2) (rowGatherDims N E K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowGatherDims N E K wf).start (ix2 e c) idx (1 : Fin 2) + (rowGatherDims N E K wf).batchCoord (ix2 e c) (1 : Fin 2)
      + (rowGatherDims N E K wf).offCoord (ix2 e c) (1 : Fin 2) = c.val := by
    rw [GatherDims.batchCoord_eq_zero _ _ _ List.not_mem_nil]
    have hs : (rowGatherDims N E K wf).start (ix2 e c) idx (1 : Fin 2) = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl
  unfold Host.gather
  congr 1
  funext a
  refine Fin.ext ?_
  match a with
  | ⟨0, _⟩ => exact h0
  | ⟨1, _⟩ => exact h1

end RowGather

/-! ## Rows added into a table by an index vector -/

section RowScatter

/-- The scatter dimension numbers of `x.at[idx].add(u)` for a table `x : [N, K]`, row numbers `idx : [E, 1]` and updates
    `u : [E, K]`: update window axis the updates' column axis, the row axis inserted and the target of the one index
    component, index vector on the indices' second axis; their conditions `wf` are decided on literal shapes. -/
abbrev rowScatterDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- The table row update position `e` goes to: `idx[e, 0]` read as a signed integer when that is in `[0, N)`, none
    otherwise (no clamping: an update outside the table is dropped). -/
def rowDst {E w : Nat} (N : Nat) (idx : IVec ⟨2, ![E, 1]⟩ w) (e : Fin E) : Option (Fin N) :=
  if h : 0 ≤ (idx (ix2 e (0 : Fin 1))).toInt ∧ (idx (ix2 e (0 : Fin 1))).toInt < N then
    some ⟨(idx (ix2 e (0 : Fin 1))).toInt.toNat, by omega⟩
  else none

/-- On the row axis the window starts at the row number, read signed. -/
theorem rowScatter_start0 {N E K w : Nat} (wf : ScatterDims.WF ⟨2, ![N, K]⟩ ⟨2, ![E, 1]⟩ ⟨2, ![E, K]⟩ [1] [0] [0] 1)
    (idx : IVec ⟨2, ![E, 1]⟩ w) (e : Fin E) (c : Fin K) :
    (rowScatterDims N E K wf).start (ix2 e c) idx (0 : Fin 2) = (idx (ix2 e (0 : Fin 1))).toInt := by
  unfold ScatterDims.start
  rw [dif_pos (show (0 : Fin 2) ∈ (rowScatterDims N E K wf).scatterDimsToOperandDims from List.mem_singleton.mpr rfl)]
  have hsi : (rowScatterDims N E K wf).siIdx (ix2 e c) ⟨List.idxOf (0 : Fin 2) (rowScatterDims N E K wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem rowScatter_start1 {N E K w : Nat} (wf : ScatterDims.WF ⟨2, ![N, K]⟩ ⟨2, ![E, 1]⟩ ⟨2, ![E, K]⟩ [1] [0] [0] 1)
    (idx : IVec ⟨2, ![E, 1]⟩ w) (e : Fin E) (c : Fin K) :
    (rowScatterDims N E K wf).start (ix2 e c) idx (1 : Fin 2) = 0 := by
  unfold ScatterDims.start
  rw [dif_neg (show (1 : Fin 2) ∉ ([0] : List (Fin 2)) by decide)]

/-- On the row axis (inserted) the window coordinate is 0. -/
theorem rowScatter_window0 {N E K : Nat} (wf : ScatterDims.WF ⟨2, ![N, K]⟩ ⟨2, ![E, 1]⟩ ⟨2, ![E, K]⟩ [1] [0] [0] 1)
    (e : Fin E) (c : Fin K) :
    (rowScatterDims N E K wf).window (ix2 e c) (0 : Fin 2) = 0 := by
  unfold ScatterDims.window
  rw [dif_neg (show (0 : Fin 2) ∉ (rowScatterDims N E K wf).sKept by simp [ScatterDims.sKept, Shape.kept, List.mem_filter])]

/-- On the column axis the window coordinate is the update's column. -/
theorem rowScatter_window1 {N E K : Nat} (wf : ScatterDims.WF ⟨2, ![N, K]⟩ ⟨2, ![E, 1]⟩ ⟨2, ![E, K]⟩ [1] [0] [0] 1)
    (e : Fin E) (c : Fin K) :
    (rowScatterDims N E K wf).window (ix2 e c) (1 : Fin 2) = c.val := by
  unfold ScatterDims.window
  rw [dif_pos (show (1 : Fin 2) ∈ (rowScatterDims N E K wf).sKept by simp [ScatterDims.sKept, Shape.kept, List.mem_filter, List.mem_finRange])]
  rfl

/-- WHERE UPDATE ELEMENT `(e, c)` LANDS: at `(r, c)` when position `e`'s row number is a row `r` of the table, nowhere
    otherwise. -/
theorem rowScatter_resultIdx {N E K w : Nat} (wf : ScatterDims.WF ⟨2, ![N, K]⟩ ⟨2, ![E, 1]⟩ ⟨2, ![E, K]⟩ [1] [0] [0] 1)
    (idx : IVec ⟨2, ![E, 1]⟩ w) (e : Fin E) (c : Fin K) :
    (rowScatterDims N E K wf).resultIdx? (ix2 e c) idx = (rowDst N idx e).map (fun r => ix2 r c) := by
  have hs0 := rowScatter_start0 wf idx e c
  have hs1 := rowScatter_start1 wf idx e c
  have hw0 := rowScatter_window0 wf e c
  have hw1 := rowScatter_window1 wf e c
  have hc := c.isLt
  unfold ScatterDims.resultIdx? rowDst
  by_cases h : 0 ≤ (idx (ix2 e (0 : Fin 1))).toInt ∧ (idx (ix2 e (0 : Fin 1))).toInt < N
  · have hall : ∀ a : Fin 2, 0 ≤ (rowScatterDims N E K wf).start (ix2 e c) idx a + ((rowScatterDims N E K wf).window (ix2 e c) a : Int) ∧
        (rowScatterDims N E K wf).start (ix2 e c) idx a + ((rowScatterDims N E K wf).window (ix2 e c) a : Int)
          < ((⟨2, ![N, K]⟩ : Shape).size a : Int) := by
      intro a
      match a with
      | ⟨0, _⟩ =>
        show 0 ≤ (rowScatterDims N E K wf).start (ix2 e c) idx (0 : Fin 2) + ((rowScatterDims N E K wf).window (ix2 e c) (0 : Fin 2) : Int) ∧
          (rowScatterDims N E K wf).start (ix2 e c) idx (0 : Fin 2) + ((rowScatterDims N E K wf).window (ix2 e c) (0 : Fin 2) : Int) < (N : Int)
        rw [hs0, hw0]; omega
      | ⟨1, _⟩ =>
        show 0 ≤ (rowScatterDims N E K wf).start (ix2 e c) idx (1 : Fin 2) + ((rowScatterDims N E K wf).window (ix2 e c) (1 : Fin 2) : Int) ∧
          (rowScatterDims N E K wf).start (ix2 e c) idx (1 : Fin 2) + ((rowScatterDims N E K wf).window (ix2 e c) (1 : Fin 2) : Int) < (K : Int)
        rw [hs1, hw1]; omega
    rw [dif_pos hall, dif_pos h]
    simp only [Option.map_some]
    congr 1
    funext a
    refine Fin.ext ?_
    match a with
    | ⟨0, _⟩ =>
      show ((rowScatterDims N E K wf).start (ix2 e c) idx (0 : Fin 2) + ((rowScatterDims N E K wf).window (ix2 e c) (0 : Fin 2) : Int)).toNat
        = (idx (ix2 e (0 : Fin 1))).toInt.toNat
      rw [hs0, hw0]; simp
    | ⟨1, _⟩ =>
      show ((rowScatterDims N E K wf).start (ix2 e c) idx (1 : Fin 2) + ((rowScatterDims N E K wf).window (ix2 e c) (1 : Fin 2) : Int)).toNat
        = c.val
      rw [hs1, hw1]; simp
  · have hnall : ¬ ∀ a : Fin 2, 0 ≤ (rowScatterDims N E K wf).start (ix2 e c) idx a + ((rowScatterDims N E K wf).window (ix2 e c) a : Int) ∧
        (rowScatterDims N E K wf).start (ix2 e c) idx a + ((rowScatterDims N E K wf).window (ix2 e c) a : Int)
          < ((⟨2, ![N, K]⟩ : Shape).size a : Int) := by
      intro hall
      have h0 := hall (0 : Fin 2)
      rw [hs0, hw0] at h0
      apply h
      have : ((⟨2, ![N, K]⟩ : Shape).size (0 : Fin 2) : Int) = (N : Int) := rfl
      rw [this] at h0
      omega
    rw [dif_neg hnall, dif_neg h]
    rfl

end RowScatter

section RowScatterAdd

/-- Two rank-2 indices given by coordinates are equal exactly when the coordinates are. -/
theorem ix2_eq_ix2 {n0 n1 : Nat} (a a' : Fin n0) (b b' : Fin n1) : ix2 a b = ix2 a' b' ↔ a = a' ∧ b = b' := by
  constructor
  · intro h; exact ⟨congrFun h 0, congrFun h 1⟩
  · rintro ⟨rfl, rfl⟩; rfl

/-- THE ACCUMULATING SCATTER READ AT `(r, c)`: the table's element plus the updates' column-`c` elements at the positions
    whose row number is `r`. -/
theorem hostScatterAdd_row_apply {N E K w : Nat} (wf : ScatterDims.WF ⟨2, ![N, K]⟩ ⟨2, ![E, 1]⟩ ⟨2, ![E, K]⟩ [1] [0] [0] 1)
    (x : (⟨2, ![N, K]⟩ : Shape).Idx → EReal) (idx : IVec ⟨2, ![E, 1]⟩ w) (upd : (⟨2, ![E, K]⟩ : Shape).Idx → EReal)
    (r : Fin N) (c : Fin K) :
    Ideal.hostScatterAdd (rowScatterDims N E K wf) x idx upd (ix2 r c)
      = x (ix2 r c) + ∑ e ∈ Finset.univ.filter (fun e : Fin E => rowDst N idx e = some r), upd (ix2 e c) := by
  unfold Ideal.hostScatterAdd
  congr 1
  rw [Finset.sum_filter, sum_idx2, Finset.sum_filter]
  refine Finset.sum_congr rfl fun e _ => ?_
  have key : ∀ b : Fin K, ((rowScatterDims N E K wf).resultIdx? (ix2 e b) idx = some (ix2 r c)) ↔ (rowDst N idx e = some r ∧ b = c) := by
    intro b
    rw [rowScatter_resultIdx]
    cases rowDst N idx e with
    | none => simp
    | some r' =>
      simp only [Option.map_some, Option.some.injEq]
      exact ix2_eq_ix2 r' r b c
  simp only [key]
  by_cases hr : rowDst N idx e = some r
  · simp only [hr, true_and, if_true, Finset.sum_ite_eq', Finset.mem_univ]
  · simp only [hr, false_and, if_false, Finset.sum_const_zero]

end RowScatterAdd

/-! ## Weighting rows and summing commutes with a matrix product -/

section WeightedRows

/-- The coercion of a finite sum of reals is the sum of the coercions. -/
theorem coe_finset_sum {ι : Type*} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- Rows `a e` weighted by reals `v e` and summed over `e ∈ s`, then multiplied into `b`, is the sum over `e ∈ s` of
    `v e` times the product of row `a e` with `b`: every term is a real, where the sums and products commute. -/
theorem sum_mul_sum_coe_comm {ι κ : Type*} [Fintype κ] (s : Finset ι) (v : ι → ℝ) (a : ι → κ → ℝ) (b : κ → ℝ) :
    (∑ e ∈ s, ((v e : ℝ) : EReal) * ∑ k, ((a e k : ℝ) : EReal) * ((b k : ℝ) : EReal))
      = ∑ k, (∑ e ∈ s, ((v e : ℝ) : EReal) * ((a e k : ℝ) : EReal)) * ((b k : ℝ) : EReal) := by
  simp only [← EReal.coe_mul, ← coe_finset_sum]
  congr 1
  simp only [Finset.mul_sum, Finset.sum_mul]
  rw [Finset.sum_comm]
  refine Finset.sum_congr rfl fun k _ => Finset.sum_congr rfl fun e _ => ?_
  ring

/-- The same with a leading `0 +` on each sum over `s`. -/
theorem zero_add_sum_mul_sum_coe_comm {ι κ : Type*} [Fintype κ] (s : Finset ι) (v : ι → ℝ) (a : ι → κ → ℝ) (b : κ → ℝ) :
    (0 + ∑ e ∈ s, ((v e : ℝ) : EReal) * ∑ k, ((a e k : ℝ) : EReal) * ((b k : ℝ) : EReal))
      = ∑ k, (0 + ∑ e ∈ s, ((v e : ℝ) : EReal) * ((a e k : ℝ) : EReal)) * ((b k : ℝ) : EReal) := by
  simp only [zero_add]
  exact sum_mul_sum_coe_comm s v a b

end WeightedRows

end Idealize.ShloMosaic.ValueIdx

end
-- ==== Proof.KerRead.lean ====
/-
  The host pieces of the pipelined program read at an index.

  Every host operation between the regions is read at explicit coordinates: a pointwise operation at an index is the
  operation of the entries; a scalar broadcast reads the scalar; a vector placed as a column or a row reads the vector;
  an accumulating scatter into a table reads the table's entry plus the updates that land there; a gather of rows
  reads the row its index word names.  Composed in the program's order they give

    dinv d n            = rsqrt (the number of edges that end at n, plus one)
    layerAgg x w s d v  = v n * (the sum over the edges e that end at n of (x w) (src e) * v (src e), plus (x w) n * v n)
    layer … (n, c)      = a n * scale + shift,   a m = f (layerAgg … (m, c) + b c),
                          scale = g c * rsqrt (max (mean (a a) - mean a * mean a) 0 + eps),  shift = be c - mean a * scale

  where src e is the row the gather reads for edge e, and a column's mean is its sum over all nodes, taken tile by tile,
  divided by their number.
-/
import proofs.«155788_j3092376453711_2_alg».proof.Proof.KerValueOps
import proofs.«155788_j3092376453711_2_alg».proof.Proof.KerValueOut
import proofs.«155788_j3092376453711_2_alg».proof.Proof.MathSums
import proofs.«155788_j3092376453711_2_alg».proof.Proof.Consts
import proofs.«155788_j3092376453711_2_alg».proof.Proof.LibBroadcastInDim
import proofs.«155788_j3092376453711_2_alg».proof.Proof.LibRowGatherScatter
import proofs.«155788_j3092376453711_2_alg».proof.Proof.LibVecGather
import proofs.«155788_j3092376453711_2_alg».proof.Proof.LibKeepdims
import Idealize.ShloMosaic.Lib.ValueLayout

noncomputable section

open scoped BigOperators

namespace Cert.KernelIdeal.HandValue

open Idealize.ShloMosaic Idealize.ShloMosaic.ValueIdx
open Cert.KernelIdeal Cert.KernelIdeal.Gen

/-- The edges that end at node n: those whose destination word, read as a signed integer, is n. -/
def landing (d : IVec S800000 32) (n : Fin 50000) : Finset (Fin 800000) :=
  Finset.univ.filter fun e => VecScatter.vecDst 50000 (broadcastInDim S800000x1 ![0] bcast_S800000_S800000x1_0 d) e = some n

/-- The row a gather reads for edge e: the edge's source word, a negative one counted from the end, read as a signed
    integer and clamped into the table. -/
def srcAt (s : IVec S800000 32) (e : Fin 800000) : Fin 50000 :=
  ⟨min ((broadcastInDim S800000x1 ![0] bcast_S800000_S800000x1_0 (wrapSrc s)) (ix2 e (0 : Fin 1))).toInt.toNat (50000 - 1), by omega⟩

/-! ## Pointwise operations, scatters and sums at an index -/

theorem rsqrt_at {s : Shape} (x : FVec Ideal s .f32) (i : s.Idx) :
    (Host.rsqrt (F := Ideal) x i : EReal) = Ideal.rsqrt (x i : EReal) := rfl
theorem divf_at {s : Shape} (x y : FVec Ideal s .f32) (i : s.Idx) :
    (Host.divf (F := Ideal) x y i : EReal) = Ideal.div (x i : EReal) (y i : EReal) := rfl
theorem addf_at {s : Shape} (x y : FVec Ideal s .f32) (i : s.Idx) : (addf x y i : EReal) = (x i : EReal) + (y i : EReal) := rfl
theorem mulf_at {s : Shape} (x y : FVec Ideal s .f32) (i : s.Idx) : (mulf x y i : EReal) = (x i : EReal) * (y i : EReal) := rfl
theorem subf_at {s : Shape} (x y : FVec Ideal s .f32) (i : s.Idx) : (subf x y i : EReal) = (x i : EReal) - (y i : EReal) := rfl
theorem maximumf_at {s : Shape} (x y : FVec Ideal s .f32) (i : s.Idx) :
    (maximumf x y i : EReal) = max (x i : EReal) (y i : EReal) := rfl
theorem const_at (b : BitVec 32) (i : S_.Idx) : (constant (F := Ideal) S_ .f32 b i : EReal) = Ideal.ofBits .f32 b := rfl
theorem scatterAdd_eq {s si u : Shape} {w : ℕ} (d : ScatterDims s si u) (x : FVec Ideal s .f32) (idx : IVec si w)
    (upd : FVec Ideal u .f32) : Host.scatterAdd (F := Ideal) d x idx upd = Ideal.hostScatterAdd d x idx upd := rfl

/-- The row an update lands in is the position a one-axis update lands at: the same reading of the index word. -/
theorem rowDst_eq {E w : ℕ} (N : ℕ) (idx : IVec ⟨2, ![E, 1]⟩ w) (e : Fin E) : rowDst N idx e = VecScatter.vecDst N idx e := rfl

/-! ## The program's scatter and gather records are the library's -/

theorem scatterVec_eq :
    scatter_S50000_S800000x1_S800000_n_0_0_1
      = VecScatter.vecScatterDims 50000 800000 scatter_S50000_S800000x1_S800000_n_0_0_1_wf := rfl

theorem scatterRow_eq :
    scatter_S50000x256_S800000x1_S800000x256_1_0_0_1
      = rowScatterDims 50000 800000 256 scatter_S50000x256_S800000x1_S800000x256_1_0_0_1_wf := rfl

theorem gatherRow_eq :
    gather_S50000x256_S800000x1_S800000x256_1_0_n_n_0_1_1256
      = rowGatherDims 50000 800000 256 gather_S50000x256_S800000x1_S800000x256_1_0_n_n_0_1_1256_wf := rfl

/-! ## The degree factor -/

/-- The factor of node n: one over the square root of one plus the number of edges that end at n. -/
theorem dinv_apply (d : IVec S800000 32) (n : Fin 50000) :
    (dinv d (ix1 n) : EReal) = Ideal.rsqrt ((0 + ∑ _e ∈ landing d n, (1 : EReal)) + 1) := by
  unfold dinv landing
  rw [rsqrt_at, addf_at, scatterAdd_eq, scatterVec_eq, Cert.Algebra.hostScatterAdd_vec_apply]
  simp only [broadcastInDim_scalar_apply, const_at, Cert.Consts.ofBits_zero, Cert.Consts.ofBits_one]

/-! ## A vector as a column or a row -/

/-- A per-node array as a column reads, at (n, 0), the array at n. -/
theorem col_apply (v : FVec Ideal S50000 .f32) (n : Fin 50000) (u : Fin 1) :
    (col v (ix2 n u) : EReal) = (v (ix1 n) : EReal) := by
  unfold col
  exact shapeCast_a_a1_apply v shapeCasts_S50000_S50000x1 n u

/-- A per-feature array as a row reads, at (0, c), the array at c. -/
theorem row_apply (b : FVec Ideal S256 .f32) (u : Fin 1) (c : Fin 256) :
    (row b (ix2 u c) : EReal) = (b (ix1 c) : EReal) := by
  unfold row
  exact shapeCast_a_1a_apply b shapeCasts_S256_S1x256 u c

/-! ## The sum over the edges -/

/-- The edges whose update lands in row n are the edges that end at n. -/
theorem landing_rows (d : IVec S800000 32) (n : Fin 50000) :
    (Finset.univ.filter fun e : Fin 800000 =>
        rowDst 50000 (broadcastInDim S800000x1 ![0] bcast_S800000_S800000x1_0 d) e = some n) = landing d n := by
  unfold landing
  exact Finset.filter_congr fun e _ => by rw [rowDst_eq]

/-- The edge sum at (n, c): over the edges that end at n, the entry of hs in the row the edge's source names. -/
theorem edgeSum_apply (hs : FVec Ideal S50000x256 .f32) (s d : IVec S800000 32) (n : Fin 50000) (c : Fin 256) :
    (edgeSum hs s d (ix2 n c) : EReal) = 0 + ∑ e ∈ landing d n, (hs (ix2 (srcAt s e) c) : EReal) := by
  unfold edgeSum
  rw [scatterAdd_eq, scatterRow_eq, hostScatterAdd_row_apply, landing_rows, broadcastInDim_scalar_apply, const_at,
    Cert.Consts.ofBits_zero]
  refine congrArg (0 + ·) (Finset.sum_congr rfl fun e _ => ?_)
  rw [gatherRow_eq, rowGather_apply (by omega)]
  rfl

/-- The aggregation at (n, c): the edge sum plus the entry itself, scaled by the node's factor. -/
theorem convTail_apply (hs : FVec Ideal S50000x256 .f32) (s d : IVec S800000 32) (v : FVec Ideal S50000 .f32)
    (n : Fin 50000) (c : Fin 256) :
    (convTail hs s d v (ix2 n c) : EReal)
      = (v (ix1 n) : EReal) * ((0 + ∑ e ∈ landing d n, (hs (ix2 (srcAt s e) c) : EReal)) + (hs (ix2 n c) : EReal)) := by
  unfold convTail
  rw [mulf_at, addf_at, broadcastInDim_col_mat_apply, broadcastInDim_vec_col_apply, edgeSum_apply]

/-! ## The aggregated product of a layer -/

/-- The aggregated product at (n, c): the products of the rows the edges that end at n come from, each scaled by its
    row's factor, summed, plus the node's own scaled product, all scaled by the node's factor. -/
theorem layerAgg_apply (K : ℕ) (x : Fns.Arr2 50000 K) (w : Fns.Arr2 K 256) (s d : IVec S800000 32)
    (v : FVec Ideal S50000 .f32) (n : Fin 50000) (c : Fin 256) :
    (layerAgg K x w s d v (ix2 n c) : EReal)
      = v (ix1 n) * ((0 + ∑ e ∈ landing d n, (∑ k : Fin K, x (ix2 (srcAt s e) k) * w (ix2 k c)) * v (ix1 (srcAt s e)))
          + (∑ k : Fin K, x (ix2 n k) * w (ix2 k c)) * v (ix1 n)) := by
  unfold layerAgg
  rw [convTail_apply]
  simp only [Fns.mmScale_ix2, col_apply]

/-! ## The column statistics -/

theorem red_lead : (⟨3, ![50, 1, 256]⟩ : Shape).Reduces [0] (⟨2, ![1, 256]⟩ : Shape) := by decide

theorem reduceAdd_eq {s t u : Shape} {axes : List (Fin s.rank)} (x : FVec Ideal s .f32) (init : u.Idx → Ideal .f32)
    (h : s.ReducesTo axes t) (hu : 0 < u.numel) :
    Host.reduceAdd (F := Ideal) x init h hu = Ideal.hostReduceAdd h x (init (Shape.Idx.first hu)) := rfl

/-- The tile mean at (0, c): the per-tile entries of column c summed over the fifty tiles, divided by fifty thousand. -/
theorem tileMean_apply (ps : FVec Ideal S50x1x256 .f32) (c : Fin 256) :
    (tileMean ps (ix2 (0 : Fin 1) c) : EReal)
      = Ideal.div (0 + ∑ t : Fin 50, (ps (ix3 t (0 : Fin 1) c) : EReal)) ((50000 : ℝ) : EReal) := by
  unfold tileMean
  rw [divf_at, reduceAdd_eq, Cert.Algebra.hostReduceAdd_lead reducesTo_S50x1x256_S1x256_d0 red_lead,
    broadcastInDim_scalar_apply, const_at, const_at, Cert.Consts.ofBits_zero, Cert.Consts.ofBits_50000]

/-- The scale at (0, c), from the two tile means. -/
theorem bnScale_apply (ps pq : FVec Ideal S50x1x256 .f32) (g : FVec Ideal S256 .f32) (c : Fin 256) :
    (bnScale ps pq g (ix2 (0 : Fin 1) c) : EReal)
      = (g (ix1 c) : EReal) * Ideal.rsqrt (max ((tileMean pq (ix2 (0 : Fin 1) c) : EReal)
          - (tileMean ps (ix2 (0 : Fin 1) c) : EReal) * (tileMean ps (ix2 (0 : Fin 1) c) : EReal)) 0 + ((Cert.Consts.eps : ℝ) : EReal)) := by
  unfold bnScale
  rw [mulf_at, row_apply, rsqrt_at, addf_at, maximumf_at, subf_at, mulf_at, broadcastInDim_scalar_apply,
    broadcastInDim_scalar_apply, const_at, const_at, Cert.Consts.ofBits_zero, Cert.Consts.ofBits_eps]

/-- The shift at (0, c): the shift parameter minus the mean times the scale. -/
theorem bnShift_apply (ps pq : FVec Ideal S50x1x256 .f32) (g be : FVec Ideal S256 .f32) (c : Fin 256) :
    (bnShift ps pq g be (ix2 (0 : Fin 1) c) : EReal)
      = (be (ix1 c) : EReal) - (tileMean ps (ix2 (0 : Fin 1) c) : EReal) * (bnScale ps pq g (ix2 (0 : Fin 1) c) : EReal) := by
  unfold bnShift
  rw [subf_at, row_apply, mulf_at]

/-- The tile mean of a layer's per-tile column sums: the sum over all nodes, tile by tile, divided by their number. -/
theorem layerSums_mean (g : EReal → EReal) (agg : FVec Ideal S50000x256 .f32) (b : FVec Ideal S256 .f32) (c : Fin 256) :
    (tileMean (layerSums g agg b) (ix2 (0 : Fin 1) c) : EReal)
      = Ideal.div (∑ j : Fin 50000, g ((agg (ix2 j c) : EReal) + (b (ix1 c) : EReal))) ((50000 : ℝ) : EReal) := by
  rw [tileMean_apply, zero_add]
  unfold layerSums
  simp only [Fns.tileColSum_ix3, row_apply]
  rw [Cert.Algebra.sum_tiles (T := 50) (Mb := 1000) (M := 50000) rfl
    (fun j : Fin 50000 => g ((agg (ix2 j c) : EReal) + (b (ix1 c) : EReal)))]

/-! ## A layer -/

/-- Column c of a layer before its normalisation: the pointwise map of the aggregated product plus the bias. -/
def preAct (f : EReal → EReal) (K : ℕ) (x : Fns.Arr2 50000 K) (w : Fns.Arr2 K 256) (s d : IVec S800000 32)
    (v : FVec Ideal S50000 .f32) (b : FVec Ideal S256 .f32) (c : Fin 256) : Fin 50000 → EReal :=
  fun m => f ((layerAgg K x w s d v (ix2 m c) : EReal) + (b (ix1 c) : EReal))

theorem preAct_apply (f : EReal → EReal) (K : ℕ) (x : Fns.Arr2 50000 K) (w : Fns.Arr2 K 256) (s d : IVec S800000 32)
    (v : FVec Ideal S50000 .f32) (b : FVec Ideal S256 .f32) (c : Fin 256) (m : Fin 50000) :
    preAct f K x w s d v b c m = f ((layerAgg K x w s d v (ix2 m c) : EReal) + (b (ix1 c) : EReal)) := rfl

/-- A layer at (n, c): the column's entry times the scale plus the shift, the scale and the shift from the column's
    mean and mean square over all nodes. -/
theorem layer_apply (f : EReal → EReal) (K : ℕ) (x : Fns.Arr2 50000 K) (w : Fns.Arr2 K 256) (s d : IVec S800000 32)
    (v : FVec Ideal S50000 .f32) (b g be : FVec Ideal S256 .f32) (n : Fin 50000) (c : Fin 256) :
    (layer f K x w s d v b g be (ix2 n c) : EReal)
      = preAct f K x w s d v b c n * ((g (ix1 c) : EReal) * Ideal.rsqrt (max (Ideal.div (∑ j, preAct f K x w s d v b c j * preAct f K x w s d v b c j) ((50000 : ℝ) : EReal)
              - Ideal.div (∑ j, preAct f K x w s d v b c j) ((50000 : ℝ) : EReal) * Ideal.div (∑ j, preAct f K x w s d v b c j) ((50000 : ℝ) : EReal)) 0 + ((Cert.Consts.eps : ℝ) : EReal)))
        + ((be (ix1 c) : EReal) - Ideal.div (∑ j, preAct f K x w s d v b c j) ((50000 : ℝ) : EReal)
            * ((g (ix1 c) : EReal) * Ideal.rsqrt (max (Ideal.div (∑ j, preAct f K x w s d v b c j * preAct f K x w s d v b c j) ((50000 : ℝ) : EReal)
              - Ideal.div (∑ j, preAct f K x w s d v b c j) ((50000 : ℝ) : EReal) * Ideal.div (∑ j, preAct f K x w s d v b c j) ((50000 : ℝ) : EReal)) 0 + ((Cert.Consts.eps : ℝ) : EReal)))) := by
  unfold layer
  rw [Fns.affRow_ix2, row_apply, bnShift_apply, bnScale_apply, layerSums_mean, layerSums_mean]
  rfl

end Cert.KernelIdeal.HandValue

end
-- ==== Proof.RefReadDefs.lean ====
/-
  The edges that end at a node, and the row a gather reads for an edge, for the plain program's index vectors.
-/
import proofs.«155788_j3092376453711_2_alg».proof.Proof.RefRunFns
import proofs.«155788_j3092376453711_2_alg».proof.Proof.LibVecScatter

noncomputable section

namespace Cert.ReferenceIdeal.HandRun

open Idealize.ShloMosaic Idealize.ShloMosaic.ValueIdx
open Cert.ReferenceIdeal

/-- The edges that end at node n: those whose destination word, read as a signed integer, is n. -/
def landing (d : IVec S800000 32) (n : Fin 50000) : Finset (Fin 800000) :=
  Finset.univ.filter fun e => VecScatter.vecDst 50000 (asCol d) e = some n

/-- The row a gather at the wrapped index reads for edge e: the word read signed and clamped into the table. -/
def rowAt (s : IVec S800000 32) (e : Fin 800000) : Fin 50000 :=
  ⟨min ((asCol (wrap s)) (ix2 e (0 : Fin 1))).toInt.toNat (50000 - 1), by omega⟩

end Cert.ReferenceIdeal.HandRun

end
-- ==== Proof.RefReadAt.lean ====
/-
  The pointwise host operations read at an index, at the extended reals: each is its textbook operation on the
  entries at that index. Stated once, by unfolding, so that a proof rewrites with them and never unfolds an
  operation over a whole array.
-/
import Idealize.ShloMosaic.PureOps.Ideal
import Idealize.ShloMosaic.Lib.ValueIdx

noncomputable section

namespace Cert.ReferenceIdeal.HandRun.ReadAt

open Idealize.ShloMosaic Idealize.ShloMosaic.ValueIdx

theorem rsqrt_at {s : Shape} (x : FVec Ideal s .f32) (i : s.Idx) :
    (Host.rsqrt (F := Ideal) x i : EReal) = Ideal.rsqrt (x i : EReal) := rfl

theorem hdivf_at {s : Shape} (x y : FVec Ideal s .f32) (i : s.Idx) :
    (Host.divf (F := Ideal) x y i : EReal) = Ideal.div (x i : EReal) (y i : EReal) := rfl

theorem addf_at {s : Shape} (x y : FVec Ideal s .f32) (i : s.Idx) :
    (addf (F := Ideal) x y i : EReal) = (x i : EReal) + (y i : EReal) := rfl

theorem subf_at {s : Shape} (x y : FVec Ideal s .f32) (i : s.Idx) :
    (subf (F := Ideal) x y i : EReal) = (x i : EReal) - (y i : EReal) := rfl

theorem mulf_at {s : Shape} (x y : FVec Ideal s .f32) (i : s.Idx) :
    (mulf (F := Ideal) x y i : EReal) = (x i : EReal) * (y i : EReal) := rfl

theorem maximumf_at {s : Shape} (x y : FVec Ideal s .f32) (i : s.Idx) :
    (maximumf (F := Ideal) x y i : EReal) = max (x i : EReal) (y i : EReal) := rfl

theorem const_at {s : Shape} (b : BitVec 32) (i : s.Idx) :
    (constant (F := Ideal) s .f32 b i : EReal) = Ideal.ofBits .f32 b := rfl

/-- The accumulating scatter of the host is the exact one. -/
theorem scatterAdd_eq {s si u : Shape} {w : ℕ} (d : ScatterDims s si u) (x : FVec Ideal s .f32) (idx : IVec si w)
    (upd : FVec Ideal u .f32) : Host.scatterAdd (F := Ideal) d x idx upd = Ideal.hostScatterAdd d x idx upd := rfl

/-- The host's sum over axes from an initial value is the exact one, from the initial value's one entry. -/
theorem reduceAdd_eq {s t u : Shape} {axes : List (Fin s.rank)} (x : FVec Ideal s .f32) (init : u.Idx → Ideal .f32)
    (h : s.ReducesTo axes t) (hu : 0 < u.numel) :
    Host.reduceAdd (F := Ideal) x init h hu = Ideal.hostReduceAdd h x (init (Shape.Idx.first hu)) := rfl

/-- A select read at an index. -/
theorem select_at {s : Shape} (c : IVec s 1) (a b : FVec Ideal s .f32) (i : s.Idx) :
    (select c a b i : EReal) = Scalar.select (c i) (a i : EReal) (b i : EReal) := rfl

end Cert.ReferenceIdeal.HandRun.ReadAt

end
-- ==== Proof.LibHostDense.lean ====
/-
  A HOST DENSE LAYER READ AT A (ROW, COLUMN), at the extended reals.

  For x : [M, K], w : [K, N] under plain dimension numbers, a bias vector b : [N] recast as a row [1, N] and broadcast
  down the M rows, and the zero scalar broadcast over [M, N]:

  * hostDot_ix2        : (x · w)(r, c) = Σ_k x(r, k) · w(k, c);
  * hostAffine_ix2     : (x · w + bias)(r, c) = Σ_k x(r, k) · w(k, c) + b c;
  * hostAffineRelu_ix2 : max(x · w + bias, 0)(r, c) = max(Σ_k x(r, k) · w(k, c) + b c, 0);
  * hostBiasRelu_ix2   : max(a + bias, 0)(r, c) = max(a(r, c) + b c, 0) for any array a : [M, N];
  * hostZeros_ix2      : the broadcast zero scalar is 0 at every (r, c).
-/
import proofs.«155788_j3092376453711_2_alg».proof.Proof.LibDotIx2
import proofs.«155788_j3092376453711_2_alg».proof.Proof.LibBroadcastInDim

noncomputable section

open scoped BigOperators

namespace Idealize.ShloMosaic.ValueIdx

open Idealize.ShloMosaic

/-- The host's plain product at (r, c) is the sum over the inner position. -/
theorem hostDot_ix2 {M K N : ℕ} {d : DotDims (⟨2, ![M, K]⟩ : Shape) (⟨2, ![K, N]⟩ : Shape) (⟨2, ![M, N]⟩ : Shape)}
    (hd : PlainDot d) (prec : Option ContractPrecision)
    (x : FVec Ideal (⟨2, ![M, K]⟩ : Shape) .f32) (w : FVec Ideal (⟨2, ![K, N]⟩ : Shape) .f32) (r : Fin M) (c : Fin N) :
    Host.dotGeneral d prec x w (ix2 r c) = ∑ k : Fin K, (x (ix2 r k) : EReal) * (w (ix2 k c) : EReal) := by
  simp only [Host.dotGeneral]
  exact dotGeneral_ix2_any hd _ _ x w r c

/-- The zero scalar broadcast over a two-axis shape is 0 everywhere. -/
theorem hostZeros_ix2 {M N : ℕ} (h0 : (⟨0, ![]⟩ : Shape).BroadcastsInDim (⟨2, ![M, N]⟩ : Shape) ![]) (i : (⟨2, ![M, N]⟩ : Shape).Idx) :
    (broadcastInDim (⟨2, ![M, N]⟩ : Shape) ![] h0 (constant (F := Ideal) (⟨0, ![]⟩ : Shape) .f32 0x00000000#32) i : EReal) = 0 := by
  rw [broadcastInDim_scalar_apply]
  exact Ideal.ofBits_zero_f32

/-- A bias vector recast as a row and broadcast down the rows, at (r, c), is its entry c. -/
theorem hostBiasRow_ix2 {M N : ℕ} (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1]) (r : Fin M) (c : Fin N) :
    broadcastInDim (⟨2, ![M, N]⟩ : Shape) ![0, 1] h2 (broadcastInDim (⟨2, ![1, N]⟩ : Shape) ![1] h1 b) (ix2 r c) = b (ix1 c) := by
  rw [broadcastInDim_row_mat_apply, broadcastInDim_vec_row_apply]

/-- Bias and relu on any array: max(a + bias, 0) at (r, c). -/
theorem hostBiasRelu_ix2 {M N : ℕ} (a : FVec Ideal (⟨2, ![M, N]⟩ : Shape) .f32) (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1])
    (h0 : (⟨0, ![]⟩ : Shape).BroadcastsInDim (⟨2, ![M, N]⟩ : Shape) ![]) (r : Fin M) (c : Fin N) :
    maximumf (addf a (broadcastInDim (⟨2, ![M, N]⟩ : Shape) ![0, 1] h2 (broadcastInDim (⟨2, ![1, N]⟩ : Shape) ![1] h1 b)))
        (broadcastInDim (⟨2, ![M, N]⟩ : Shape) ![] h0 (constant (F := Ideal) (⟨0, ![]⟩ : Shape) .f32 0x00000000#32)) (ix2 r c)
      = max ((a (ix2 r c) : EReal) + (b (ix1 c) : EReal)) 0 := by
  show FloatOps.maximumf (FloatOps.addf (a (ix2 r c)) (broadcastInDim (⟨2, ![M, N]⟩ : Shape) ![0, 1] h2 (broadcastInDim (⟨2, ![1, N]⟩ : Shape) ![1] h1 b) (ix2 r c)))
      (broadcastInDim (⟨2, ![M, N]⟩ : Shape) ![] h0 (constant (F := Ideal) (⟨0, ![]⟩ : Shape) .f32 0x00000000#32) (ix2 r c)) = _
  rw [hostBiasRow_ix2, hostZeros_ix2, Ideal.addf_def, Ideal.maximumf_def]

/-- The host's dense layer x · w + bias at (r, c). -/
theorem hostAffine_ix2 {M K N : ℕ} {d : DotDims (⟨2, ![M, K]⟩ : Shape) (⟨2, ![K, N]⟩ : Shape) (⟨2, ![M, N]⟩ : Shape)}
    (hd : PlainDot d) (prec : Option ContractPrecision)
    (x : FVec Ideal (⟨2, ![M, K]⟩ : Shape) .f32) (w : FVec Ideal (⟨2, ![K, N]⟩ : Shape) .f32) (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1]) (r : Fin M) (c : Fin N) :
    addf (Host.dotGeneral d prec x w) (broadcastInDim (⟨2, ![M, N]⟩ : Shape) ![0, 1] h2 (broadcastInDim (⟨2, ![1, N]⟩ : Shape) ![1] h1 b)) (ix2 r c)
      = (∑ k : Fin K, (x (ix2 r k) : EReal) * (w (ix2 k c) : EReal)) + (b (ix1 c) : EReal) := by
  show FloatOps.addf (Host.dotGeneral d prec x w (ix2 r c)) (broadcastInDim (⟨2, ![M, N]⟩ : Shape) ![0, 1] h2 (broadcastInDim (⟨2, ![1, N]⟩ : Shape) ![1] h1 b) (ix2 r c)) = _
  rw [hostDot_ix2 hd, hostBiasRow_ix2, Ideal.addf_def]

/-- The host's dense layer with relu, max(x · w + bias, 0), at (r, c). -/
theorem hostAffineRelu_ix2 {M K N : ℕ} {d : DotDims (⟨2, ![M, K]⟩ : Shape) (⟨2, ![K, N]⟩ : Shape) (⟨2, ![M, N]⟩ : Shape)}
    (hd : PlainDot d) (prec : Option ContractPrecision)
    (x : FVec Ideal (⟨2, ![M, K]⟩ : Shape) .f32) (w : FVec Ideal (⟨2, ![K, N]⟩ : Shape) .f32) (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1])
    (h0 : (⟨0, ![]⟩ : Shape).BroadcastsInDim (⟨2, ![M, N]⟩ : Shape) ![]) (r : Fin M) (c : Fin N) :
    maximumf (addf (Host.dotGeneral d prec x w) (broadcastInDim (⟨2, ![M, N]⟩ : Shape) ![0, 1] h2 (broadcastInDim (⟨2, ![1, N]⟩ : Shape) ![1] h1 b)))
        (broadcastInDim (⟨2, ![M, N]⟩ : Shape) ![] h0 (constant (F := Ideal) (⟨0, ![]⟩ : Shape) .f32 0x00000000#32)) (ix2 r c)
      = max ((∑ k : Fin K, (x (ix2 r k) : EReal) * (w (ix2 k c) : EReal)) + (b (ix1 c) : EReal)) 0 := by
  show FloatOps.maximumf (addf (Host.dotGeneral d prec x w) (broadcastInDim (⟨2, ![M, N]⟩ : Shape) ![0, 1] h2 (broadcastInDim (⟨2, ![1, N]⟩ : Shape) ![1] h1 b)) (ix2 r c))
      (broadcastInDim (⟨2, ![M, N]⟩ : Shape) ![] h0 (constant (F := Ideal) (⟨0, ![]⟩ : Shape) .f32 0x00000000#32) (ix2 r c)) = _
  rw [hostAffine_ix2 hd, hostZeros_ix2, Ideal.maximumf_def]

end Idealize.ShloMosaic.ValueIdx

end
-- ==== Proof.RefRead.lean ====
/-
  Pieces of the reference's result read at explicit coordinates: the inverse square root of one plus the number of
  edges that end at a row, the two matrix products, and the maximum with zero.
-/
import proofs.«155788_j3092376453711_2_alg».proof.Proof.RefReadDefs
import proofs.«155788_j3092376453711_2_alg».proof.Proof.RefReadAt
import proofs.«155788_j3092376453711_2_alg».proof.Proof.MathSums
import proofs.«155788_j3092376453711_2_alg».proof.Proof.LibBroadcastInDim
import proofs.«155788_j3092376453711_2_alg».proof.Proof.LibHostDense
import proofs.«155788_j3092376453711_2_alg».proof.Proof.Consts

noncomputable section

open scoped BigOperators

namespace Cert.ReferenceIdeal.HandRun

open Cert.ReferenceIdeal Cert.ReferenceIdeal.Gen Idealize.ShloMosaic Idealize.ShloMosaic.TcCoe Idealize.SL.Sem Idealize.ShloMosaic.StableHlo
open Idealize.ShloMosaic.ValueIdx

namespace ReadAt

/-- The degree scatter's dimension numbers are those of adding a vector of updates into a one-axis table. -/
theorem scat_vec : scatter_S50000_S800000x1_S800000_n_0_0_1
    = VecScatter.vecScatterDims 50000 800000 scatter_S50000_S800000x1_S800000_n_0_0_1_wf := rfl

/-- The layer product's dimension numbers are those of a plain 50000 x 256 by 256 x 256 product. -/
theorem plainDot256 : PlainDot dot_S50000x256_S256x256_S50000x256_1_0_0_1_n_n where
  rank := rfl
  size := rfl
  l0 := fun j q => by
    simp [DotDims.lhsIdx, dot_S50000x256_S256x256_S50000x256_1_0_0_1_n_n]; rfl
  l1 := fun j q => (dot_S50000x256_S256x256_S50000x256_1_0_0_1_n_n).lhsIdx_val_of_single (cl := 1) rfl j q
  r0 := fun j q => (dot_S50000x256_S256x256_S50000x256_1_0_0_1_n_n).rhsIdx_val_of_single (cr := 0) rfl j q
  r1 := fun j q => by
    simp [DotDims.rhsIdx, dot_S50000x256_S256x256_S50000x256_1_0_0_1_n_n]; rfl

/-- The first product's dimension numbers are those of a plain 50000 x 1280 by 1280 x 256 product. -/
theorem plainDot1280 : PlainDot dot_S50000x1280_S1280x256_S50000x256_1_0_0_1_n_n where
  rank := rfl
  size := rfl
  l0 := fun j q => by
    simp [DotDims.lhsIdx, dot_S50000x1280_S1280x256_S50000x256_1_0_0_1_n_n]; rfl
  l1 := fun j q => (dot_S50000x1280_S1280x256_S50000x256_1_0_0_1_n_n).lhsIdx_val_of_single (cl := 1) rfl j q
  r0 := fun j q => (dot_S50000x1280_S1280x256_S50000x256_1_0_0_1_n_n).rhsIdx_val_of_single (cr := 0) rfl j q
  r1 := fun j q => by
    simp [DotDims.rhsIdx, dot_S50000x1280_S1280x256_S50000x256_1_0_0_1_n_n]; rfl

end ReadAt

open ReadAt

/-- The inverse square root of one plus the number of edges that end at n. -/
theorem dinv_apply (d : IVec S800000 32) (n : Fin 50000) :
    (dinv d (ix1 n) : EReal) = Ideal.rsqrt ((0 + ∑ _e ∈ landing d n, (1 : EReal)) + 1) := by
  unfold dinv landing asCol
  rw [rsqrt_at, addf_at, scatterAdd_eq, scat_vec, Cert.Algebra.hostScatterAdd_vec_apply]
  simp only [broadcastInDim_scalar_apply, const_at, Cert.Consts.ofBits_zero, Cert.Consts.ofBits_one]

/-- A layer's product at (n, c): the sum over the 256 inner positions. -/
theorem dot256_apply (x : FVec Ideal S50000x256 .f32) (w : FVec Ideal S256x256 .f32) (n : Fin 50000) (c : Fin 256) :
    (dot256 x w (ix2 n c) : EReal) = ∑ k : Fin 256, (x (ix2 n k) : EReal) * (w (ix2 k c) : EReal) := by
  unfold dot256
  exact hostDot_ix2 plainDot256 none x w n c

/-- The first product at (n, c): the sum over the 1280 inner positions. -/
theorem dot1280_apply (x : FVec Ideal S50000x1280 .f32) (w : FVec Ideal S1280x256 .f32) (n : Fin 50000) (c : Fin 256) :
    (dot1280 x w (ix2 n c) : EReal) = ∑ k : Fin 1280, (x (ix2 n k) : EReal) * (w (ix2 k c) : EReal) := by
  unfold dot1280
  exact hostDot_ix2 plainDot1280 none x w n c

/-- The maximum with zero at (n, c). -/
theorem relu_apply (h : FVec Ideal S50000x256 .f32) (n : Fin 50000) (c : Fin 256) :
    (relu h (ix2 n c) : EReal) = max (h (ix2 n c) : EReal) 0 := by
  unfold relu
  rw [maximumf_at, broadcastInDim_scalar_apply, const_at, Cert.Consts.ofBits_zero]

end Cert.ReferenceIdeal.HandRun

end
-- ==== Proof.RefReadBN.lean ====
/-
  The reference's column normalisation read at an index, at the extended reals.

  For an array r of 50000 rows and 256 columns:

    colMean r c    = (Σ_j r (j, c)) / 50000
    colVar r c     = (Σ_j (r (j, c) − mean c) · (r (j, c) − mean c)) / 50000,   mean c = (Σ_k r (k, c)) / 50000
    bn r g be (n, c) = (r (n, c) − colMean r c) · rsqrt (colVar r c + eps) · g c + be c.

  The sums start from the float zero, which is 0; the divisor is the float 50000; the variance is guarded by a
  comparison "50000 less the integer zero as a float is greater than zero", which holds, so the guarded value is
  the quotient and the other branch is never read.
-/
import proofs.«155788_j3092376453711_2_alg».proof.Proof.RefRunFns
import proofs.«155788_j3092376453711_2_alg».proof.Proof.Consts
import proofs.«155788_j3092376453711_2_alg».proof.Proof.LibColReduce
import proofs.«155788_j3092376453711_2_alg».proof.Proof.LibBroadcastInDim
import proofs.«155788_j3092376453711_2_alg».proof.Proof.LibHostDense
import Idealize.ShloMosaic.Lib.ValueIdx

noncomputable section

open scoped BigOperators

namespace Cert.ReferenceIdeal.HandRun

open Cert.ReferenceIdeal Cert.ReferenceIdeal.Gen Idealize.ShloMosaic Idealize.ShloMosaic.ValueIdx

namespace BN

/-! ## The pointwise operations at an index -/

theorem divf_at {s : Shape} (x y : FVec Ideal s .f32) (i : s.Idx) :
    (Host.divf (F := Ideal) x y i : EReal) = Ideal.div (x i : EReal) (y i : EReal) := rfl

theorem subf_at {s : Shape} (x y : FVec Ideal s .f32) (i : s.Idx) :
    (subf x y i : EReal) = (x i : EReal) - (y i : EReal) := rfl

theorem mulf_at {s : Shape} (x y : FVec Ideal s .f32) (i : s.Idx) :
    (mulf x y i : EReal) = (x i : EReal) * (y i : EReal) := rfl

theorem addf_at {s : Shape} (x y : FVec Ideal s .f32) (i : s.Idx) :
    (addf x y i : EReal) = (x i : EReal) + (y i : EReal) := rfl

theorem rsqrt_at {s : Shape} (x : FVec Ideal s .f32) (i : s.Idx) :
    (Host.rsqrt (F := Ideal) x i : EReal) = Ideal.rsqrt (x i : EReal) := rfl

theorem select_at {s : Shape} (cnd : IVec s 1) (x y : FVec Ideal s .f32) (i : s.Idx) :
    (select cnd x y i : EReal) = Scalar.select (cnd i) (x i : EReal) (y i : EReal) := rfl

/-- A float scalar constant, at its one index, is what its pattern denotes. -/
theorem const_at (b : BitVec 32) : (constant (F := Ideal) S_ .f32 b ix0 : EReal) = Ideal.ofBits .f32 b := rfl

/-! ## A column's sum -/

/-- The host's sum over the rows from the float zero, at column c: the sum of the column's entries. -/
theorem colSum_at (x : FVec Ideal S50000x256 .f32) (c : Fin 256) :
    (Host.reduceAdd (F := Ideal) x (constant (F := Ideal) S_ .f32 0x00000000#32) reducesTo_S50000x256_S256_d0 h_S_ (ix1 c) : EReal)
      = ∑ j : Fin 50000, (x (ix2 j c) : EReal) := by
  have h : (Host.reduceAdd (F := Ideal) x (constant (F := Ideal) S_ .f32 0x00000000#32) reducesTo_S50000x256_S256_d0 h_S_ (ix1 c) : EReal)
      = Ideal.ofBits .f32 0x00000000#32 + ∑ j : Fin 50000, (x (ix2 j c) : EReal) :=
    hostReduceAdd_col reducesTo_S50000x256_S256_d0 (by decide) x (Ideal.ofBits .f32 0x00000000#32) c
  rw [h, Cert.Consts.ofBits_zero, zero_add]

/-! ## The guard of the variance -/

/-- Fifty thousand less the integer zero as a float is fifty thousand. -/
theorem nLess_at : ((subf (F := Ideal) (constant (F := Ideal) S_ .f32 0x47435000#32) (sitofp (F := Ideal) .f32 (constantI S_ 32 0#32))) ix0 : EReal) = ((50000 : ℝ) : EReal) := by
  show Ideal.ofBits .f32 0x47435000#32 - (((0#32 : BitVec 32).toInt : ℝ) : EReal) = _
  rw [Cert.Consts.ofBits_50000]
  simp

/-- The guard holds: fifty thousand is greater than zero. -/
theorem guard_at : cmpf (F := Ideal) .ogt (subf (F := Ideal) (constant (F := Ideal) S_ .f32 0x47435000#32) (sitofp (F := Ideal) .f32 (constantI S_ 32 0#32))) (constant (F := Ideal) S_ .f32 0x00000000#32) ix0 = 1#1 := by
  show Ideal.cmp .ogt ((subf (F := Ideal) (constant (F := Ideal) S_ .f32 0x47435000#32) (sitofp (F := Ideal) .f32 (constantI S_ 32 0#32))) ix0 : EReal) (Ideal.ofBits .f32 0x00000000#32) = 1#1
  rw [nLess_at, Cert.Consts.ofBits_zero]
  show BitVec.ofBool (decide ((0 : EReal) < ((50000 : ℝ) : EReal))) = 1#1
  rw [decide_eq_true (EReal.coe_pos.mpr (by norm_num))]
  rfl

/-! ## A column's mean as a row, and the deviation from it -/

/-- The row of column means, at (0, c). -/
theorem meanRow_at (r : FVec Ideal S50000x256 .f32) (u : Fin 1) (c : Fin 256) :
    ((Host.divf (F := Ideal)
        (broadcastInDim S1x256 ![1] bcast_S256_S1x256_1
          (Host.reduceAdd (F := Ideal) r (constant (F := Ideal) S_ .f32 0x00000000#32) reducesTo_S50000x256_S256_d0 h_S_))
        (broadcastInDim S1x256 ![] bcast_S_S1x256 (constant (F := Ideal) S_ .f32 0x47435000#32))) (ix2 u c) : EReal)
      = Ideal.div (∑ k : Fin 50000, (r (ix2 k c) : EReal)) ((50000 : ℝ) : EReal) := by
  rw [divf_at, broadcastInDim_vec_row_apply, colSum_at, broadcastInDim_scalar_apply, const_at, Cert.Consts.ofBits_50000]

/-- An entry less its column's mean. -/
theorem dev_at (r : FVec Ideal S50000x256 .f32) (j : Fin 50000) (c : Fin 256) :
    (subf (F := Ideal) r (broadcastInDim S50000x256 ![0, 1] bcast_S1x256_S50000x256_0_1 (Host.divf (F := Ideal)
        (broadcastInDim S1x256 ![1] bcast_S256_S1x256_1
          (Host.reduceAdd (F := Ideal) r (constant (F := Ideal) S_ .f32 0x00000000#32) reducesTo_S50000x256_S256_d0 h_S_))
        (broadcastInDim S1x256 ![] bcast_S_S1x256 (constant (F := Ideal) S_ .f32 0x47435000#32)))) (ix2 j c) : EReal)
      = (r (ix2 j c) : EReal) - Ideal.div (∑ k : Fin 50000, (r (ix2 k c) : EReal)) ((50000 : ℝ) : EReal) := by
  rw [subf_at, broadcastInDim_row_mat_apply, meanRow_at]

end BN

/-! ## The three readings -/

/-- The mean of column c. -/
theorem colMean_apply (r : FVec Ideal S50000x256 .f32) (c : Fin 256) :
    (colMean r (ix1 c) : EReal) = Ideal.div (∑ j : Fin 50000, (r (ix2 j c) : EReal)) ((50000 : ℝ) : EReal) := by
  unfold colMean
  rw [BN.divf_at, BN.colSum_at, broadcastInDim_scalar_apply, BN.const_at, Cert.Consts.ofBits_50000]

/-- The mean squared deviation of column c from its mean. -/
theorem colVar_apply (r : FVec Ideal S50000x256 .f32) (c : Fin 256) :
    (colVar r (ix1 c) : EReal)
      = Ideal.div (∑ j : Fin 50000,
          ((r (ix2 j c) : EReal) - Ideal.div (∑ k : Fin 50000, (r (ix2 k c) : EReal)) ((50000 : ℝ) : EReal))
            * ((r (ix2 j c) : EReal) - Ideal.div (∑ k : Fin 50000, (r (ix2 k c) : EReal)) ((50000 : ℝ) : EReal)))
          ((50000 : ℝ) : EReal) := by
  unfold colVar
  rw [BN.select_at, broadcastInDim_scalar_apply, BN.guard_at, select_one, BN.divf_at, BN.colSum_at,
    broadcastInDim_scalar_apply, BN.nLess_at]
  refine congrArg (fun z => Ideal.div z ((50000 : ℝ) : EReal)) (Finset.sum_congr rfl fun j _ => ?_)
  rw [BN.mulf_at, BN.dev_at]

/-- The normalised entry (n, c): the entry less its column's mean, times the reciprocal square root of the column's
    variance plus the small constant, scaled by g c and shifted by be c. -/
theorem bn_apply (r : FVec Ideal S50000x256 .f32) (g be : FVec Ideal S256 .f32) (n : Fin 50000) (c : Fin 256) :
    (bn r g be (ix2 n c) : EReal)
      = (((r (ix2 n c) : EReal) - (colMean r (ix1 c) : EReal))
          * Ideal.rsqrt ((colVar r (ix1 c) : EReal) + ((Cert.Consts.eps : ℝ) : EReal))) * (g (ix1 c) : EReal)
        + (be (ix1 c) : EReal) := by
  unfold bn
  rw [BN.addf_at, BN.mulf_at, BN.mulf_at, BN.subf_at, hostBiasRow_ix2, hostBiasRow_ix2, hostBiasRow_ix2, hostBiasRow_ix2,
    BN.rsqrt_at, BN.addf_at, broadcastInDim_scalar_apply, BN.const_at, Cert.Consts.ofBits_eps]

end Cert.ReferenceIdeal.HandRun

end
-- ==== Proof.RefReadConv.lean ====
/-
  One aggregation of the plain program read at an index.

  An edge that ends at node n has a destination word in the table's range and not negative: the wrap of a negative
  index leaves it alone, and so does the clamp of a gather, so the row a gather reads for it is n (rowAt_of_landing).

  The aggregation conv h s d b at (n, c): the accumulating scatter into zeros reads zero plus, over the edges that end at
  n, the update's entry; the update of edge e is the row of h that the edge's source names, at column c, times the
  edge's weight, which is dinv at the row the source names times dinv at the row the destination names; to it are added
  the entry of h itself times the square of the node's dinv, and the bias at c.
-/
import proofs.«155788_j3092376453711_2_alg».proof.Proof.RefReadDefs
import proofs.«155788_j3092376453711_2_alg».proof.Proof.Consts
import proofs.«155788_j3092376453711_2_alg».proof.Proof.LibBroadcastInDim
import proofs.«155788_j3092376453711_2_alg».proof.Proof.LibRowGatherScatter
import proofs.«155788_j3092376453711_2_alg».proof.Proof.LibVecGather

noncomputable section

open scoped BigOperators

namespace Cert.ReferenceIdeal.HandRun

open Idealize.ShloMosaic Idealize.ShloMosaic.ValueIdx
open Cert.ReferenceIdeal Cert.ReferenceIdeal.Gen

namespace ConvRead

/-! ## Pointwise operations and the scatter at an index -/

theorem addf_at {s : Shape} (x y : FVec Ideal s .f32) (i : s.Idx) :
    (addf (F := Ideal) x y i : EReal) = (x i : EReal) + (y i : EReal) := rfl
theorem mulf_at {s : Shape} (x y : FVec Ideal s .f32) (i : s.Idx) :
    (mulf (F := Ideal) x y i : EReal) = (x i : EReal) * (y i : EReal) := rfl
theorem const_at (b : BitVec 32) (i : S_.Idx) : (constant (F := Ideal) S_ .f32 b i : EReal) = Ideal.ofBits .f32 b := rfl
theorem scatterAdd_eq {s si u : Shape} {w : ℕ} (d : ScatterDims s si u) (x : FVec Ideal s .f32) (idx : IVec si w)
    (upd : FVec Ideal u .f32) : Host.scatterAdd (F := Ideal) d x idx upd = Ideal.hostScatterAdd d x idx upd := rfl

/-- The row an update lands in is the position a one-axis update lands at: the same reading of the index word. -/
theorem rowDst_eq {E w : ℕ} (N : ℕ) (idx : IVec ⟨2, ![E, 1]⟩ w) (e : Fin E) : rowDst N idx e = VecScatter.vecDst N idx e := rfl

/-! ## The program's scatter and gather records are the library's -/

theorem scatterRow_eq :
    scatter_S50000x256_S800000x1_S800000x256_1_0_0_1
      = rowScatterDims 50000 800000 256 scatter_S50000x256_S800000x1_S800000x256_1_0_0_1_wf := rfl

theorem gatherRow_eq :
    gather_S50000x256_S800000x1_S800000x256_1_0_n_n_0_1_1256
      = rowGatherDims 50000 800000 256 gather_S50000x256_S800000x1_S800000x256_1_0_n_n_0_1_1256_wf := rfl

theorem gatherVec_eq :
    gather_S50000_S800000x1_S800000_n_0_n_n_0_1_1
      = vecGatherDims 50000 800000 gather_S50000_S800000x1_S800000_n_0_n_n_0_1_1_wf := rfl

/-- The edges whose update lands in row n are the edges that end at n. -/
theorem landing_rows (d : IVec S800000 32) (n : Fin 50000) :
    (Finset.univ.filter fun e : Fin 800000 => rowDst 50000 (asCol d) e = some n) = landing d n := by
  unfold landing
  exact Finset.filter_congr fun e _ => by rw [rowDst_eq]

/-- The one-column table of an index vector reads, at (e, 0), the vector at e. -/
theorem asCol_apply (s : IVec S800000 32) (e : Fin 800000) (u : Fin 1) : asCol s (ix2 e u) = s (ix1 e) := by
  unfold asCol
  exact broadcastInDim_vec_col_apply bcast_S800000_S800000x1_0 s e u

/-- A gather of rows at the wrapped index reads, for edge e, the row rowAt names. -/
theorem gatherRow_apply (h : FVec Ideal S50000x256 .f32) (s : IVec S800000 32) (e : Fin 800000) (c : Fin 256) :
    (Host.gather gather_S50000x256_S800000x1_S800000x256_1_0_n_n_0_1_1256 h (asCol (wrap s)) (ix2 e c) : EReal)
      = (h (ix2 (rowAt s e) c) : EReal) := by
  rw [gatherRow_eq, rowGather_apply (by omega)]
  rfl

/-- A gather of entries at the wrapped index reads, for edge e, the entry rowAt names. -/
theorem gatherVec_apply (x : FVec Ideal S50000 .f32) (s : IVec S800000 32) (e : Fin 800000) :
    (Host.gather gather_S50000_S800000x1_S800000_n_0_n_n_0_1_1 x (asCol (wrap s)) (ix1 e) : EReal)
      = (x (ix1 (rowAt s e)) : EReal) := by
  rw [gatherVec_eq, vecGather_apply (by omega)]
  rfl

/-- An edge's weight: dinv at the row its source names times dinv at the row its destination names. -/
theorem edgeW_apply (s d : IVec S800000 32) (e : Fin 800000) :
    (edgeW s d (ix1 e) : EReal) = (dinv d (ix1 (rowAt s e)) : EReal) * (dinv d (ix1 (rowAt d e)) : EReal) := by
  unfold edgeW
  rw [mulf_at, gatherVec_apply, gatherVec_apply]

end ConvRead

open ConvRead

/-! ## An edge that ends at n reads row n -/

/-- An edge that ends at node n has a destination word in the table's range and not negative; the wrap and the clamp
    leave it alone, so the row a gather reads for it is n. -/
theorem rowAt_of_landing (d : IVec S800000 32) (n : Fin 50000) (e : Fin 800000) (he : e ∈ landing d n) : rowAt d e = n := by
  have h : VecScatter.vecDst 50000 (asCol d) e = some n := (Finset.mem_filter.mp he).2
  unfold VecScatter.vecDst at h
  split_ifs at h with hr
  have hval : n.val = ((asCol d) (ix2 e (0 : Fin 1))).toInt.toNat := by
    rw [← Option.some.inj h]
  rw [asCol_apply] at hr hval
  have hw : (asCol (wrap d)) (ix2 e (0 : Fin 1)) = d (ix1 e) := by
    rw [asCol_apply]
    unfold wrap
    exact wrapNeg_apply_of_nonneg bcast_S_S800000 50000 d (ix1 e) hr.1
  refine Fin.ext ?_
  show min ((asCol (wrap d)) (ix2 e (0 : Fin 1))).toInt.toNat (50000 - 1) = n.val
  rw [hw, hval]
  omega

/-! ## The aggregation at an index -/

/-- The aggregation at (n, c). -/
theorem conv_apply (h : FVec Ideal S50000x256 .f32) (s d : IVec S800000 32) (b : FVec Ideal S256 .f32) (n : Fin 50000)
    (c : Fin 256) :
    (conv h s d b (ix2 n c) : EReal)
      = ((0 + ∑ e ∈ landing d n, (h (ix2 (rowAt s e) c) : EReal)
              * ((dinv d (ix1 (rowAt s e)) : EReal) * (dinv d (ix1 (rowAt d e)) : EReal)))
          + (h (ix2 n c) : EReal) * ((dinv d (ix1 n) : EReal) * (dinv d (ix1 n) : EReal))) + (b (ix1 c) : EReal) := by
  unfold conv
  rw [addf_at, addf_at, scatterAdd_eq, scatterRow_eq, hostScatterAdd_row_apply, landing_rows, broadcastInDim_scalar_apply,
    const_at, Cert.Consts.ofBits_zero, mulf_at, broadcastInDim_col_mat_apply, broadcastInDim_vec_col_apply, mulf_at,
    broadcastInDim_row_mat_apply, broadcastInDim_vec_row_apply]
  refine congrArg (fun t : EReal => t + (b (ix1 c) : EReal)) ?_
  refine congrArg (fun t : EReal => t + (h (ix2 n c) : EReal) * ((dinv d (ix1 n) : EReal) * (dinv d (ix1 n) : EReal))) ?_
  refine congrArg (fun t : EReal => 0 + t) ?_
  refine Finset.sum_congr rfl fun e _ => ?_
  rw [mulf_at, gatherRow_apply, broadcastInDim_col_mat_apply, broadcastInDim_vec_col_apply, edgeW_apply]

end Cert.ReferenceIdeal.HandRun

end
-- ==== Proof.MathConv.lean ====
/-
  A normalised neighbourhood sum, two ways.

  A node n receives, from every edge e of a finite set S of edges that end at n, the value of the edge's source
  node; every node u carries a factor v u that is a nonnegative real.

    one way   : scale every node's value by its own factor first, sum what the edges bring together with the
                node's own scaled value, then scale the result by v n:
                    v n · ( (0 + Σ_{e ∈ S} h (s e) · v (s e)) + h n · v n )
    other way : weight every edge by the product of the factors at its two ends, and the node's own value by v n · v n:
                    (0 + Σ_{e ∈ S} h (s e) · (v (s e) · v (d e))) + h n · (v n · v n)        with d e = n on S.

  The factor v n goes inside the sum because it is a nonnegative real (a sum of extended reals, which may hold both
  infinities, distributes over such a factor); inside, d e = n on every edge of the sum, and the rest is
  commutativity and associativity of the product.  Nothing is asked of the values h.
-/
import Idealize.ShloMosaic.PureOps.Ideal
import proofs.«155788_j3092376453711_2_alg».proof.Proof.LibVecGather

noncomputable section

open scoped BigOperators

namespace Cert.Algebra

open Idealize.ShloMosaic Idealize.ShloMosaic.ValueIdx

/-- The two ways of forming a normalised neighbourhood sum agree. -/
theorem conv_two_ways {ι κ : Type*} (S : Finset ι) (s d : ι → κ) (n : κ) (hd : ∀ e ∈ S, d e = n)
    (v : κ → EReal) (hv : ∃ r : ℝ, 0 ≤ r ∧ v n = ((r : ℝ) : EReal)) (h : κ → EReal) :
    v n * ((0 + ∑ e ∈ S, h (s e) * v (s e)) + h n * v n)
      = (0 + ∑ e ∈ S, h (s e) * (v (s e) * v (d e))) + h n * (v n * v n) := by
  obtain ⟨r, hr, hrv⟩ := hv
  rw [zero_add, zero_add, hrv,
    EReal.left_distrib_of_nonneg_of_ne_top (EReal.coe_nonneg.mpr hr) (EReal.coe_ne_top r),
    coe_nonneg_mul_finset_sum r hr]
  congr 1
  · refine Finset.sum_congr rfl fun e he => ?_
    rw [hd e he, hrv]
    ac_rfl
  · ac_rfl

end Cert.Algebra

end
-- ==== Proof.MathBN.lean ====
/-
  Normalising a column by its mean and variance, two ways.

  For real entries a_1 … a_n of a column, N = n, a positive real e, and real scale g and shift b:

    one way   : m = (Σ a) / N,  v = max ((Σ a²) / N − m·m) 0,  s = g · rsqrt (v + e),  t = b − m · s,  result a_i · s + t
    other way : m = (Σ a) / N,  v' = (Σ (a − m)²) / N,         result ((a_i − m) · rsqrt (v' + e)) · g + b.

  The mean of the squares minus the square of the mean IS the mean of the squared deviations (for reals), which is
  not negative, so the maximum with zero changes nothing and v = v'; the rest is the distributive law, which holds
  because every quantity is a real.  Both results are real.
-/
import Idealize.ShloMosaic.PureOps.Ideal
import proofs.«155788_j3092376453711_2_alg».proof.Proof.LibRealEntries

noncomputable section

open scoped BigOperators

namespace Cert.Algebra

open Idealize.ShloMosaic

/-- The mean of the squared deviations of real entries is a nonnegative real. -/
theorem var_nonneg_real {n : ℕ} (f : Fin n → ℝ) (u N : ℝ) (hN : 0 < N) :
    0 ≤ (∑ i, (f i - u) * (f i - u)) * (1 / N) :=
  mul_nonneg (Finset.sum_nonneg fun i _ => mul_self_nonneg _) (by positivity)

/-- The two ways of normalising agree, entry by entry, and the common value is a real. -/
theorem bn_two_ways {n : ℕ} (a : Fin n → EReal) (ha : ∀ i, IsReal (a i)) (N : ℝ) (hN : 0 < N) (hn : (n : ℝ) = N)
    (e : ℝ) (he : 0 < e) (g b : EReal) (hg : IsReal g) (hb : IsReal b) (i : Fin n) :
    a i * (g * Ideal.rsqrt (max (Ideal.div (∑ j, a j * a j) (N : EReal)
            - Ideal.div (∑ j, a j) (N : EReal) * Ideal.div (∑ j, a j) (N : EReal)) 0 + (e : EReal)))
        + (b - Ideal.div (∑ j, a j) (N : EReal) * (g * Ideal.rsqrt (max (Ideal.div (∑ j, a j * a j) (N : EReal)
            - Ideal.div (∑ j, a j) (N : EReal) * Ideal.div (∑ j, a j) (N : EReal)) 0 + (e : EReal))))
      = ((a i - Ideal.div (∑ j, a j) (N : EReal))
          * Ideal.rsqrt (Ideal.div (∑ j, (a j - Ideal.div (∑ k, a k) (N : EReal)) * (a j - Ideal.div (∑ k, a k) (N : EReal))) (N : EReal)
              + (e : EReal))) * g + b
    ∧ IsReal (((a i - Ideal.div (∑ j, a j) (N : EReal))
          * Ideal.rsqrt (Ideal.div (∑ j, (a j - Ideal.div (∑ k, a k) (N : EReal)) * (a j - Ideal.div (∑ k, a k) (N : EReal))) (N : EReal)
              + (e : EReal))) * g + b) := by
  rw [var_eq a ha N hN.ne' hn]
  obtain ⟨rs, hrs⟩ := isReal_rsqrt_var a ha (Ideal.div (∑ j, a j) (N : EReal)) ((IsReal.sum _ _ fun j _ => ha j).div_real hN.ne') N hN e he
  have hm : IsReal (Ideal.div (∑ j, a j) (N : EReal)) := (IsReal.sum _ _ fun j _ => ha j).div_real hN.ne'
  obtain ⟨mu, hmu⟩ := hm
  -- the variance is a nonnegative real, so the maximum with zero is the variance itself
  have hvar : max (Ideal.div (∑ j, (a j - Ideal.div (∑ k, a k) (N : EReal)) * (a j - Ideal.div (∑ k, a k) (N : EReal))) (N : EReal)) 0
      = Ideal.div (∑ j, (a j - Ideal.div (∑ k, a k) (N : EReal)) * (a j - Ideal.div (∑ k, a k) (N : EReal))) (N : EReal) := by
    choose f hf using ha
    have hfun : a = fun i => (f i : EReal) := funext hf
    subst hfun
    rw [hmu]
    simp only [Ideal.div_coe hN.ne', ← EReal.coe_mul, ← coe_sum, ← EReal.coe_sub]
    exact max_eq_left (by exact_mod_cast var_nonneg_real f mu N hN)
  rw [hvar, hrs, hmu]
  obtain ⟨ai, hai⟩ := ha i
  obtain ⟨gr, rfl⟩ := hg
  obtain ⟨br, rfl⟩ := hb
  rw [hai]
  refine ⟨?_, ⟨(ai - mu) * rs * gr + br, ?_⟩⟩
  · simp only [← EReal.coe_mul, ← EReal.coe_sub, ← EReal.coe_add]
    exact congrArg _ (by ring)
  · simp only [← EReal.coe_mul, ← EReal.coe_sub, ← EReal.coe_add]

end Cert.Algebra

end
-- ==== Proof.MathLayer.lean ====
/-
  One layer, two ways: a normalised neighbourhood sum, a pointwise map, and a column normalisation.

  Fix a column.  Every node m has a value h m (a real), a factor v m (a nonnegative real), and a set L m of edges that
  end at it; an edge e has a source sA e and a destination dA e, with dA e = m on L m.

    one way   : a m = f ( v m · ((0 + Σ_{e ∈ L m} h (sA e) · v (sA e)) + h m · v m) + b ),
                then a_i · s + t  with  s = g · rsqrt (max (E a² − (E a)²) 0 + ε),  t = be − E a · s;
    other way : r m = f ( ((0 + Σ_{e ∈ L m} h (sA e) · (v (sA e) · v (dA e))) + h m · (v m · v m)) + b ),
                then ((r_i − E r) · rsqrt (E (r − E r)² + ε)) · g + be.

  The two neighbourhood sums agree because a nonnegative real factor distributes over a sum of extended reals
  (conv_two_ways), so a = r; the entries are reals when f keeps reals, and for real entries the two normalisations
  agree (bn_two_ways).  The common value is a real.
-/
import Idealize.ShloMosaic.PureOps.Ideal
import proofs.«155788_j3092376453711_2_alg».proof.Proof.MathConv
import proofs.«155788_j3092376453711_2_alg».proof.Proof.MathBN

noncomputable section

open scoped BigOperators

namespace Cert.Algebra

open Idealize.ShloMosaic

/-- A nonnegative real is a real. -/
theorem IsReal.of_nonneg_real {x : EReal} (h : ∃ r : ℝ, 0 ≤ r ∧ x = ((r : ℝ) : EReal)) : IsReal x :=
  let ⟨r, _, hr⟩ := h; ⟨r, hr⟩

/-- The maximum with zero keeps reals, and so does the identity. -/
theorem isReal_max_zero (y : EReal) (hy : IsReal y) : IsReal (max y 0) := hy.max isReal_zero

theorem layer_two_ways {ι : Type*} {n : ℕ} (L : Fin n → Finset ι) (sA dA : ι → Fin n) (hdA : ∀ m, ∀ e ∈ L m, dA e = m)
    (v : Fin n → EReal) (hv : ∀ u, ∃ r : ℝ, 0 ≤ r ∧ v u = ((r : ℝ) : EReal)) (h : Fin n → EReal) (hh : ∀ u, IsReal (h u))
    (f : EReal → EReal) (hf : ∀ y, IsReal y → IsReal (f y)) (b g be : EReal) (hb : IsReal b) (hg : IsReal g) (hbe : IsReal be)
    (N : ℝ) (hN : 0 < N) (hn : (n : ℝ) = N) (e : ℝ) (he : 0 < e)
    (a r : Fin n → EReal)
    (ha : ∀ m, a m = f (v m * ((0 + ∑ e ∈ L m, h (sA e) * v (sA e)) + h m * v m) + b))
    (hr : ∀ m, r m = f (((0 + ∑ e ∈ L m, h (sA e) * (v (sA e) * v (dA e))) + h m * (v m * v m)) + b))
    (i : Fin n) :
    a i * (g * Ideal.rsqrt (max (Ideal.div (∑ j, a j * a j) (N : EReal)
            - Ideal.div (∑ j, a j) (N : EReal) * Ideal.div (∑ j, a j) (N : EReal)) 0 + (e : EReal)))
        + (be - Ideal.div (∑ j, a j) (N : EReal) * (g * Ideal.rsqrt (max (Ideal.div (∑ j, a j * a j) (N : EReal)
            - Ideal.div (∑ j, a j) (N : EReal) * Ideal.div (∑ j, a j) (N : EReal)) 0 + (e : EReal))))
      = ((r i - Ideal.div (∑ j, r j) (N : EReal))
          * Ideal.rsqrt (Ideal.div (∑ j, (r j - Ideal.div (∑ k, r k) (N : EReal)) * (r j - Ideal.div (∑ k, r k) (N : EReal))) (N : EReal)
              + (e : EReal))) * g + be
    ∧ IsReal (((r i - Ideal.div (∑ j, r j) (N : EReal))
          * Ideal.rsqrt (Ideal.div (∑ j, (r j - Ideal.div (∑ k, r k) (N : EReal)) * (r j - Ideal.div (∑ k, r k) (N : EReal))) (N : EReal)
              + (e : EReal))) * g + be) := by
  have har : a = r := funext fun m => by
    rw [ha, hr, conv_two_ways (L m) sA dA m (hdA m) v (hv m) h]
  subst har
  have hvr : ∀ u, IsReal (v u) := fun u => IsReal.of_nonneg_real (hv u)
  have hreal : ∀ m, IsReal (a m) := fun m => by
    rw [hr]
    refine hf _ (((isReal_zero.add (IsReal.sum _ _ fun e _ => (hh _).mul ((hvr _).mul (hvr _)))).add
      ((hh m).mul ((hvr m).mul (hvr m)))).add hb)
  exact bn_two_ways a hreal N hN hn e he g be hg hbe i

end Cert.Algebra

end
-- ==== Proof.TailBridge.lean ====
/-
  The two programs' read-out tails are one function.

  The reference ends with: the mean of the node rows of each graph, plus a dense layer of the graphs' own features
  (a product plus a bias row), then a second dense layer of that sum, then one over one plus the exponential of the
  negation.  The pipelined program's closed form ends with the logistic function of a dense layer of the same sum.
  Entry by entry both are

      logistic ( Σ_k ( pool (p, k) + ( Σ_j a3 (p, j) · a16 (j, k) + a17 k ) ) · a18 (k, q)  +  a19 q ),

  since one over one plus the exponential of the negation is the logistic function by definition, the float pattern
  of 1.0 denotes 1, and a vector recast as a one-row array reads the vector's entry in its column.
-/
import proofs.«155788_j3092376453711_2_alg».proof.Proof.RefRunFns
import proofs.«155788_j3092376453711_2_alg».proof.Proof.KerValueOut
import proofs.«155788_j3092376453711_2_alg».proof.Proof.Fns
import proofs.«155788_j3092376453711_2_alg».proof.Proof.Consts
import proofs.«155788_j3092376453711_2_alg».proof.Proof.LibHostDense
import proofs.«155788_j3092376453711_2_alg».proof.Proof.LibDotIx2
import proofs.«155788_j3092376453711_2_alg».proof.Proof.LibBroadcastInDim
import Idealize.ShloMosaic.Lib.ValueLayout

noncomputable section

open scoped BigOperators

namespace Cert.Bridge

open Idealize.ShloMosaic Idealize.ShloMosaic.ValueIdx

/-! ## The reference's two products are plain products -/

/-- The product of the graphs' features with their weights: 64 x 1280 by 1280 x 256. -/
theorem plainDot_feat : PlainDot Cert.ReferenceIdeal.dot_S64x1280_S1280x256_S64x256_1_0_0_1_n_n where
  rank := rfl
  size := rfl
  l0 := fun j q => by
    simp [DotDims.lhsIdx, Cert.ReferenceIdeal.dot_S64x1280_S1280x256_S64x256_1_0_0_1_n_n]; rfl
  l1 := fun j q => (Cert.ReferenceIdeal.dot_S64x1280_S1280x256_S64x256_1_0_0_1_n_n).lhsIdx_val_of_single (cl := 1) rfl j q
  r0 := fun j q => (Cert.ReferenceIdeal.dot_S64x1280_S1280x256_S64x256_1_0_0_1_n_n).rhsIdx_val_of_single (cr := 0) rfl j q
  r1 := fun j q => by
    simp [DotDims.rhsIdx, Cert.ReferenceIdeal.dot_S64x1280_S1280x256_S64x256_1_0_0_1_n_n]; rfl

/-- The read-out product: 64 x 256 by 256 x 2752. -/
theorem plainDot_read : PlainDot Cert.ReferenceIdeal.dot_S64x256_S256x2752_S64x2752_1_0_0_1_n_n where
  rank := rfl
  size := rfl
  l0 := fun j q => by
    simp [DotDims.lhsIdx, Cert.ReferenceIdeal.dot_S64x256_S256x2752_S64x2752_1_0_0_1_n_n]; rfl
  l1 := fun j q => (Cert.ReferenceIdeal.dot_S64x256_S256x2752_S64x2752_1_0_0_1_n_n).lhsIdx_val_of_single (cl := 1) rfl j q
  r0 := fun j q => (Cert.ReferenceIdeal.dot_S64x256_S256x2752_S64x2752_1_0_0_1_n_n).rhsIdx_val_of_single (cr := 0) rfl j q
  r1 := fun j q => by
    simp [DotDims.rhsIdx, Cert.ReferenceIdeal.dot_S64x256_S256x2752_S64x2752_1_0_0_1_n_n]; rfl

/-! ## The pointwise host operations at an index -/

theorem divf_at {s : Shape} (x y : FVec Ideal s .f32) (i : s.Idx) :
    (Host.divf (F := Ideal) x y i : EReal) = Ideal.div (x i : EReal) (y i : EReal) := rfl

theorem exp_at {s : Shape} (x : FVec Ideal s .f32) (i : s.Idx) :
    (Host.exp (F := Ideal) x i : EReal) = Ideal.exp (x i : EReal) := rfl

theorem negf_at {s : Shape} (x : FVec Ideal s .f32) (i : s.Idx) :
    (Host.negf (F := Ideal) x i : EReal) = -(x i : EReal) := rfl

theorem addf_at {s : Shape} (x y : FVec Ideal s .f32) (i : s.Idx) :
    (addf x y i : EReal) = (x i : EReal) + (y i : EReal) := rfl

/-- The scalar 1.0 broadcast over any shape is 1 at every index. -/
theorem one_at {t : Shape} (hb : (⟨0, ![]⟩ : Shape).BroadcastsInDim t ![]) (i : t.Idx) :
    (broadcastInDim t ![] hb (constant (F := Ideal) (⟨0, ![]⟩ : Shape) .f32 0x3F800000#32) i : EReal) = 1 := by
  rw [broadcastInDim_scalar_apply]
  exact Cert.Consts.ofBits_one

/-- A vector of 256 entries recast as one row reads, at (0, k), the vector at k. -/
theorem row_ix2 (b : FVec Ideal Cert.KernelIdeal.S256 .f32) (u : Fin 1) (k : Fin 256) :
    (Cert.KernelIdeal.HandValue.row b (ix2 u k) : EReal) = b (ix1 k) :=
  shapeCast_a_1a_apply b _ u k

/-- A vector of 2752 entries recast as one row reads, at (0, q), the vector at q. -/
theorem row2752_ix2 (b : FVec Ideal Cert.KernelIdeal.S2752 .f32) (u : Fin 1) (q : Fin 2752) :
    (Cert.KernelIdeal.HandValue.row2752 b (ix2 u q) : EReal) = b (ix1 q) :=
  shapeCast_a_1a_apply b _ u q

/-- The two programs pool the node rows by the same operations. -/
theorem pool_eq (h : FVec Ideal Cert.KernelIdeal.S50000x256 .f32) (a2 : IVec Cert.KernelIdeal.S50000 32) :
    Cert.ReferenceIdeal.HandRun.pool h a2 = Cert.KernelIdeal.HandValue.pool h a2 := rfl

/-! ## The reference's tail at a row and a column -/

/-- The reference's two dense layers at (p, q). -/
theorem logits_ix2 (h : FVec Ideal Cert.KernelIdeal.S50000x256 .f32) (a2 : IVec Cert.KernelIdeal.S50000 32)
    (a3 : FVec Ideal Cert.KernelIdeal.S64x1280 .f32) (a16 : FVec Ideal Cert.KernelIdeal.S1280x256 .f32)
    (a17 : FVec Ideal Cert.KernelIdeal.S256 .f32) (a18 : FVec Ideal Cert.KernelIdeal.S256x2752 .f32)
    (a19 : FVec Ideal Cert.KernelIdeal.S2752 .f32) (p : Fin 64) (q : Fin 2752) :
    (Cert.ReferenceIdeal.HandRun.logits h a2 a3 a16 a17 a18 a19 (ix2 p q) : EReal)
      = (∑ k : Fin 256, ((Cert.ReferenceIdeal.HandRun.pool h a2 (ix2 p k) : EReal)
            + ((∑ j : Fin 1280, (a3 (ix2 p j) : EReal) * (a16 (ix2 j k) : EReal)) + (a17 (ix1 k) : EReal)))
          * (a18 (ix2 k q) : EReal)) + (a19 (ix1 q) : EReal) := by
  unfold Cert.ReferenceIdeal.HandRun.logits
  rw [hostAffine_ix2 plainDot_read]
  refine congrArg (· + (a19 (ix1 q) : EReal)) (Finset.sum_congr rfl fun k _ => ?_)
  rw [addf_at, hostAffine_ix2 plainDot_feat]

/-- One over one plus the exponential of the negation is the logistic function. -/
theorem tail_ix2 (h : FVec Ideal Cert.KernelIdeal.S50000x256 .f32) (a2 : IVec Cert.KernelIdeal.S50000 32)
    (a3 : FVec Ideal Cert.KernelIdeal.S64x1280 .f32) (a16 : FVec Ideal Cert.KernelIdeal.S1280x256 .f32)
    (a17 : FVec Ideal Cert.KernelIdeal.S256 .f32) (a18 : FVec Ideal Cert.KernelIdeal.S256x2752 .f32)
    (a19 : FVec Ideal Cert.KernelIdeal.S2752 .f32) (p : Fin 64) (q : Fin 2752) :
    (Cert.ReferenceIdeal.HandRun.tail h a2 a3 a16 a17 a18 a19 (ix2 p q) : EReal)
      = Ideal.logistic (Cert.ReferenceIdeal.HandRun.logits h a2 a3 a16 a17 a18 a19 (ix2 p q) : EReal) := by
  unfold Cert.ReferenceIdeal.HandRun.tail
  rw [divf_at, addf_at, exp_at, negf_at, one_at]
  rfl

/-! ## The two tails agree -/

theorem tail_eq (h : FVec Ideal Cert.KernelIdeal.S50000x256 .f32) (a2 : IVec Cert.KernelIdeal.S50000 32)
    (a3 : FVec Ideal Cert.KernelIdeal.S64x1280 .f32) (a16 : FVec Ideal Cert.KernelIdeal.S1280x256 .f32)
    (a17 : FVec Ideal Cert.KernelIdeal.S256 .f32) (a18 : FVec Ideal Cert.KernelIdeal.S256x2752 .f32)
    (a19 : FVec Ideal Cert.KernelIdeal.S2752 .f32) :
    Cert.ReferenceIdeal.HandRun.tail h a2 a3 a16 a17 a18 a19
      = Cert.Fns.linLogistic 64 256 2752
          (addf (Cert.KernelIdeal.HandValue.pool h a2) (Cert.Fns.lin 64 1280 256 a3 a16 (Cert.KernelIdeal.HandValue.row a17)))
          a18 (Cert.KernelIdeal.HandValue.row2752 a19) := by
  funext i
  obtain ⟨p, q, rfl⟩ : ∃ (p : Fin 64) (q : Fin 2752), i = ix2 p q := ⟨i 0, i 1, eq_ix2 i⟩
  rw [Cert.Fns.linLogistic_ix2, tail_ix2, logits_ix2, row2752_ix2]
  refine congrArg Ideal.logistic (congrArg (· + (a19 (ix1 q) : EReal)) (Finset.sum_congr rfl fun k _ => ?_))
  rw [addf_at, Cert.Fns.lin_ix2, row_ix2, pool_eq]

end Cert.Bridge

end
-- ==== Proof.Bridge.lean ====
/-
  The two programs compute one function.

  Both are three layers followed by a pooled read-out.  A layer takes node features x (reals), multiplies by a
  weight matrix w (reals), sums over the graph's edges with the symmetric normalisation, adds a bias, applies a
  pointwise map (the maximum with zero in the first two layers, nothing in the third) and normalises every column
  by its mean and variance.

  One program forms the neighbourhood sum by scaling the rows of x w by the nodes' factors first, summing, and scaling
  the result's rows; the other weights every edge by the product of the factors at its two ends.  One normalises from
  the per-tile sums of the activations and of their squares (E a² − (E a)², floored at zero); the other from the mean
  and the mean squared deviation.  Column by column and node by node the two are the same number (layer_two_ways): the
  factors are nonnegative reals, and every activation is a real because the inputs are.

  The read-out tails are one function of the layers' result (tail_eq).
-/
import proofs.«155788_j3092376453711_2_alg».proof.Proof.KerValueOut
import proofs.«155788_j3092376453711_2_alg».proof.Proof.RefRunFns
import proofs.«155788_j3092376453711_2_alg».proof.Proof.KerRead
import proofs.«155788_j3092376453711_2_alg».proof.Proof.RefReadDefs
import proofs.«155788_j3092376453711_2_alg».proof.Proof.RefRead
import proofs.«155788_j3092376453711_2_alg».proof.Proof.RefReadBN
import proofs.«155788_j3092376453711_2_alg».proof.Proof.RefReadConv
import proofs.«155788_j3092376453711_2_alg».proof.Proof.MathLayer
import proofs.«155788_j3092376453711_2_alg».proof.Proof.MathSums
import proofs.«155788_j3092376453711_2_alg».proof.Proof.Consts
import proofs.«155788_j3092376453711_2_alg».proof.Proof.TailBridge

noncomputable section

open scoped BigOperators

namespace Cert.Bridge

open Idealize.ShloMosaic Idealize.ShloMosaic.ValueIdx Cert.Algebra
open Cert.KernelIdeal

/-! ## The twin definitions of the two programs are the same functions -/

theorem src_eq (a1 : IVec S2x800000 32) : Cert.ReferenceIdeal.HandRun.src a1 = HandValue.src a1 := rfl
theorem dst_eq (a1 : IVec S2x800000 32) : Cert.ReferenceIdeal.HandRun.dst a1 = HandValue.dst a1 := rfl
theorem dinv_eq (d : IVec S800000 32) : Cert.ReferenceIdeal.HandRun.dinv d = HandValue.dinv d := rfl
theorem landing_eq (d : IVec S800000 32) (n : Fin 50000) : Cert.ReferenceIdeal.HandRun.landing d n = HandValue.landing d n := rfl
theorem rowAt_eq (s : IVec S800000 32) (e : Fin 800000) : Cert.ReferenceIdeal.HandRun.rowAt s e = HandValue.srcAt s e := rfl

/-- A node's factor is a nonnegative real. -/
theorem dinv_nonneg_real (d : IVec S800000 32) (u : Fin 50000) :
    ∃ r : ℝ, 0 ≤ r ∧ (HandValue.dinv d (ix1 u) : EReal) = ((r : ℝ) : EReal) := by
  rw [HandValue.dinv_apply]
  exact rsqrt_count_nonneg_real _

/-- An edge that ends at node m has m as the row its destination word reads. -/
theorem dstRow_of_landing (d : IVec S800000 32) (m : Fin 50000) (e : Fin 800000) (he : e ∈ HandValue.landing d m) :
    HandValue.srcAt d e = m := by
  rw [← rowAt_eq]
  exact Cert.ReferenceIdeal.HandRun.rowAt_of_landing d m e (by rw [landing_eq]; exact he)

/-! ## One layer -/

/-- ONE LAYER OF THE TWO PROGRAMS IS ONE FUNCTION, and its entries are reals: f is the layer's pointwise map, rf the
    reference's spelling of it on whole arrays, hK the reference's product x w. -/
theorem layer_eq (f : EReal → EReal) (hf : ∀ y, IsReal y → IsReal (f y))
    (rf : FVec Ideal S50000x256 .f32 → FVec Ideal S50000x256 .f32)
    (hrf : ∀ (h : FVec Ideal S50000x256 .f32) (n : Fin 50000) (c : Fin 256), (rf h (ix2 n c) : EReal) = f (h (ix2 n c) : EReal))
    (K : ℕ) (x : Fns.Arr2 50000 K) (w : Fns.Arr2 K 256) (hx : ∀ i, IsReal (x i)) (hw : ∀ i, IsReal (w i))
    (hK : FVec Ideal S50000x256 .f32)
    (hdot : ∀ (n : Fin 50000) (c : Fin 256), (hK (ix2 n c) : EReal) = ∑ k : Fin K, x (ix2 n k) * w (ix2 k c))
    (a1 : IVec S2x800000 32) (b g be : FVec Ideal S256 .f32)
    (hb : ∀ i, IsReal (b i : EReal)) (hg : ∀ i, IsReal (g i : EReal)) (hbe : ∀ i, IsReal (be i : EReal)) :
    HandValue.layer f K x w (HandValue.src a1) (HandValue.dst a1) (HandValue.dinv (HandValue.dst a1)) b g be
        = Cert.ReferenceIdeal.HandRun.bn (rf (Cert.ReferenceIdeal.HandRun.conv hK (Cert.ReferenceIdeal.HandRun.src a1)
            (Cert.ReferenceIdeal.HandRun.dst a1) b)) g be
      ∧ ∀ i, IsReal (HandValue.layer f K x w (HandValue.src a1) (HandValue.dst a1) (HandValue.dinv (HandValue.dst a1)) b g be i : EReal) := by
  have key : ∀ (n : Fin 50000) (c : Fin 256),
      (HandValue.layer f K x w (HandValue.src a1) (HandValue.dst a1) (HandValue.dinv (HandValue.dst a1)) b g be (ix2 n c) : EReal)
        = (Cert.ReferenceIdeal.HandRun.bn (rf (Cert.ReferenceIdeal.HandRun.conv hK (Cert.ReferenceIdeal.HandRun.src a1)
            (Cert.ReferenceIdeal.HandRun.dst a1) b)) g be (ix2 n c) : EReal)
      ∧ IsReal (Cert.ReferenceIdeal.HandRun.bn (rf (Cert.ReferenceIdeal.HandRun.conv hK (Cert.ReferenceIdeal.HandRun.src a1)
            (Cert.ReferenceIdeal.HandRun.dst a1) b)) g be (ix2 n c) : EReal) := by
    intro n c
    rw [HandValue.layer_apply, Cert.ReferenceIdeal.HandRun.bn_apply, Cert.ReferenceIdeal.HandRun.colVar_apply,
      Cert.ReferenceIdeal.HandRun.colMean_apply]
    refine layer_two_ways (fun m => HandValue.landing (HandValue.dst a1) m) (HandValue.srcAt (HandValue.src a1))
      (HandValue.srcAt (HandValue.dst a1)) (fun m e he => dstRow_of_landing (HandValue.dst a1) m e he)
      (fun u => (HandValue.dinv (HandValue.dst a1) (ix1 u) : EReal)) (fun u => dinv_nonneg_real (HandValue.dst a1) u)
      (fun u => ∑ k : Fin K, x (ix2 u k) * w (ix2 k c)) (fun u => IsReal.sum _ _ fun k _ => (hx _).mul (hw _))
      f hf (b (ix1 c)) (g (ix1 c)) (be (ix1 c)) (hb _) (hg _) (hbe _) 50000 (by norm_num) (by norm_num)
      Cert.Consts.eps Cert.Consts.eps_pos
      (HandValue.preAct f K x w (HandValue.src a1) (HandValue.dst a1) (HandValue.dinv (HandValue.dst a1)) b c)
      (fun j => rf (Cert.ReferenceIdeal.HandRun.conv hK (Cert.ReferenceIdeal.HandRun.src a1) (Cert.ReferenceIdeal.HandRun.dst a1) b) (ix2 j c))
      (fun m => by rw [HandValue.preAct_apply, HandValue.layerAgg_apply]) (fun m => ?_) n
    rw [hrf, Cert.ReferenceIdeal.HandRun.conv_apply]
    simp only [hdot, src_eq, dst_eq, dinv_eq, landing_eq, rowAt_eq]
  refine ⟨funext fun i => ?_, fun i => ?_⟩
  · obtain ⟨n, c, rfl⟩ : ∃ (n : Fin 50000) (c : Fin 256), i = ix2 n c := ⟨i 0, i 1, eq_ix2 i⟩
    exact (key n c).1
  · obtain ⟨n, c, rfl⟩ : ∃ (n : Fin 50000) (c : Fin 256), i = ix2 n c := ⟨i 0, i 1, eq_ix2 i⟩
    rw [(key n c).1]
    exact (key n c).2

/-! ## The whole programs -/

theorem relu_real (y : EReal) (hy : IsReal y) : IsReal (Fns.relu y) := isReal_max_zero y hy

/-- THE TWO PROGRAMS' RESULTS ARE ONE FUNCTION of the twenty argument arrays, when the layers' float inputs are reals. -/
theorem out_eq (a0 : FVec Ideal S50000x1280 .f32) (a1 : IVec S2x800000 32) (a2 : IVec S50000 32) (a3 : FVec Ideal S64x1280 .f32)
    (a4 : FVec Ideal S1280x256 .f32) (a5 : FVec Ideal S256 .f32) (a6 : FVec Ideal S256x256 .f32) (a7 : FVec Ideal S256 .f32)
    (a8 : FVec Ideal S256x256 .f32) (a9 a10 a11 a12 a13 a14 a15 : FVec Ideal S256 .f32) (a16 : FVec Ideal S1280x256 .f32)
    (a17 : FVec Ideal S256 .f32) (a18 : FVec Ideal S256x2752 .f32) (a19 : FVec Ideal S2752 .f32)
    (h0 : ∀ i, IsReal (a0 i : EReal)) (h4 : ∀ i, IsReal (a4 i : EReal)) (h5 : ∀ i, IsReal (a5 i : EReal))
    (h6 : ∀ i, IsReal (a6 i : EReal)) (h7 : ∀ i, IsReal (a7 i : EReal)) (h8 : ∀ i, IsReal (a8 i : EReal))
    (h9 : ∀ i, IsReal (a9 i : EReal)) (h10 : ∀ i, IsReal (a10 i : EReal)) (h11 : ∀ i, IsReal (a11 i : EReal))
    (h12 : ∀ i, IsReal (a12 i : EReal)) (h13 : ∀ i, IsReal (a13 i : EReal)) (h14 : ∀ i, IsReal (a14 i : EReal))
    (h15 : ∀ i, IsReal (a15 i : EReal)) :
    Cert.ReferenceIdeal.HandRun.out a0 a1 a2 a3 a4 a5 a6 a7 a8 a9 a10 a11 a12 a13 a14 a15 a16 a17 a18 a19
      = HandValue.out a0 a1 a2 a3 a4 a5 a6 a7 a8 a9 a10 a11 a12 a13 a14 a15 a16 a17 a18 a19 := by
  obtain ⟨e1, r1⟩ := layer_eq Fns.relu relu_real Cert.ReferenceIdeal.HandRun.relu
    (fun h n c => Cert.ReferenceIdeal.HandRun.relu_apply h n c) 1280 a0 a4 h0 h4
    (Cert.ReferenceIdeal.HandRun.dot1280 a0 a4) (fun n c => Cert.ReferenceIdeal.HandRun.dot1280_apply a0 a4 n c) a1 a5 a10 a11 h5 h10 h11
  obtain ⟨e2, r2⟩ := layer_eq Fns.relu relu_real Cert.ReferenceIdeal.HandRun.relu
    (fun h n c => Cert.ReferenceIdeal.HandRun.relu_apply h n c) 256
    (HandValue.layer Fns.relu 1280 a0 a4 (HandValue.src a1) (HandValue.dst a1) (HandValue.dinv (HandValue.dst a1)) a5 a10 a11) a6 r1 h6
    (Cert.ReferenceIdeal.HandRun.dot256 _ a6) (fun n c => Cert.ReferenceIdeal.HandRun.dot256_apply _ a6 n c) a1 a7 a12 a13 h7 h12 h13
  obtain ⟨e3, _⟩ := layer_eq id (fun y hy => hy) (fun h => h) (fun _ _ _ => rfl) 256
    (HandValue.layer Fns.relu 256
      (HandValue.layer Fns.relu 1280 a0 a4 (HandValue.src a1) (HandValue.dst a1) (HandValue.dinv (HandValue.dst a1)) a5 a10 a11)
      a6 (HandValue.src a1) (HandValue.dst a1) (HandValue.dinv (HandValue.dst a1)) a7 a12 a13) a8 r2 h8
    (Cert.ReferenceIdeal.HandRun.dot256 _ a8) (fun n c => Cert.ReferenceIdeal.HandRun.dot256_apply _ a8 n c) a1 a9 a14 a15 h9 h14 h15
  unfold Cert.ReferenceIdeal.HandRun.out
  rw [← e1, ← e2, ← e3, tail_eq]
  rfl

end Cert.Bridge

end
-- ==== Proof.lean ====
/-
  The certificate of a three-layer graph-convolution network with a pooled read-out: a pipelined program of eleven
  regions among host operations, against a plain host program.

  Both programs run.  The pipelined programs' frames are the generated ones; the plain program's run is read back
  operation by operation (HandRun.run), and its frame is that run with the result forgotten.  No operation was
  rewritten for the idealised reading, so there is nothing to preserve.

  At the extended reals the pipelined program's result buffer holds HandValue.out of its twenty argument arrays: the
  run's post names the result buffer (run_value), and the buffer's contents are read back through the twenty-two
  segments of the run, each region's final array being one whole-array function of the region's input arrays
  (result_eq over the eleven region values).  The plain program's result holds HandRun.out of its arguments.  The two
  are one function when the float inputs of the three layers are reals (Bridge.out_eq): one program scales the rows of
  the feature product by the nodes' factors before and after the sum over the edges, the other weights every edge by
  the product of the factors at its ends, and a nonnegative real factor distributes over a sum of extended reals; one
  normalises a column from the means of the activations and of their squares, the other from the mean and the mean
  squared deviation, which agree for real entries.  The precondition says that every float input is finite, that is,
  a real (Finite.real_args).
-/
import proofs.«155788_j3092376453711_2_alg».proof.Defs
import proofs.«155788_j3092376453711_2_alg».proof.Proof.Gen.Kernel
import proofs.«155788_j3092376453711_2_alg».proof.Proof.Gen.Kernel.Skeleton
import proofs.«155788_j3092376453711_2_alg».proof.Proof.Gen.Kernel.Launch
import proofs.«155788_j3092376453711_2_alg».proof.Proof.Gen.Kernel.Points
import proofs.«155788_j3092376453711_2_alg».proof.Proof.Gen.Kernel.Frame
import proofs.«155788_j3092376453711_2_alg».proof.Proof.Gen.KernelIdeal
import proofs.«155788_j3092376453711_2_alg».proof.Proof.Gen.KernelIdeal.Skeleton
import proofs.«155788_j3092376453711_2_alg».proof.Proof.Gen.KernelIdeal.Launch
import proofs.«155788_j3092376453711_2_alg».proof.Proof.Gen.KernelIdeal.Points
import proofs.«155788_j3092376453711_2_alg».proof.Proof.Gen.KernelIdeal.Frame
import proofs.«155788_j3092376453711_2_alg».proof.Proof.Gen.ReferenceIdeal
import proofs.«155788_j3092376453711_2_alg».proof.Proof.Gen.Pre_finite_inputs
import proofs.«155788_j3092376453711_2_alg».proof.Proof.RefRun
import proofs.«155788_j3092376453711_2_alg».proof.Proof.KerValueRun
import proofs.«155788_j3092376453711_2_alg».proof.Proof.KerValueWalk4
import proofs.«155788_j3092376453711_2_alg».proof.Proof.Region0
import proofs.«155788_j3092376453711_2_alg».proof.Proof.Region1
import proofs.«155788_j3092376453711_2_alg».proof.Proof.Region2
import proofs.«155788_j3092376453711_2_alg».proof.Proof.Region3
import proofs.«155788_j3092376453711_2_alg».proof.Proof.Region4
import proofs.«155788_j3092376453711_2_alg».proof.Proof.Region5
import proofs.«155788_j3092376453711_2_alg».proof.Proof.Region6
import proofs.«155788_j3092376453711_2_alg».proof.Proof.Region7
import proofs.«155788_j3092376453711_2_alg».proof.Proof.Region8
import proofs.«155788_j3092376453711_2_alg».proof.Proof.Region9
import proofs.«155788_j3092376453711_2_alg».proof.Proof.Region10
import proofs.«155788_j3092376453711_2_alg».proof.Proof.Finite
import proofs.«155788_j3092376453711_2_alg».proof.Proof.Bridge
import Idealize.ShloMosaic.Adequacy
import Idealize.ShloMosaic.Init

noncomputable section

namespace Cert.Proof

open Idealize.ShloMosaic Idealize.SL.Sem

/-- The word-level pipelined program runs and leaves its arguments as they were. -/
theorem frame_p : Cert.frame_Kernel := fun m ρ _ => Cert.Kernel.Gen.frame m ρ

/-- So does its reading at the extended reals. -/
theorem frame_pi : Cert.frame_KernelIdeal := fun m ρ _ => Cert.KernelIdeal.Gen.frame m ρ

/-- The plain program runs and leaves its arguments as they were: its run with the result forgotten. -/
theorem frame_ri : Cert.frame_ReferenceIdeal := fun m ρ _ =>
  (θ_run Cert.ReferenceIdeal.defs _ _).mono (fun _ h c => (h c).2) (Cert.ReferenceIdeal.HandRun.run m ρ)

/-- No operation was rewritten. -/
theorem preserves : Cert.preserves_Kernel_KernelIdeal := trivial

/-- The eleven regions' final arrays, each as one whole-array function of the region's input arrays. -/
theorem regionValues : Cert.KernelIdeal.HandValue.RegionValues :=
  ⟨Cert.KernelIdeal.RegionValue.value0_3, Cert.KernelIdeal.RegionValue.value1_2, Cert.KernelIdeal.RegionValue.value1_3,
    Cert.KernelIdeal.RegionValue.value2_4, Cert.KernelIdeal.RegionValue.value3_3, Cert.KernelIdeal.RegionValue.value4_2,
    Cert.KernelIdeal.RegionValue.value4_3, Cert.KernelIdeal.RegionValue.value5_4, Cert.KernelIdeal.RegionValue.value6_3,
    Cert.KernelIdeal.RegionValue.value7_2, Cert.KernelIdeal.RegionValue.value7_3, Cert.KernelIdeal.RegionValue.value8_4,
    Cert.KernelIdeal.RegionValue.value9_3, Cert.KernelIdeal.RegionValue.value10_3⟩

/-- From memories that agree on the arguments, of which the float ones are finite, the two programs end with equal
    results. -/
theorem algebraic : Cert.algebraic_KernelIdeal_ReferenceIdeal := by
  intro m ρ m' ρ' hpre hagree
  refine ⟨fun c => Cert.KernelIdeal.HandValue.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Cert.KernelIdeal.HandValue.result_eq m ρ c regionValues), (h c).2⟩)
      (Cert.KernelIdeal.HandValue.run_value m ρ)
  · refine (θ_run Cert.ReferenceIdeal.defs _ _).mono (fun r h c => ⟨(h c).1.trans ?_, (h c).2⟩)
      (Cert.ReferenceIdeal.HandRun.run m' ρ')
    obtain ⟨g0, g1, g2, g3, g4, g5, g6, g7, g8, g9, g10, g11, g12, g13, g14, g15, g16, g17, g18, g19⟩ := hagree c
    rw [g0, g1, g2, g3, g4, g5, g6, g7, g8, g9, g10, g11, g12, g13, g14, g15, g16, g17, g18, g19]
    obtain ⟨h0, h4, h5, h6, h7, h8, h9, h10, h11, h12, h13, h14, h15⟩ := Cert.Finite.real_args m hpre c
    exact Cert.Bridge.out_eq _ _ _ _ _ _ _ _ _ _ _ _ _ _ _ _ _ _ _ _ h0 h4 h5 h6 h7 h8 h9 h10 h11 h12 h13 h14 h15

/-- The certificate. -/
theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
